-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S100000x64 : Shape := ⟨2, ![100000, 64]⟩
abbrev S100x64 : Shape := ⟨2, ![100, 64]⟩
abbrev S500000x64 : Shape := ⟨2, ![500000, 64]⟩
abbrev S1000x64 : Shape := ⟨2, ![1000, 64]⟩
abbrev S256x2048 : Shape := ⟨2, ![256, 2048]⟩
abbrev S2048 : Shape := ⟨1, ![2048]⟩
abbrev S256x256 : Shape := ⟨2, ![256, 256]⟩
abbrev S256 : Shape := ⟨1, ![256]⟩
abbrev S256x3 : Shape := ⟨2, ![256, 3]⟩
abbrev S3 : Shape := ⟨1, ![3]⟩
abbrev S256x16 : Shape := ⟨2, ![256, 16]⟩
abbrev S16x2048 : Shape := ⟨2, ![16, 2048]⟩
abbrev S2048x2048 : Shape := ⟨2, ![2048, 2048]⟩
abbrev S2048x256 : Shape := ⟨2, ![2048, 256]⟩
abbrev S2048x16 : Shape := ⟨2, ![2048, 16]⟩
abbrev S2048x1024 : Shape := ⟨2, ![2048, 1024]⟩
abbrev S1024 : Shape := ⟨1, ![1024]⟩
abbrev S16x1024 : Shape := ⟨2, ![16, 1024]⟩
abbrev S1024x1 : Shape := ⟨2, ![1024, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100x64 : S_.BroadcastsInDim S100x64 (![] : Fin 0 → Fin S100x64.rank)
  reducesTo_S100x64_S_d0_1 : S100x64.ReducesTo [0, 1] S_
  bcast_S_S500000x64 : S_.BroadcastsInDim S500000x64 (![] : Fin 0 → Fin S500000x64.rank)
  reducesTo_S500000x64_S_d0_1 : S500000x64.ReducesTo [0, 1] S_
  bcast_S_S1000x64 : S_.BroadcastsInDim S1000x64 (![] : Fin 0 → Fin S1000x64.rank)
  reducesTo_S1000x64_S_d0_1 : S1000x64.ReducesTo [0, 1] S_
  bcast_S_S256x2048 : S_.BroadcastsInDim S256x2048 (![] : Fin 0 → Fin S256x2048.rank)
  reducesTo_S256x2048_S_d0_1 : S256x2048.ReducesTo [0, 1] S_
  bcast_S_S2048 : S_.BroadcastsInDim S2048 (![] : Fin 0 → Fin S2048.rank)
  reducesTo_S2048_S_d0 : S2048.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_
  bcast_S_S256x16 : S_.BroadcastsInDim S256x16 (![] : Fin 0 → Fin S256x16.rank)
  reducesTo_S256x16_S_d0_1 : S256x16.ReducesTo [0, 1] S_
  bcast_S_S16x2048 : S_.BroadcastsInDim S16x2048 (![] : Fin 0 → Fin S16x2048.rank)
  reducesTo_S16x2048_S_d0_1 : S16x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x256 : S_.BroadcastsInDim S2048x256 (![] : Fin 0 → Fin S2048x256.rank)
  reducesTo_S2048x256_S_d0_1 : S2048x256.ReducesTo [0, 1] S_
  bcast_S_S2048x16 : S_.BroadcastsInDim S2048x16 (![] : Fin 0 → Fin S2048x16.rank)
  reducesTo_S2048x16_S_d0_1 : S2048x16.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S16x1024 : S_.BroadcastsInDim S16x1024 (![] : Fin 0 → Fin S16x1024.rank)
  reducesTo_S16x1024_S_d0_1 : S16x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part10 {F : FTy → Type} [FloatOps F] (main_arg39 : FVec F S1 .f32) (main_v168 : IVec S_ 1) (main_v169 : FVec F S1024x1 .f32) (main_v170 : FVec F S1024x1 .f32) : IVec S_ 1 :=
  let main_v171 : IVec S1024x1 1 := cmpf .olt main_v169 main_v170
  let main_c_67 : IVec S_ 1 := constantI S_ 1 1#1
  let main_v172 : IVec S_ 1 := (fun x v => Host.reduce IntOp.andi x v reducesTo_S1024x1_S_d0_1 h_S_) main_v171 main_c_67
  let main_v173 : IVec S_ 1 := andi main_v168 main_v172
  let main_v174 : FVec F S1 .f32 := Host.absf main_arg39
  let main_cst_68 : FVec F S_ .f32 := constant S_ .f32 0x7F800000#32
  let main_v175 : FVec F S1 .f32 := broadcastInDim S1 ![] bcast_S_S1 main_cst_68
  let main_v176 : IVec S1 1 := cmpf .olt main_v174 main_v175
  let main_c_69 : IVec S_ 1 := constantI S_ 1 1#1
  let main_v177 : IVec S_ 1 := (fun x v => Host.reduce IntOp.andi x v reducesTo_S1_S_d0 h_S_) main_v176 main_c_69
  let main_v178 : IVec S_ 1 := andi main_v173 main_v177
  main_v178

def fn_part9 {F : FTy → Type} [FloatOps F] (main_arg35 : FVec F S16x1024 .f32) (main_arg36 : FVec F S2048x16 .f32) (main_arg37 : FVec F S16x1024 .f32) (main_arg38 : FVec F S1024x1 .f32) (main_arg39 : FVec F S1 .f32) (main_v153 : IVec S_ 1) : IVec S_ 1 :=
  let main_v154 : FVec F S16x1024 .f32 := Host.absf main_arg35
  let main_cst_60 : FVec F S_ .f32 := constant S_ .f32 0x7F800000#32
  let main_v155 : FVec F S16x1024 .f32 := broadcastInDim S16x1024 ![] bcast_S_S16x1024 main_cst_60
  let main_v156 : IVec S16x1024 1 := cmpf .olt main_v154 main_v155
  let main_c_61 : IVec S_ 1 := constantI S_ 1 1#1
  let main_v157 : IVec S_ 1 := (fun x v => Host.reduce IntOp.andi x v reducesTo_S16x1024_S_d0_1 h_S_) main_v156 main_c_61
  let main_v158 : IVec S_ 1 := andi main_v153 main_v157
  let main_v159 : FVec F S2048x16 .f32 := Host.absf main_arg36
  let main_cst_62 : FVec F S_ .f32 := constant S_ .f32 0x7F800000#32
  let main_v160 : FVec F S2048x16 .f32 := broadcastInDim S2048x16 ![] bcast_S_S2048x16 main_cst_62
  let main_v161 : IVec S2048x16 1 := cmpf .olt main_v159 main_v160
  let main_c_63 : IVec S_ 1 := constantI S_ 1 1#1
  let main_v162 : IVec S_ 1 := (fun x v => Host.reduce IntOp.andi x v reducesTo_S2048x16_S_d0_1 h_S_) main_v161 main_c_63
  let main_v163 : IVec S_ 1 := andi main_v158 main_v162
  let main_v164 : FVec F S16x1024 .f32 := Host.absf main_arg37
  let main_cst_64 : FVec F S_ .f32 := constant S_ .f32 0x7F800000#32
  let main_v165 : FVec F S16x1024 .f32 := broadcastInDim S16x1024 ![] bcast_S_S16x1024 main_cst_64
  let main_v166 : IVec S16x1024 1 := cmpf .olt main_v164 main_v165
  let main_c_65 : IVec S_ 1 := constantI S_ 1 1#1
  let main_v167 : IVec S_ 1 := (fun x v => Host.reduce IntOp.andi x v reducesTo_S16x1024_S_d0_1 h_S_) main_v166 main_c_65
  let main_v168 : IVec S_ 1 := andi main_v163 main_v167
  let main_v169 : FVec F S1024x1 .f32 := Host.absf main_arg38
  let main_cst_66 : FVec F S_ .f32 := constant S_ .f32 0x7F800000#32
  let main_v170 : FVec F S1024x1 .f32 := broadcastInDim S1024x1 ![] bcast_S_S1024x1 main_cst_66
  fn_part10 (F := F) main_arg39 main_v168 main_v169 main_v170

def fn_part8 {F : FTy → Type} [FloatOps F] (main_arg32 : FVec F S256x3 .f32) (main_arg33 : FVec F S3 .f32) (main_arg34 : FVec F S2048x16 .f32) (main_arg35 : FVec F S16x1024 .f32) (main_arg36 : FVec F S2048x16 .f32) (main_arg37 : FVec F S16x1024 .f32) (main_arg38 : FVec F S1024x1 .f32) (main_arg39 : FVec F S1 .f32) (main_v133 : IVec S_ 1) (main_v136 : IVec S256 1) : IVec S_ 1 :=
  let main_c_53 : IVec S_ 1 := constantI S_ 1 1#1
  let main_v137 : IVec S_ 1 := (fun x v => Host.reduce IntOp.andi x v reducesTo_S256_S_d0 h_S_) main_v136 main_c_53
  let main_v138 : IVec S_ 1 := andi main_v133 main_v137
  let main_v139 : FVec F S256x3 .f32 := Host.absf main_arg32
  let main_cst_54 : FVec F S_ .f32 := constant S_ .f32 0x7F800000#32
  let main_v140 : FVec F S256x3 .f32 := broadcastInDim S256x3 ![] bcast_S_S256x3 main_cst_54
  let main_v141 : IVec S256x3 1 := cmpf .olt main_v139 main_v140
  let main_c_55 : IVec S_ 1 := constantI S_ 1 1#1
  let main_v142 : IVec S_ 1 := (fun x v => Host.reduce IntOp.andi x v reducesTo_S256x3_S_d0_1 h_S_) main_v141 main_c_55
  let main_v143 : IVec S_ 1 := andi main_v138 main_v142
  let main_v144 : FVec F S3 .f32 := Host.absf main_arg33
  let main_cst_56 : FVec F S_ .f32 := constant S_ .f32 0x7F800000#32
  let main_v145 : FVec F S3 .f32 := broadcastInDim S3 ![] bcast_S_S3 main_cst_56
  let main_v146 : IVec S3 1 := cmpf .olt main_v144 main_v145
  let main_c_57 : IVec S_ 1 := constantI S_ 1 1#1
  let main_v147 : IVec S_ 1 := (fun x v => Host.reduce IntOp.andi x v reducesTo_S3_S_d0 h_S_) main_v146 main_c_57
  let main_v148 : IVec S_ 1 := andi main_v143 main_v147
  let main_v149 : FVec F S2048x16 .f32 := Host.absf main_arg34
  let main_cst_58 : FVec F S_ .f32 := constant S_ .f32 0x7F800000#32
  let main_v150 : FVec F S2048x16 .f32 := broadcastInDim S2048x16 ![] bcast_S_S2048x16 main_cst_58
  let main_v151 : IVec S2048x16 1 := cmpf .olt main_v149 main_v150
  let main_c_59 : IVec S_ 1 := constantI S_ 1 1#1
  let main_v152 : IVec S_ 1 := (fun x v => Host.reduce IntOp.andi x v reducesTo_S2048x16_S_d0_1 h_S_) main_v151 main_c_59
  let main_v153 : IVec S_ 1 := andi main_v148 main_v152
  fn_part9 (F := F) main_arg35 main_arg36 main_arg37 main_arg38 main_arg39 main_v153

def fn_part7 {F : FTy → Type} [FloatOps F] (main_arg29 : FVec F S1024 .f32) (main_arg30 : FVec F S2048x256 .f32) (main_arg31 : FVec F S256 .f32) (main_arg32 : FVec F S256x3 .f32) (main_arg33 : FVec F S3 .f32) (main_arg34 : FVec F S2048x16 .f32) (main_arg35 : FVec F S16x1024 .f32) (main_arg36 : FVec F S2048x16 .f32) (main_arg37 : FVec F S16x1024 .f32) (main_arg38 : FVec F S1024x1 .f32) (main_arg39 : FVec F S1 .f32) (main_v118 : IVec S_ 1) (main_v119 : FVec F S2048x1024 .f32) : IVec S_ 1 :=
  let main_cst_46 : FVec F S_ .f32 := constant S_ .f32 0x7F800000#32
  let main_v120 : FVec F S2048x1024 .f32 := broadcastInDim S2048x1024 ![] bcast_S_S2048x1024 main_cst_46
  let main_v121 : IVec S2048x1024 1 := cmpf .olt main_v119 main_v120
  let main_c_47 : IVec S_ 1 := constantI S_ 1 1#1
  let main_v122 : IVec S_ 1 := (fun x v => Host.reduce IntOp.andi x v reducesTo_S2048x1024_S_d0_1 h_S_) main_v121 main_c_47
  let main_v123 : IVec S_ 1 := andi main_v118 main_v122
  let main_v124 : FVec F S1024 .f32 := Host.absf main_arg29
  let main_cst_48 : FVec F S_ .f32 := constant S_ .f32 0x7F800000#32
  let main_v125 : FVec F S1024 .f32 := broadcastInDim S1024 ![] bcast_S_S1024 main_cst_48
  let main_v126 : IVec S1024 1 := cmpf .olt main_v124 main_v125
  let main_c_49 : IVec S_ 1 := constantI S_ 1 1#1
  let main_v127 : IVec S_ 1 := (fun x v => Host.reduce IntOp.andi x v reducesTo_S1024_S_d0 h_S_) main_v126 main_c_49
  let main_v128 : IVec S_ 1 := andi main_v123 main_v127
  let main_v129 : FVec F S2048x256 .f32 := Host.absf main_arg30
  let main_cst_50 : FVec F S_ .f32 := constant S_ .f32 0x7F800000#32
  let main_v130 : FVec F S2048x256 .f32 := broadcastInDim S2048x256 ![] bcast_S_S2048x256 main_cst_50
  let main_v131 : IVec S2048x256 1 := cmpf .olt main_v129 main_v130
  let main_c_51 : IVec S_ 1 := constantI S_ 1 1#1
  let main_v132 : IVec S_ 1 := (fun x v => Host.reduce IntOp.andi x v reducesTo_S2048x256_S_d0_1 h_S_) main_v131 main_c_51
  let main_v133 : IVec S_ 1 := andi main_v128 main_v132
  let main_v134 : FVec F S256 .f32 := Host.absf main_arg31
  let main_cst_52 : FVec F S_ .f32 := constant S_ .f32 0x7F800000#32
  let main_v135 : FVec F S256 .f32 := broadcastInDim S256 ![] bcast_S_S256 main_cst_52
  let main_v136 : IVec S256 1 := cmpf .olt main_v134 main_v135
  fn_part8 (F := F) main_arg32 main_arg33 main_arg34 main_arg35 main_arg36 main_arg37 main_arg38 main_arg39 main_v133 main_v136

def fn_part6 {F : FTy → Type} [FloatOps F] (main_arg25 : FVec F S16x2048 .f32) (main_arg26 : FVec F S2048x16 .f32) (main_arg27 : FVec F S16x2048 .f32) (main_arg28 : FVec F S2048x1024 .f32) (main_arg29 : FVec F S1024 .f32) (main_arg30 : FVec F S2048x256 .f32) (main_arg31 : FVec F S256 .f32) (main_arg32 : FVec F S256x3 .f32) (main_arg33 : FVec F S3 .f32) (main_arg34 : FVec F S2048x16 .f32) (main_arg35 : FVec F S16x1024 .f32) (main_arg36 : FVec F S2048x16 .f32) (main_arg37 : FVec F S16x1024 .f32) (main_arg38 : FVec F S1024x1 .f32) (main_arg39 : FVec F S1 .f32) (main_v98 : IVec S_ 1) (main_v101 : IVec S2048x16 1) (main_c_39 : IVec S_ 1) : IVec S_ 1 :=
  let main_v102 : IVec S_ 1 := (fun x v => Host.reduce IntOp.andi x v reducesTo_S2048x16_S_d0_1 h_S_) main_v101 main_c_39
  let main_v103 : IVec S_ 1 := andi main_v98 main_v102
  let main_v104 : FVec F S16x2048 .f32 := Host.absf main_arg25
  let main_cst_40 : FVec F S_ .f32 := constant S_ .f32 0x7F800000#32
  let main_v105 : FVec F S16x2048 .f32 := broadcastInDim S16x2048 ![] bcast_S_S16x2048 main_cst_40
  let main_v106 : IVec S16x2048 1 := cmpf .olt main_v104 main_v105
  let main_c_41 : IVec S_ 1 := constantI S_ 1 1#1
  let main_v107 : IVec S_ 1 := (fun x v => Host.reduce IntOp.andi x v reducesTo_S16x2048_S_d0_1 h_S_) main_v106 main_c_41
  let main_v108 : IVec S_ 1 := andi main_v103 main_v107
  let main_v109 : FVec F S2048x16 .f32 := Host.absf main_arg26
  let main_cst_42 : FVec F S_ .f32 := constant S_ .f32 0x7F800000#32
  let main_v110 : FVec F S2048x16 .f32 := broadcastInDim S2048x16 ![] bcast_S_S2048x16 main_cst_42
  let main_v111 : IVec S2048x16 1 := cmpf .olt main_v109 main_v110
  let main_c_43 : IVec S_ 1 := constantI S_ 1 1#1
  let main_v112 : IVec S_ 1 := (fun x v => Host.reduce IntOp.andi x v reducesTo_S2048x16_S_d0_1 h_S_) main_v111 main_c_43
  let main_v113 : IVec S_ 1 := andi main_v108 main_v112
  let main_v114 : FVec F S16x2048 .f32 := Host.absf main_arg27
  let main_cst_44 : FVec F S_ .f32 := constant S_ .f32 0x7F800000#32
  let main_v115 : FVec F S16x2048 .f32 := broadcastInDim S16x2048 ![] bcast_S_S16x2048 main_cst_44
  let main_v116 : IVec S16x2048 1 := cmpf .olt main_v114 main_v115
  let main_c_45 : IVec S_ 1 := constantI S_ 1 1#1
  let main_v117 : IVec S_ 1 := (fun x v => Host.reduce IntOp.andi x v reducesTo_S16x2048_S_d0_1 h_S_) main_v116 main_c_45
  let main_v118 : IVec S_ 1 := andi main_v113 main_v117
  let main_v119 : FVec F S2048x1024 .f32 := Host.absf main_arg28
  fn_part7 (F := F) main_arg29 main_arg30 main_arg31 main_arg32 main_arg33 main_arg34 main_arg35 main_arg36 main_arg37 main_arg38 main_arg39 main_v118 main_v119

def fn_part5 {F : FTy → Type} [FloatOps F] (main_arg22 : FVec F S256x3 .f32) (main_arg23 : FVec F S3 .f32) (main_arg24 : FVec F S2048x16 .f32) (main_arg25 : FVec F S16x2048 .f32) (main_arg26 : FVec F S2048x16 .f32) (main_arg27 : FVec F S16x2048 .f32) (main_arg28 : FVec F S2048x1024 .f32) (main_arg29 : FVec F S1024 .f32) (main_arg30 : FVec F S2048x256 .f32) (main_arg31 : FVec F S256 .f32) (main_arg32 : FVec F S256x3 .f32) (main_arg33 : FVec F S3 .f32) (main_arg34 : FVec F S2048x16 .f32) (main_arg35 : FVec F S16x1024 .f32) (main_arg36 : FVec F S2048x16 .f32) (main_arg37 : FVec F S16x1024 .f32) (main_arg38 : FVec F S1024x1 .f32) (main_arg39 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x3 .f32 := Host.absf main_arg22
  let main_cst_34 : FVec F S_ .f32 := constant S_ .f32 0x7F800000#32
  let main_v90 : FVec F S256x3 .f32 := broadcastInDim S256x3 ![] bcast_S_S256x3 main_cst_34
  let main_v91 : IVec S256x3 1 := cmpf .olt main_v89 main_v90
  let main_c_35 : IVec S_ 1 := constantI S_ 1 1#1
  let main_v92 : IVec S_ 1 := (fun x v => Host.reduce IntOp.andi x v reducesTo_S256x3_S_d0_1 h_S_) main_v91 main_c_35
  let main_v93 : IVec S_ 1 := andi main_v88 main_v92
  let main_v94 : FVec F S3 .f32 := Host.absf main_arg23
  let main_cst_36 : FVec F S_ .f32 := constant S_ .f32 0x7F800000#32
  let main_v95 : FVec F S3 .f32 := broadcastInDim S3 ![] bcast_S_S3 main_cst_36
  let main_v96 : IVec S3 1 := cmpf .olt main_v94 main_v95
  let main_c_37 : IVec S_ 1 := constantI S_ 1 1#1
  let main_v97 : IVec S_ 1 := (fun x v => Host.reduce IntOp.andi x v reducesTo_S3_S_d0 h_S_) main_v96 main_c_37
  let main_v98 : IVec S_ 1 := andi main_v93 main_v97
  let main_v99 : FVec F S2048x16 .f32 := Host.absf main_arg24
  let main_cst_38 : FVec F S_ .f32 := constant S_ .f32 0x7F800000#32
  let main_v100 : FVec F S2048x16 .f32 := broadcastInDim S2048x16 ![] bcast_S_S2048x16 main_cst_38
  let main_v101 : IVec S2048x16 1 := cmpf .olt main_v99 main_v100
  let main_c_39 : IVec S_ 1 := constantI S_ 1 1#1
  fn_part6 (F := F) main_arg25 main_arg26 main_arg27 main_arg28 main_arg29 main_arg30 main_arg31 main_arg32 main_arg33 main_arg34 main_arg35 main_arg36 main_arg37 main_arg38 main_arg39 main_v98 main_v101 main_c_39

def fn_part4 {F : FTy → Type} [FloatOps F] (main_arg18 : FVec F S2048x2048 .f32) (main_arg19 : FVec F S2048 .f32) (main_arg20 : FVec F S2048x256 .f32) (main_arg21 : FVec F S256 .f32) (main_arg22 : FVec F S256x3 .f32) (main_arg23 : FVec F S3 .f32) (main_arg24 : FVec F S2048x16 .f32) (main_arg25 : FVec F S16x2048 .f32) (main_arg26 : FVec F S2048x16 .f32) (main_arg27 : FVec F S16x2048 .f32) (main_arg28 : FVec F S2048x1024 .f32) (main_arg29 : FVec F S1024 .f32) (main_arg30 : FVec F S2048x256 .f32) (main_arg31 : FVec F S256 .f32) (main_arg32 : FVec F S256x3 .f32) (main_arg33 : FVec F S3 .f32) (main_arg34 : FVec F S2048x16 .f32) (main_arg35 : FVec F S16x1024 .f32) (main_arg36 : FVec F S2048x16 .f32) (main_arg37 : FVec F S16x1024 .f32) (main_arg38 : FVec F S1024x1 .f32) (main_arg39 : FVec F S1 .f32) (main_v63 : IVec S_ 1) (main_v67 : IVec S_ 1) : IVec S_ 1 :=
  let main_v68 : IVec S_ 1 := andi main_v63 main_v67
  let main_v69 : FVec F S2048x2048 .f32 := Host.absf main_arg18
  let main_cst_26 : FVec F S_ .f32 := constant S_ .f32 0x7F800000#32
  let main_v70 : FVec F S2048x2048 .f32 := broadcastInDim S2048x2048 ![] bcast_S_S2048x2048 main_cst_26
  let main_v71 : IVec S2048x2048 1 := cmpf .olt main_v69 main_v70
  let main_c_27 : IVec S_ 1 := constantI S_ 1 1#1
  let main_v72 : IVec S_ 1 := (fun x v => Host.reduce IntOp.andi x v reducesTo_S2048x2048_S_d0_1 h_S_) main_v71 main_c_27
  let main_v73 : IVec S_ 1 := andi main_v68 main_v72
  let main_v74 : FVec F S2048 .f32 := Host.absf main_arg19
  let main_cst_28 : FVec F S_ .f32 := constant S_ .f32 0x7F800000#32
  let main_v75 : FVec F S2048 .f32 := broadcastInDim S2048 ![] bcast_S_S2048 main_cst_28
  let main_v76 : IVec S2048 1 := cmpf .olt main_v74 main_v75
  let main_c_29 : IVec S_ 1 := constantI S_ 1 1#1
  let main_v77 : IVec S_ 1 := (fun x v => Host.reduce IntOp.andi x v reducesTo_S2048_S_d0 h_S_) main_v76 main_c_29
  let main_v78 : IVec S_ 1 := andi main_v73 main_v77
  let main_v79 : FVec F S2048x256 .f32 := Host.absf main_arg20
  let main_cst_30 : FVec F S_ .f32 := constant S_ .f32 0x7F800000#32
  let main_v80 : FVec F S2048x256 .f32 := broadcastInDim S2048x256 ![] bcast_S_S2048x256 main_cst_30
  let main_v81 : IVec S2048x256 1 := cmpf .olt main_v79 main_v80
  let main_c_31 : IVec S_ 1 := constantI S_ 1 1#1
  let main_v82 : IVec S_ 1 := (fun x v => Host.reduce IntOp.andi x v reducesTo_S2048x256_S_d0_1 h_S_) main_v81 main_c_31
  let main_v83 : IVec S_ 1 := andi main_v78 main_v82
  let main_v84 : FVec F S256 .f32 := Host.absf main_arg21
  let main_cst_32 : FVec F S_ .f32 := constant S_ .f32 0x7F800000#32
  fn_part5 (F := F) main_arg22 main_arg23 main_arg24 main_arg25 main_arg26 main_arg27 main_arg28 main_arg29 main_arg30 main_arg31 main_arg32 main_arg33 main_arg34 main_arg35 main_arg36 main_arg37 main_arg38 main_arg39 main_v83 main_v84 main_cst_32

def fn_part3 {F : FTy → Type} [FloatOps F] (main_arg15 : FVec F S16x2048 .f32) (main_arg16 : FVec F S256x16 .f32) (main_arg17 : FVec F S16x2048 .f32) (main_arg18 : FVec F S2048x2048 .f32) (main_arg19 : FVec F S2048 .f32) (main_arg20 : FVec F S2048x256 .f32) (main_arg21 : FVec F S256 .f32) (main_arg22 : FVec F S256x3 .f32) (main_arg23 : FVec F S3 .f32) (main_arg24 : FVec F S2048x16 .f32) (main_arg25 : FVec F S16x2048 .f32) (main_arg26 : FVec F S2048x16 .f32) (main_arg27 : FVec F S16x2048 .f32) (main_arg28 : FVec F S2048x1024 .f32) (main_arg29 : FVec F S1024 .f32) (main_arg30 : FVec F S2048x256 .f32) (main_arg31 : FVec F S256 .f32) (main_arg32 : FVec F S256x3 .f32) (main_arg33 : FVec F S3 .f32) (main_arg34 : FVec F S2048x16 .f32) (main_arg35 : FVec F S16x1024 .f32) (main_arg36 : FVec F S2048x16 .f32) (main_arg37 : FVec F S16x1024 .f32) (main_arg38 : FVec F S1024x1 .f32) (main_arg39 : FVec F S1 .f32) (main_v48 : IVec S_ 1) (main_v49 : FVec F S256x16 .f32) (main_v50 : FVec F S256x16 .f32) : IVec S_ 1 :=
  let main_v51 : IVec S256x16 1 := cmpf .olt main_v49 main_v50
  let main_c_19 : IVec S_ 1 := constantI S_ 1 1#1
  let main_v52 : IVec S_ 1 := (fun x v => Host.reduce IntOp.andi x v reducesTo_S256x16_S_d0_1 h_S_) main_v51 main_c_19
  let main_v53 : IVec S_ 1 := andi main_v48 main_v52
  let main_v54 : FVec F S16x2048 .f32 := Host.absf main_arg15
  let main_cst_20 : FVec F S_ .f32 := constant S_ .f32 0x7F800000#32
  let main_v55 : FVec F S16x2048 .f32 := broadcastInDim S16x2048 ![] bcast_S_S16x2048 main_cst_20
  let main_v56 : IVec S16x2048 1 := cmpf .olt main_v54 main_v55
  let main_c_21 : IVec S_ 1 := constantI S_ 1 1#1
  let main_v57 : IVec S_ 1 := (fun x v => Host.reduce IntOp.andi x v reducesTo_S16x2048_S_d0_1 h_S_) main_v56 main_c_21
  let main_v58 : IVec S_ 1 := andi main_v53 main_v57
  let main_v59 : FVec F S256x16 .f32 := Host.absf main_arg16
  let main_cst_22 : FVec F S_ .f32 := constant S_ .f32 0x7F800000#32
  let main_v60 : FVec F S256x16 .f32 := broadcastInDim S256x16 ![] bcast_S_S256x16 main_cst_22
  let main_v61 : IVec S256x16 1 := cmpf .olt main_v59 main_v60
  let main_c_23 : IVec S_ 1 := constantI S_ 1 1#1
  let main_v62 : IVec S_ 1 := (fun x v => Host.reduce IntOp.andi x v reducesTo_S256x16_S_d0_1 h_S_) main_v61 main_c_23
  let main_v63 : IVec S_ 1 := andi main_v58 main_v62
  let main_v64 : FVec F S16x2048 .f32 := Host.absf main_arg17
  let main_cst_24 : FVec F S_ .f32 := constant S_ .f32 0x7F800000#32
  let main_v65 : FVec F S16x2048 .f32 := broadcastInDim S16x2048 ![] bcast_S_S16x2048 main_cst_24
  let main_v66 : IVec S16x2048 1 := cmpf .olt main_v64 main_v65
  let main_c_25 : IVec S_ 1 := constantI S_ 1 1#1
  let main_v67 : IVec S_ 1 := (fun x v => Host.reduce IntOp.andi x v reducesTo_S16x2048_S_d0_1 h_S_) main_v66 main_c_25
  fn_part4 (F := F) main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_v63 main_v67

def fn_part2 {F : FTy → Type} [FloatOps F] (main_arg11 : FVec F S256 .f32) (main_arg12 : FVec F S256x3 .f32) (main_arg13 : FVec F S3 .f32) (main_arg14 : FVec F S256x16 .f32) (main_arg15 : FVec F S16x2048 .f32) (main_arg16 : FVec F S256x16 .f32) (main_arg17 : FVec F S16x2048 .f32) (main_arg18 : FVec F S2048x2048 .f32) (main_arg19 : FVec F S2048 .f32) (main_arg20 : FVec F S2048x256 .f32) (main_arg21 : FVec F S256 .f32) (main_arg22 : FVec F S256x3 .f32) (main_arg23 : FVec F S3 .f32) (main_arg24 : FVec F S2048x16 .f32) (main_arg25 : FVec F S16x2048 .f32) (main_arg26 : FVec F S2048x16 .f32) (main_arg27 : FVec F S16x2048 .f32) (main_arg28 : FVec F S2048x1024 .f32) (main_arg29 : FVec F S1024 .f32) (main_arg30 : FVec F S2048x256 .f32) (main_arg31 : FVec F S256 .f32) (main_arg32 : FVec F S256x3 .f32) (main_arg33 : FVec F S3 .f32) (main_arg34 : FVec F S2048x16 .f32) (main_arg35 : FVec F S16x1024 .f32) (main_arg36 : FVec F S2048x16 .f32) (main_arg37 : FVec F S16x1024 .f32) (main_arg38 : FVec F S1024x1 .f32) (main_arg39 : FVec F S1 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x3 .f32 := Host.absf main_arg12
  let main_cst_14 : FVec F S_ .f32 := constant S_ .f32 0x7F800000#32
  let main_v40 : FVec F S256x3 .f32 := broadcastInDim S256x3 ![] bcast_S_S256x3 main_cst_14
  let main_v41 : IVec S256x3 1 := cmpf .olt main_v39 main_v40
  let main_c_15 : IVec S_ 1 := constantI S_ 1 1#1
  let main_v42 : IVec S_ 1 := (fun x v => Host.reduce IntOp.andi x v reducesTo_S256x3_S_d0_1 h_S_) main_v41 main_c_15
  let main_v43 : IVec S_ 1 := andi main_v38 main_v42
  let main_v44 : FVec F S3 .f32 := Host.absf main_arg13
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  let main_v49 : FVec F S256x16 .f32 := Host.absf main_arg14
  let main_cst_18 : FVec F S_ .f32 := constant S_ .f32 0x7F800000#32
  let main_v50 : FVec F S256x16 .f32 := broadcastInDim S256x16 ![] bcast_S_S256x16 main_cst_18
  fn_part3 (F := F) main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_v48 main_v49 main_v50

def fn_part1 {F : FTy → Type} [FloatOps F] (main_arg8 : FVec F S256x2048 .f32) (main_arg9 : FVec F S2048 .f32) (main_arg10 : FVec F S256x256 .f32) (main_arg11 : FVec F S256 .f32) (main_arg12 : FVec F S256x3 .f32) (main_arg13 : FVec F S3 .f32) (main_arg14 : FVec F S256x16 .f32) (main_arg15 : FVec F S16x2048 .f32) (main_arg16 : FVec F S256x16 .f32) (main_arg17 : FVec F S16x2048 .f32) (main_arg18 : FVec F S2048x2048 .f32) (main_arg19 : FVec F S2048 .f32) (main_arg20 : FVec F S2048x256 .f32) (main_arg21 : FVec F S256 .f32) (main_arg22 : FVec F S256x3 .f32) (main_arg23 : FVec F S3 .f32) (main_arg24 : FVec F S2048x16 .f32) (main_arg25 : FVec F S16x2048 .f32) (main_arg26 : FVec F S2048x16 .f32) (main_arg27 : FVec F S16x2048 .f32) (main_arg28 : FVec F S2048x1024 .f32) (main_arg29 : FVec F S1024 .f32) (main_arg30 : FVec F S2048x256 .f32) (main_arg31 : FVec F S256 .f32) (main_arg32 : FVec F S256x3 .f32) (main_arg33 : FVec F S3 .f32) (main_arg34 : FVec F S2048x16 .f32) (main_arg35 : FVec F S16x1024 .f32) (main_arg36 : FVec F S2048x16 .f32) (main_arg37 : FVec F S16x1024 .f32) (main_arg38 : FVec F S1024x1 .f32) (main_arg39 : FVec F S1 .f32) (main_v13 : IVec S_ 1) (main_v16 : IVec S1000x64 1) : IVec S_ 1 :=
  let main_c_5 : IVec S_ 1 := constantI S_ 1 1#1
  let main_v17 : IVec S_ 1 := (fun x v => Host.reduce IntOp.andi x v reducesTo_S1000x64_S_d0_1 h_S_) main_v16 main_c_5
  let main_v18 : IVec S_ 1 := andi main_v13 main_v17
  let main_v19 : FVec F S256x2048 .f32 := Host.absf main_arg8
  let main_cst_6 : FVec F S_ .f32 := constant S_ .f32 0x7F800000#32
  let main_v20 : FVec F S256x2048 .f32 := broadcastInDim S256x2048 ![] bcast_S_S256x2048 main_cst_6
  let main_v21 : IVec S256x2048 1 := cmpf .olt main_v19 main_v20
  let main_c_7 : IVec S_ 1 := constantI S_ 1 1#1
  let main_v22 : IVec S_ 1 := (fun x v => Host.reduce IntOp.andi x v reducesTo_S256x2048_S_d0_1 h_S_) main_v21 main_c_7
  let main_v23 : IVec S_ 1 := andi main_v18 main_v22
  let main_v24 : FVec F S2048 .f32 := Host.absf main_arg9
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S256x256 .f32 := Host.absf main_arg10
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_v33

def fn {F : FTy → Type} [FloatOps F] (main_arg0 : IVec S16384 32) (main_arg1 : IVec S16384 32) (main_arg2 : IVec S16384 32) (main_arg3 : IVec S16384 32) (main_arg4 : FVec F S100000x64 .f32) (main_arg5 : FVec F S100x64 .f32) (main_arg6 : FVec F S500000x64 .f32) (main_arg7 : FVec F S1000x64 .f32) (main_arg8 : FVec F S256x2048 .f32) (main_arg9 : FVec F S2048 .f32) (main_arg10 : FVec F S256x256 .f32) (main_arg11 : FVec F S256 .f32) (main_arg12 : FVec F S256x3 .f32) (main_arg13 : FVec F S3 .f32) (main_arg14 : FVec F S256x16 .f32) (main_arg15 : FVec F S16x2048 .f32) (main_arg16 : FVec F S256x16 .f32) (main_arg17 : FVec F S16x2048 .f32) (main_arg18 : FVec F S2048x2048 .f32) (main_arg19 : FVec F S2048 .f32) (main_arg20 : FVec F S2048x256 .f32) (main_arg21 : FVec F S256 .f32) (main_arg22 : FVec F S256x3 .f32) (main_arg23 : FVec F S3 .f32) (main_arg24 : FVec F S2048x16 .f32) (main_arg25 : FVec F S16x2048 .f32) (main_arg26 : FVec F S2048x16 .f32) (main_arg27 : FVec F S16x2048 .f32) (main_arg28 : FVec F S2048x1024 .f32) (main_arg29 : FVec F S1024 .f32) (main_arg30 : FVec F S2048x256 .f32) (main_arg31 : FVec F S256 .f32) (main_arg32 : FVec F S256x3 .f32) (main_arg33 : FVec F S3 .f32) (main_arg34 : FVec F S2048x16 .f32) (main_arg35 : FVec F S16x1024 .f32) (main_arg36 : FVec F S2048x16 .f32) (main_arg37 : FVec F S16x1024 .f32) (main_arg38 : FVec F S1024x1 .f32) (main_arg39 : FVec F S1 .f32) : IVec S_ 1 :=
  let main_v0 : FVec F S100000x64 .f32 := Host.absf main_arg4
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100x64 .f32 := Host.absf main_arg5
  let main_cst_0 : FVec F S_ .f32 := constant S_ .f32 0x7F800000#32
  let main_v5 : FVec F S100x64 .f32 := broadcastInDim S100x64 ![] bcast_S_S100x64 main_cst_0
  let main_v6 : IVec S100x64 1 := cmpf .olt main_v4 main_v5
  let main_c_1 : IVec S_ 1 := constantI S_ 1 1#1
  let main_v7 : IVec S_ 1 := (fun x v => Host.reduce IntOp.andi x v reducesTo_S100x64_S_d0_1 h_S_) main_v6 main_c_1
  let main_v8 : IVec S_ 1 := andi main_v3 main_v7
  let main_v9 : FVec F S500000x64 .f32 := Host.absf main_arg6
  let main_cst_2 : FVec F S_ .f32 := constant S_ .f32 0x7F800000#32
  let main_v10 : FVec F S500000x64 .f32 := broadcastInDim S500000x64 ![] bcast_S_S500000x64 main_cst_2
  let main_v11 : IVec S500000x64 1 := cmpf .olt main_v9 main_v10
  let main_c_3 : IVec S_ 1 := constantI S_ 1 1#1
  let main_v12 : IVec S_ 1 := (fun x v => Host.reduce IntOp.andi x v reducesTo_S500000x64_S_d0_1 h_S_) main_v11 main_c_3
  let main_v13 : IVec S_ 1 := andi main_v8 main_v12
  let main_v14 : FVec F S1000x64 .f32 := Host.absf main_arg7
  let main_cst_4 : FVec F S_ .f32 := constant S_ .f32 0x7F800000#32
  let main_v15 : FVec F S1000x64 .f32 := broadcastInDim S1000x64 ![] bcast_S_S1000x64 main_cst_4
  let main_v16 : IVec S1000x64 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_v13 main_v16
-- ==== Kernel.lean ====
abbrev S16384 : Shape := ⟨1, ![16384]⟩
abbrev S100000x64 : Shape := ⟨2, ![100000, 64]⟩
abbrev S100x64 : Shape := ⟨2, ![100, 64]⟩
abbrev S500000x64 : Shape := ⟨2, ![500000, 64]⟩
abbrev S1000x64 : Shape := ⟨2, ![1000, 64]⟩
abbrev S256x2048 : Shape := ⟨2, ![256, 2048]⟩
abbrev S2048 : Shape := ⟨1, ![2048]⟩
abbrev S256x256 : Shape := ⟨2, ![256, 256]⟩
abbrev S256 : Shape := ⟨1, ![256]⟩
abbrev S256x3 : Shape := ⟨2, ![256, 3]⟩
abbrev S3 : Shape := ⟨1, ![3]⟩
abbrev S256x16 : Shape := ⟨2, ![256, 16]⟩
abbrev S16x2048 : Shape := ⟨2, ![16, 2048]⟩
abbrev S2048x2048 : Shape := ⟨2, ![2048, 2048]⟩
abbrev S2048x256 : Shape := ⟨2, ![2048, 256]⟩
abbrev S2048x16 : Shape := ⟨2, ![2048, 16]⟩
abbrev S2048x1024 : Shape := ⟨2, ![2048, 1024]⟩
abbrev S1024 : Shape := ⟨1, ![1024]⟩
abbrev S16x1024 : Shape := ⟨2, ![16, 1024]⟩
abbrev S1024x1 : Shape := ⟨2, ![1024, 1]⟩
abbrev S1 : Shape := ⟨1, ![1]⟩
abbrev S_ : Shape := ⟨0, ![]⟩
abbrev S16384x1 : Shape := ⟨2, ![16384, 1]⟩
abbrev S16384x64 : Shape := ⟨2, ![16384, 64]⟩
abbrev S16384x256 : Shape := ⟨2, ![16384, 256]⟩
abbrev S256x32 : Shape := ⟨2, ![256, 32]⟩
abbrev S32x2048 : Shape := ⟨2, ![32, 2048]⟩
abbrev S2048x32 : Shape := ⟨2, ![2048, 32]⟩
abbrev S32x1024 : Shape := ⟨2, ![32, 1024]⟩
abbrev S1x2048 : Shape := ⟨2, ![1, 2048]⟩
abbrev S1x256 : Shape := ⟨2, ![1, 256]⟩
abbrev S1x3 : Shape := ⟨2, ![1, 3]⟩
abbrev S1x1024 : Shape := ⟨2, ![1, 1024]⟩
abbrev S1x1 : Shape := ⟨2, ![1, 1]⟩
abbrev S512x256 : Shape := ⟨2, ![512, 256]⟩
abbrev S512x1 : Shape := ⟨2, ![512, 1]⟩
abbrev S512x2048 : Shape := ⟨2, ![512, 2048]⟩
abbrev S512x3 : Shape := ⟨2, ![512, 3]⟩
abbrev S512 : Shape := ⟨1, ![512]⟩
abbrev S512x32 : Shape := ⟨2, ![512, 32]⟩
abbrev S512x1024 : Shape := ⟨2, ![512, 1024]⟩

abbrev nBuf : Space → Nat
  | .hbm => 111
  | .vmem => 30
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S100000x64, .f32⟩
  | .hbm, ⟨5, _⟩ => ⟨S100x64, .f32⟩
  | .hbm, ⟨6, _⟩ => ⟨S500000x64, .f32⟩
  | .hbm, ⟨7, _⟩ => ⟨S1000x64, .f32⟩
  | .hbm, ⟨8, _⟩ => ⟨S256x2048, .f32⟩
  | .hbm, ⟨9, _⟩ => ⟨S2048, .f32⟩
  | .hbm, ⟨10, _⟩ => ⟨S256x256, .f32⟩
  | .hbm, ⟨11, _⟩ => ⟨S256, .f32⟩
  | .hbm, ⟨12, _⟩ => ⟨S256x3, .f32⟩
  | .hbm, ⟨13, _⟩ => ⟨S3, .f32⟩
  | .hbm, ⟨14, _⟩ => ⟨S256x16, .f32⟩
  | .hbm, ⟨15, _⟩ => ⟨S16x2048, .f32⟩
  | .hbm, ⟨16, _⟩ => ⟨S256x16, .f32⟩
  | .hbm, ⟨17, _⟩ => ⟨S16x2048, .f32⟩
  | .hbm, ⟨18, _⟩ => ⟨S2048x2048, .f32⟩
  | .hbm, ⟨19, _⟩ => ⟨S2048, .f32⟩
  | .hbm, ⟨20, _⟩ => ⟨S2048x256, .f32⟩
  | .hbm, ⟨21, _⟩ => ⟨S256, .f32⟩
  | .hbm, ⟨22, _⟩ => ⟨S256x3, .f32⟩
  | .hbm, ⟨23, _⟩ => ⟨S3, .f32⟩
  | .hbm, ⟨24, _⟩ => ⟨S2048x16, .f32⟩
  | .hbm, ⟨25, _⟩ => ⟨S16x2048, .f32⟩
  | .hbm, ⟨26, _⟩ => ⟨S2048x16, .f32⟩
  | .hbm, ⟨27, _⟩ => ⟨S16x2048, .f32⟩
  | .hbm, ⟨28, _⟩ => ⟨S2048x1024, .f32⟩
  | .hbm, ⟨29, _⟩ => ⟨S1024, .f32⟩
  | .hbm, ⟨30, _⟩ => ⟨S2048x256, .f32⟩
  | .hbm, ⟨31, _⟩ => ⟨S256, .f32⟩
  | .hbm, ⟨32, _⟩ => ⟨S256x3, .f32⟩
  | .hbm, ⟨33, _⟩ => ⟨S3, .f32⟩
  | .hbm, ⟨34, _⟩ => ⟨S2048x16, .f32⟩
  | .hbm, ⟨35, _⟩ => ⟨S16x1024, .f32⟩
  | .hbm, ⟨36, _⟩ => ⟨S2048x16, .f32⟩
  | .hbm, ⟨37, _⟩ => ⟨S16x1024, .f32⟩
  | .hbm, ⟨38, _⟩ => ⟨S1024x1, .f32⟩
  | .hbm, ⟨39, _⟩ => ⟨S1, .f32⟩
  | .hbm, ⟨40, _⟩ => ⟨S_, .i32⟩
  | .hbm, ⟨41, _⟩ => ⟨S16384, .i32⟩
  | .hbm, ⟨42, _⟩ => ⟨S16384, .i1⟩
  | .hbm, ⟨43, _⟩ => ⟨S_, .i32⟩
  | .hbm, ⟨44, _⟩ => ⟨S16384, .i32⟩
  | .hbm, ⟨45, _⟩ => ⟨S16384, .i32⟩
  | .hbm, ⟨46, _⟩ => ⟨S16384, .i32⟩
  | .hbm, ⟨47, _⟩ => ⟨S16384x1, .i32⟩
  | .hbm, ⟨48, _⟩ => ⟨S16384x64, .f32⟩
  | .hbm, ⟨49, _⟩ => ⟨S_, .i32⟩
  | .hbm, ⟨50, _⟩ => ⟨S16384, .i32⟩
  | .hbm, ⟨51, _⟩ => ⟨S16384, .i1⟩
  | .hbm, ⟨52, _⟩ => ⟨S_, .i32⟩
  | .hbm, ⟨53, _⟩ => ⟨S16384, .i32⟩
  | .hbm, ⟨54, _⟩ => ⟨S16384, .i32⟩
  | .hbm, ⟨55, _⟩ => ⟨S16384, .i32⟩
  | .hbm, ⟨56, _⟩ => ⟨S16384x1, .i32⟩
  | .hbm, ⟨57, _⟩ => ⟨S16384x64, .f32⟩
  | .hbm, ⟨58, _⟩ => ⟨S_, .i32⟩
  | .hbm, ⟨59, _⟩ => ⟨S16384, .i32⟩
  | .hbm, ⟨60, _⟩ => ⟨S16384, .i1⟩
  | .hbm, ⟨61, _⟩ => ⟨S_, .i32⟩
  | .hbm, ⟨62, _⟩ => ⟨S16384, .i32⟩
  | .hbm, ⟨63, _⟩ => ⟨S16384, .i32⟩
  | .hbm, ⟨64, _⟩ => ⟨S16384, .i32⟩
  | .hbm, ⟨65, _⟩ => ⟨S16384x1, .i32⟩
  | .hbm, ⟨66, _⟩ => ⟨S16384x64, .f32⟩
  | .hbm, ⟨67, _⟩ => ⟨S_, .i32⟩
  | .hbm, ⟨68, _⟩ => ⟨S16384, .i32⟩
  | .hbm, ⟨69, _⟩ => ⟨S16384, .i1⟩
  | .hbm, ⟨70, _⟩ => ⟨S_, .i32⟩
  | .hbm, ⟨71, _⟩ => ⟨S16384, .i32⟩
  | .hbm, ⟨72, _⟩ => ⟨S16384, .i32⟩
  | .hbm, ⟨73, _⟩ => ⟨S16384, .i32⟩
  | .hbm, ⟨74, _⟩ => ⟨S16384x1, .i32⟩
  | .hbm, ⟨75, _⟩ => ⟨S16384x64, .f32⟩
  | .hbm, ⟨76, _⟩ => ⟨S16384x256, .f32⟩
  | .hbm, ⟨77, _⟩ => ⟨S16384x256, .bf16⟩
  | .hbm, ⟨78, _⟩ => ⟨S256x32, .f32⟩
  | .hbm, ⟨79, _⟩ => ⟨S32x2048, .f32⟩
  | .hbm, ⟨80, _⟩ => ⟨S256x32, .bf16⟩
  | .hbm, ⟨81, _⟩ => ⟨S32x2048, .bf16⟩
  | .hbm, ⟨82, _⟩ => ⟨S2048x32, .f32⟩
  | .hbm, ⟨83, _⟩ => ⟨S32x2048, .f32⟩
  | .hbm, ⟨84, _⟩ => ⟨S2048x32, .bf16⟩
  | .hbm, ⟨85, _⟩ => ⟨S32x2048, .bf16⟩
  | .hbm, ⟨86, _⟩ => ⟨S2048x32, .f32⟩
  | .hbm, ⟨87, _⟩ => ⟨S32x1024, .f32⟩
  | .hbm, ⟨88, _⟩ => ⟨S2048x32, .bf16⟩
  | .hbm, ⟨89, _⟩ => ⟨S32x1024, .bf16⟩
  | .hbm, ⟨90, _⟩ => ⟨S256x2048, .bf16⟩
  | .hbm, ⟨91, _⟩ => ⟨S1x2048, .f32⟩
  | .hbm, ⟨92, _⟩ => ⟨S256x256, .bf16⟩
  | .hbm, ⟨93, _⟩ => ⟨S1x256, .f32⟩
  | .hbm, ⟨94, _⟩ => ⟨S256x3, .bf16⟩
  | .hbm, ⟨95, _⟩ => ⟨S1x3, .f32⟩
  | .hbm, ⟨96, _⟩ => ⟨S2048x2048, .bf16⟩
  | .hbm, ⟨97, _⟩ => ⟨S1x2048, .f32⟩
  | .hbm, ⟨98, _⟩ => ⟨S2048x256, .bf16⟩
  | .hbm, ⟨99, _⟩ => ⟨S1x256, .f32⟩
  | .hbm, ⟨100, _⟩ => ⟨S256x3, .bf16⟩
  | .hbm, ⟨101, _⟩ => ⟨S1x3, .f32⟩
  | .hbm, ⟨102, _⟩ => ⟨S2048x1024, .bf16⟩
  | .hbm, ⟨103, _⟩ => ⟨S1x1024, .f32⟩
  | .hbm, ⟨104, _⟩ => ⟨S2048x256, .bf16⟩
  | .hbm, ⟨105, _⟩ => ⟨S1x256, .f32⟩
  | .hbm, ⟨106, _⟩ => ⟨S256x3, .bf16⟩
  | .hbm, ⟨107, _⟩ => ⟨S1x3, .f32⟩
  | .hbm, ⟨108, _⟩ => ⟨S1024x1, .bf16⟩
  | .hbm, ⟨109, _⟩ => ⟨S1x1, .f32⟩
  | .hbm, ⟨110, _⟩ => ⟨S16384x1, .f32⟩
  | .local _ .vmem, ⟨0, _⟩ => ⟨S512x256, .bf16⟩
  | .local _ .vmem, ⟨1, _⟩ => ⟨S512x256, .bf16⟩
  | .local _ .vmem, ⟨2, _⟩ => ⟨S256x2048, .bf16⟩
  | .local _ .vmem, ⟨3, _⟩ => ⟨S1x2048, .f32⟩
  | .local _ .vmem, ⟨4, _⟩ => ⟨S256x256, .bf16⟩
  | .local _ .vmem, ⟨5, _⟩ => ⟨S1x256, .f32⟩
  | .local _ .vmem, ⟨6, _⟩ => ⟨S256x3, .bf16⟩
  | .local _ .vmem, ⟨7, _⟩ => ⟨S1x3, .f32⟩
  | .local _ .vmem, ⟨8, _⟩ => ⟨S256x32, .bf16⟩
  | .local _ .vmem, ⟨9, _⟩ => ⟨S32x2048, .bf16⟩
  | .local _ .vmem, ⟨10, _⟩ => ⟨S2048x2048, .bf16⟩
  | .local _ .vmem, ⟨11, _⟩ => ⟨S1x2048, .f32⟩
  | .local _ .vmem, ⟨12, _⟩ => ⟨S2048x256, .bf16⟩
  | .local _ .vmem, ⟨13, _⟩ => ⟨S1x256, .f32⟩
  | .local _ .vmem, ⟨14, _⟩ => ⟨S256x3, .bf16⟩
  | .local _ .vmem, ⟨15, _⟩ => ⟨S1x3, .f32⟩
  | .local _ .vmem, ⟨16, _⟩ => ⟨S2048x32, .bf16⟩
  | .local _ .vmem, ⟨17, _⟩ => ⟨S32x2048, .bf16⟩
  | .local _ .vmem, ⟨18, _⟩ => ⟨S2048x1024, .bf16⟩
  | .local _ .vmem, ⟨19, _⟩ => ⟨S1x1024, .f32⟩
  | .local _ .vmem, ⟨20, _⟩ => ⟨S2048x256, .bf16⟩
  | .local _ .vmem, ⟨21, _⟩ => ⟨S1x256, .f32⟩
  | .local _ .vmem, ⟨22, _⟩ => ⟨S256x3, .bf16⟩
  | .local _ .vmem, ⟨23, _⟩ => ⟨S1x3, .f32⟩
  | .local _ .vmem, ⟨24, _⟩ => ⟨S2048x32, .bf16⟩
  | .local _ .vmem, ⟨25, _⟩ => ⟨S32x1024, .bf16⟩
  | .local _ .vmem, ⟨26, _⟩ => ⟨S1024x1, .bf16⟩
  | .local _ .vmem, ⟨27, _⟩ => ⟨S1x1, .f32⟩
  | .local _ .vmem, ⟨28, _⟩ => ⟨S512x1, .f32⟩
  | .local _ .vmem, ⟨29, _⟩ => ⟨S512x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_c : Ref sig .tc := ⟨.hbm, 40, rfl⟩
abbrev main_v0 : Ref sig .tc := ⟨.hbm, 41, rfl⟩
abbrev main_v1 : Ref sig .tc := ⟨.hbm, 42, rfl⟩
abbrev main_c_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_c_1 : Ref sig .tc := ⟨.hbm, 49, rfl⟩
abbrev main_v7 : Ref sig .tc := ⟨.hbm, 50, rfl⟩
abbrev main_v8 : Ref sig .tc := ⟨.hbm, 51, rfl⟩
abbrev main_c_2 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_c_3 : Ref sig .tc := ⟨.hbm, 58, rfl⟩
abbrev main_v14 : Ref sig .tc := ⟨.hbm, 59, rfl⟩
abbrev main_v15 : Ref sig .tc := ⟨.hbm, 60, rfl⟩
abbrev main_c_4 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_c_5 : Ref sig .tc := ⟨.hbm, 67, rfl⟩
abbrev main_v21 : Ref sig .tc := ⟨.hbm, 68, rfl⟩
abbrev main_v22 : Ref sig .tc := ⟨.hbm, 69, rfl⟩
abbrev main_c_6 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg27_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem27_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x3 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x3 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x3 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048x32 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2048x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2048x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x3 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x3 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S2048x32 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S32x1024 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1024x1 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S512x1 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  concatenates_S16384x64_S16384x64_S16384x64_S16384x64_S16384x256_d1 : Shape.Concatenates [S16384x64, S16384x64, S16384x64, S16384x64] S16384x256 1
  bitsLt_bf16_f32 : FTy.bits .bf16 < FTy.bits .f32
  concatenates_S256x16_S256x16_S256x32_d1 : Shape.Concatenates [S256x16, S256x16] S256x32 1
  concatenates_S16x2048_S16x2048_S32x2048_d0 : Shape.Concatenates [S16x2048, S16x2048] S32x2048 0
  concatenates_S2048x16_S2048x16_S2048x32_d1 : Shape.Concatenates [S2048x16, S2048x16] S2048x32 1
  concatenates_S16x1024_S16x1024_S32x1024_d0 : Shape.Concatenates [S16x1024, S16x1024] S32x1024 0
  shapeCasts_S2048_S1x2048 : S2048.ShapeCasts S1x2048
  shapeCasts_S256_S1x256 : S256.ShapeCasts S1x256
  shapeCasts_S3_S1x3 : S3.ShapeCasts S1x3
  shapeCasts_S1024_S1x1024 : S1024.ShapeCasts S1x1024
  shapeCasts_S1_S1x1 : S1.ShapeCasts S1x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x3_S256x3_0_0 : ∀ a, (![0, 0] : Fin 2 → Nat) a + S256x3.size a ≤ S256x3.size a
  h_S256x3 : 0 < S256x3.numel
  shapeCasts_S256x3_S256x3 : S256x3.ShapeCasts S256x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S512x3 : S1x3.Broadcasts S512x3
  reduces_S512x3_S512 : S512x3.Reduces [1] S512
  shapeCasts_S512_S512x1 : S512.ShapeCasts S512x1
  broadcasts_S512x1_S512x3 : S512x1.Broadcasts S512x3
  inb_S256x32_S256x32_0_0 : ∀ a, (![0, 0] : Fin 2 → Nat) a + S256x32.size a ≤ S256x32.size a
  h_S256x32 : 0 < S256x32.numel
  shapeCasts_S256x32_S256x32 : S256x32.ShapeCasts S256x32
  iota_S512x32_d1_w32 : S512x32.Iotas .tc 32 [1]
  slices_S512x3_o0_1_S512x1 : S512x3.Slices ![0, 1] S512x1
  slices_S512x3_o0_2_S512x1 : S512x3.Slices ![0, 2] S512x1
  shapeCasts_S512x1_S512x1 : S512x1.ShapeCasts S512x1
  broadcasts_S512x1_S512x32 : S512x1.Broadcasts S512x32
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  slices_S512x3_o0_0_S512x1 : S512x3.Slices ![0, 0] S512x1
  broadcasts_S512x1_S512x2048 : S512x1.Broadcasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  broadcasts_S512x1_S512x1024 : S512x1.Broadcasts S512x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  gather_S100000x64_S16384x1_S16384x64_1_0_n_n_0_1_164_wf : GatherDims.WF S100000x64 S16384x1 S16384x64 [1] [0] [] [0] [] 1 ![1, 64]
  gather_S100x64_S16384x1_S16384x64_1_0_n_n_0_1_164_wf : GatherDims.WF S100x64 S16384x1 S16384x64 [1] [0] [] [0] [] 1 ![1, 64]
  gather_S500000x64_S16384x1_S16384x64_1_0_n_n_0_1_164_wf : GatherDims.WF S500000x64 S16384x1 S16384x64 [1] [0] [] [0] [] 1 ![1, 64]
  gather_S1000x64_S16384x1_S16384x64_1_0_n_n_0_1_164_wf : GatherDims.WF S1000x64 S16384x1 S16384x64 [1] [0] [] [0] [] 1 ![1, 64]
  dot_S512x256_S256x2048_S512x2048_1_0_0_1_n_n_wf : DotDims.WF S512x256 S256x2048 S512x2048 [1] [0] [0] [1] [] []
  dot_S512x256_S256x256_S512x256_1_0_0_1_n_n_wf : DotDims.WF S512x256 S256x256 S512x256 [1] [0] [0] [1] [] []
  dot_S512x256_S256x3_S512x3_1_0_0_1_n_n_wf : DotDims.WF S512x256 S256x3 S512x3 [1] [0] [0] [1] [] []
  dot_S512x256_S256x32_S512x32_1_0_0_1_n_n_wf : DotDims.WF S512x256 S256x32 S512x32 [1] [0] [0] [1] [] []
  dot_S512x32_S32x2048_S512x2048_1_0_0_1_n_n_wf : DotDims.WF S512x32 S32x2048 S512x2048 [1] [0] [0] [1] [] []
  dot_S512x2048_S2048x2048_S512x2048_1_0_0_1_n_n_wf : DotDims.WF S512x2048 S2048x2048 S512x2048 [1] [0] [0] [1] [] []
  dot_S512x2048_S2048x256_S512x256_1_0_0_1_n_n_wf : DotDims.WF S512x2048 S2048x256 S512x256 [1] [0] [0] [1] [] []
  dot_S512x2048_S2048x32_S512x32_1_0_0_1_n_n_wf : DotDims.WF S512x2048 S2048x32 S512x32 [1] [0] [0] [1] [] []
  dot_S512x2048_S2048x1024_S512x1024_1_0_0_1_n_n_wf : DotDims.WF S512x2048 S2048x1024 S512x1024 [1] [0] [0] [1] [] []
  dot_S512x32_S32x1024_S512x1024_1_0_0_1_n_n_wf : DotDims.WF S512x32 S32x1024 S512x1024 [1] [0] [0] [1] [] []
  dot_S512x1024_S1024x1_S512x1_1_0_0_1_n_n_wf : DotDims.WF S512x1024 S1024x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .bf16 = 32 ∨ (Rect.block (s := S16384x256) S512x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x2048.size a
  hwx0_1 : ∀ i : grid0.Coords, EltTy.bits .bf16 = 32 ∨ (Rect.block (s := S256x2048) S256x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x3.size a ≤ S256x3.size a
  hwx0_5 : ∀ i : grid0.Coords, EltTy.bits .bf16 = 32 ∨ (Rect.block (s := S256x3) S256x3.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3.size a ≤ S1x3.size a
  hwx0_6 : ∀ i : grid0.Coords, EltTy.bits .f32 = 32 ∨ (Rect.block (s := S1x3) S1x3.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x32.size a ≤ S256x32.size a
  hwx0_7 : ∀ i : grid0.Coords, EltTy.bits .bf16 = 32 ∨ (Rect.block (s := S256x32) S256x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x2048.size a ≤ S32x2048.size a
  hwx0_8 : ∀ i : grid0.Coords, EltTy.bits .bf16 = 32 ∨ (Rect.block (s := S32x2048) S32x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x2048.size a ≤ S2048x2048.size a
  hwx0_9 : ∀ i : grid0.Coords, EltTy.bits .bf16 = 32 ∨ (Rect.block (s := S2048x2048) S2048x2048.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x256.size a ≤ S2048x256.size a
  hwx0_11 : ∀ i : grid0.Coords, EltTy.bits .bf16 = 32 ∨ (Rect.block (s := S2048x256) S2048x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x3.size a ≤ S256x3.size a
  hwx0_13 : ∀ i : grid0.Coords, EltTy.bits .bf16 = 32 ∨ (Rect.block (s := S256x3) S256x3.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x3.size a ≤ S1x3.size a
  hwx0_14 : ∀ i : grid0.Coords, EltTy.bits .f32 = 32 ∨ (Rect.block (s := S1x3) S1x3.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S2048x32.size a ≤ S2048x32.size a
  hwx0_15 : ∀ i : grid0.Coords, EltTy.bits .bf16 = 32 ∨ (Rect.block (s := S2048x32) S2048x32.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S32x2048.size a ≤ S32x2048.size a
  hwx0_16 : ∀ i : grid0.Coords, EltTy.bits .bf16 = 32 ∨ (Rect.block (s := S32x2048) S32x2048.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S2048x1024.size a ≤ S2048x1024.size a
  hwx0_17 : ∀ i : grid0.Coords, EltTy.bits .bf16 = 32 ∨ (Rect.block (s := S2048x1024) S2048x1024.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x1024.size a ≤ S1x1024.size a
  hwx0_18 : ∀ i : grid0.Coords, EltTy.bits .f32 = 32 ∨ (Rect.block (s := S1x1024) S1x1024.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S2048x256.size a ≤ S2048x256.size a
  hwx0_19 : ∀ i : grid0.Coords, EltTy.bits .bf16 = 32 ∨ (Rect.block (s := S2048x256) S2048x256.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x256.size a ≤ S1x256.size a
  hwx0_20 : ∀ i : grid0.Coords, EltTy.bits .f32 = 32 ∨ (Rect.block (s := S1x256) S1x256.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256x3.size a ≤ S256x3.size a
  hwx0_21 : ∀ i : grid0.Coords, EltTy.bits .bf16 = 32 ∨ (Rect.block (s := S256x3) S256x3.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x3.size a ≤ S1x3.size a
  hwx0_22 : ∀ i : grid0.Coords, EltTy.bits .f32 = 32 ∨ (Rect.block (s := S1x3) S1x3.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S2048x32.size a ≤ S2048x32.size a
  hwx0_23 : ∀ i : grid0.Coords, EltTy.bits .bf16 = 32 ∨ (Rect.block (s := S2048x32) S2048x32.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S32x1024.size a ≤ S32x1024.size a
  hwx0_24 : ∀ i : grid0.Coords, EltTy.bits .bf16 = 32 ∨ (Rect.block (s := S32x1024) S32x1024.size (cc0_transform_24 i) (hinb0_24 i)).WholeWords (EltTy.packing .bf16)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1024x1.size a ≤ S1024x1.size a
  hwx0_25 : ∀ i : grid0.Coords, EltTy.bits .bf16 = 32 ∨ (Rect.block (s := S1024x1) S1024x1.size (cc0_transform_25 i) (hinb0_25 i)).WholeWords (EltTy.packing .bf16)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x1.size a ≤ S1x1.size a
  hwx0_26 : ∀ i : grid0.Coords, EltTy.bits .f32 = 32 ∨ (Rect.block (s := S1x1) S1x1.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S512x1.size a ≤ S16384x1.size a
  hwx0_27 : ∀ i : grid0.Coords, EltTy.bits .f32 = 32 ∨ (Rect.block (s := S16384x1) S512x1.size (cc0_transform_27 i) (hinb0_27 i)).WholeWords (EltTy.packing .f32)

variable [Facts₀]

def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S100x64_S16384x1_S16384x64_1_0_n_n_0_1_164 : GatherDims S100x64 S16384x1 S16384x64 where
  offsetDims := [1]
  collapsedSliceDims := [0]
  operandBatchingDims := []
  startIndicesBatchingDims := []
  startIndexMap := [0]
  indexVectorDim := 1
  sliceSizes := ![1, 64]
  wf := gather_S100x64_S16384x1_S16384x64_1_0_n_n_0_1_164_wf
def gather_S500000x64_S16384x1_S16384x64_1_0_n_n_0_1_164 : GatherDims S500000x64 S16384x1 S16384x64 where
  offsetDims := [1]
  collapsedSliceDims := [0]
  operandBatchingDims := []
  startIndicesBatchingDims := []
  startIndexMap := [0]
  indexVectorDim := 1
  sliceSizes := ![1, 64]
  wf := gather_S500000x64_S16384x1_S16384x64_1_0_n_n_0_1_164_wf
def gather_S1000x64_S16384x1_S16384x64_1_0_n_n_0_1_164 : GatherDims S1000x64 S16384x1 S16384x64 where
  offsetDims := [1]
  collapsedSliceDims := [0]
  operandBatchingDims := []
  startIndicesBatchingDims := []
  startIndexMap := [0]
  indexVectorDim := 1
  sliceSizes := ![1, 64]
  wf := gather_S1000x64_S16384x1_S16384x64_1_0_n_n_0_1_164_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x3_S512x3_1_0_0_1_n_n : DotDims S512x256 S256x3 S512x3 where
  lhsContracting := [1]
  rhsContracting := [0]
  lhsNonContracting := [0]
  rhsNonContracting := [1]
  lhsBatch := []
  rhsBatch := []
  wf := dot_S512x256_S256x3_S512x3_1_0_0_1_n_n_wf
def dot_S512x256_S256x32_S512x32_1_0_0_1_n_n : DotDims S512x256 S256x32 S512x32 where
  lhsContracting := [1]
  rhsContracting := [0]
  lhsNonContracting := [0]
  rhsNonContracting := [1]
  lhsBatch := []
  rhsBatch := []
  wf := dot_S512x256_S256x32_S512x32_1_0_0_1_n_n_wf
def dot_S512x32_S32x2048_S512x2048_1_0_0_1_n_n : DotDims S512x32 S32x2048 S512x2048 where
  lhsContracting := [1]
  rhsContracting := [0]
  lhsNonContracting := [0]
  rhsNonContracting := [1]
  lhsBatch := []
  rhsBatch := []
  wf := dot_S512x32_S32x2048_S512x2048_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x2048_S2048x32_S512x32_1_0_0_1_n_n : DotDims S512x2048 S2048x32 S512x32 where
  lhsContracting := [1]
  rhsContracting := [0]
  lhsNonContracting := [0]
  rhsNonContracting := [1]
  lhsBatch := []
  rhsBatch := []
  wf := dot_S512x2048_S2048x32_S512x32_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x32_S32x1024_S512x1024_1_0_0_1_n_n : DotDims S512x32 S32x1024 S512x1024 where
  lhsContracting := [1]
  rhsContracting := [0]
  lhsNonContracting := [0]
  rhsNonContracting := [1]
  lhsBatch := []
  rhsBatch := []
  wf := dot_S512x32_S32x1024_S512x1024_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf

abbrev win0_0 : Pipeline.Window sig grid0 :=
  Pipeline.Window.ofSpec (Memref.whole main_v29) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v46) S256x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v47) S1x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S256x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S32x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v48) S2048x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v49) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v50) S2048x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v51) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v52) S256x3.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v53) S1x3.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v36) S2048x32.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v37) S32x2048.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v54) S2048x1024.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v55) S1x1024.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v56) S2048x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v57) S1x256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v58) S256x3.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v59) S1x3.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v40) S2048x32.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v41) S32x1024.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v60) S1024x1.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v61) S1x1.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v62) S512x1.size cc0_transform_27 reads0_27 true false 2 stage0_27 sem0_27
    hrank0 hreads0_27 hinb0_27 nbuf0_27 (Memref.isWhole_whole _) hwx0_27 hstage0_27

abbrev win0 : Fin 28 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | ⟨_ + 28, h⟩ => absurd h (Nat.not_lt.2 (Nat.le_add_left _ _))
abbrev spec0 : Fin 28 → Pipeline.WinSpec sig grid0.rank := fun w => (win0 w).toWinSpec

class Facts : Prop extends Facts₀ where

variable [Facts]
-- ==== ReferenceIdeal.lean ====
abbrev S16384 : Shape := ⟨1, ![16384]⟩
abbrev S100000x64 : Shape := ⟨2, ![100000, 64]⟩
abbrev S100x64 : Shape := ⟨2, ![100, 64]⟩
abbrev S500000x64 : Shape := ⟨2, ![500000, 64]⟩
abbrev S1000x64 : Shape := ⟨2, ![1000, 64]⟩
abbrev S256x2048 : Shape := ⟨2, ![256, 2048]⟩
abbrev S2048 : Shape := ⟨1, ![2048]⟩
abbrev S256x256 : Shape := ⟨2, ![256, 256]⟩
abbrev S256 : Shape := ⟨1, ![256]⟩
abbrev S256x3 : Shape := ⟨2, ![256, 3]⟩
abbrev S3 : Shape := ⟨1, ![3]⟩
abbrev S256x16 : Shape := ⟨2, ![256, 16]⟩
abbrev S16x2048 : Shape := ⟨2, ![16, 2048]⟩
abbrev S2048x2048 : Shape := ⟨2, ![2048, 2048]⟩
abbrev S2048x256 : Shape := ⟨2, ![2048, 256]⟩
abbrev S2048x16 : Shape := ⟨2, ![2048, 16]⟩
abbrev S2048x1024 : Shape := ⟨2, ![2048, 1024]⟩
abbrev S1024 : Shape := ⟨1, ![1024]⟩
abbrev S16x1024 : Shape := ⟨2, ![16, 1024]⟩
abbrev S1024x1 : Shape := ⟨2, ![1024, 1]⟩
abbrev S1 : Shape := ⟨1, ![1]⟩
abbrev S_ : Shape := ⟨0, ![]⟩
abbrev S16384x1 : Shape := ⟨2, ![16384, 1]⟩
abbrev S16384x64 : Shape := ⟨2, ![16384, 64]⟩
abbrev S16384x256 : Shape := ⟨2, ![16384, 256]⟩
abbrev S1x256 : Shape := ⟨2, ![1, 256]⟩
abbrev S16384x3 : Shape := ⟨2, ![16384, 3]⟩
abbrev S1x3 : Shape := ⟨2, ![1, 3]⟩
abbrev S16384x16 : Shape := ⟨2, ![16384, 16]⟩
abbrev S16384x2048 : Shape := ⟨2, ![16384, 2048]⟩
abbrev S1x2048 : Shape := ⟨2, ![1, 2048]⟩
abbrev S16384x1024 : Shape := ⟨2, ![16384, 1024]⟩
abbrev S1x1024 : Shape := ⟨2, ![1, 1024]⟩
abbrev S1x1 : Shape := ⟨2, ![1, 1]⟩

abbrev nBuf : Space → Nat
  | .hbm => 248
  | .vmem => 0
  | .smem => 0
  | _ => 0

abbrev hbmTy0_0 (i : Nat) : BufTy := match i % 128 with
  | 0 => ⟨S16384, .i32⟩
  | 1 => ⟨S16384, .i32⟩
  | 2 => ⟨S16384, .i32⟩
  | 3 => ⟨S16384, .i32⟩
  | 4 => ⟨S100000x64, .f32⟩
  | 5 => ⟨S100x64, .f32⟩
  | 6 => ⟨S500000x64, .f32⟩
  | 7 => ⟨S1000x64, .f32⟩
  | 8 => ⟨S256x2048, .f32⟩
  | 9 => ⟨S2048, .f32⟩
  | 10 => ⟨S256x256, .f32⟩
  | 11 => ⟨S256, .f32⟩
  | 12 => ⟨S256x3, .f32⟩
  | 13 => ⟨S3, .f32⟩
  | 14 => ⟨S256x16, .f32⟩
  | 15 => ⟨S16x2048, .f32⟩
  | 16 => ⟨S256x16, .f32⟩
  | 17 => ⟨S16x2048, .f32⟩
  | 18 => ⟨S2048x2048, .f32⟩
  | 19 => ⟨S2048, .f32⟩
  | 20 => ⟨S2048x256, .f32⟩
  | 21 => ⟨S256, .f32⟩
  | 22 => ⟨S256x3, .f32⟩
  | 23 => ⟨S3, .f32⟩
  | 24 => ⟨S2048x16, .f32⟩
  | 25 => ⟨S16x2048, .f32⟩
  | 26 => ⟨S2048x16, .f32⟩
  | 27 => ⟨S16x2048, .f32⟩
  | 28 => ⟨S2048x1024, .f32⟩
  | 29 => ⟨S1024, .f32⟩
  | 30 => ⟨S2048x256, .f32⟩
  | 31 => ⟨S256, .f32⟩
  | 32 => ⟨S256x3, .f32⟩
  | 33 => ⟨S3, .f32⟩
  | 34 => ⟨S2048x16, .f32⟩
  | 35 => ⟨S16x1024, .f32⟩
  | 36 => ⟨S2048x16, .f32⟩
  | 37 => ⟨S16x1024, .f32⟩
  | 38 => ⟨S1024x1, .f32⟩
  | 39 => ⟨S1, .f32⟩
  | 40 => ⟨S_, .i32⟩
  | 41 => ⟨S16384, .i32⟩
  | 42 => ⟨S16384, .i1⟩
  | 43 => ⟨S_, .i32⟩
  | 44 => ⟨S16384, .i32⟩
  | 45 => ⟨S16384, .i32⟩
  | 46 => ⟨S16384, .i32⟩
  | 47 => ⟨S16384x1, .i32⟩
  | 48 => ⟨S16384x64, .f32⟩
  | 49 => ⟨S_, .i32⟩
  | 50 => ⟨S16384, .i32⟩
  | 51 => ⟨S16384, .i1⟩
  | 52 => ⟨S_, .i32⟩
  | 53 => ⟨S16384, .i32⟩
  | 54 => ⟨S16384, .i32⟩
  | 55 => ⟨S16384, .i32⟩
  | 56 => ⟨S16384x1, .i32⟩
  | 57 => ⟨S16384x64, .f32⟩
  | 58 => ⟨S_, .i32⟩
  | 59 => ⟨S16384, .i32⟩
  | 60 => ⟨S16384, .i1⟩
  | 61 => ⟨S_, .i32⟩
  | 62 => ⟨S16384, .i32⟩
  | 63 => ⟨S16384, .i32⟩
  | 64 => ⟨S16384, .i32⟩
  | 65 => ⟨S16384x1, .i32⟩
  | 66 => ⟨S16384x64, .f32⟩
  | 67 => ⟨S_, .i32⟩
  | 68 => ⟨S16384, .i32⟩
  | 69 => ⟨S16384, .i1⟩
  | 70 => ⟨S_, .i32⟩
  | 71 => ⟨S16384, .i32⟩
  | 72 => ⟨S16384, .i32⟩
  | 73 => ⟨S16384, .i32⟩
  | 74 => ⟨S16384x1, .i32⟩
  | 75 => ⟨S16384x64, .f32⟩
  | 76 => ⟨S16384x256, .f32⟩
  | 77 => ⟨S16384x256, .f32⟩
  | 78 => ⟨S1x256, .f32⟩
  | 79 => ⟨S16384x256, .f32⟩
  | 80 => ⟨S16384x256, .f32⟩
  | 81 => ⟨S_, .f32⟩
  | 82 => ⟨S16384x256, .f32⟩
  | 83 => ⟨S16384x256, .f32⟩
  | 84 => ⟨S16384x3, .f32⟩
  | 85 => ⟨S1x3, .f32⟩
  | 86 => ⟨S16384x3, .f32⟩
  | 87 => ⟨S16384x3, .f32⟩
  | 88 => ⟨S_, .f32⟩
  | 89 => ⟨S16384, .f32⟩
  | 90 => ⟨S_, .f32⟩
  | 91 => ⟨S16384, .f32⟩
  | 92 => ⟨S16384, .f32⟩
  | 93 => ⟨S16384x1, .f32⟩
  | 94 => ⟨S16384x3, .f32⟩
  | 95 => ⟨S16384x3, .f32⟩
  | 96 => ⟨S16384x3, .f32⟩
  | 97 => ⟨S_, .f32⟩
  | 98 => ⟨S16384, .f32⟩
  | 99 => ⟨S16384x1, .f32⟩
  | 100 => ⟨S16384x3, .f32⟩
  | 101 => ⟨S16384x3, .f32⟩
  | 102 => ⟨S16384x16, .f32⟩
  | 103 => ⟨S16384x2048, .f32⟩
  | 104 => ⟨S_, .f32⟩
  | 105 => ⟨S16384x2048, .f32⟩
  | 106 => ⟨S16384x2048, .f32⟩
  | 107 => ⟨S16384x16, .f32⟩
  | 108 => ⟨S16384x2048, .f32⟩
  | 109 => ⟨S_, .f32⟩
  | 110 => ⟨S16384x2048, .f32⟩
  | 111 => ⟨S16384x2048, .f32⟩
  | 112 => ⟨S16384x2048, .f32⟩
  | 113 => ⟨S1x2048, .f32⟩
  | 114 => ⟨S16384x2048, .f32⟩
  | 115 => ⟨S16384x2048, .f32⟩
  | 116 => ⟨S_, .f32⟩
  | 117 => ⟨S16384x2048, .f32⟩
  | 118 => ⟨S16384x2048, .f32⟩
  | 119 => ⟨S16384x1, .f32⟩
  | 120 => ⟨S16384x2048, .f32⟩
  | 121 => ⟨S16384x2048, .f32⟩
  | 122 => ⟨S16384x1, .f32⟩
  | 123 => ⟨S16384x2048, .f32⟩
  | 124 => ⟨S16384x2048, .f32⟩
  | 125 => ⟨S16384x2048, .f32⟩
  | 126 => ⟨S16384x1, .f32⟩
  | 127 => ⟨S16384x2048, .f32⟩
  | _ => ⟨S16384, .i32⟩

abbrev hbmTy0_1 (i : Nat) : BufTy := match i % 128 with
  | 0 => ⟨S16384x2048, .f32⟩
  | 1 => ⟨S16384x2048, .f32⟩
  | 2 => ⟨S16384x256, .f32⟩
  | 3 => ⟨S1x256, .f32⟩
  | 4 => ⟨S16384x256, .f32⟩
  | 5 => ⟨S16384x256, .f32⟩
  | 6 => ⟨S_, .f32⟩
  | 7 => ⟨S16384x256, .f32⟩
  | 8 => ⟨S16384x256, .f32⟩
  | 9 => ⟨S16384x3, .f32⟩
  | 10 => ⟨S1x3, .f32⟩
  | 11 => ⟨S16384x3, .f32⟩
  | 12 => ⟨S16384x3, .f32⟩
  | 13 => ⟨S_, .f32⟩
  | 14 => ⟨S16384, .f32⟩
  | 15 => ⟨S_, .f32⟩
  | 16 => ⟨S16384, .f32⟩
  | 17 => ⟨S16384, .f32⟩
  | 18 => ⟨S16384x1, .f32⟩
  | 19 => ⟨S16384x3, .f32⟩
  | 20 => ⟨S16384x3, .f32⟩
  | 21 => ⟨S16384x3, .f32⟩
  | 22 => ⟨S_, .f32⟩
  | 23 => ⟨S16384, .f32⟩
  | 24 => ⟨S16384x1, .f32⟩
  | 25 => ⟨S16384x3, .f32⟩
  | 26 => ⟨S16384x3, .f32⟩
  | 27 => ⟨S16384x16, .f32⟩
  | 28 => ⟨S16384x2048, .f32⟩
  | 29 => ⟨S_, .f32⟩
  | 30 => ⟨S16384x2048, .f32⟩
  | 31 => ⟨S16384x2048, .f32⟩
  | 32 => ⟨S16384x16, .f32⟩
  | 33 => ⟨S16384x2048, .f32⟩
  | 34 => ⟨S_, .f32⟩
  | 35 => ⟨S16384x2048, .f32⟩
  | 36 => ⟨S16384x2048, .f32⟩
  | 37 => ⟨S16384x2048, .f32⟩
  | 38 => ⟨S1x2048, .f32⟩
  | 39 => ⟨S16384x2048, .f32⟩
  | 40 => ⟨S16384x2048, .f32⟩
  | 41 => ⟨S_, .f32⟩
  | 42 => ⟨S16384x2048, .f32⟩
  | 43 => ⟨S16384x2048, .f32⟩
  | 44 => ⟨S16384x1, .f32⟩
  | 45 => ⟨S16384x2048, .f32⟩
  | 46 => ⟨S16384x2048, .f32⟩
  | 47 => ⟨S16384x1, .f32⟩
  | 48 => ⟨S16384x2048, .f32⟩
  | 49 => ⟨S16384x2048, .f32⟩
  | 50 => ⟨S16384x2048, .f32⟩
  | 51 => ⟨S16384x1, .f32⟩
  | 52 => ⟨S16384x2048, .f32⟩
  | 53 => ⟨S16384x2048, .f32⟩
  | 54 => ⟨S16384x2048, .f32⟩
  | 55 => ⟨S16384x256, .f32⟩
  | 56 => ⟨S1x256, .f32⟩
  | 57 => ⟨S16384x256, .f32⟩
  | 58 => ⟨S16384x256, .f32⟩
  | 59 => ⟨S_, .f32⟩
  | 60 => ⟨S16384x256, .f32⟩
  | 61 => ⟨S16384x256, .f32⟩
  | 62 => ⟨S16384x3, .f32⟩
  | 63 => ⟨S1x3, .f32⟩
  | 64 => ⟨S16384x3, .f32⟩
  | 65 => ⟨S16384x3, .f32⟩
  | 66 => ⟨S_, .f32⟩
  | 67 => ⟨S16384, .f32⟩
  | 68 => ⟨S_, .f32⟩
  | 69 => ⟨S16384, .f32⟩
  | 70 => ⟨S16384, .f32⟩
  | 71 => ⟨S16384x1, .f32⟩
  | 72 => ⟨S16384x3, .f32⟩
  | 73 => ⟨S16384x3, .f32⟩
  | 74 => ⟨S16384x3, .f32⟩
  | 75 => ⟨S_, .f32⟩
  | 76 => ⟨S16384, .f32⟩
  | 77 => ⟨S16384x1, .f32⟩
  | 78 => ⟨S16384x3, .f32⟩
  | 79 => ⟨S16384x3, .f32⟩
  | 80 => ⟨S16384x16, .f32⟩
  | 81 => ⟨S16384x1024, .f32⟩
  | 82 => ⟨S_, .f32⟩
  | 83 => ⟨S16384x1024, .f32⟩
  | 84 => ⟨S16384x1024, .f32⟩
  | 85 => ⟨S16384x16, .f32⟩
  | 86 => ⟨S16384x1024, .f32⟩
  | 87 => ⟨S_, .f32⟩
  | 88 => ⟨S16384x1024, .f32⟩
  | 89 => ⟨S16384x1024, .f32⟩
  | 90 => ⟨S16384x1024, .f32⟩
  | 91 => ⟨S1x1024, .f32⟩
  | 92 => ⟨S16384x1024, .f32⟩
  | 93 => ⟨S16384x1024, .f32⟩
  | 94 => ⟨S_, .f32⟩
  | 95 => ⟨S16384x1024, .f32⟩
  | 96 => ⟨S16384x1024, .f32⟩
  | 97 => ⟨S16384x1, .f32⟩
  | 98 => ⟨S16384x1024, .f32⟩
  | 99 => ⟨S16384x1024, .f32⟩
  | 100 => ⟨S16384x1, .f32⟩
  | 101 => ⟨S16384x1024, .f32⟩
  | 102 => ⟨S16384x1024, .f32⟩
  | 103 => ⟨S16384x1024, .f32⟩
  | 104 => ⟨S16384x1, .f32⟩
  | 105 => ⟨S16384x1024, .f32⟩
  | 106 => ⟨S16384x1024, .f32⟩
  | 107 => ⟨S16384x1024, .f32⟩
  | 108 => ⟨S16384x1, .f32⟩
  | 109 => ⟨S1x1, .f32⟩
  | 110 => ⟨S16384x1, .f32⟩
  | 111 => ⟨S16384x1, .f32⟩
  | 112 => ⟨S16384x1, .f32⟩
  | 113 => ⟨S16384x1, .f32⟩
  | 114 => ⟨S_, .f32⟩
  | 115 => ⟨S16384x1, .f32⟩
  | 116 => ⟨S16384x1, .f32⟩
  | 117 => ⟨S_, .f32⟩
  | 118 => ⟨S16384x1, .f32⟩
  | 119 => ⟨S16384x1, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_c : Ref sig .tc := ⟨.hbm, 40, rfl⟩
abbrev main_v0 : Ref sig .tc := ⟨.hbm, 41, rfl⟩
abbrev main_v1 : Ref sig .tc := ⟨.hbm, 42, rfl⟩
abbrev main_c_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_c_1 : Ref sig .tc := ⟨.hbm, 49, rfl⟩
abbrev main_v7 : Ref sig .tc := ⟨.hbm, 50, rfl⟩
abbrev main_v8 : Ref sig .tc := ⟨.hbm, 51, rfl⟩
abbrev main_c_2 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_c_3 : Ref sig .tc := ⟨.hbm, 58, rfl⟩
abbrev main_v14 : Ref sig .tc := ⟨.hbm, 59, rfl⟩
abbrev main_v15 : Ref sig .tc := ⟨.hbm, 60, rfl⟩
abbrev main_c_4 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_c_5 : Ref sig .tc := ⟨.hbm, 67, rfl⟩
abbrev main_v21 : Ref sig .tc := ⟨.hbm, 68, rfl⟩
abbrev main_v22 : Ref sig .tc := ⟨.hbm, 69, rfl⟩
abbrev main_c_6 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_call0_cst : Ref sig .tc := ⟨.hbm, 81, rfl⟩
abbrev main_call0_v0 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_cst : Ref sig .tc := ⟨.hbm, 88, rfl⟩
abbrev main_v38 : Ref sig .tc := ⟨.hbm, 89, rfl⟩
abbrev main_cst_7 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_cst_8 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_cst_9 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_cst_10 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_call1_cst : Ref sig .tc := ⟨.hbm, 116, rfl⟩
abbrev main_call1_v0 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_call2_cst : Ref sig .tc := ⟨.hbm, 134, rfl⟩
abbrev main_call2_v0 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_cst_11 : Ref sig .tc := ⟨.hbm, 141, rfl⟩
abbrev main_v82 : Ref sig .tc := ⟨.hbm, 142, rfl⟩
abbrev main_cst_12 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_cst_13 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_cst_14 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_cst_15 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_call3_cst : Ref sig .tc := ⟨.hbm, 169, rfl⟩
abbrev main_call3_v0 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_call4_cst : Ref sig .tc := ⟨.hbm, 187, rfl⟩
abbrev main_call4_v0 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_cst_16 : Ref sig .tc := ⟨.hbm, 194, rfl⟩
abbrev main_v126 : Ref sig .tc := ⟨.hbm, 195, rfl⟩
abbrev main_cst_17 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_cst_18 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_cst_19 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_cst_20 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_call5_cst : Ref sig .tc := ⟨.hbm, 222, rfl⟩
abbrev main_call5_v0 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_cst_21 : Ref sig .tc := ⟨.hbm, 242, rfl⟩
abbrev main_v167 : Ref sig .tc := ⟨.hbm, 243, rfl⟩
abbrev main_v168 : Ref sig .tc := ⟨.hbm, 244, rfl⟩
abbrev main_cst_22 : Ref sig .tc := ⟨.hbm, 245, rfl⟩
abbrev main_v169 : Ref sig .tc := ⟨.hbm, 246, rfl⟩
abbrev main_v170 : Ref sig .tc := ⟨.hbm, 247, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  concatenates_S16384x64_S16384x64_S16384x64_S16384x64_S16384x256_d1 : Shape.Concatenates [S16384x64, S16384x64, S16384x64, S16384x64] S16384x256 1
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S3_S1x3_1 : S3.BroadcastsInDim S1x3 (![1] : Fin 1 → Fin S1x3.rank)
  bcast_S1x3_S16384x3_0_1 : S1x3.BroadcastsInDim S16384x3 (![0, 1] : Fin 2 → Fin S16384x3.rank)
  reducesTo_S16384x3_S16384_d1 : S16384x3.ReducesTo [1] S16384
  h_S_ : 0 < S_.numel
  bcast_S16384x1_S16384x3_0_1 : S16384x1.BroadcastsInDim S16384x3 (![0, 1] : Fin 2 → Fin S16384x3.rank)
  bcast_S_S16384x2048 : S_.BroadcastsInDim S16384x2048 (![] : Fin 0 → Fin S16384x2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x3_S16384x1_0_0 : S16384x3.Slices ![0, 0] S16384x1
  bcast_S16384x1_S16384x2048_0_1 : S16384x1.BroadcastsInDim S16384x2048 (![0, 1] : Fin 2 → Fin S16384x2048.rank)
  slices_S16384x3_S16384x1_0_1 : S16384x3.Slices ![0, 1] S16384x1
  slices_S16384x3_S16384x1_0_2 : S16384x3.Slices ![0, 2] S16384x1
  bcast_S_S16384x1024 : S_.BroadcastsInDim S16384x1024 (![] : Fin 0 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S16384x1_S16384x1024_0_1 : S16384x1.BroadcastsInDim S16384x1024 (![0, 1] : Fin 2 → Fin S16384x1024.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  gather_S100000x64_S16384x1_S16384x64_1_0_n_n_0_1_164_wf : GatherDims.WF S100000x64 S16384x1 S16384x64 [1] [0] [] [0] [] 1 ![1, 64]
  gather_S100x64_S16384x1_S16384x64_1_0_n_n_0_1_164_wf : GatherDims.WF S100x64 S16384x1 S16384x64 [1] [0] [] [0] [] 1 ![1, 64]
  gather_S500000x64_S16384x1_S16384x64_1_0_n_n_0_1_164_wf : GatherDims.WF S500000x64 S16384x1 S16384x64 [1] [0] [] [0] [] 1 ![1, 64]
  gather_S1000x64_S16384x1_S16384x64_1_0_n_n_0_1_164_wf : GatherDims.WF S1000x64 S16384x1 S16384x64 [1] [0] [] [0] [] 1 ![1, 64]
  dot_S16384x256_S256x256_S16384x256_1_0_0_1_n_n_wf : DotDims.WF S16384x256 S256x256 S16384x256 [1] [0] [0] [1] [] []
  dot_S16384x256_S256x3_S16384x3_1_0_0_1_n_n_wf : DotDims.WF S16384x256 S256x3 S16384x3 [1] [0] [0] [1] [] []
  dot_S16384x256_S256x16_S16384x16_1_0_0_1_n_n_wf : DotDims.WF S16384x256 S256x16 S16384x16 [1] [0] [0] [1] [] []
  dot_S16384x16_S16x2048_S16384x2048_1_0_0_1_n_n_wf : DotDims.WF S16384x16 S16x2048 S16384x2048 [1] [0] [0] [1] [] []
  dot_S16384x256_S256x2048_S16384x2048_1_0_0_1_n_n_wf : DotDims.WF S16384x256 S256x2048 S16384x2048 [1] [0] [0] [1] [] []
  dot_S16384x2048_S2048x256_S16384x256_1_0_0_1_n_n_wf : DotDims.WF S16384x2048 S2048x256 S16384x256 [1] [0] [0] [1] [] []
  dot_S16384x2048_S2048x16_S16384x16_1_0_0_1_n_n_wf : DotDims.WF S16384x2048 S2048x16 S16384x16 [1] [0] [0] [1] [] []
  dot_S16384x2048_S2048x2048_S16384x2048_1_0_0_1_n_n_wf : DotDims.WF S16384x2048 S2048x2048 S16384x2048 [1] [0] [0] [1] [] []
  dot_S16384x16_S16x1024_S16384x1024_1_0_0_1_n_n_wf : DotDims.WF S16384x16 S16x1024 S16384x1024 [1] [0] [0] [1] [] []
  dot_S16384x2048_S2048x1024_S16384x1024_1_0_0_1_n_n_wf : DotDims.WF S16384x2048 S2048x1024 S16384x1024 [1] [0] [0] [1] [] []
  dot_S16384x1024_S1024x1_S16384x1_1_0_0_1_n_n_wf : DotDims.WF S16384x1024 S1024x1 S16384x1 [1] [0] [0] [1] [] []

variable [Facts₀]

def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S100x64_S16384x1_S16384x64_1_0_n_n_0_1_164 : GatherDims S100x64 S16384x1 S16384x64 where
  offsetDims := [1]
  collapsedSliceDims := [0]
  operandBatchingDims := []
  startIndicesBatchingDims := []
  startIndexMap := [0]
  indexVectorDim := 1
  sliceSizes := ![1, 64]
  wf := gather_S100x64_S16384x1_S16384x64_1_0_n_n_0_1_164_wf
def gather_S500000x64_S16384x1_S16384x64_1_0_n_n_0_1_164 : GatherDims S500000x64 S16384x1 S16384x64 where
  offsetDims := [1]
  collapsedSliceDims := [0]
  operandBatchingDims := []
  startIndicesBatchingDims := []
  startIndexMap := [0]
  indexVectorDim := 1
  sliceSizes := ![1, 64]
  wf := gather_S500000x64_S16384x1_S16384x64_1_0_n_n_0_1_164_wf
def gather_S1000x64_S16384x1_S16384x64_1_0_n_n_0_1_164 : GatherDims S1000x64 S16384x1 S16384x64 where
  offsetDims := [1]
  collapsedSliceDims := [0]
  operandBatchingDims := []
  startIndicesBatchingDims := []
  startIndexMap := [0]
  indexVectorDim := 1
  sliceSizes := ![1, 64]
  wf := gather_S1000x64_S16384x1_S16384x64_1_0_n_n_0_1_164_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x3_S16384x3_1_0_0_1_n_n : DotDims S16384x256 S256x3 S16384x3 where
  lhsContracting := [1]
  rhsContracting := [0]
  lhsNonContracting := [0]
  rhsNonContracting := [1]
  lhsBatch := []
  rhsBatch := []
  wf := dot_S16384x256_S256x3_S16384x3_1_0_0_1_n_n_wf
def dot_S16384x256_S256x16_S16384x16_1_0_0_1_n_n : DotDims S16384x256 S256x16 S16384x16 where
  lhsContracting := [1]
  rhsContracting := [0]
  lhsNonContracting := [0]
  rhsNonContracting := [1]
  lhsBatch := []
  rhsBatch := []
  wf := dot_S16384x256_S256x16_S16384x16_1_0_0_1_n_n_wf
def dot_S16384x16_S16x2048_S16384x2048_1_0_0_1_n_n : DotDims S16384x16 S16x2048 S16384x2048 where
  lhsContracting := [1]
  rhsContracting := [0]
  lhsNonContracting := [0]
  rhsNonContracting := [1]
  lhsBatch := []
  rhsBatch := []
  wf := dot_S16384x16_S16x2048_S16384x2048_1_0_0_1_n_n_wf
def dot_S16384x256_S256x2048_S16384x2048_1_0_0_1_n_n : DotDims S16384x256 S256x2048 S16384x2048 where
  lhsContracting := [1]
  rhsContracting := [0]
  lhsNonContracting := [0]
  rhsNonContracting := [1]
  lhsBatch := []
  rhsBatch := []
  wf := dot_S16384x256_S256x2048_S16384x2048_1_0_0_1_n_n_wf
def dot_S16384x2048_S2048x256_S16384x256_1_0_0_1_n_n : DotDims S16384x2048 S2048x256 S16384x256 where
  lhsContracting := [1]
  rhsContracting := [0]
  lhsNonContracting := [0]
  rhsNonContracting := [1]
  lhsBatch := []
  rhsBatch := []
  wf := dot_S16384x2048_S2048x256_S16384x256_1_0_0_1_n_n_wf
def dot_S16384x2048_S2048x16_S16384x16_1_0_0_1_n_n : DotDims S16384x2048 S2048x16 S16384x16 where
  lhsContracting := [1]
  rhsContracting := [0]
  lhsNonContracting := [0]
  rhsNonContracting := [1]
  lhsBatch := []
  rhsBatch := []
  wf := dot_S16384x2048_S2048x16_S16384x16_1_0_0_1_n_n_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S16384x16_S16x1024_S16384x1024_1_0_0_1_n_n : DotDims S16384x16 S16x1024 S16384x1024 where
  lhsContracting := [1]
  rhsContracting := [0]
  lhsNonContracting := [0]
  rhsNonContracting := [1]
  lhsBatch := []
  rhsBatch := []
  wf := dot_S16384x16_S16x1024_S16384x1024_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf

class Facts : Prop extends Facts₀ where

variable [Facts]
-- ==== Proof.FrameBits.lean ====
/- The frame of the kernel program: @main up to its one region through the host operations before it, the
   arrays' contents at the region's entry, each window's block at a grid point, what the body leaves in the output
   window's buffer as a function of the 27 input blocks, the body's triple, the pipeline's proof data, and the run:
   every execution terminates and the 40 argument arrays end as launched. -/
import proofs.«153816_j32289564131760_2_alg».proof.Proof.Gen.Kernel.Launch
import proofs.«153816_j32289564131760_2_alg».proof.Proof.Gen.Kernel.Skeleton
import proofs.«153816_j32289564131760_2_alg».proof.Proof.Gen.Kernel.Points
import Idealize.ShloMosaic.Lib.Pipeline.FrameBody
import Idealize.ShloMosaic.Lib.Ring
import Idealize.ShloMosaic.Lib.Tactic

-- membership in a rectangle of these extents recurses once per coordinate of the long axes; the host stretch is a
-- 70-element list
set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main up to the region, at the variants `𝒱₀`: the host operations then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg20`: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg21`: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg22`: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg23`: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg24`: the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg25`: the region finds it as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg26`: the region finds it as launched. -/
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg27`: the region finds it as launched. -/
theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg28`: the region finds it as launched. -/
theorem V_main_arg28 (c : Dev nD) : V m c main_arg28 = m ((c : Thread nD τ).loc main_arg28) :=
  StableHlo.after_of_forall_not_mem (b := Proc.devRef .tc main_arg28) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg29`: the region finds it as launched. -/
theorem V_main_arg29 (c : Dev nD) : V m c main_arg29 = m ((c : Thread nD τ).loc main_arg29) :=
  StableHlo.after_of_forall_not_mem (b := Proc.devRef .tc main_arg29) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg30`: the region finds it as launched. -/
theorem V_main_arg30 (c : Dev nD) : V m c main_arg30 = m ((c : Thread nD τ).loc main_arg30) :=
  StableHlo.after_of_forall_not_mem (b := Proc.devRef .tc main_arg30) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg31`: the region finds it as launched. -/
theorem V_main_arg31 (c : Dev nD) : V m c main_arg31 = m ((c : Thread nD τ).loc main_arg31) :=
  StableHlo.after_of_forall_not_mem (b := Proc.devRef .tc main_arg31) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg32`: the region finds it as launched. -/
theorem V_main_arg32 (c : Dev nD) : V m c main_arg32 = m ((c : Thread nD τ).loc main_arg32) :=
  StableHlo.after_of_forall_not_mem (b := Proc.devRef .tc main_arg32) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg33`: the region finds it as launched. -/
theorem V_main_arg33 (c : Dev nD) : V m c main_arg33 = m ((c : Thread nD τ).loc main_arg33) :=
  StableHlo.after_of_forall_not_mem (b := Proc.devRef .tc main_arg33) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg34`: the region finds it as launched. -/
theorem V_main_arg34 (c : Dev nD) : V m c main_arg34 = m ((c : Thread nD τ).loc main_arg34) :=
  StableHlo.after_of_forall_not_mem (b := Proc.devRef .tc main_arg34) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg35`: the region finds it as launched. -/
theorem V_main_arg35 (c : Dev nD) : V m c main_arg35 = m ((c : Thread nD τ).loc main_arg35) :=
  StableHlo.after_of_forall_not_mem (b := Proc.devRef .tc main_arg35) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg36`: the region finds it as launched. -/
theorem V_main_arg36 (c : Dev nD) : V m c main_arg36 = m ((c : Thread nD τ).loc main_arg36) :=
  StableHlo.after_of_forall_not_mem (b := Proc.devRef .tc main_arg36) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg37`: the region finds it as launched. -/
theorem V_main_arg37 (c : Dev nD) : V m c main_arg37 = m ((c : Thread nD τ).loc main_arg37) :=
  StableHlo.after_of_forall_not_mem (b := Proc.devRef .tc main_arg37) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg38`: the region finds it as launched. -/
theorem V_main_arg38 (c : Dev nD) : V m c main_arg38 = m ((c : Thread nD τ).loc main_arg38) :=
  StableHlo.after_of_forall_not_mem (b := Proc.devRef .tc main_arg38) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg39`: the region finds it as launched. -/
theorem V_main_arg39 (c : Dev nD) : V m c main_arg39 = m ((c : Thread nD τ).loc main_arg39) :=
  StableHlo.after_of_forall_not_mem (b := Proc.devRef .tc main_arg39) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s (`hA`) and whose body leaves the block in place (`hafter`). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s (`hA`) and whose body leaves the block in place (`hafter`). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s (`hA`) and whose body leaves the block in place (`hafter`). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s (`hA`) and whose body leaves the block in place (`hafter`). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s (`hA`) and whose body leaves the block in place (`hafter`). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is `V`'s (`hA`) and whose body leaves the block in place (`hafter`). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is `V`'s (`hA`) and whose body leaves the block in place (`hafter`). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is `V`'s (`hA`) and whose body leaves the block in place (`hafter`). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is `V`'s (`hA`) and whose body leaves the block in place (`hafter`). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data whose array is `V`'s (`hA`) and whose body leaves the block in place (`hafter`). -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data whose array is `V`'s (`hA`) and whose body leaves the block in place (`hafter`). -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for any proof
    data whose array is `V`'s (`hA`) and whose body leaves the block in place (`hafter`). -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for any proof
    data whose array is `V`'s (`hA`) and whose body leaves the block in place (`hafter`). -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for any proof
    data whose array is `V`'s (`hA`) and whose body leaves the block in place (`hafter`). -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for any proof
    data whose array is `V`'s (`hA`) and whose body leaves the block in place (`hafter`). -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for any proof
    data whose array is `V`'s (`hA`) and whose body leaves the block in place (`hafter`). -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for any proof
    data whose array is `V`'s (`hA`) and whose body leaves the block in place (`hafter`). -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for any proof
    data whose array is `V`'s (`hA`) and whose body leaves the block in place (`hafter`). -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for any proof
    data whose array is `V`'s (`hA`) and whose body leaves the block in place (`hafter`). -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for any proof
    data whose array is `V`'s (`hA`) and whose body leaves the block in place (`hafter`). -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for any proof
    data whose array is `V`'s (`hA`) and whose body leaves the block in place (`hafter`). -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for any proof
    data whose array is `V`'s (`hA`) and whose body leaves the block in place (`hafter`). -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for any proof
    data whose array is `V`'s (`hA`) and whose body leaves the block in place (`hafter`). -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, fetched there or not, for any proof
    data whose array is `V`'s (`hA`) and whose body leaves the block in place (`hafter`). -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
/-- Input window 24's current staging buffer holds its block at every point, fetched there or not, for any proof
    data whose array is `V`'s (`hA`) and whose body leaves the block in place (`hafter`). -/
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
/-- Input window 25's current staging buffer holds its block at every point, fetched there or not, for any proof
    data whose array is `V`'s (`hA`) and whose body leaves the block in place (`hafter`). -/
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
/-- Input window 26's current staging buffer holds its block at every point, fetched there or not, for any proof
    data whose array is `V`'s (`hA`) and whose body leaves the block in place (`hafter`). -/
theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the library's
    `FramePost`, read at the argument arrays — none is an array of a window, so each is among the buffers that
    bypass the region and ends as the region found it, which is as launched (`V_main_argK`) — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c),
      ((h c).2 main_arg28 (Pipeline.mem_restRefs_of main_arg28 (by decide) (by decide))).trans (V_main_arg28 m c),
      ((h c).2 main_arg29 (Pipeline.mem_restRefs_of main_arg29 (by decide) (by decide))).trans (V_main_arg29 m c),
      ((h c).2 main_arg30 (Pipeline.mem_restRefs_of main_arg30 (by decide) (by decide))).trans (V_main_arg30 m c),
      ((h c).2 main_arg31 (Pipeline.mem_restRefs_of main_arg31 (by decide) (by decide))).trans (V_main_arg31 m c),
      ((h c).2 main_arg32 (Pipeline.mem_restRefs_of main_arg32 (by decide) (by decide))).trans (V_main_arg32 m c),
      ((h c).2 main_arg33 (Pipeline.mem_restRefs_of main_arg33 (by decide) (by decide))).trans (V_main_arg33 m c),
      ((h c).2 main_arg34 (Pipeline.mem_restRefs_of main_arg34 (by decide) (by decide))).trans (V_main_arg34 m c),
      ((h c).2 main_arg35 (Pipeline.mem_restRefs_of main_arg35 (by decide) (by decide))).trans (V_main_arg35 m c),
      ((h c).2 main_arg36 (Pipeline.mem_restRefs_of main_arg36 (by decide) (by decide))).trans (V_main_arg36 m c),
      ((h c).2 main_arg37 (Pipeline.mem_restRefs_of main_arg37 (by decide) (by decide))).trans (V_main_arg37 m c),
      ((h c).2 main_arg38 (Pipeline.mem_restRefs_of main_arg38 (by decide) (by decide))).trans (V_main_arg38 m c),
      ((h c).2 main_arg39 (Pipeline.mem_restRefs_of main_arg39 (by decide) (by decide))).trans (V_main_arg39 m c)⟩) h

/-! ## The body's accesses -/

abbrev r0_0 : Rect S512x256 := Rect.unit (s := S512x256) ![0, 0] S512x256.size inb_S512x256_S512x256_0_0
abbrev r0_1 : Rect S256x2048 := Rect.unit (s := S256x2048) ![0, 0] S256x2048.size inb_S256x2048_S256x2048_0_0
abbrev r0_2 : Rect S1x2048 := Rect.unit (s := S1x2048) ![0, 0] S1x2048.size inb_S1x2048_S1x2048_0_0
abbrev r0_3 : Rect S256x256 := Rect.unit (s := S256x256) ![0, 0] S256x256.size inb_S256x256_S256x256_0_0
abbrev r0_4 : Rect S1x256 := Rect.unit (s := S1x256) ![0, 0] S1x256.size inb_S1x256_S1x256_0_0
abbrev r0_5 : Rect S256x3 := Rect.unit (s := S256x3) ![0, 0] S256x3.size inb_S256x3_S256x3_0_0
abbrev r0_6 : Rect S1x3 := Rect.unit (s := S1x3) ![0, 0] S1x3.size inb_S1x3_S1x3_0_0
abbrev r0_7 : Rect S256x32 := Rect.unit (s := S256x32) ![0, 0] S256x32.size inb_S256x32_S256x32_0_0
abbrev r0_8 : Rect S32x2048 := Rect.unit (s := S32x2048) ![0, 0] S32x2048.size inb_S32x2048_S32x2048_0_0
abbrev r0_9 : Rect S2048x2048 := Rect.unit (s := S2048x2048) ![0, 0] S2048x2048.size inb_S2048x2048_S2048x2048_0_0
abbrev r0_10 : Rect S1x2048 := Rect.unit (s := S1x2048) ![0, 0] S1x2048.size inb_S1x2048_S1x2048_0_0
abbrev r0_11 : Rect S2048x256 := Rect.unit (s := S2048x256) ![0, 0] S2048x256.size inb_S2048x256_S2048x256_0_0
abbrev r0_12 : Rect S1x256 := Rect.unit (s := S1x256) ![0, 0] S1x256.size inb_S1x256_S1x256_0_0
abbrev r0_13 : Rect S256x3 := Rect.unit (s := S256x3) ![0, 0] S256x3.size inb_S256x3_S256x3_0_0
abbrev r0_14 : Rect S1x3 := Rect.unit (s := S1x3) ![0, 0] S1x3.size inb_S1x3_S1x3_0_0
abbrev r0_15 : Rect S2048x32 := Rect.unit (s := S2048x32) ![0, 0] S2048x32.size inb_S2048x32_S2048x32_0_0
abbrev r0_16 : Rect S32x2048 := Rect.unit (s := S32x2048) ![0, 0] S32x2048.size inb_S32x2048_S32x2048_0_0
abbrev r0_17 : Rect S2048x1024 := Rect.unit (s := S2048x1024) ![0, 0] S2048x1024.size inb_S2048x1024_S2048x1024_0_0
abbrev r0_18 : Rect S1x1024 := Rect.unit (s := S1x1024) ![0, 0] S1x1024.size inb_S1x1024_S1x1024_0_0
abbrev r0_19 : Rect S2048x256 := Rect.unit (s := S2048x256) ![0, 0] S2048x256.size inb_S2048x256_S2048x256_0_0
abbrev r0_20 : Rect S1x256 := Rect.unit (s := S1x256) ![0, 0] S1x256.size inb_S1x256_S1x256_0_0
abbrev r0_21 : Rect S256x3 := Rect.unit (s := S256x3) ![0, 0] S256x3.size inb_S256x3_S256x3_0_0
abbrev r0_22 : Rect S1x3 := Rect.unit (s := S1x3) ![0, 0] S1x3.size inb_S1x3_S1x3_0_0
abbrev r0_23 : Rect S2048x32 := Rect.unit (s := S2048x32) ![0, 0] S2048x32.size inb_S2048x32_S2048x32_0_0
abbrev r0_24 : Rect S32x1024 := Rect.unit (s := S32x1024) ![0, 0] S32x1024.size inb_S32x1024_S32x1024_0_0
abbrev r0_25 : Rect S1024x1 := Rect.unit (s := S1024x1) ![0, 0] S1024x1.size inb_S1024x1_S1024x1_0_0
abbrev r0_26 : Rect S1x1 := Rect.unit (s := S1x1) ![0, 0] S1x1.size inb_S1x1_S1x1_0_0
abbrev r0_27 : Rect S512x1 := Rect.unit (s := S512x1) ![0, 0] S512x1.size inb_S512x1_S512x1_0_0

/-! ## What the body leaves in the output window's buffer -/

/-- The stored 512×1 block from the loaded blocks `x0 … x26` (in the order of the kernel's operands): the body's named
    pure steps composed in program order. -/
def bodyVal (x0 : Vec F S512x256 .bf16) (x1 : Vec F S256x2048 .bf16) (x2 : Vec F S1x2048 .f32) (x3 : Vec F S256x256 .bf16) (x4 : Vec F S1x256 .f32) (x5 : Vec F S256x3 .bf16) (x6 : Vec F S1x3 .f32) (x7 : Vec F S256x32 .bf16) (x8 : Vec F S32x2048 .bf16) (x9 : Vec F S2048x2048 .bf16) (x10 : Vec F S1x2048 .f32) (x11 : Vec F S2048x256 .bf16) (x12 : Vec F S1x256 .f32) (x13 : Vec F S256x3 .bf16) (x14 : Vec F S1x3 .f32) (x15 : Vec F S2048x32 .bf16) (x16 : Vec F S32x2048 .bf16) (x17 : Vec F S2048x1024 .bf16) (x18 : Vec F S1x1024 .f32) (x19 : Vec F S2048x256 .bf16) (x20 : Vec F S1x256 .f32) (x21 : Vec F S256x3 .bf16) (x22 : Vec F S1x3 .f32) (x23 : Vec F S2048x32 .bf16) (x24 : Vec F S32x1024 .bf16) (x25 : Vec F S1024x1 .bf16) (x26 : Vec F S1x1 .f32) : FVec F S512x1 .f32 :=
  let v1 := k0_pay1 x0
  let v10 := k0_pay2 x0 x1 x2
  let v34 := k0_pay3 x0 x3 x4 x5 x6
  let v36 := k0_pay4 x0 x3 x4 x5 x6
  let v65 := k0_pay5 v1 v10 v34 v36 x7 x8
  let v74 := k0_pay6 v1 v10 v34 v36 x7 x8 x9 x10
  let v77 := k0_pay7 v1 v10 v34 v36 x7 x8 x11
  let v102 := k0_pay8 v77 x12 x13 x14
  let v121 := k0_pay9 v65 v77 x12 x13 x14 x15
  let v129 := k0_pay10 v74 v102 v121 x16
  let v138 := k0_pay11 v74 v102 v121 x16 x17 x18
  let v155 := k0_pay12 v74 v102 v121 x16 x19 x20 x21 x22
  let v159 := k0_pay13 v74 v102 v121 x16 x19 x20 x21 x22
  k0_pay14 v129 v138 v155 v159 x23 x24 x25 x26

/-- Window 27's staging buffer after the body, from the input windows' blocks: its one store as a piece. -/
def out0_27 (x0 : Vec F S512x256 .bf16) (x1 : Vec F S256x2048 .bf16) (x2 : Vec F S1x2048 .f32) (x3 : Vec F S256x256 .bf16) (x4 : Vec F S1x256 .f32) (x5 : Vec F S256x3 .bf16) (x6 : Vec F S1x3 .f32) (x7 : Vec F S256x32 .bf16) (x8 : Vec F S32x2048 .bf16) (x9 : Vec F S2048x2048 .bf16) (x10 : Vec F S1x2048 .f32) (x11 : Vec F S2048x256 .bf16) (x12 : Vec F S1x256 .f32) (x13 : Vec F S256x3 .bf16) (x14 : Vec F S1x3 .f32) (x15 : Vec F S2048x32 .bf16) (x16 : Vec F S32x2048 .bf16) (x17 : Vec F S2048x1024 .bf16) (x18 : Vec F S1x1024 .f32) (x19 : Vec F S2048x256 .bf16) (x20 : Vec F S1x256 .f32) (x21 : Vec F S256x3 .bf16) (x22 : Vec F S1x3 .f32) (x23 : Vec F S2048x32 .bf16) (x24 : Vec F S32x1024 .bf16) (x25 : Vec F S1024x1 .bf16) (x26 : Vec F S1x1 .f32) : Vec F S512x1 .f32 :=
  View.canon [⟨r0_27, bodyVal (View.ld x0 r0_0) (View.ld x1 r0_1) (View.ld x2 r0_2) (View.ld x3 r0_3) (View.ld x4 r0_4) (View.ld x5 r0_5) (View.ld x6 r0_6) (View.ld x7 r0_7) (View.ld x8 r0_8) (View.ld x9 r0_9) (View.ld x10 r0_10) (View.ld x11 r0_11) (View.ld x12 r0_12) (View.ld x13 r0_13) (View.ld x14 r0_14) (View.ld x15 r0_15) (View.ld x16 r0_16) (View.ld x17 r0_17) (View.ld x18 r0_18) (View.ld x19 r0_19) (View.ld x20 r0_20) (View.ld x21 r0_21) (View.ld x22 r0_22) (View.ld x23 r0_23) (View.ld x24 r0_24) (View.ld x25 r0_25) (View.ld x26 r0_26)⟩]

/-- Its store tiles the buffer (checked by evaluation), so it covers it. -/
theorem cover0_27 (p0 : Vec F S512x1 .f32) (y : S512x1.Idx) :
    ∃ pc ∈ ([⟨r0_27, p0⟩] : List (View.Piece (Elt F) S512x1 .f32)), y ∈ pc.1.set :=
  View.cover_of_tiled [⟨r0_27, p0⟩] S512x1.size (by rfl) y

/-! ## The body's triple -/

set_option maxHeartbeats 4000000 in
/-- The kernel body on whole staging memrefs, the inputs' at read contents `xW` and the output's at anything, runs to
    the continuation holding the inputs' as they were and the output's at `out0_27` of the inputs': the printed
    functions are their skeletons, which the symbolic executor runs through every part call. -/
theorem sound_kernel (c : Dev nD) (E : Set ℕ) (i : grid0.Coords) (arg1 : Memref sig .tc .vmem S512x256 .bf16) (harg1 : arg1.IsWhole) (arg2 : Memref sig .tc .vmem S256x2048 .bf16) (harg2 : arg2.IsWhole) (arg3 : Memref sig .tc .vmem S1x2048 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x3 .bf16) (harg6 : arg6.IsWhole) (arg7 : Memref sig .tc .vmem S1x3 .f32) (harg7 : arg7.IsWhole) (arg8 : Memref sig .tc .vmem S256x32 .bf16) (harg8 : arg8.IsWhole) (arg9 : Memref sig .tc .vmem S32x2048 .bf16) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S2048x256 .bf16) (harg12 : arg12.IsWhole) (arg13 : Memref sig .tc .vmem S1x256 .f32) (harg13 : arg13.IsWhole) (arg14 : Memref sig .tc .vmem S256x3 .bf16) (harg14 : arg14.IsWhole) (arg15 : Memref sig .tc .vmem S1x3 .f32) (harg15 : arg15.IsWhole) (arg16 : Memref sig .tc .vmem S2048x32 .bf16) (harg16 : arg16.IsWhole) (arg17 : Memref sig .tc .vmem S32x2048 .bf16) (harg17 : arg17.IsWhole) (arg18 : Memref sig .tc .vmem S2048x1024 .bf16) (harg18 : arg18.IsWhole) (arg19 : Memref sig .tc .vmem S1x1024 .f32) (harg19 : arg19.IsWhole) (arg20 : Memref sig .tc .vmem S2048x256 .bf16) (harg20 : arg20.IsWhole) (arg21 : Memref sig .tc .vmem S1x256 .f32) (harg21 : arg21.IsWhole) (arg22 : Memref sig .tc .vmem S256x3 .bf16) (harg22 : arg22.IsWhole) (arg23 : Memref sig .tc .vmem S1x3 .f32) (harg23 : arg23.IsWhole) (arg24 : Memref sig .tc .vmem S2048x32 .bf16) (harg24 : arg24.IsWhole) (arg25 : Memref sig .tc .vmem S32x1024 .bf16) (harg25 : arg25.IsWhole) (arg26 : Memref sig .tc .vmem S1024x1 .bf16) (harg26 : arg26.IsWhole) (arg27 : Memref sig .tc .vmem S1x1 .f32) (harg27 : arg27.IsWhole) (arg28 : Memref sig .tc .vmem S512x1 .f32) (harg28 : arg28.IsWhole)
    (x0 : Vec F S512x256 .bf16) (x1 : Vec F S256x2048 .bf16) (x2 : Vec F S1x2048 .f32) (x3 : Vec F S256x256 .bf16) (x4 : Vec F S1x256 .f32) (x5 : Vec F S256x3 .bf16) (x6 : Vec F S1x3 .f32) (x7 : Vec F S256x32 .bf16) (x8 : Vec F S32x2048 .bf16) (x9 : Vec F S2048x2048 .bf16) (x10 : Vec F S1x2048 .f32) (x11 : Vec F S2048x256 .bf16) (x12 : Vec F S1x256 .f32) (x13 : Vec F S256x3 .bf16) (x14 : Vec F S1x3 .f32) (x15 : Vec F S2048x32 .bf16) (x16 : Vec F S32x2048 .bf16) (x17 : Vec F S2048x1024 .bf16) (x18 : Vec F S1x1024 .f32) (x19 : Vec F S2048x256 .bf16) (x20 : Vec F S1x256 .f32) (x21 : Vec F S256x3 .bf16) (x22 : Vec F S1x3 .f32) (x23 : Vec F S2048x32 .bf16) (x24 : Vec F S32x1024 .bf16) (x25 : Vec F S1024x1 .bf16) (x26 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare (out0_27 x0 x1 x2 x3 x4 x5 x6 x7 x8 x9 x10 x11 x12 x13 x14 x15 x16 x17 x18 x19 x20 x21 x22 x23 x24 x25 x26)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0__fused_kernel_eq_skeleton]; unfold cc0__fused_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, Hk⟩
  subst hf0 hf1 hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  iexists _; isplitr
  swap; · iexact H27
  ipureintro
  exact View.read_writes_eq_canon _ _ _ (cover0_27 _)

/-! ## The pipeline's proof data -/

/-- The proof data of the one pipeline on core `c`: the arrays as the region finds them (`V`); after the body at
    point `t` each input's buffer at its block and the output's at `out0_27` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨_ + 28, h⟩ => absurd h (Nat.not_lt.2 (Nat.le_add_left _ _))
  Φ _ := Pipeline.ΦA spec0 c
  q _ := fullShare
  owed _ := 0

/-- The proof data's arrays are the region-entry contents: the definition projected, `V` never unfolded. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d

/-! ## The body obligation, at a generic point -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 2000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

set_option maxHeartbeats 4000000 in
/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every execution terminates without fault and the 40 argument arrays end as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)) :=
  frame_of m ρ (dats m) (A_eq m) (run_main m ρ)

end Cert.Kernel.HFrame

end
-- ==== Proof.BodyVal.lean ====
/-
  The value the kernel body stores, as one function of the twenty-seven blocks it loads: the body's named
  pure steps composed in program order (three gated layers, the final affine map and the logistic function).
-/
import proofs.«153816_j32289564131760_2_alg».proof.Proof.Gen.KernelIdeal.Skeleton

noncomputable section

namespace Cert.KernelIdeal.KerValue

open Idealize.ShloMosaic Cert.KernelIdeal Cert.KernelIdeal.Gen

variable {F : FTy → Type} [FloatOps F]

/-- The stored 512×1 block from the loaded blocks `x0 … x26` (in the order of the kernel's operands: the input
    rows, then per layer the eight weight blocks, then the final map's weight and bias). -/
def bodyVal (x0 : Vec F S512x256 .bf16)
    (x1 : Vec F S256x2048 .bf16) (x2 : Vec F S1x2048 .f32) (x3 : Vec F S256x256 .bf16) (x4 : Vec F S1x256 .f32)
    (x5 : Vec F S256x3 .bf16) (x6 : Vec F S1x3 .f32) (x7 : Vec F S256x32 .bf16) (x8 : Vec F S32x2048 .bf16)
    (x9 : Vec F S2048x2048 .bf16) (x10 : Vec F S1x2048 .f32) (x11 : Vec F S2048x256 .bf16) (x12 : Vec F S1x256 .f32)
    (x13 : Vec F S256x3 .bf16) (x14 : Vec F S1x3 .f32) (x15 : Vec F S2048x32 .bf16) (x16 : Vec F S32x2048 .bf16)
    (x17 : Vec F S2048x1024 .bf16) (x18 : Vec F S1x1024 .f32) (x19 : Vec F S2048x256 .bf16) (x20 : Vec F S1x256 .f32)
    (x21 : Vec F S256x3 .bf16) (x22 : Vec F S1x3 .f32) (x23 : Vec F S2048x32 .bf16) (x24 : Vec F S32x1024 .bf16)
    (x25 : Vec F S1024x1 .bf16) (x26 : Vec F S1x1 .f32) : FVec F S512x1 .f32 :=
  let v1 := k0_pay1 x0
  let v10 := k0_pay2 x0 x1 x2
  let v34 := k0_pay3 x0 x3 x4 x5 x6
  let v36 := k0_pay4 x0 x3 x4 x5 x6
  let v65 := k0_pay5 v1 v10 v34 v36 x7 x8
  let v74 := k0_pay6 v1 v10 v34 v36 x7 x8 x9 x10
  let v77 := k0_pay7 v1 v10 v34 v36 x7 x8 x11
  let v102 := k0_pay8 v77 x12 x13 x14
  let v121 := k0_pay9 v65 v77 x12 x13 x14 x15
  let v129 := k0_pay10 v74 v102 v121 x16
  let v138 := k0_pay11 v74 v102 v121 x16 x17 x18
  let v155 := k0_pay12 v74 v102 v121 x16 x19 x20 x21 x22
  let v159 := k0_pay13 v74 v102 v121 x16 x19 x20 x21 x22
  k0_pay14 v129 v138 v155 v159 x23 x24 x25 x26

end Cert.KernelIdeal.KerValue

end
-- ==== Proof.FrameIdeal.lean ====
/- The frame of the kernel program: @main up to its one region through the host operations before it, the
   arrays' contents at the region's entry, each window's block at a grid point, what the body leaves in the output
   window's buffer as a function of the 27 input blocks, the body's triple, the pipeline's proof data, and the run:
   every execution terminates and the 40 argument arrays end as launched. -/
import proofs.«153816_j32289564131760_2_alg».proof.Proof.Gen.KernelIdeal.Launch
import proofs.«153816_j32289564131760_2_alg».proof.Proof.Gen.KernelIdeal.Skeleton
import proofs.«153816_j32289564131760_2_alg».proof.Proof.Gen.KernelIdeal.Points
import proofs.«153816_j32289564131760_2_alg».proof.Proof.BodyVal
import Idealize.ShloMosaic.Lib.Pipeline.FrameBody
import Idealize.ShloMosaic.Lib.Ring
import Idealize.ShloMosaic.Lib.Tactic

-- membership in a rectangle of these extents recurses once per coordinate of the long axes; the host stretch is a
-- 70-element list
set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main up to the region, at the variants `𝒱₀`: the host operations then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg20`: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg21`: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg22`: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg23`: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg24`: the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg25`: the region finds it as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg26`: the region finds it as launched. -/
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg27`: the region finds it as launched. -/
theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg28`: the region finds it as launched. -/
theorem V_main_arg28 (c : Dev nD) : V m c main_arg28 = m ((c : Thread nD τ).loc main_arg28) :=
  StableHlo.after_of_forall_not_mem (b := Proc.devRef .tc main_arg28) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg29`: the region finds it as launched. -/
theorem V_main_arg29 (c : Dev nD) : V m c main_arg29 = m ((c : Thread nD τ).loc main_arg29) :=
  StableHlo.after_of_forall_not_mem (b := Proc.devRef .tc main_arg29) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg30`: the region finds it as launched. -/
theorem V_main_arg30 (c : Dev nD) : V m c main_arg30 = m ((c : Thread nD τ).loc main_arg30) :=
  StableHlo.after_of_forall_not_mem (b := Proc.devRef .tc main_arg30) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg31`: the region finds it as launched. -/
theorem V_main_arg31 (c : Dev nD) : V m c main_arg31 = m ((c : Thread nD τ).loc main_arg31) :=
  StableHlo.after_of_forall_not_mem (b := Proc.devRef .tc main_arg31) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg32`: the region finds it as launched. -/
theorem V_main_arg32 (c : Dev nD) : V m c main_arg32 = m ((c : Thread nD τ).loc main_arg32) :=
  StableHlo.after_of_forall_not_mem (b := Proc.devRef .tc main_arg32) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg33`: the region finds it as launched. -/
theorem V_main_arg33 (c : Dev nD) : V m c main_arg33 = m ((c : Thread nD τ).loc main_arg33) :=
  StableHlo.after_of_forall_not_mem (b := Proc.devRef .tc main_arg33) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg34`: the region finds it as launched. -/
theorem V_main_arg34 (c : Dev nD) : V m c main_arg34 = m ((c : Thread nD τ).loc main_arg34) :=
  StableHlo.after_of_forall_not_mem (b := Proc.devRef .tc main_arg34) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg35`: the region finds it as launched. -/
theorem V_main_arg35 (c : Dev nD) : V m c main_arg35 = m ((c : Thread nD τ).loc main_arg35) :=
  StableHlo.after_of_forall_not_mem (b := Proc.devRef .tc main_arg35) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg36`: the region finds it as launched. -/
theorem V_main_arg36 (c : Dev nD) : V m c main_arg36 = m ((c : Thread nD τ).loc main_arg36) :=
  StableHlo.after_of_forall_not_mem (b := Proc.devRef .tc main_arg36) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg37`: the region finds it as launched. -/
theorem V_main_arg37 (c : Dev nD) : V m c main_arg37 = m ((c : Thread nD τ).loc main_arg37) :=
  StableHlo.after_of_forall_not_mem (b := Proc.devRef .tc main_arg37) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg38`: the region finds it as launched. -/
theorem V_main_arg38 (c : Dev nD) : V m c main_arg38 = m ((c : Thread nD τ).loc main_arg38) :=
  StableHlo.after_of_forall_not_mem (b := Proc.devRef .tc main_arg38) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg39`: the region finds it as launched. -/
theorem V_main_arg39 (c : Dev nD) : V m c main_arg39 = m ((c : Thread nD τ).loc main_arg39) :=
  StableHlo.after_of_forall_not_mem (b := Proc.devRef .tc main_arg39) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s (`hA`) and whose body leaves the block in place (`hafter`). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s (`hA`) and whose body leaves the block in place (`hafter`). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s (`hA`) and whose body leaves the block in place (`hafter`). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s (`hA`) and whose body leaves the block in place (`hafter`). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s (`hA`) and whose body leaves the block in place (`hafter`). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is `V`'s (`hA`) and whose body leaves the block in place (`hafter`). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is `V`'s (`hA`) and whose body leaves the block in place (`hafter`). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is `V`'s (`hA`) and whose body leaves the block in place (`hafter`). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is `V`'s (`hA`) and whose body leaves the block in place (`hafter`). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data whose array is `V`'s (`hA`) and whose body leaves the block in place (`hafter`). -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data whose array is `V`'s (`hA`) and whose body leaves the block in place (`hafter`). -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for any proof
    data whose array is `V`'s (`hA`) and whose body leaves the block in place (`hafter`). -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for any proof
    data whose array is `V`'s (`hA`) and whose body leaves the block in place (`hafter`). -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for any proof
    data whose array is `V`'s (`hA`) and whose body leaves the block in place (`hafter`). -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for any proof
    data whose array is `V`'s (`hA`) and whose body leaves the block in place (`hafter`). -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for any proof
    data whose array is `V`'s (`hA`) and whose body leaves the block in place (`hafter`). -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for any proof
    data whose array is `V`'s (`hA`) and whose body leaves the block in place (`hafter`). -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for any proof
    data whose array is `V`'s (`hA`) and whose body leaves the block in place (`hafter`). -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for any proof
    data whose array is `V`'s (`hA`) and whose body leaves the block in place (`hafter`). -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for any proof
    data whose array is `V`'s (`hA`) and whose body leaves the block in place (`hafter`). -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for any proof
    data whose array is `V`'s (`hA`) and whose body leaves the block in place (`hafter`). -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for any proof
    data whose array is `V`'s (`hA`) and whose body leaves the block in place (`hafter`). -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for any proof
    data whose array is `V`'s (`hA`) and whose body leaves the block in place (`hafter`). -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, fetched there or not, for any proof
    data whose array is `V`'s (`hA`) and whose body leaves the block in place (`hafter`). -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
/-- Input window 24's current staging buffer holds its block at every point, fetched there or not, for any proof
    data whose array is `V`'s (`hA`) and whose body leaves the block in place (`hafter`). -/
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
/-- Input window 25's current staging buffer holds its block at every point, fetched there or not, for any proof
    data whose array is `V`'s (`hA`) and whose body leaves the block in place (`hafter`). -/
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
/-- Input window 26's current staging buffer holds its block at every point, fetched there or not, for any proof
    data whose array is `V`'s (`hA`) and whose body leaves the block in place (`hafter`). -/
theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the library's
    `FramePost`, read at the argument arrays — none is an array of a window, so each is among the buffers that
    bypass the region and ends as the region found it, which is as launched (`V_main_argK`) — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c),
      ((h c).2 main_arg28 (Pipeline.mem_restRefs_of main_arg28 (by decide) (by decide))).trans (V_main_arg28 m c),
      ((h c).2 main_arg29 (Pipeline.mem_restRefs_of main_arg29 (by decide) (by decide))).trans (V_main_arg29 m c),
      ((h c).2 main_arg30 (Pipeline.mem_restRefs_of main_arg30 (by decide) (by decide))).trans (V_main_arg30 m c),
      ((h c).2 main_arg31 (Pipeline.mem_restRefs_of main_arg31 (by decide) (by decide))).trans (V_main_arg31 m c),
      ((h c).2 main_arg32 (Pipeline.mem_restRefs_of main_arg32 (by decide) (by decide))).trans (V_main_arg32 m c),
      ((h c).2 main_arg33 (Pipeline.mem_restRefs_of main_arg33 (by decide) (by decide))).trans (V_main_arg33 m c),
      ((h c).2 main_arg34 (Pipeline.mem_restRefs_of main_arg34 (by decide) (by decide))).trans (V_main_arg34 m c),
      ((h c).2 main_arg35 (Pipeline.mem_restRefs_of main_arg35 (by decide) (by decide))).trans (V_main_arg35 m c),
      ((h c).2 main_arg36 (Pipeline.mem_restRefs_of main_arg36 (by decide) (by decide))).trans (V_main_arg36 m c),
      ((h c).2 main_arg37 (Pipeline.mem_restRefs_of main_arg37 (by decide) (by decide))).trans (V_main_arg37 m c),
      ((h c).2 main_arg38 (Pipeline.mem_restRefs_of main_arg38 (by decide) (by decide))).trans (V_main_arg38 m c),
      ((h c).2 main_arg39 (Pipeline.mem_restRefs_of main_arg39 (by decide) (by decide))).trans (V_main_arg39 m c)⟩) h

/-! ## The body's accesses -/

abbrev r0_0 : Rect S512x256 := Rect.unit (s := S512x256) ![0, 0] S512x256.size inb_S512x256_S512x256_0_0
abbrev r0_1 : Rect S256x2048 := Rect.unit (s := S256x2048) ![0, 0] S256x2048.size inb_S256x2048_S256x2048_0_0
abbrev r0_2 : Rect S1x2048 := Rect.unit (s := S1x2048) ![0, 0] S1x2048.size inb_S1x2048_S1x2048_0_0
abbrev r0_3 : Rect S256x256 := Rect.unit (s := S256x256) ![0, 0] S256x256.size inb_S256x256_S256x256_0_0
abbrev r0_4 : Rect S1x256 := Rect.unit (s := S1x256) ![0, 0] S1x256.size inb_S1x256_S1x256_0_0
abbrev r0_5 : Rect S256x3 := Rect.unit (s := S256x3) ![0, 0] S256x3.size inb_S256x3_S256x3_0_0
abbrev r0_6 : Rect S1x3 := Rect.unit (s := S1x3) ![0, 0] S1x3.size inb_S1x3_S1x3_0_0
abbrev r0_7 : Rect S256x32 := Rect.unit (s := S256x32) ![0, 0] S256x32.size inb_S256x32_S256x32_0_0
abbrev r0_8 : Rect S32x2048 := Rect.unit (s := S32x2048) ![0, 0] S32x2048.size inb_S32x2048_S32x2048_0_0
abbrev r0_9 : Rect S2048x2048 := Rect.unit (s := S2048x2048) ![0, 0] S2048x2048.size inb_S2048x2048_S2048x2048_0_0
abbrev r0_10 : Rect S1x2048 := Rect.unit (s := S1x2048) ![0, 0] S1x2048.size inb_S1x2048_S1x2048_0_0
abbrev r0_11 : Rect S2048x256 := Rect.unit (s := S2048x256) ![0, 0] S2048x256.size inb_S2048x256_S2048x256_0_0
abbrev r0_12 : Rect S1x256 := Rect.unit (s := S1x256) ![0, 0] S1x256.size inb_S1x256_S1x256_0_0
abbrev r0_13 : Rect S256x3 := Rect.unit (s := S256x3) ![0, 0] S256x3.size inb_S256x3_S256x3_0_0
abbrev r0_14 : Rect S1x3 := Rect.unit (s := S1x3) ![0, 0] S1x3.size inb_S1x3_S1x3_0_0
abbrev r0_15 : Rect S2048x32 := Rect.unit (s := S2048x32) ![0, 0] S2048x32.size inb_S2048x32_S2048x32_0_0
abbrev r0_16 : Rect S32x2048 := Rect.unit (s := S32x2048) ![0, 0] S32x2048.size inb_S32x2048_S32x2048_0_0
abbrev r0_17 : Rect S2048x1024 := Rect.unit (s := S2048x1024) ![0, 0] S2048x1024.size inb_S2048x1024_S2048x1024_0_0
abbrev r0_18 : Rect S1x1024 := Rect.unit (s := S1x1024) ![0, 0] S1x1024.size inb_S1x1024_S1x1024_0_0
abbrev r0_19 : Rect S2048x256 := Rect.unit (s := S2048x256) ![0, 0] S2048x256.size inb_S2048x256_S2048x256_0_0
abbrev r0_20 : Rect S1x256 := Rect.unit (s := S1x256) ![0, 0] S1x256.size inb_S1x256_S1x256_0_0
abbrev r0_21 : Rect S256x3 := Rect.unit (s := S256x3) ![0, 0] S256x3.size inb_S256x3_S256x3_0_0
abbrev r0_22 : Rect S1x3 := Rect.unit (s := S1x3) ![0, 0] S1x3.size inb_S1x3_S1x3_0_0
abbrev r0_23 : Rect S2048x32 := Rect.unit (s := S2048x32) ![0, 0] S2048x32.size inb_S2048x32_S2048x32_0_0
abbrev r0_24 : Rect S32x1024 := Rect.unit (s := S32x1024) ![0, 0] S32x1024.size inb_S32x1024_S32x1024_0_0
abbrev r0_25 : Rect S1024x1 := Rect.unit (s := S1024x1) ![0, 0] S1024x1.size inb_S1024x1_S1024x1_0_0
abbrev r0_26 : Rect S1x1 := Rect.unit (s := S1x1) ![0, 0] S1x1.size inb_S1x1_S1x1_0_0
abbrev r0_27 : Rect S512x1 := Rect.unit (s := S512x1) ![0, 0] S512x1.size inb_S512x1_S512x1_0_0

/-! ## What the body leaves in the output window's buffer -/

/-- Window 27's staging buffer after the body, from the input windows' blocks: its one store as a piece. -/
def out0_27 (x0 : Vec F S512x256 .bf16) (x1 : Vec F S256x2048 .bf16) (x2 : Vec F S1x2048 .f32) (x3 : Vec F S256x256 .bf16) (x4 : Vec F S1x256 .f32) (x5 : Vec F S256x3 .bf16) (x6 : Vec F S1x3 .f32) (x7 : Vec F S256x32 .bf16) (x8 : Vec F S32x2048 .bf16) (x9 : Vec F S2048x2048 .bf16) (x10 : Vec F S1x2048 .f32) (x11 : Vec F S2048x256 .bf16) (x12 : Vec F S1x256 .f32) (x13 : Vec F S256x3 .bf16) (x14 : Vec F S1x3 .f32) (x15 : Vec F S2048x32 .bf16) (x16 : Vec F S32x2048 .bf16) (x17 : Vec F S2048x1024 .bf16) (x18 : Vec F S1x1024 .f32) (x19 : Vec F S2048x256 .bf16) (x20 : Vec F S1x256 .f32) (x21 : Vec F S256x3 .bf16) (x22 : Vec F S1x3 .f32) (x23 : Vec F S2048x32 .bf16) (x24 : Vec F S32x1024 .bf16) (x25 : Vec F S1024x1 .bf16) (x26 : Vec F S1x1 .f32) : Vec F S512x1 .f32 :=
  View.canon [⟨r0_27, Cert.KernelIdeal.KerValue.bodyVal (View.ld x0 r0_0) (View.ld x1 r0_1) (View.ld x2 r0_2) (View.ld x3 r0_3) (View.ld x4 r0_4) (View.ld x5 r0_5) (View.ld x6 r0_6) (View.ld x7 r0_7) (View.ld x8 r0_8) (View.ld x9 r0_9) (View.ld x10 r0_10) (View.ld x11 r0_11) (View.ld x12 r0_12) (View.ld x13 r0_13) (View.ld x14 r0_14) (View.ld x15 r0_15) (View.ld x16 r0_16) (View.ld x17 r0_17) (View.ld x18 r0_18) (View.ld x19 r0_19) (View.ld x20 r0_20) (View.ld x21 r0_21) (View.ld x22 r0_22) (View.ld x23 r0_23) (View.ld x24 r0_24) (View.ld x25 r0_25) (View.ld x26 r0_26)⟩]

/-- Its store tiles the buffer (checked by evaluation), so it covers it. -/
theorem cover0_27 (p0 : Vec F S512x1 .f32) (y : S512x1.Idx) :
    ∃ pc ∈ ([⟨r0_27, p0⟩] : List (View.Piece (Elt F) S512x1 .f32)), y ∈ pc.1.set :=
  View.cover_of_tiled [⟨r0_27, p0⟩] S512x1.size (by rfl) y

/-! ## The body's triple -/

set_option maxHeartbeats 4000000 in
/-- The kernel body on whole staging memrefs, the inputs' at read contents `xW` and the output's at anything, runs to
    the continuation holding the inputs' as they were and the output's at `out0_27` of the inputs': the printed
    functions are their skeletons, which the symbolic executor runs through every part call. -/
theorem sound_kernel (c : Dev nD) (E : Set ℕ) (i : grid0.Coords) (arg1 : Memref sig .tc .vmem S512x256 .bf16) (harg1 : arg1.IsWhole) (arg2 : Memref sig .tc .vmem S256x2048 .bf16) (harg2 : arg2.IsWhole) (arg3 : Memref sig .tc .vmem S1x2048 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x3 .bf16) (harg6 : arg6.IsWhole) (arg7 : Memref sig .tc .vmem S1x3 .f32) (harg7 : arg7.IsWhole) (arg8 : Memref sig .tc .vmem S256x32 .bf16) (harg8 : arg8.IsWhole) (arg9 : Memref sig .tc .vmem S32x2048 .bf16) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S2048x256 .bf16) (harg12 : arg12.IsWhole) (arg13 : Memref sig .tc .vmem S1x256 .f32) (harg13 : arg13.IsWhole) (arg14 : Memref sig .tc .vmem S256x3 .bf16) (harg14 : arg14.IsWhole) (arg15 : Memref sig .tc .vmem S1x3 .f32) (harg15 : arg15.IsWhole) (arg16 : Memref sig .tc .vmem S2048x32 .bf16) (harg16 : arg16.IsWhole) (arg17 : Memref sig .tc .vmem S32x2048 .bf16) (harg17 : arg17.IsWhole) (arg18 : Memref sig .tc .vmem S2048x1024 .bf16) (harg18 : arg18.IsWhole) (arg19 : Memref sig .tc .vmem S1x1024 .f32) (harg19 : arg19.IsWhole) (arg20 : Memref sig .tc .vmem S2048x256 .bf16) (harg20 : arg20.IsWhole) (arg21 : Memref sig .tc .vmem S1x256 .f32) (harg21 : arg21.IsWhole) (arg22 : Memref sig .tc .vmem S256x3 .bf16) (harg22 : arg22.IsWhole) (arg23 : Memref sig .tc .vmem S1x3 .f32) (harg23 : arg23.IsWhole) (arg24 : Memref sig .tc .vmem S2048x32 .bf16) (harg24 : arg24.IsWhole) (arg25 : Memref sig .tc .vmem S32x1024 .bf16) (harg25 : arg25.IsWhole) (arg26 : Memref sig .tc .vmem S1024x1 .bf16) (harg26 : arg26.IsWhole) (arg27 : Memref sig .tc .vmem S1x1 .f32) (harg27 : arg27.IsWhole) (arg28 : Memref sig .tc .vmem S512x1 .f32) (harg28 : arg28.IsWhole)
    (x0 : Vec F S512x256 .bf16) (x1 : Vec F S256x2048 .bf16) (x2 : Vec F S1x2048 .f32) (x3 : Vec F S256x256 .bf16) (x4 : Vec F S1x256 .f32) (x5 : Vec F S256x3 .bf16) (x6 : Vec F S1x3 .f32) (x7 : Vec F S256x32 .bf16) (x8 : Vec F S32x2048 .bf16) (x9 : Vec F S2048x2048 .bf16) (x10 : Vec F S1x2048 .f32) (x11 : Vec F S2048x256 .bf16) (x12 : Vec F S1x256 .f32) (x13 : Vec F S256x3 .bf16) (x14 : Vec F S1x3 .f32) (x15 : Vec F S2048x32 .bf16) (x16 : Vec F S32x2048 .bf16) (x17 : Vec F S2048x1024 .bf16) (x18 : Vec F S1x1024 .f32) (x19 : Vec F S2048x256 .bf16) (x20 : Vec F S1x256 .f32) (x21 : Vec F S256x3 .bf16) (x22 : Vec F S1x3 .f32) (x23 : Vec F S2048x32 .bf16) (x24 : Vec F S32x1024 .bf16) (x25 : Vec F S1024x1 .bf16) (x26 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare (out0_27 x0 x1 x2 x3 x4 x5 x6 x7 x8 x9 x10 x11 x12 x13 x14 x15 x16 x17 x18 x19 x20 x21 x22 x23 x24 x25 x26)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0__fused_kernel_eq_skeleton]; unfold cc0__fused_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, Hk⟩
  subst hf0 hf1 hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  iexists _; isplitr
  swap; · iexact H27
  ipureintro
  exact View.read_writes_eq_canon _ _ _ (cover0_27 _)

/-! ## The pipeline's proof data -/

/-- The proof data of the one pipeline on core `c`: the arrays as the region finds them (`V`); after the body at
    point `t` each input's buffer at its block and the output's at `out0_27` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨_ + 28, h⟩ => absurd h (Nat.not_lt.2 (Nat.le_add_left _ _))
  Φ _ := Pipeline.ΦA spec0 c
  q _ := fullShare
  owed _ := 0

/-- The proof data's arrays are the region-entry contents: the definition projected, `V` never unfolded. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d

/-! ## The body obligation, at a generic point -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 2000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

set_option maxHeartbeats 4000000 in
/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every execution terminates without fault and the 40 argument arrays end as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)) :=
  frame_of m ρ (dats m) (A_eq m) (run_main m ρ)

end Cert.KernelIdeal.HFrame

end
-- ==== Proof.Net.lean ====
/-
  The network both programs compute, written once over the extended reals, one batch row at a time.

  A row `v` of width `I` passes through three gated layers and a final affine map followed by the logistic
  function.  A layer computes an affine map followed by max(·, 0), a three-way softmax gate (an affine map,
  max(·, 0), a second affine map into three logits, then exp(z − max z) / Σ exp(z − max z)), and two rank-16
  corrections `(v · A) · B · 2`, and returns  relu(fc) · g₀ + corr_u · g₁ + corr_f · g₂.

  `layerR` is that formula as the reference spells it.  `layerK` is the kernel's arrangement: the two rank-16
  factors are packed side by side into one `I × 32` matrix and one `32 × O` matrix, the `32` intermediate
  columns are scaled by `g₁ · 2` (columns below 16) or `g₂ · 2` (the others) BEFORE the second product.
  The two arrangements agree when every entry is a real number (distributivity), see NetLaws.
-/
import Idealize.ShloMosaic.PureOps.Ideal

noncomputable section

namespace Cert.Net

open Idealize.ShloMosaic

/-- An affine map applied to a row: `(Σ k, v k · w k o) + b o`. -/
def lin {I O : ℕ} (v : Fin I → EReal) (w : Fin I → Fin O → EReal) (b : Fin O → EReal) (o : Fin O) : EReal :=
  (∑ k : Fin I, v k * w k o) + b o

/-- A product of a row with a matrix, no bias: `Σ k, v k · w k o`. -/
def dotRow {I O : ℕ} (v : Fin I → EReal) (w : Fin I → Fin O → EReal) (o : Fin O) : EReal :=
  ∑ k : Fin I, v k * w k o

/-- max(x, 0). -/
def reluE (x : EReal) : EReal := max x 0

/-- The largest of three logits. -/
def gmax (z : Fin 3 → EReal) : EReal := ⨆ k : Fin 3, z k

/-- The softmax of three logits in the stabilised form both programs use. -/
def gates (z : Fin 3 → EReal) (j : Fin 3) : EReal :=
  Ideal.div (Ideal.exp (z j - gmax z)) (∑ k : Fin 3, Ideal.exp (z k - gmax z))

/-- One layer's weights as the reference receives them. -/
structure Layer (I O : ℕ) where
  fcw : Fin I → Fin O → EReal
  fcb : Fin O → EReal
  g1w : Fin I → Fin 256 → EReal
  g1b : Fin 256 → EReal
  g2w : Fin 256 → Fin 3 → EReal
  g2b : Fin 3 → EReal
  lau : Fin I → Fin 16 → EReal
  lbu : Fin 16 → Fin O → EReal
  laf : Fin I → Fin 16 → EReal
  lbf : Fin 16 → Fin O → EReal

/-- One layer's weights as the kernel receives them: the two rank-16 pairs packed. -/
structure LayerK (I O : ℕ) where
  fcw : Fin I → Fin O → EReal
  fcb : Fin O → EReal
  g1w : Fin I → Fin 256 → EReal
  g1b : Fin 256 → EReal
  g2w : Fin 256 → Fin 3 → EReal
  g2b : Fin 3 → EReal
  la : Fin I → Fin 32 → EReal
  lb : Fin 32 → Fin O → EReal

/-- Two `I × 16` matrices side by side. -/
def packCols {I : ℕ} (a b : Fin I → Fin 16 → EReal) (i : Fin I) (k : Fin 32) : EReal :=
  if h : k.val < 16 then a i ⟨k.val, h⟩ else b i ⟨k.val - 16, by omega⟩

/-- Two `16 × O` matrices one above the other. -/
def packRows {O : ℕ} (a b : Fin 16 → Fin O → EReal) (k : Fin 32) (o : Fin O) : EReal :=
  if h : k.val < 16 then a ⟨k.val, h⟩ o else b ⟨k.val - 16, by omega⟩ o

/-- The kernel's packed form of a layer's weights. -/
def Layer.pack {I O : ℕ} (L : Layer I O) : LayerK I O where
  fcw := L.fcw
  fcb := L.fcb
  g1w := L.g1w
  g1b := L.g1b
  g2w := L.g2w
  g2b := L.g2b
  la := packCols L.lau L.laf
  lb := packRows L.lbu L.lbf

/-- The gate of a row: softmax of the two-layer gate network's three logits. -/
def gateOf {I : ℕ} (g1w : Fin I → Fin 256 → EReal) (g1b : Fin 256 → EReal) (g2w : Fin 256 → Fin 3 → EReal)
    (g2b : Fin 3 → EReal) (v : Fin I → EReal) : Fin 3 → EReal :=
  gates (lin (fun j => reluE (lin v g1w g1b j)) g2w g2b)

/-- A layer as the reference spells it. -/
def layerR {I O : ℕ} (L : Layer I O) (v : Fin I → EReal) (o : Fin O) : EReal :=
  (reluE (lin v L.fcw L.fcb o) * gateOf L.g1w L.g1b L.g2w L.g2b v 0
      + (dotRow (dotRow v L.lau) L.lbu o * 2) * gateOf L.g1w L.g1b L.g2w L.g2b v 1)
    + (dotRow (dotRow v L.laf) L.lbf o * 2) * gateOf L.g1w L.g1b L.g2w L.g2b v 2

/-- A layer as the kernel arranges it. -/
def layerK {I O : ℕ} (L : LayerK I O) (v : Fin I → EReal) (o : Fin O) : EReal :=
  reluE (lin v L.fcw L.fcb o) * gateOf L.g1w L.g1b L.g2w L.g2b v 0
    + dotRow (fun k : Fin 32 => dotRow v L.la k *
        (if k.val < 16 then gateOf L.g1w L.g1b L.g2w L.g2b v 1 * 2 else gateOf L.g1w L.g1b L.g2w L.g2b v 2 * 2)) L.lb o

/-- The final score of a row: logistic of an affine map into one number. -/
def score {I : ℕ} (v : Fin I → EReal) (w : Fin I → Fin 1 → EReal) (b : EReal) : EReal :=
  Ideal.logistic ((∑ k : Fin I, v k * w k 0) + b)

/-- The whole network, reference arrangement. -/
def netR (L0 : Layer 256 2048) (L1 : Layer 2048 2048) (L2 : Layer 2048 1024) (aw : Fin 1024 → Fin 1 → EReal) (ab : EReal)
    (v : Fin 256 → EReal) : EReal :=
  score (layerR L2 (layerR L1 (layerR L0 v))) aw ab

/-- The whole network, kernel arrangement. -/
def netK (L0 : LayerK 256 2048) (L1 : LayerK 2048 2048) (L2 : LayerK 2048 1024) (aw : Fin 1024 → Fin 1 → EReal) (ab : EReal)
    (v : Fin 256 → EReal) : EReal :=
  score (layerK L2 (layerK L1 (layerK L0 v))) aw ab

/-- Every entry of a row is a real number. -/
def RowFinite {n : ℕ} (v : Fin n → EReal) : Prop := ∀ i, v i ≠ ⊤ ∧ v i ≠ ⊥

/-- Every entry of a matrix is a real number. -/
def MatFinite {a b : ℕ} (w : Fin a → Fin b → EReal) : Prop := ∀ i j, w i j ≠ ⊤ ∧ w i j ≠ ⊥

/-- Every weight of a layer is a real number. -/
structure Layer.Finite {I O : ℕ} (L : Layer I O) : Prop where
  fcw : MatFinite L.fcw
  fcb : RowFinite L.fcb
  g1w : MatFinite L.g1w
  g1b : RowFinite L.g1b
  g2w : MatFinite L.g2w
  g2b : RowFinite L.g2b
  lau : MatFinite L.lau
  lbu : MatFinite L.lbu
  laf : MatFinite L.laf
  lbf : MatFinite L.lbf

end Cert.Net

end
-- ==== Proof.NetArgs.lean ====
/-
  The network's weights read off arrays: a rank-2 array as a matrix of its entries, a rank-1 array and a
  one-row rank-2 array as a row, and a layer's ten (or, packed, eight) arrays as the layer's weights.
-/
import proofs.«153816_j32289564131760_2_alg».proof.Proof.Net
import Idealize.ShloMosaic.Lib.ValueIdx

noncomputable section

namespace Cert.Net

open Idealize.ShloMosaic Idealize.ShloMosaic.ValueIdx

/-- A rank-2 array as the matrix of its entries. -/
def mat {φ : FTy} {a b : ℕ} (x : FVec Ideal ⟨2, ![a, b]⟩ φ) (i : Fin a) (j : Fin b) : EReal := x (ix2 i j)

/-- A rank-1 array as a row. -/
def vec {φ : FTy} {a : ℕ} (x : FVec Ideal ⟨1, ![a]⟩ φ) (i : Fin a) : EReal := x (ix1 i)

/-- A one-row rank-2 array as a row. -/
def row1 {φ : FTy} {a : ℕ} (x : FVec Ideal ⟨2, ![1, a]⟩ φ) (i : Fin a) : EReal := x (ix2 (0 : Fin 1) i)

/-- Row `r` of a rank-2 array. -/
def rowOf {φ : FTy} {a b : ℕ} (x : FVec Ideal ⟨2, ![a, b]⟩ φ) (r : Fin a) (k : Fin b) : EReal := x (ix2 r k)

/-- A layer's weights from the reference's ten arrays. -/
def mkLayer {I O : ℕ} (fcw : FVec Ideal ⟨2, ![I, O]⟩ .f32) (fcb : FVec Ideal ⟨1, ![O]⟩ .f32)
    (g1w : FVec Ideal ⟨2, ![I, 256]⟩ .f32) (g1b : FVec Ideal ⟨1, ![256]⟩ .f32)
    (g2w : FVec Ideal ⟨2, ![256, 3]⟩ .f32) (g2b : FVec Ideal ⟨1, ![3]⟩ .f32)
    (lau : FVec Ideal ⟨2, ![I, 16]⟩ .f32) (lbu : FVec Ideal ⟨2, ![16, O]⟩ .f32)
    (laf : FVec Ideal ⟨2, ![I, 16]⟩ .f32) (lbf : FVec Ideal ⟨2, ![16, O]⟩ .f32) : Layer I O where
  fcw := mat fcw
  fcb := vec fcb
  g1w := mat g1w
  g1b := vec g1b
  g2w := mat g2w
  g2b := vec g2b
  lau := mat lau
  lbu := mat lbu
  laf := mat laf
  lbf := mat lbf

/-- A layer's weights from the kernel's eight staged arrays (matrices in bf16, biases as one-row f32 arrays). -/
def mkLayerK {I O : ℕ} (fcw : FVec Ideal ⟨2, ![I, O]⟩ .bf16) (fcb : FVec Ideal ⟨2, ![1, O]⟩ .f32)
    (g1w : FVec Ideal ⟨2, ![I, 256]⟩ .bf16) (g1b : FVec Ideal ⟨2, ![1, 256]⟩ .f32)
    (g2w : FVec Ideal ⟨2, ![256, 3]⟩ .bf16) (g2b : FVec Ideal ⟨2, ![1, 3]⟩ .f32)
    (la : FVec Ideal ⟨2, ![I, 32]⟩ .bf16) (lb : FVec Ideal ⟨2, ![32, O]⟩ .bf16) : LayerK I O where
  fcw := mat fcw
  fcb := row1 fcb
  g1w := mat g1w
  g1b := row1 g1b
  g2w := mat g2w
  g2b := row1 g2b
  la := mat la
  lb := mat lb

end Cert.Net

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.LibMaxReduce.lean ====
/-
  A maximum taken along ONE axis, at the ideal float values, is the supremum over that axis's coordinates.

  At the ideal values `maximumf` is `max` on the extended reals, so a reduction with a maximum body from
  `-∞` along one axis is, at each reduced index `j`, the least upper bound of the source's entries at
  `j` with each coordinate `k` of the reduced axis put back (`Shape.Reduces.lift j k`). Stated for the
  in-kernel vector reduction and for the host's one-operand reduce, as an `⨆` over `Fin`: a form whose
  only law a proof needs is `iSup_le_iff`.
-/
import Idealize.ShloMosaic.PureOps.Ideal.Laws
import Idealize.ShloMosaic.PureOps.Reduce

noncomputable section

namespace Idealize.ShloMosaic.Ideal

/-- The f32 pattern of `-∞` denotes the bottom of the extended reals. -/
theorem ofBits_negInf_f32 : Ideal.ofBits .f32 0xFF800000#32 = (⊥ : EReal) := by
  simp [Ideal.ofBits, Ideal.ieee]

/-- A fold of `max` from the bottom over all of `Fin n` is the supremum of the entries. -/
theorem fold_max_bot_eq_iSup {n : Nat} (f : Fin n → EReal) :
    (Finset.univ : Finset (Fin n)).fold max (⊥ : EReal) f = ⨆ k : Fin n, f k := by
  refine eq_of_forall_ge_iff fun z => ?_
  rw [Finset.fold_max_le, iSup_le_iff]
  exact ⟨fun h k => h.2 k (Finset.mem_univ k), fun h => ⟨bot_le, fun k _ => h k⟩⟩

/-- The in-kernel maximum along one axis from `-∞`, at a reduced index, is the supremum over that axis. -/
theorem multiReduction_maximumf_single_iSup {s t : Shape} {a : Fin s.rank} (src : FVec Ideal s .f32)
    (h : s.Reduces [a] t) (hφ : FKind.Formats .f32) (hacc : (0xFF800000#32 : BitVec 32) = FKind.maximumf.neutral .f32 hφ)
    (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf_f32]
  exact fold_max_bot_eq_iSup _

/-- The host's one-operand reduce with a maximum body from `-∞` along one axis is the same supremum. -/
theorem hostReduce_maximumf_single_iSup {s t u : Shape} {a : Fin s.rank} (x : FVec Ideal s .f32)
    (h' : s.ReducesTo [a] t) (h : s.Reduces [a] t) (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu]
  show (Finset.univ : Finset (Fin (s.size a))).fold max (Ideal.ofBits .f32 0xFF800000#32) (x ∘ h.lift j) = _
  rw [ofBits_negInf_f32]
  exact fold_max_bot_eq_iSup _

end Idealize.ShloMosaic.Ideal

end
-- ==== Proof.KerOps.lean ====
/-
  The kernel body's operations read at one entry, at the extended reals.

  Each lemma reads ONE printed operation at an index written with explicit coordinates (row p, column j) and says what
  real-number expression stands there: a matrix product into the zero accumulator is a finite sum over the contracted
  coordinate; a one-row bias broadcast over the rows is the row's entry; a lane maximum from -∞ is a supremum and a
  lane sum from 0 a finite sum over the lane coordinate; a vector turned into a one-column table and a one-column table
  spread over n columns move no entry; a column cut from a table is that column; a select on "column index < 16" is an
  if-then-else on the column coordinate; and the three constants 0, -∞ and 2 are what their bit patterns denote.
-/
import proofs.«153816_j32289564131760_2_alg».proof.Proof.NetArgs
import proofs.«153816_j32289564131760_2_alg».proof.Proof.LibTileMatmul
import proofs.«153816_j32289564131760_2_alg».proof.Proof.LibMaxReduce
import Idealize.ShloMosaic.Lib.ValueLayout
import Idealize.ShloMosaic.Lib.IdealHost

noncomputable section

open scoped BigOperators

namespace Cert.KerOps

open Idealize.ShloMosaic Idealize.ShloMosaic.ValueIdx Cert.Net

variable {α : Type}

/-! ## Constants -/

/-- The f32 pattern 0x40000000 denotes two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- A scalar constant of the pattern 0, spread over a shape, reads 0 everywhere. -/
theorem broadcast_zero_apply {s : Shape} (i : s.Idx) :
    (broadcast s (Scalar.ofBits (F := Ideal) .f32 0x00000000#32) : FVec Ideal s .f32) i = 0 :=
  Ideal.ofBits_zero_f32

/-- A scalar constant of the pattern of -∞, spread over a shape, reads ⊥ everywhere. -/
theorem broadcast_negInf_apply {s : Shape} (i : s.Idx) :
    (broadcast s (Scalar.ofBits (F := Ideal) .f32 0xFF800000#32) : FVec Ideal s .f32) i = ⊥ :=
  Ideal.ofBits_negInf_f32

/-- A scalar constant of the pattern of 2, spread over a shape, reads 2 everywhere. -/
theorem broadcast_two_apply {s : Shape} (i : s.Idx) :
    (broadcast s (Scalar.ofBits (F := Ideal) .f32 0x40000000#32) : FVec Ideal s .f32) i = 2 :=
  ofBits_two_f32

/-! ## The matrix product -/

/-- A product into the zero accumulator, at (p, j): row p of the left operand times the right operand's matrix. -/
theorem matmul_dotRow {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (j : Fin n) :
    matmul (F := Ideal) (TileMatmul.plainDims w) prec A B (constant (F := Ideal) ⟨2, ![m, n]⟩ .f32 0x00000000#32) (ix2 p j)
      = dotRow (rowOf A p) (mat B) j :=
  TileMatmul.matmul_zero_apply w prec A B p j

/-! ## Layout operations -/

/-- A one-row table broadcast over m rows reads, at (p, c), the row's entry c. -/
theorem biasRow_apply {m n : ℕ} {φ : FTy} (v : FVec Ideal ⟨2, ![1, n]⟩ φ) (h : (⟨2, ![1, n]⟩ : Shape).Broadcasts ⟨2, ![m, n]⟩)
    (p : Fin m) (c : Fin n) : broadcastTo ⟨2, ![m, n]⟩ v h (ix2 p c) = row1 v c :=
  broadcastTo_1b_ab_apply v h p c

/-- A length-m vector laid out as an m×1 column reads, at (i, u), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An m×1 column broadcast over n columns reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column o of an m×n table, cut out as an m×1 column, reads at (p, u) the table's entry (p, o). -/
theorem sliceCol_apply {m n : ℕ} (o : ℕ) (X : (⟨2, ![m, n]⟩ : Shape).Idx → α)
    (h : (⟨2, ![m, n]⟩ : Shape).Slices ![0, o] ⟨2, ![m, 1]⟩) (p : Fin m) (u : Fin 1) (k : Fin n) (hk : k.val = o) :
    extractStridedSlice ⟨2, ![m, 1]⟩ ![0, o] X h (ix2 p u) = X (ix2 p k) :=
  slice2_axis1_apply o X h p u k (by have : u.val = 0 := by omega
                                     omega)

/-! ## Reductions along the lanes -/

/-- The source index over row p with lane coordinate k put back. -/
theorem lift_row {m n : ℕ} (h : (⟨2, ![m, n]⟩ : Shape).Reduces [1] ⟨1, ![m]⟩) (p : Fin m) (k : Fin n) :
    h.lift (ix1 p) k = ix2 p k := by
  funext c; apply Fin.ext
  match c with
  | ⟨0, _⟩ => rfl
  | ⟨1, _⟩ => rfl

/-- The lane maximum from -∞, at row p: the supremum of the row's entries. -/
theorem laneMax_apply {m n : ℕ} (src : FVec Ideal ⟨2, ![m, n]⟩ .f32)
    (h : (⟨2, ![m, n]⟩ : Shape).Reduces [1] ⟨1, ![m]⟩) (hφ : FKind.Formats .f32)
    (hacc : (0xFF800000#32 : BitVec 32) = FKind.maximumf.neutral .f32 hφ) (p : Fin m) :
    multiReduction .maximumf [1] ⟨1, ![m]⟩ src 0xFF800000#32 h hφ hacc (ix1 p) = ⨆ k : Fin n, src (ix2 p k) := by
  refine (Ideal.multiReduction_maximumf_single_iSup src h hφ hacc (ix1 p)).trans ?_
  exact iSup_congr fun k => congrArg src (lift_row h p k)

/-- The lane sum from 0, at row p: the sum of the row's entries. -/
theorem laneSum_apply {m n : ℕ} (src : FVec Ideal ⟨2, ![m, n]⟩ .f32)
    (h : (⟨2, ![m, n]⟩ : Shape).Reduces [1] ⟨1, ![m]⟩) (hφ : FKind.Formats .f32)
    (hacc : (0x00000000#32 : BitVec 32) = FKind.add.neutral .f32 hφ) (p : Fin m) :
    multiReduction .add [1] ⟨1, ![m]⟩ src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_row h p k)

/-! ## The select on the column index -/

/-- The comparison "column index < 16" on 32 columns, as a one-bit word. -/
theorem cmpi_iota_lt16 (k : Fin 32) :
    IntOp.cmpi .slt (BitVec.ofNat 32 k.val) 16#32 = if k.val < 16 then 1#1 else 0#1 := by
  revert k; decide

/-- A select between two m×32 tables on "column index < 16", at (p, k). -/
theorem select_iota_lt16_apply {m : ℕ} (h : (⟨2, ![m, 32]⟩ : Shape).Iotas .tc 32 [1])
    (a b : (⟨2, ![m, 32]⟩ : Shape).Idx → α) (p : Fin m) (k : Fin 32) :
    select (cmpi .slt (iota .tc ⟨2, ![m, 32]⟩ 32 [1] h) (broadcast ⟨2, ![m, 32]⟩ 16#32)) a b (ix2 p k)
      = if k.val < 16 then a (ix2 p k) else b (ix2 p k) := by
  rw [select_apply]
  show Scalar.select (IntOp.cmpi .slt (iota .tc ⟨2, ![m, 32]⟩ 32 [1] h (ix2 p k)) 16#32) _ _ = _
  rw [iota_single_apply]
  show Scalar.select (IntOp.cmpi .slt (BitVec.ofNat 32 k.val) 16#32) _ _ = _
  rw [cmpi_iota_lt16]
  split
  · exact select_one _ _
  · exact select_zero _ _

end Cert.KerOps

end
-- ==== Proof.KerRow.lean ====
/-
  Groups of the kernel body's operations read at one entry, at the extended reals.

  The kernel repeats four groups of operations in every layer.  Each is read here at row p over tables of arbitrary
  extents: an affine map (a product into the zero accumulator plus a one-row bias broadcast over the rows), the same
  followed by max(·, 0), the exponential of a three-column table shifted by its row maximum, the column of the row
  sums, a quotient by a one-column table spread over the columns, and one column of a table, possibly doubled, spread
  over the columns.
-/
import proofs.«153816_j32289564131760_2_alg».proof.Proof.KerOps

noncomputable section

open scoped BigOperators

namespace Cert.KerOps

open Idealize.ShloMosaic Idealize.ShloMosaic.ValueIdx Cert.Net

/-- The three gate logits of a row: an affine map, max(·, 0), a second affine map. -/
def logits {I : ℕ} (g1w : Fin I → Fin 256 → EReal) (g1b : Fin 256 → EReal) (g2w : Fin 256 → Fin 3 → EReal)
    (g2b : Fin 3 → EReal) (v : Fin I → EReal) : Fin 3 → EReal :=
  lin (fun j => reluE (lin v g1w g1b j)) g2w g2b

/-- The gate of a row is the softmax of its logits. -/
theorem gateOf_eq {I : ℕ} (g1w : Fin I → Fin 256 → EReal) (g1b : Fin 256 → EReal) (g2w : Fin 256 → Fin 3 → EReal)
    (g2b : Fin 3 → EReal) (v : Fin I → EReal) : gateOf g1w g1b g2w g2b v = gates (logits g1w g1b g2w g2b v) := rfl

/-- Row r of a table, at column k. -/
theorem rowOf_apply {φ : FTy} {a b : ℕ} (x : FVec Ideal ⟨2, ![a, b]⟩ φ) (r : Fin a) (k : Fin b) : rowOf x r k = x (ix2 r k) := rfl

/-- The exponential, entry by entry. -/
theorem exp_apply {s : Shape} {φ : FTy} (x : FVec Ideal s φ) (i : s.Idx) : exp x i = Ideal.exp (x i) := rfl

/-- The logistic function, entry by entry. -/
theorem logistic_apply {s : Shape} {φ : FTy} (x : FVec Ideal s φ) (i : s.Idx) : logistic x i = Ideal.logistic (x i) := rfl

section Affine
variable {m k n : ℕ} {φ₁ φ₂ : FTy}

/-- A product into the zero accumulator plus a bias row, at (p, j): the affine map of row p. -/
theorem linBias_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (b : FVec Ideal ⟨2, ![1, n]⟩ .f32) (hb : (⟨2, ![1, n]⟩ : Shape).Broadcasts ⟨2, ![m, n]⟩) (p : Fin m) (j : Fin n) :
    addf (matmul (F := Ideal) (TileMatmul.plainDims w) prec A B (constant (F := Ideal) ⟨2, ![m, n]⟩ .f32 0x00000000#32))
        (broadcastTo ⟨2, ![m, n]⟩ b hb) (ix2 p j)
      = lin (rowOf A p) (mat B) (row1 b) j := by
  rw [addf_apply, matmul_dotRow, biasRow_apply]
  rfl

/-- The same with the left operand's row p given. -/
theorem linBias_row (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (b : FVec Ideal ⟨2, ![1, n]⟩ .f32) (hb : (⟨2, ![1, n]⟩ : Shape).Broadcasts ⟨2, ![m, n]⟩) (p : Fin m) (j : Fin n)
    (v : Fin k → EReal) (hA : ∀ c, A (ix2 p c) = v c) :
    addf (matmul (F := Ideal) (TileMatmul.plainDims w) prec A B (constant (F := Ideal) ⟨2, ![m, n]⟩ .f32 0x00000000#32))
        (broadcastTo ⟨2, ![m, n]⟩ b hb) (ix2 p j)
      = lin v (mat B) (row1 b) j := by
  rw [linBias_apply, show rowOf A p = v from funext hA]

/-- A product plus a bias row followed by max(·, 0), at (p, j). -/
theorem fcRelu_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (b : FVec Ideal ⟨2, ![1, n]⟩ .f32) (hb : (⟨2, ![1, n]⟩ : Shape).Broadcasts ⟨2, ![m, n]⟩) (p : Fin m) (j : Fin n) :
    maximumf (addf (matmul (F := Ideal) (TileMatmul.plainDims w) prec A B (constant (F := Ideal) ⟨2, ![m, n]⟩ .f32 0x00000000#32))
        (broadcastTo ⟨2, ![m, n]⟩ b hb)) (broadcast ⟨2, ![m, n]⟩ (Scalar.ofBits (F := Ideal) .f32 0x00000000#32)) (ix2 p j)
      = reluE (lin (rowOf A p) (mat B) (row1 b) j) := by
  rw [maximumf_apply, linBias_apply, broadcast_zero_apply]
  rfl

/-- The same with the left operand's row p given. -/
theorem fcRelu_row (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (b : FVec Ideal ⟨2, ![1, n]⟩ .f32) (hb : (⟨2, ![1, n]⟩ : Shape).Broadcasts ⟨2, ![m, n]⟩) (p : Fin m) (j : Fin n)
    (v : Fin k → EReal) (hA : ∀ c, A (ix2 p c) = v c) :
    maximumf (addf (matmul (F := Ideal) (TileMatmul.plainDims w) prec A B (constant (F := Ideal) ⟨2, ![m, n]⟩ .f32 0x00000000#32))
        (broadcastTo ⟨2, ![m, n]⟩ b hb)) (broadcast ⟨2, ![m, n]⟩ (Scalar.ofBits (F := Ideal) .f32 0x00000000#32)) (ix2 p j)
      = reluE (lin v (mat B) (row1 b) j) := by
  rw [fcRelu_apply, show rowOf A p = v from funext hA]

/-- A product into the zero accumulator, at (p, j), with the left operand's row p given. -/
theorem matmul_row (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (p : Fin m) (j : Fin n)
    (v : Fin k → EReal) (hA : ∀ c, A (ix2 p c) = v c) :
    matmul (F := Ideal) (TileMatmul.plainDims w) prec A B (constant (F := Ideal) ⟨2, ![m, n]⟩ .f32 0x00000000#32) (ix2 p j)
      = dotRow v (mat B) j := by
  rw [matmul_dotRow, show rowOf A p = v from funext hA]

end Affine

section Softmax
variable {m : ℕ}

/-- The row maximum of a three-column table, laid out as a column and spread back over the three columns. -/
theorem rowMax_apply (z : FVec Ideal ⟨2, ![m, 3]⟩ .f32) (hr : (⟨2, ![m, 3]⟩ : Shape).Reduces [1] ⟨1, ![m]⟩)
    (hφ : FKind.Formats .f32) (hacc : (0xFF800000#32 : BitVec 32) = FKind.maximumf.neutral .f32 hφ)
    (hc : (⟨1, ![m]⟩ : Shape).ShapeCasts ⟨2, ![m, 1]⟩) (p : Fin m) (u : Fin 1) :
    shapeCast ⟨2, ![m, 1]⟩ (maximumf (broadcast ⟨1, ![m]⟩ (Scalar.ofBits (F := Ideal) .f32 0xFF800000#32))
        (multiReduction .maximumf [1] ⟨1, ![m]⟩ z 0xFF800000#32 hr hφ hacc)) hc (ix2 p u)
      = gmax (rowOf z p) := by
  rw [shapeCast_a_a1_apply, maximumf_apply, broadcast_negInf_apply, laneMax_apply, max_bot_left]
  rfl

/-- exp(z − row maximum of z) at (p, j), the row p of z given. -/
theorem expShift_row (z : FVec Ideal ⟨2, ![m, 3]⟩ .f32) (hr : (⟨2, ![m, 3]⟩ : Shape).Reduces [1] ⟨1, ![m]⟩)
    (hφ : FKind.Formats .f32) (hacc : (0xFF800000#32 : BitVec 32) = FKind.maximumf.neutral .f32 hφ)
    (hc : (⟨1, ![m]⟩ : Shape).ShapeCasts ⟨2, ![m, 1]⟩) (hb : (⟨2, ![m, 1]⟩ : Shape).Broadcasts ⟨2, ![m, 3]⟩)
    (p : Fin m) (j : Fin 3) (Z : Fin 3 → EReal) (hz : ∀ k, z (ix2 p k) = Z k) :
    exp (subf z (broadcastTo ⟨2, ![m, 3]⟩ (shapeCast ⟨2, ![m, 1]⟩
        (maximumf (broadcast ⟨1, ![m]⟩ (Scalar.ofBits (F := Ideal) .f32 0xFF800000#32))
          (multiReduction .maximumf [1] ⟨1, ![m]⟩ z 0xFF800000#32 hr hφ hacc)) hc) hb)) (ix2 p j)
      = Ideal.exp (Z j - gmax Z) := by
  rw [exp_apply, subf_apply, broadcastTo_a1_ab_apply, rowMax_apply, show rowOf z p = Z from funext hz, hz]

/-- The column of the row sums of a three-column table, at (p, u). -/
theorem sumCol_apply (e : FVec Ideal ⟨2, ![m, 3]⟩ .f32) (hr : (⟨2, ![m, 3]⟩ : Shape).Reduces [1] ⟨1, ![m]⟩)
    (hφ : FKind.Formats .f32) (hacc : (0x00000000#32 : BitVec 32) = FKind.add.neutral .f32 hφ)
    (hc : (⟨1, ![m]⟩ : Shape).ShapeCasts ⟨2, ![m, 1]⟩) (p : Fin m) (u : Fin 1) :
    shapeCast ⟨2, ![m, 1]⟩ (multiReduction .add [1] ⟨1, ![m]⟩ e 0x00000000#32 hr hφ hacc) hc (ix2 p u)
      = ∑ k : Fin 3, e (ix2 p k) := by
  rw [shapeCast_a_a1_apply, laneSum_apply]

/-- A table divided by a one-column table spread over its columns, at (p, c). -/
theorem divCol_apply {n : ℕ} (e : FVec Ideal ⟨2, ![m, n]⟩ .f32) (s : FVec Ideal ⟨2, ![m, 1]⟩ .f32)
    (hb : (⟨2, ![m, 1]⟩ : Shape).Broadcasts ⟨2, ![m, n]⟩) (p : Fin m) (c : Fin n) :
    divf e (broadcastTo ⟨2, ![m, n]⟩ s hb) (ix2 p c) = Ideal.div (e (ix2 p c)) (s (ix2 p (0 : Fin 1))) := by
  rw [divf_apply, broadcastTo_a1_ab_apply]

/-- Column o of a table, cut out and spread over b columns, at (p, j). -/
theorem colOf_apply {n b : ℕ} {α : Type} (o : ℕ) (G : (⟨2, ![m, n]⟩ : Shape).Idx → α)
    (h : (⟨2, ![m, n]⟩ : Shape).Slices ![0, o] ⟨2, ![m, 1]⟩) (hb : (⟨2, ![m, 1]⟩ : Shape).Broadcasts ⟨2, ![m, b]⟩)
    (p : Fin m) (j : Fin b) (c : Fin n) (hc : c.val = o) :
    broadcastTo ⟨2, ![m, b]⟩ (extractStridedSlice ⟨2, ![m, 1]⟩ ![0, o] G h) hb (ix2 p j) = G (ix2 p c) := by
  rw [broadcastTo_a1_ab_apply, sliceCol_apply o G h p 0 c hc]

/-- Column o of a table, cut out, doubled and spread over b columns, at (p, j). -/
theorem colTwice_apply {n b : ℕ} (o : ℕ) (G : FVec Ideal ⟨2, ![m, n]⟩ .f32)
    (h : (⟨2, ![m, n]⟩ : Shape).Slices ![0, o] ⟨2, ![m, 1]⟩) (hb : (⟨2, ![m, 1]⟩ : Shape).Broadcasts ⟨2, ![m, b]⟩)
    (p : Fin m) (j : Fin b) (c : Fin n) (hc : c.val = o) :
    broadcastTo ⟨2, ![m, b]⟩ (mulf (extractStridedSlice ⟨2, ![m, 1]⟩ ![0, o] G h)
        (broadcast ⟨2, ![m, 1]⟩ (Scalar.ofBits (F := Ideal) .f32 0x40000000#32))) hb (ix2 p j)
      = G (ix2 p c) * 2 := by
  rw [broadcastTo_a1_ab_apply, mulf_apply, sliceCol_apply o G h p 0 c hc, broadcast_two_apply]

end Softmax

end Cert.KerOps

end
-- ==== Proof.KerLayer0.lean ====
/-
  The first gated layer of the kernel body, row by row, at the extended reals.

  The body's first seven named steps are read at row p: the input rows; max(affine, 0) of the first layer; the
  exponentials of the first layer's shifted gate logits and the column of their row sums; the first layer's output
  (max(affine, 0) times the first gate weight plus the packed rank-32 correction, its 32 intermediate columns scaled by
  twice the second or third gate weight); and the two products of the second layer that are formed from that output.
  Together the first five say: row p of the first layer's output is the layer's formula applied to row p of the input.
-/
import proofs.«153816_j32289564131760_2_alg».proof.Proof.Gen.KernelIdeal.Skeleton
import proofs.«153816_j32289564131760_2_alg».proof.Proof.KerRow

noncomputable section

open scoped BigOperators

namespace Cert.KernelIdeal.KerValue

open Cert.KernelIdeal Cert.KernelIdeal.Gen Cert.Net Idealize.ShloMosaic Idealize.ShloMosaic.ValueIdx Cert.KerOps

/-! ## The products of this layer at an entry -/

theorem mm_32_2048 {φ₁ φ₂ : FTy} (A : FVec Ideal S512x32 φ₁) (B : FVec Ideal S32x2048 φ₂) (p : Fin 512) (j : Fin 2048) :
    matmul (F := Ideal) dot_S512x32_S32x2048_S512x2048_1_0_0_1_n_n none A B (constant (F := Ideal) S512x2048 .f32 0x00000000#32) (ix2 p j)
      = dotRow (rowOf A p) (mat B) j :=
  matmul_dotRow dot_S512x32_S32x2048_S512x2048_1_0_0_1_n_n_wf none A B p j

theorem mm_256_32 {φ₁ φ₂ : FTy} (A : FVec Ideal S512x256 φ₁) (B : FVec Ideal S256x32 φ₂) (p : Fin 512) (j : Fin 32) :
    matmul (F := Ideal) dot_S512x256_S256x32_S512x32_1_0_0_1_n_n none A B (constant (F := Ideal) S512x32 .f32 0x00000000#32) (ix2 p j)
      = dotRow (rowOf A p) (mat B) j :=
  matmul_dotRow dot_S512x256_S256x32_S512x32_1_0_0_1_n_n_wf none A B p j

/-! ## The steps at row p -/

/-- The input rows pass through a cast to their own shape unchanged. -/
theorem k0_pay1_eq (x0 : FVec Ideal S512x256 .bf16) : k0_pay1 (F := Ideal) x0 = x0 := by
  unfold Gen.k0_pay1
  exact shapeCast_self _ _

/-- max(affine, 0) of the first layer at (p, j). -/
theorem k0_pay2_apply (x0 : FVec Ideal S512x256 .bf16) (x1 : FVec Ideal S256x2048 .bf16) (x2 : FVec Ideal S1x2048 .f32)
    (p : Fin 512) (j : Fin 2048) :
    k0_pay2 (F := Ideal) x0 x1 x2 (ix2 p j) = reluE (lin (rowOf x0 p) (mat x1) (row1 x2) j) := by
  unfold Gen.k0_pay2
  rw [k0_pay1_eq, shapeCast_self, shapeCast_self]
  exact fcRelu_apply dot_S512x256_S256x2048_S512x2048_1_0_0_1_n_n_wf none x0 x1 x2 _ p j

/-- The exponential of the first layer's gate logits, shifted by their maximum, at (p, j). -/
theorem k0_pay3_apply (x0 : FVec Ideal S512x256 .bf16) (x3 : FVec Ideal S256x256 .bf16) (x4 : FVec Ideal S1x256 .f32)
    (x5 : FVec Ideal S256x3 .bf16) (x6 : FVec Ideal S1x3 .f32) (p : Fin 512) (j : Fin 3) :
    k0_pay3 (F := Ideal) x0 x3 x4 x5 x6 (ix2 p j)
      = Ideal.exp (logits (mat x3) (row1 x4) (mat x5) (row1 x6) (rowOf x0 p) j
          - gmax (logits (mat x3) (row1 x4) (mat x5) (row1 x6) (rowOf x0 p))) := by
  unfold Gen.k0_pay3
  rw [k0_pay1_eq, shapeCast_self, shapeCast_self, shapeCast_self, shapeCast_self]
  refine expShift_row _ _ _ _ _ _ p j _ (fun k => ?_)
  refine linBias_row dot_S512x256_S256x3_S512x3_1_0_0_1_n_n_wf none _ x5 x6 _ p k _ (fun c => ?_)
  rw [truncf_apply]
  exact fcRelu_apply dot_S512x256_S256x256_S512x256_1_0_0_1_n_n_wf none x0 x3 x4 _ p c

/-- The row sums of those exponentials, at (p, u). -/
theorem k0_pay4_apply (x0 : FVec Ideal S512x256 .bf16) (x3 : FVec Ideal S256x256 .bf16) (x4 : FVec Ideal S1x256 .f32)
    (x5 : FVec Ideal S256x3 .bf16) (x6 : FVec Ideal S1x3 .f32) (p : Fin 512) (u : Fin 1) :
    k0_pay4 (F := Ideal) x0 x3 x4 x5 x6 (ix2 p u)
      = ∑ k : Fin 3, Ideal.exp (logits (mat x3) (row1 x4) (mat x5) (row1 x6) (rowOf x0 p) k
          - gmax (logits (mat x3) (row1 x4) (mat x5) (row1 x6) (rowOf x0 p))) := by
  unfold Gen.k0_pay4
  refine (sumCol_apply _ _ _ _ _ p u).trans ?_
  exact Finset.sum_congr rfl fun k _ => k0_pay3_apply x0 x3 x4 x5 x6 p k

/-- The first layer's output at (p, j), from the values it is formed from: the exponentials e and their row sums s
    give the gate weights e / s; max(affine, 0) is scaled by the first, the 32 intermediate columns of the packed
    correction by twice the second (columns below 16) or the third. -/
theorem k0_pay5_apply (v1 : FVec Ideal S512x256 .bf16) (v10 : FVec Ideal S512x2048 .f32) (v34 : FVec Ideal S512x3 .f32)
    (v36 : FVec Ideal S512x1 .f32) (x7 : FVec Ideal S256x32 .bf16) (x8 : FVec Ideal S32x2048 .bf16) (p : Fin 512) (j : Fin 2048) :
    k0_pay5 (F := Ideal) v1 v10 v34 v36 x7 x8 (ix2 p j)
      = v10 (ix2 p j) * Ideal.div (v34 (ix2 p (0 : Fin 3))) (v36 (ix2 p (0 : Fin 1)))
        + dotRow (fun k : Fin 32 => dotRow (rowOf v1 p) (mat x7) k *
            (if k.val < 16 then Ideal.div (v34 (ix2 p (1 : Fin 3))) (v36 (ix2 p (0 : Fin 1))) * 2
              else Ideal.div (v34 (ix2 p (2 : Fin 3))) (v36 (ix2 p (0 : Fin 1))) * 2)) (mat x8) j := by
  unfold Gen.k0_pay5
  rw [shapeCast_self, shapeCast_self, shapeCast_self, shapeCast_self]
  rw [truncf_apply, addf_apply, mulf_apply, mm_32_2048, colOf_apply 0 _ _ _ p j (0 : Fin 3) rfl, divCol_apply]
  refine congrArg (fun v => v10 (ix2 p j) * Ideal.div (v34 (ix2 p (0 : Fin 3))) (v36 (ix2 p (0 : Fin 1))) + dotRow v (mat x8) j)
    (funext fun k => ?_)
  rw [rowOf_apply, truncf_apply, mulf_apply, mm_256_32, select_iota_lt16_apply,
    colTwice_apply 1 _ _ _ p k (1 : Fin 3) rfl, colTwice_apply 2 _ _ _ p k (2 : Fin 3) rfl, divCol_apply, divCol_apply]

/-- Row p of the first layer's output is the layer's formula on row p of the input. -/
theorem layer0_apply (x0 : FVec Ideal S512x256 .bf16) (x1 : FVec Ideal S256x2048 .bf16) (x2 : FVec Ideal S1x2048 .f32)
    (x3 : FVec Ideal S256x256 .bf16) (x4 : FVec Ideal S1x256 .f32) (x5 : FVec Ideal S256x3 .bf16) (x6 : FVec Ideal S1x3 .f32)
    (x7 : FVec Ideal S256x32 .bf16) (x8 : FVec Ideal S32x2048 .bf16) (p : Fin 512) (j : Fin 2048) :
    k0_pay5 (F := Ideal) (k0_pay1 x0) (k0_pay2 x0 x1 x2) (k0_pay3 x0 x3 x4 x5 x6) (k0_pay4 x0 x3 x4 x5 x6) x7 x8 (ix2 p j)
      = layerK (mkLayerK x1 x2 x3 x4 x5 x6 x7 x8) (rowOf x0 p) j := by
  rw [k0_pay5_apply, k0_pay2_apply, k0_pay3_apply, k0_pay3_apply, k0_pay3_apply, k0_pay4_apply, k0_pay1_eq]
  rfl

/-- max(affine, 0) of the second layer at (p, o), from the first layer's output. -/
theorem k0_pay6_apply (v1 : FVec Ideal S512x256 .bf16) (v10 : FVec Ideal S512x2048 .f32) (v34 : FVec Ideal S512x3 .f32)
    (v36 : FVec Ideal S512x1 .f32) (x7 : FVec Ideal S256x32 .bf16) (x8 : FVec Ideal S32x2048 .bf16)
    (x9 : FVec Ideal S2048x2048 .bf16) (x10 : FVec Ideal S1x2048 .f32) (p : Fin 512) (o : Fin 2048) :
    k0_pay6 (F := Ideal) v1 v10 v34 v36 x7 x8 x9 x10 (ix2 p o)
      = reluE (lin (rowOf (k0_pay5 (F := Ideal) v1 v10 v34 v36 x7 x8) p) (mat x9) (row1 x10) o) := by
  unfold Gen.k0_pay6
  rw [shapeCast_self, shapeCast_self]
  exact fcRelu_apply dot_S512x2048_S2048x2048_S512x2048_1_0_0_1_n_n_wf none _ x9 x10 _ p o

/-- The second layer's first gate product (no bias yet) at (p, k), from the first layer's output. -/
theorem k0_pay7_apply (v1 : FVec Ideal S512x256 .bf16) (v10 : FVec Ideal S512x2048 .f32) (v34 : FVec Ideal S512x3 .f32)
    (v36 : FVec Ideal S512x1 .f32) (x7 : FVec Ideal S256x32 .bf16) (x8 : FVec Ideal S32x2048 .bf16)
    (x11 : FVec Ideal S2048x256 .bf16) (p : Fin 512) (k : Fin 256) :
    k0_pay7 (F := Ideal) v1 v10 v34 v36 x7 x8 x11 (ix2 p k)
      = dotRow (rowOf (k0_pay5 (F := Ideal) v1 v10 v34 v36 x7 x8) p) (mat x11) k := by
  unfold Gen.k0_pay7
  rw [shapeCast_self]
  exact matmul_dotRow dot_S512x2048_S2048x256_S512x256_1_0_0_1_n_n_wf none _ x11 p k

end Cert.KernelIdeal.KerValue

end
-- ==== Proof.KerLayer12.lean ====
/-
  Layer 1 of the kernel's body, read one batch row at a time at the ideal float values.

  The body's named pure steps for this layer are: the three gate weights of a row (an affine map, max(., 0), a
  second affine map into three logits, then exp(z - max z) / sum exp(z - max z)), the 32 scaled intermediate
  columns (row times the packed rank-32 factor, the columns below 16 scaled by twice the second gate weight and
  the others by twice the third), and the layer's output (the first gate weight times the activated affine map,
  plus the scaled intermediate row times the second packed factor).
-/
import proofs.«153816_j32289564131760_2_alg».proof.Proof.Gen.KernelIdeal.Skeleton
import proofs.«153816_j32289564131760_2_alg».proof.Proof.KerOps

noncomputable section

open scoped BigOperators

namespace Cert.KernelIdeal.KerValue

open Cert.KernelIdeal Cert.KernelIdeal.Gen Cert.Net Cert.KerOps Idealize.ShloMosaic Idealize.ShloMosaic.ValueIdx

namespace L1

/-- The exponential of a block, entry by entry. -/
theorem exp_apply {s : Shape} {φ : FTy} (x : FVec Ideal s φ) (i : s.Idx) : exp x i = Ideal.exp (x i) := rfl

/-- The product of a 512 x 256 block with a 256 x 3 block into zero, at (p, j). -/
theorem mm_256_3 (A : FVec Ideal S512x256 .bf16) (B : FVec Ideal S256x3 .bf16) (p : Fin 512) (j : Fin 3) :
    matmul (F := Ideal) dot_S512x256_S256x3_S512x3_1_0_0_1_n_n none A B
        (constant (F := Ideal) S512x3 .f32 0x00000000#32) (ix2 p j) = dotRow (rowOf A p) (mat B) j :=
  matmul_dotRow Facts₀.dot_S512x256_S256x3_S512x3_1_0_0_1_n_n_wf none A B p j

/-- The product of a 512 x 2048 block with a 2048 x 32 block into zero, at (p, k). -/
theorem mm_2048_32 (A : FVec Ideal S512x2048 .bf16) (B : FVec Ideal S2048x32 .bf16) (p : Fin 512) (k : Fin 32) :
    matmul (F := Ideal) dot_S512x2048_S2048x32_S512x32_1_0_0_1_n_n none A B
        (constant (F := Ideal) S512x32 .f32 0x00000000#32) (ix2 p k) = dotRow (rowOf A p) (mat B) k :=
  matmul_dotRow Facts₀.dot_S512x2048_S2048x32_S512x32_1_0_0_1_n_n_wf none A B p k

/-- The product of a 512 x 32 block with a 32 x 2048 block into zero, at (p, o). -/
theorem mm_32_2048 (A : FVec Ideal S512x32 .bf16) (B : FVec Ideal S32x2048 .bf16) (p : Fin 512) (o : Fin 2048) :
    matmul (F := Ideal) dot_S512x32_S32x2048_S512x2048_1_0_0_1_n_n none A B
        (constant (F := Ideal) S512x2048 .f32 0x00000000#32) (ix2 p o) = dotRow (rowOf A p) (mat B) o :=
  matmul_dotRow Facts₀.dot_S512x32_S32x2048_S512x2048_1_0_0_1_n_n_wf none A B p o

/-- The stabilised softmax of a 512 x 3 block of logits along its rows, as the body spells it (the row maximum from
    minus infinity, joined once more with minus infinity, kept as a column and repeated over the three columns;
    the exponentials of the differences; their row sum kept as a column and repeated; the quotient), read at
    (p, j): the gate weight j of row p's three logits. -/
theorem softmax3_apply (z : FVec Ideal S512x3 .f32) (hφ : FKind.Formats .f32)
    (hm : (0xFF800000#32 : BitVec 32) = FKind.maximumf.neutral .f32 hφ)
    (ha : (0x00000000#32 : BitVec 32) = FKind.add.neutral .f32 hφ) (p : Fin 512) (j : Fin 3) :
    divf
      (exp (subf z (broadcastTo S512x3 (shapeCast S512x1
        (maximumf (broadcast S512 (Scalar.ofBits (F := Ideal) .f32 0xFF800000#32))
          (multiReduction .maximumf [1] S512 z 0xFF800000#32 Facts₀.reduces_S512x3_S512 hφ hm))
        Facts₀.shapeCasts_S512_S512x1) Facts₀.broadcasts_S512x1_S512x3)))
      (broadcastTo S512x3 (shapeCast S512x1
        (multiReduction .add [1] S512
          (exp (subf z (broadcastTo S512x3 (shapeCast S512x1
            (maximumf (broadcast S512 (Scalar.ofBits (F := Ideal) .f32 0xFF800000#32))
              (multiReduction .maximumf [1] S512 z 0xFF800000#32 Facts₀.reduces_S512x3_S512 hφ hm))
            Facts₀.shapeCasts_S512_S512x1) Facts₀.broadcasts_S512x1_S512x3)))
          0x00000000#32 Facts₀.reduces_S512x3_S512 hφ ha)
        Facts₀.shapeCasts_S512_S512x1) Facts₀.broadcasts_S512x1_S512x3) (ix2 p j)
      = gates (fun c : Fin 3 => z (ix2 p c)) j := by
  have hM : ∀ c : Fin 3, (broadcastTo S512x3 (shapeCast S512x1
        (maximumf (broadcast S512 (Scalar.ofBits (F := Ideal) .f32 0xFF800000#32))
          (multiReduction .maximumf [1] S512 z 0xFF800000#32 Facts₀.reduces_S512x3_S512 hφ hm))
        Facts₀.shapeCasts_S512_S512x1) Facts₀.broadcasts_S512x1_S512x3 : FVec Ideal S512x3 .f32) (ix2 p c)
        = gmax (fun c : Fin 3 => z (ix2 p c)) := by
    intro c
    rw [broadcastTo_a1_ab_apply, shapeCast_a_a1_apply, maximumf_apply, broadcast_negInf_apply, max_bot_left]
    exact laneMax_apply z Facts₀.reduces_S512x3_S512 hφ hm p
  rw [divf_apply, exp_apply, subf_apply, hM, broadcastTo_a1_ab_apply, shapeCast_a_a1_apply]
  refine congrArg (Ideal.div _) ?_
  refine (laneSum_apply _ Facts₀.reduces_S512x3_S512 hφ ha p).trans ?_
  refine Finset.sum_congr rfl fun c _ => ?_
  rw [exp_apply, subf_apply, hM]

end L1

open L1

/-- Layer 1's three gate weights of row p: the softmax of the gate network's logits, the first gate map's product
    being received WITHOUT its bias (the bias row is added here). -/
theorem k0_pay8_apply (v77 : FVec Ideal S512x256 .f32) (v78 : FVec Ideal S1x256 .f32) (v85 : FVec Ideal S256x3 .bf16)
    (v88 : FVec Ideal S1x3 .f32) (p : Fin 512) (j : Fin 3) :
    k0_pay8 (F := Ideal) v77 v78 v85 v88 (ix2 p j)
      = gates (lin (fun k : Fin 256 => reluE (v77 (ix2 p k) + row1 v78 k)) (mat v85) (row1 v88)) j := by
  unfold k0_pay8
  refine (softmax3_apply _ _ _ _ p j).trans ?_
  refine congrArg (fun z => gates z j) (funext fun c => ?_)
  rw [shapeCast_self, shapeCast_self, shapeCast_self, addf_apply, mm_256_3, biasRow_apply]
  refine congrArg (· + row1 v88 c) (Finset.sum_congr rfl fun k _ => congrArg (· * mat v85 k c) ?_)
  show (truncf .bf16 _ _ : FVec Ideal S512x256 .bf16) (ix2 p k) = _
  rw [truncf_apply, maximumf_apply, addf_apply, biasRow_apply, broadcast_zero_apply]
  rfl

/-- Layer 1's 32 scaled intermediate columns of row p: the row of the layer's input times the packed rank-32
    factor, the columns below 16 scaled by twice the second gate weight, the others by twice the third. -/
theorem k0_pay9_apply (v65 : FVec Ideal S512x2048 .bf16) (v77 : FVec Ideal S512x256 .f32) (v78 : FVec Ideal S1x256 .f32)
    (v85 : FVec Ideal S256x3 .bf16) (v88 : FVec Ideal S1x3 .f32) (v103 : FVec Ideal S2048x32 .bf16)
    (p : Fin 512) (k : Fin 32) :
    k0_pay9 (F := Ideal) v65 v77 v78 v85 v88 v103 (ix2 p k)
      = dotRow (rowOf v65 p) (mat v103) k *
          (if k.val < 16 then k0_pay8 (F := Ideal) v77 v78 v85 v88 (ix2 p (1 : Fin 3)) * 2
            else k0_pay8 (F := Ideal) v77 v78 v85 v88 (ix2 p (2 : Fin 3)) * 2) := by
  unfold k0_pay9
  rw [truncf_apply, mulf_apply, shapeCast_self, shapeCast_self, shapeCast_self, mm_2048_32, select_iota_lt16_apply,
    broadcastTo_a1_ab_apply, broadcastTo_a1_ab_apply, mulf_apply, mulf_apply, broadcast_two_apply,
    sliceCol_apply 1 _ _ p 0 (1 : Fin 3) rfl, sliceCol_apply 2 _ _ p 0 (2 : Fin 3) rfl]

/-- Layer 1's output of row p: the activated affine map times the first gate weight, plus the scaled
    intermediate row times the second packed factor. -/
theorem k0_pay10_apply (v74 : FVec Ideal S512x2048 .f32) (v102 : FVec Ideal S512x3 .f32) (v121 : FVec Ideal S512x32 .bf16)
    (v122 : FVec Ideal S32x2048 .bf16) (p : Fin 512) (o : Fin 2048) :
    k0_pay10 (F := Ideal) v74 v102 v121 v122 (ix2 p o)
      = v74 (ix2 p o) * v102 (ix2 p (0 : Fin 3)) + dotRow (rowOf v121 p) (mat v122) o := by
  unfold k0_pay10
  rw [truncf_apply, addf_apply, mulf_apply, shapeCast_self, mm_32_2048, broadcastTo_a1_ab_apply,
    sliceCol_apply 0 _ _ p 0 (0 : Fin 3) rfl]

/-- Layer 1 as a whole, one row at a time. When row p of the block the layer receives is w, the activated affine
    map it receives is that of w, and the first gate map's product it receives is that of w, the layer's output
    block read at (p, o) is the kernel-arranged layer of w. -/
theorem layer1_apply (v65 : FVec Ideal S512x2048 .bf16) (v74 : FVec Ideal S512x2048 .f32) (v77 : FVec Ideal S512x256 .f32)
    (x9 : FVec Ideal S2048x2048 .bf16) (x10 : FVec Ideal S1x2048 .f32) (x11 : FVec Ideal S2048x256 .bf16)
    (x12 : FVec Ideal S1x256 .f32) (x13 : FVec Ideal S256x3 .bf16) (x14 : FVec Ideal S1x3 .f32)
    (x15 : FVec Ideal S2048x32 .bf16) (x16 : FVec Ideal S32x2048 .bf16)
    (p : Fin 512) (w : Fin 2048 → EReal) (h65 : rowOf v65 p = w)
    (h74 : ∀ o : Fin 2048, v74 (ix2 p o) = reluE (lin w (mat x9) (row1 x10) o))
    (h77 : ∀ k : Fin 256, v77 (ix2 p k) = dotRow w (mat x11) k) (o : Fin 2048) :
    k0_pay10 (F := Ideal) v74 (k0_pay8 (F := Ideal) v77 x12 x13 x14)
        (k0_pay9 (F := Ideal) v65 v77 x12 x13 x14 x15) x16 (ix2 p o)
      = layerK (mkLayerK x9 x10 x11 x12 x13 x14 x15 x16) w o := by
  have hg : ∀ c : Fin 3, k0_pay8 (F := Ideal) v77 x12 x13 x14 (ix2 p c)
      = gateOf (mat x11) (row1 x12) (mat x13) (row1 x14) w c := by
    intro c
    rw [k0_pay8_apply]
    simp only [h77]
    rfl
  have h9 : rowOf (k0_pay9 (F := Ideal) v65 v77 x12 x13 x14 x15) p
      = fun k : Fin 32 => dotRow w (mat x15) k *
          (if k.val < 16 then gateOf (mat x11) (row1 x12) (mat x13) (row1 x14) w 1 * 2
            else gateOf (mat x11) (row1 x12) (mat x13) (row1 x14) w 2 * 2) := by
    funext k
    show k0_pay9 (F := Ideal) v65 v77 x12 x13 x14 x15 (ix2 p k) = _
    rw [k0_pay9_apply, hg, hg, h65]
  rw [k0_pay10_apply, h74, hg, h9]
  rfl

end Cert.KernelIdeal.KerValue

end
-- ==== Proof.KerLayer2.lean ====
/-
  The last gated layer and the final score, as the kernel body computes them, read at one row.

  The body's last four named steps are: the third layer's affine map followed by max(·, 0); the three logits of
  its gate; the largest of the three logits; and, from these, the softmax gate, the packed rank-16 correction
  scaled by the gates, the layer's output, the final affine map and the logistic function.  Each is read here at
  row p as the corresponding expression of the specification in the entries of row p of its inputs, and the four
  are then assembled into the specification's last layer followed by its score.
-/
import proofs.«153816_j32289564131760_2_alg».proof.Proof.Gen.KernelIdeal.Skeleton
import proofs.«153816_j32289564131760_2_alg».proof.Proof.KerOps

noncomputable section

open scoped BigOperators

namespace Cert.KernelIdeal.KerValue

open Cert.KernelIdeal Cert.KernelIdeal.Gen Cert.Net Cert.KerOps Idealize.ShloMosaic Idealize.ShloMosaic.ValueIdx

namespace Tail

/-- The exponential at an index. -/
theorem exp_apply {s : Shape} {φ : FTy} (a : FVec Ideal s φ) (i : s.Idx) : exp a i = Ideal.exp (a i) := rfl

/-- The logistic function at an index. -/
theorem logistic_apply {s : Shape} {φ : FTy} (a : FVec Ideal s φ) (i : s.Idx) :
    logistic a i = Ideal.logistic (a i) := rfl

/-! The body's six matrix products of this part, each into the zero accumulator, at (p, j). -/

theorem mm_2048_1024 (A : FVec Ideal S512x2048 .bf16) (B : FVec Ideal S2048x1024 .bf16) (p : Fin 512) (j : Fin 1024) :
    matmul (F := Ideal) dot_S512x2048_S2048x1024_S512x1024_1_0_0_1_n_n none A B
        (constant (F := Ideal) S512x1024 .f32 0x00000000#32) (ix2 p j) = dotRow (rowOf A p) (mat B) j :=
  matmul_dotRow dot_S512x2048_S2048x1024_S512x1024_1_0_0_1_n_n_wf none A B p j

theorem mm_2048_256 (A : FVec Ideal S512x2048 .bf16) (B : FVec Ideal S2048x256 .bf16) (p : Fin 512) (j : Fin 256) :
    matmul (F := Ideal) dot_S512x2048_S2048x256_S512x256_1_0_0_1_n_n none A B
        (constant (F := Ideal) S512x256 .f32 0x00000000#32) (ix2 p j) = dotRow (rowOf A p) (mat B) j :=
  matmul_dotRow dot_S512x2048_S2048x256_S512x256_1_0_0_1_n_n_wf none A B p j

theorem mm_256_3 (A : FVec Ideal S512x256 .bf16) (B : FVec Ideal S256x3 .bf16) (p : Fin 512) (j : Fin 3) :
    matmul (F := Ideal) dot_S512x256_S256x3_S512x3_1_0_0_1_n_n none A B
        (constant (F := Ideal) S512x3 .f32 0x00000000#32) (ix2 p j) = dotRow (rowOf A p) (mat B) j :=
  matmul_dotRow dot_S512x256_S256x3_S512x3_1_0_0_1_n_n_wf none A B p j

theorem mm_2048_32 (A : FVec Ideal S512x2048 .bf16) (B : FVec Ideal S2048x32 .bf16) (p : Fin 512) (j : Fin 32) :
    matmul (F := Ideal) dot_S512x2048_S2048x32_S512x32_1_0_0_1_n_n none A B
        (constant (F := Ideal) S512x32 .f32 0x00000000#32) (ix2 p j) = dotRow (rowOf A p) (mat B) j :=
  matmul_dotRow dot_S512x2048_S2048x32_S512x32_1_0_0_1_n_n_wf none A B p j

theorem mm_32_1024 (A : FVec Ideal S512x32 .bf16) (B : FVec Ideal S32x1024 .bf16) (p : Fin 512) (j : Fin 1024) :
    matmul (F := Ideal) dot_S512x32_S32x1024_S512x1024_1_0_0_1_n_n none A B
        (constant (F := Ideal) S512x1024 .f32 0x00000000#32) (ix2 p j) = dotRow (rowOf A p) (mat B) j :=
  matmul_dotRow dot_S512x32_S32x1024_S512x1024_1_0_0_1_n_n_wf none A B p j

theorem mm_1024_1 (A : FVec Ideal S512x1024 .bf16) (B : FVec Ideal S1024x1 .bf16) (p : Fin 512) (j : Fin 1) :
    matmul (F := Ideal) dot_S512x1024_S1024x1_S512x1_1_0_0_1_n_n none A B
        (constant (F := Ideal) S512x1 .f32 0x00000000#32) (ix2 p j) = dotRow (rowOf A p) (mat B) j :=
  matmul_dotRow dot_S512x1024_S1024x1_S512x1_1_0_0_1_n_n_wf none A B p j

/-- The final score with its sum written as a product of a row with a one-column matrix. -/
theorem score_eq {I : ℕ} (v : Fin I → EReal) (w : Fin I → Fin 1 → EReal) (b : EReal) :
    score v w b = Ideal.logistic (dotRow v w 0 + b) := rfl

/-- A product of a row with a matrix depends on the row's entries only. -/
theorem dotRow_congr {I O : ℕ} {v v' : Fin I → EReal} (w : Fin I → Fin O → EReal) (o : Fin O)
    (h : ∀ k, v k = v' k) : dotRow v w o = dotRow v' w o := by
  rw [funext h]

/-- The softmax of row p of a table of three logits, given the column of the rows' largest logits. -/
def gate (z : FVec Ideal S512x3 .f32) (m : FVec Ideal S512x1 .f32) (p : Fin 512) (c : Fin 3) : EReal :=
  Ideal.div (Ideal.exp (z (ix2 p c) - m (ix2 p (0 : Fin 1))))
    (∑ k : Fin 3, Ideal.exp (z (ix2 p k) - m (ix2 p (0 : Fin 1))))

/-- The body's gate table (exp(z − m) divided by the column of its lane sums), at (p, c). -/
theorem gate_apply (z : FVec Ideal S512x3 .f32) (m : FVec Ideal S512x1 .f32) (p : Fin 512) (c : Fin 3) :
    (divf (exp (subf z (broadcastTo S512x3 m broadcasts_S512x1_S512x3)))
        (broadcastTo S512x3
          (shapeCast S512x1
            (multiReduction (F := Ideal) .add [1] S512 (exp (subf z (broadcastTo S512x3 m broadcasts_S512x1_S512x3)))
              0x00000000#32 reduces_S512x3_S512 (.inl rfl) rfl)
            shapeCasts_S512_S512x1)
          broadcasts_S512x1_S512x3) : FVec Ideal S512x3 .f32) (ix2 p c)
      = gate z m p c := by
  rw [divf_apply, exp_apply, subf_apply, broadcastTo_a1_ab_apply, broadcastTo_a1_ab_apply, shapeCast_a_a1_apply]
  unfold gate
  refine congrArg (Ideal.div _) ?_
  refine (laneSum_apply _ _ _ _ p).trans ?_
  refine Finset.sum_congr rfl (fun k _ => ?_)
  rw [exp_apply, subf_apply, broadcastTo_a1_ab_apply]

end Tail

/-- The third layer's affine map followed by max(·, 0), at (p, o). -/
theorem k0_pay11_apply (v74 : FVec Ideal S512x2048 .f32) (v102 : FVec Ideal S512x3 .f32)
    (v121 : FVec Ideal S512x32 .bf16) (v122 : FVec Ideal S32x2048 .bf16) (v130 : FVec Ideal S2048x1024 .bf16)
    (v133 : FVec Ideal S1x1024 .f32) (p : Fin 512) (o : Fin 1024) :
    k0_pay11 (F := Ideal) v74 v102 v121 v122 v130 v133 (ix2 p o)
      = reluE (lin (rowOf (k0_pay10 (F := Ideal) v74 v102 v121 v122) p) (mat v130) (row1 v133) o) := by
  unfold Gen.k0_pay11
  rw [maximumf_apply, addf_apply, shapeCast_self, shapeCast_self, Tail.mm_2048_1024, biasRow_apply,
    broadcast_zero_apply]
  rfl

/-- The three logits of the third layer's gate, at (p, j). -/
theorem k0_pay12_apply (v74 : FVec Ideal S512x2048 .f32) (v102 : FVec Ideal S512x3 .f32)
    (v121 : FVec Ideal S512x32 .bf16) (v122 : FVec Ideal S32x2048 .bf16) (v139 : FVec Ideal S2048x256 .bf16)
    (v142 : FVec Ideal S1x256 .f32) (v149 : FVec Ideal S256x3 .bf16) (v152 : FVec Ideal S1x3 .f32)
    (p : Fin 512) (j : Fin 3) :
    k0_pay12 (F := Ideal) v74 v102 v121 v122 v139 v142 v149 v152 (ix2 p j)
      = lin (fun k : Fin 256 =>
            reluE (lin (rowOf (k0_pay10 (F := Ideal) v74 v102 v121 v122) p) (mat v139) (row1 v142) k))
          (mat v149) (row1 v152) j := by
  unfold Gen.k0_pay12
  rw [addf_apply, shapeCast_self, shapeCast_self, shapeCast_self, shapeCast_self, Tail.mm_256_3, biasRow_apply]
  unfold lin dotRow
  congr 1
  refine Finset.sum_congr rfl (fun k _ => ?_)
  congr 1
  rw [rowOf, truncf_apply, maximumf_apply, addf_apply, Tail.mm_2048_256, biasRow_apply, broadcast_zero_apply]
  rfl

/-- The largest of the three logits, at (p, u). -/
theorem k0_pay13_apply (v74 : FVec Ideal S512x2048 .f32) (v102 : FVec Ideal S512x3 .f32)
    (v121 : FVec Ideal S512x32 .bf16) (v122 : FVec Ideal S32x2048 .bf16) (v139 : FVec Ideal S2048x256 .bf16)
    (v142 : FVec Ideal S1x256 .f32) (v149 : FVec Ideal S256x3 .bf16) (v152 : FVec Ideal S1x3 .f32)
    (p : Fin 512) (u : Fin 1) :
    k0_pay13 (F := Ideal) v74 v102 v121 v122 v139 v142 v149 v152 (ix2 p u)
      = gmax (fun j : Fin 3 => k0_pay12 (F := Ideal) v74 v102 v121 v122 v139 v142 v149 v152 (ix2 p j)) := by
  unfold Gen.k0_pay13
  rw [shapeCast_a_a1_apply, maximumf_apply, broadcast_negInf_apply]
  refine (max_bot_left _).trans ?_
  exact laneMax_apply _ _ _ _ p

/-- The softmax gate, the gated layer output, the final affine map and the logistic function, at (p, u). -/
theorem k0_pay14_apply (v129 : FVec Ideal S512x2048 .bf16) (v138 : FVec Ideal S512x1024 .f32)
    (v155 : FVec Ideal S512x3 .f32) (v159 : FVec Ideal S512x1 .f32) (v167 : FVec Ideal S2048x32 .bf16)
    (v186 : FVec Ideal S32x1024 .bf16) (v194 : FVec Ideal S1024x1 .bf16) (v197 : FVec Ideal S1x1 .f32)
    (p : Fin 512) (u : Fin 1) :
    k0_pay14 (F := Ideal) v129 v138 v155 v159 v167 v186 v194 v197 (ix2 p u)
      = score (fun o : Fin 1024 =>
            v138 (ix2 p o) * Tail.gate v155 v159 p 0
              + dotRow (fun k : Fin 32 => dotRow (rowOf v129 p) (mat v167) k *
                  (if k.val < 16 then Tail.gate v155 v159 p 1 * 2 else Tail.gate v155 v159 p 2 * 2)) (mat v186) o)
          (mat v194) (v197 (ix2 (0 : Fin 1) (0 : Fin 1))) := by
  obtain rfl : u = 0 := Subsingleton.elim u 0
  unfold Gen.k0_pay14
  rw [shapeCast_self, shapeCast_self, shapeCast_self, shapeCast_self, shapeCast_self, shapeCast_self]
  rw [Tail.logistic_apply, addf_apply, Tail.mm_1024_1, biasRow_apply, Tail.score_eq]
  refine congrArg Ideal.logistic (congrArg₂ (· + ·) (Tail.dotRow_congr _ _ (fun o => ?_)) rfl)
  rw [rowOf, truncf_apply, addf_apply, mulf_apply, broadcastTo_a1_ab_apply,
    sliceCol_apply 0 _ _ p 0 (0 : Fin 3) rfl, Tail.mm_32_1024]
  refine congrArg₂ (· + ·) (congrArg (v138 (ix2 p o) * ·) (Tail.gate_apply v155 v159 p 0))
    (Tail.dotRow_congr _ _ (fun k => ?_))
  rw [rowOf, truncf_apply, mulf_apply, Tail.mm_2048_32, select_iota_lt16_apply, broadcastTo_a1_ab_apply,
    broadcastTo_a1_ab_apply, mulf_apply, mulf_apply, sliceCol_apply 1 _ _ p 0 (1 : Fin 3) rfl,
    sliceCol_apply 2 _ _ p 0 (2 : Fin 3) rfl, broadcast_two_apply]
  exact congrArg₂ (fun a b => dotRow (rowOf v129 p) (mat v167) k * (if k.val < 16 then a * 2 else b * 2))
    (Tail.gate_apply v155 v159 p 1) (Tail.gate_apply v155 v159 p 2)

/-- The body's last part at row p: when row p of the third layer's input is w, the stored entry is the
    specification's score of the third layer (in the kernel's arrangement) applied to w. -/
theorem tail_apply (v74 : FVec Ideal S512x2048 .f32) (v102 : FVec Ideal S512x3 .f32) (v121 : FVec Ideal S512x32 .bf16)
    (x16 : FVec Ideal S32x2048 .bf16) (x17 : FVec Ideal S2048x1024 .bf16) (x18 : FVec Ideal S1x1024 .f32)
    (x19 : FVec Ideal S2048x256 .bf16) (x20 : FVec Ideal S1x256 .f32) (x21 : FVec Ideal S256x3 .bf16)
    (x22 : FVec Ideal S1x3 .f32) (x23 : FVec Ideal S2048x32 .bf16) (x24 : FVec Ideal S32x1024 .bf16)
    (x25 : FVec Ideal S1024x1 .bf16) (x26 : FVec Ideal S1x1 .f32) (p : Fin 512) (w : Fin 2048 → EReal)
    (h : rowOf (k0_pay10 (F := Ideal) v74 v102 v121 x16) p = w) :
    k0_pay14 (F := Ideal) (k0_pay10 v74 v102 v121 x16) (k0_pay11 v74 v102 v121 x16 x17 x18)
        (k0_pay12 v74 v102 v121 x16 x19 x20 x21 x22) (k0_pay13 v74 v102 v121 x16 x19 x20 x21 x22)
        x23 x24 x25 x26 (ix2 p (0 : Fin 1))
      = score (layerK (mkLayerK x17 x18 x19 x20 x21 x22 x23 x24) w) (mat x25)
          (x26 (ix2 (0 : Fin 1) (0 : Fin 1))) := by
  have hg : ∀ c : Fin 3,
      Tail.gate (k0_pay12 (F := Ideal) v74 v102 v121 x16 x19 x20 x21 x22)
          (k0_pay13 (F := Ideal) v74 v102 v121 x16 x19 x20 x21 x22) p c
        = gateOf (mat x19) (row1 x20) (mat x21) (row1 x22) w c := by
    intro c
    simp only [Tail.gate, k0_pay13_apply, k0_pay12_apply, h]
    rfl
  rw [k0_pay14_apply]
  refine congrArg (fun r => score r (mat x25) (x26 (ix2 (0 : Fin 1) (0 : Fin 1)))) (funext fun o => ?_)
  show _ = reluE (lin w (mat x17) (row1 x18) o) * gateOf (mat x19) (row1 x20) (mat x21) (row1 x22) w 0
      + dotRow (fun k : Fin 32 => dotRow w (mat x23) k *
          (if k.val < 16 then gateOf (mat x19) (row1 x20) (mat x21) (row1 x22) w 1 * 2
            else gateOf (mat x19) (row1 x20) (mat x21) (row1 x22) w 2 * 2)) (mat x24) o
  rw [k0_pay11_apply, hg 0, hg 1, hg 2, h]

end Cert.KernelIdeal.KerValue

end
-- ==== Proof.KerValue.lean ====
/-
  The value the kernel body stores, row by row, at the extended reals: entry p of the stored column is the network
  applied to row p of the input block.  The three layers' row formulas and the final score are chained in program order.
-/
import proofs.«153816_j32289564131760_2_alg».proof.Proof.BodyVal
import proofs.«153816_j32289564131760_2_alg».proof.Proof.KerLayer0
import proofs.«153816_j32289564131760_2_alg».proof.Proof.KerLayer12
import proofs.«153816_j32289564131760_2_alg».proof.Proof.KerLayer2

noncomputable section

namespace Cert.KernelIdeal.KerValue

open Cert.KernelIdeal Cert.KernelIdeal.Gen Cert.Net Idealize.ShloMosaic Idealize.ShloMosaic.ValueIdx

/-- Entry p of the stored column is the network's value on row p of the input block. -/
theorem bodyVal_apply (x0 : FVec Ideal S512x256 .bf16)
    (x1 : FVec Ideal S256x2048 .bf16) (x2 : FVec Ideal S1x2048 .f32) (x3 : FVec Ideal S256x256 .bf16) (x4 : FVec Ideal S1x256 .f32)
    (x5 : FVec Ideal S256x3 .bf16) (x6 : FVec Ideal S1x3 .f32) (x7 : FVec Ideal S256x32 .bf16) (x8 : FVec Ideal S32x2048 .bf16)
    (x9 : FVec Ideal S2048x2048 .bf16) (x10 : FVec Ideal S1x2048 .f32) (x11 : FVec Ideal S2048x256 .bf16) (x12 : FVec Ideal S1x256 .f32)
    (x13 : FVec Ideal S256x3 .bf16) (x14 : FVec Ideal S1x3 .f32) (x15 : FVec Ideal S2048x32 .bf16) (x16 : FVec Ideal S32x2048 .bf16)
    (x17 : FVec Ideal S2048x1024 .bf16) (x18 : FVec Ideal S1x1024 .f32) (x19 : FVec Ideal S2048x256 .bf16) (x20 : FVec Ideal S1x256 .f32)
    (x21 : FVec Ideal S256x3 .bf16) (x22 : FVec Ideal S1x3 .f32) (x23 : FVec Ideal S2048x32 .bf16) (x24 : FVec Ideal S32x1024 .bf16)
    (x25 : FVec Ideal S1024x1 .bf16) (x26 : FVec Ideal S1x1 .f32) (p : Fin 512) :
    bodyVal (F := Ideal) x0 x1 x2 x3 x4 x5 x6 x7 x8 x9 x10 x11 x12 x13 x14 x15 x16 x17 x18 x19 x20 x21 x22 x23 x24 x25 x26 (ix2 p (0 : Fin 1))
      = netK (mkLayerK x1 x2 x3 x4 x5 x6 x7 x8) (mkLayerK x9 x10 x11 x12 x13 x14 x15 x16) (mkLayerK x17 x18 x19 x20 x21 x22 x23 x24) (mat x25)
          (x26 (ix2 (0 : Fin 1) (0 : Fin 1))) (rowOf x0 p) := by
  -- row p of the first layer's output
  have h0 : rowOf (k0_pay5 (F := Ideal) (k0_pay1 x0) (k0_pay2 x0 x1 x2) (k0_pay3 x0 x3 x4 x5 x6) (k0_pay4 x0 x3 x4 x5 x6) x7 x8) p
      = layerK (mkLayerK x1 x2 x3 x4 x5 x6 x7 x8) (rowOf x0 p) :=
    funext fun j => layer0_apply x0 x1 x2 x3 x4 x5 x6 x7 x8 p j
  -- row p of the second layer's output
  have h1 : rowOf (k0_pay10 (F := Ideal)
        (k0_pay6 (k0_pay1 x0) (k0_pay2 x0 x1 x2) (k0_pay3 x0 x3 x4 x5 x6) (k0_pay4 x0 x3 x4 x5 x6) x7 x8 x9 x10)
        (k0_pay8 (k0_pay7 (k0_pay1 x0) (k0_pay2 x0 x1 x2) (k0_pay3 x0 x3 x4 x5 x6) (k0_pay4 x0 x3 x4 x5 x6) x7 x8 x11) x12 x13 x14)
        (k0_pay9 (k0_pay5 (k0_pay1 x0) (k0_pay2 x0 x1 x2) (k0_pay3 x0 x3 x4 x5 x6) (k0_pay4 x0 x3 x4 x5 x6) x7 x8)
          (k0_pay7 (k0_pay1 x0) (k0_pay2 x0 x1 x2) (k0_pay3 x0 x3 x4 x5 x6) (k0_pay4 x0 x3 x4 x5 x6) x7 x8 x11) x12 x13 x14 x15)
        x16) p
      = layerK (mkLayerK x9 x10 x11 x12 x13 x14 x15 x16) (layerK (mkLayerK x1 x2 x3 x4 x5 x6 x7 x8) (rowOf x0 p)) :=
    funext fun o => layer1_apply _ _ _ x9 x10 x11 x12 x13 x14 x15 x16 p _ h0
      (fun o => by rw [k0_pay6_apply, h0]) (fun k => by rw [k0_pay7_apply, h0]) o
  unfold bodyVal
  exact tail_apply _ _ _ x16 x17 x18 x19 x20 x21 x22 x23 x24 x25 x26 p _ h1

end Cert.KernelIdeal.KerValue

end
-- ==== Proof.KerFinal.lean ====
import proofs.«153816_j32289564131760_2_alg».proof.Proof.FrameIdeal
import proofs.«153816_j32289564131760_2_alg».proof.Proof.NetArgs
import Idealize.ShloMosaic.Lib.Pipeline.Value

set_option maxRecDepth 16384

noncomputable section

namespace Cert.KernelIdeal.KerFinal

open Cert.KernelIdeal Cert.KernelIdeal.Gen Cert.KernelIdeal.HFrame Cert.KernelIdeal.KerValue Cert.Net
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-!
  From the blocks to the array. The pipeline runs the body at 32 grid points; at point t the input rows' window holds
  rows 512·t … 512·t + 511 of its array, every weight window holds its whole array, and the output window's block of
  512 rows is written back to rows 512·t … of the output array. The body's stored block is, row by row, the network
  of the loaded input row (the hypothesis `BodyValIsNet`), so point t writes back rows 512·t … of ONE function `G` of the
  27 staged arrays — row i of `G` is the network of row i of the input array — and the 32 blocks cover all 16384 rows:
  the output array ends holding `G`.
-/

theorem hz : (![0, 0] : Fin 2 → Nat) = fun _ => 0 := funext fun a => by fin_cases a <;> rfl

/-- The first coordinate of an index of the [16384, 1] output array is a row number. -/
theorem idx2_lt0 (i : S16384x1.Idx) : (i 0).val < 16384 := (i 0).isLt

/-- The output array as ONE function of the 27 staged arrays: row i is the network of row i of the input array. -/
def G (A0 : S16384x256.Idx → EReal) (A1 : S256x2048.Idx → EReal) (A2 : S1x2048.Idx → EReal) (A3 : S256x256.Idx → EReal) (A4 : S1x256.Idx → EReal) (A5 : S256x3.Idx → EReal) (A6 : S1x3.Idx → EReal) (A7 : S256x32.Idx → EReal) (A8 : S32x2048.Idx → EReal) (A9 : S2048x2048.Idx → EReal) (A10 : S1x2048.Idx → EReal) (A11 : S2048x256.Idx → EReal) (A12 : S1x256.Idx → EReal) (A13 : S256x3.Idx → EReal) (A14 : S1x3.Idx → EReal) (A15 : S2048x32.Idx → EReal) (A16 : S32x2048.Idx → EReal) (A17 : S2048x1024.Idx → EReal) (A18 : S1x1024.Idx → EReal) (A19 : S2048x256.Idx → EReal) (A20 : S1x256.Idx → EReal) (A21 : S256x3.Idx → EReal) (A22 : S1x3.Idx → EReal) (A23 : S2048x32.Idx → EReal) (A24 : S32x1024.Idx → EReal) (A25 : S1024x1.Idx → EReal) (A26 : S1x1.Idx → EReal) : S16384x1.Idx → EReal :=
  fun i => netK (mkLayerK (I := 256) (O := 2048) A1 A2 A3 A4 A5 A6 A7 A8) (mkLayerK (I := 2048) (O := 2048) A9 A10 A11 A12 A13 A14 A15 A16) (mkLayerK (I := 2048) (O := 1024) A17 A18 A19 A20 A21 A22 A23 A24) (mat (φ := .bf16) (a := 1024) (b := 1) A25) (A26 (ix2 (0 : Fin 1) (0 : Fin 1))) (rowOf (φ := .bf16) (a := 16384) (b := 256) A0 ⟨(i 0).val, idx2_lt0 i⟩)

/-- What is assumed of the body's stored block: row p of it is the network of row p of the loaded input block. -/
abbrev BodyValIsNet : Prop :=
  ∀ (x0 : FVec Ideal S512x256 .bf16) (x1 : FVec Ideal S256x2048 .bf16) (x2 : FVec Ideal S1x2048 .f32) (x3 : FVec Ideal S256x256 .bf16) (x4 : FVec Ideal S1x256 .f32) (x5 : FVec Ideal S256x3 .bf16) (x6 : FVec Ideal S1x3 .f32) (x7 : FVec Ideal S256x32 .bf16) (x8 : FVec Ideal S32x2048 .bf16) (x9 : FVec Ideal S2048x2048 .bf16) (x10 : FVec Ideal S1x2048 .f32) (x11 : FVec Ideal S2048x256 .bf16) (x12 : FVec Ideal S1x256 .f32) (x13 : FVec Ideal S256x3 .bf16) (x14 : FVec Ideal S1x3 .f32) (x15 : FVec Ideal S2048x32 .bf16) (x16 : FVec Ideal S32x2048 .bf16) (x17 : FVec Ideal S2048x1024 .bf16) (x18 : FVec Ideal S1x1024 .f32) (x19 : FVec Ideal S2048x256 .bf16) (x20 : FVec Ideal S1x256 .f32) (x21 : FVec Ideal S256x3 .bf16) (x22 : FVec Ideal S1x3 .f32) (x23 : FVec Ideal S2048x32 .bf16) (x24 : FVec Ideal S32x1024 .bf16) (x25 : FVec Ideal S1024x1 .bf16) (x26 : FVec Ideal S1x1 .f32) (p : Fin 512),
    bodyVal (F := Ideal) x0 x1 x2 x3 x4 x5 x6 x7 x8 x9 x10 x11 x12 x13 x14 x15 x16 x17 x18 x19 x20 x21 x22 x23 x24 x25 x26 (ix2 p (0 : Fin 1))
      = netK (mkLayerK (I := 256) (O := 2048) x1 x2 x3 x4 x5 x6 x7 x8) (mkLayerK (I := 2048) (O := 2048) x9 x10 x11 x12 x13 x14 x15 x16) (mkLayerK (I := 2048) (O := 1024) x17 x18 x19 x20 x21 x22 x23 x24) (mat (φ := .bf16) (a := 1024) (b := 1) x25) (x26 (ix2 (0 : Fin 1) (0 : Fin 1))) (rowOf (φ := .bf16) (a := 512) (b := 256) x0 p)

/-- ONE POINT, over variable arrays: if the loaded input block x0 is rows 512·t … of the array A0, then row p of the
    body's stored block is row 512·t + p of `G`. -/
theorem point_eq (hBV : BodyValIsNet) (A0 : S16384x256.Idx → EReal) (A1 : S256x2048.Idx → EReal) (A2 : S1x2048.Idx → EReal) (A3 : S256x256.Idx → EReal) (A4 : S1x256.Idx → EReal) (A5 : S256x3.Idx → EReal) (A6 : S1x3.Idx → EReal) (A7 : S256x32.Idx → EReal) (A8 : S32x2048.Idx → EReal) (A9 : S2048x2048.Idx → EReal) (A10 : S1x2048.Idx → EReal) (A11 : S2048x256.Idx → EReal) (A12 : S1x256.Idx → EReal) (A13 : S256x3.Idx → EReal) (A14 : S1x3.Idx → EReal) (A15 : S2048x32.Idx → EReal) (A16 : S32x2048.Idx → EReal) (A17 : S2048x1024.Idx → EReal) (A18 : S1x1024.Idx → EReal) (A19 : S2048x256.Idx → EReal) (A20 : S1x256.Idx → EReal) (A21 : S256x3.Idx → EReal) (A22 : S1x3.Idx → EReal) (A23 : S2048x32.Idx → EReal) (A24 : S32x1024.Idx → EReal) (A25 : S1024x1.Idx → EReal) (A26 : S1x1.Idx → EReal) (x0 : S512x256.Idx → EReal) (t : ℕ) (p : Fin 512)
    (i : S16384x1.Idx) (hi : (i 0).val = t * 512 + p.val)
    (hx0 : ∀ (q : Fin 256) (k : S16384x256.Idx), (k 0).val = t * 512 + p.val → (k 1).val = q.val → x0 (ix2 p q) = A0 k) :
    bodyVal (F := Ideal) x0 A1 A2 A3 A4 A5 A6 A7 A8 A9 A10 A11 A12 A13 A14 A15 A16 A17 A18 A19 A20 A21 A22 A23 A24 A25 A26 (ix2 p (0 : Fin 1)) = G A0 A1 A2 A3 A4 A5 A6 A7 A8 A9 A10 A11 A12 A13 A14 A15 A16 A17 A18 A19 A20 A21 A22 A23 A24 A25 A26 i := by
  have hrow : rowOf (φ := .bf16) (a := 512) (b := 256) x0 p = rowOf (φ := .bf16) (a := 16384) (b := 256) A0 ⟨(i 0).val, idx2_lt0 i⟩ := by
    funext q
    exact hx0 q (ix2 ⟨(i 0).val, idx2_lt0 i⟩ q) hi rfl
  rw [hBV, hrow]
  rfl

/-- The output window's buffer after the body is the body's stored block: its one store covers the buffer, and each
    load reads a whole block. -/
theorem out_eq (x0 : Vec Ideal S512x256 .bf16) (x1 : Vec Ideal S256x2048 .bf16) (x2 : Vec Ideal S1x2048 .f32) (x3 : Vec Ideal S256x256 .bf16) (x4 : Vec Ideal S1x256 .f32) (x5 : Vec Ideal S256x3 .bf16) (x6 : Vec Ideal S1x3 .f32) (x7 : Vec Ideal S256x32 .bf16) (x8 : Vec Ideal S32x2048 .bf16) (x9 : Vec Ideal S2048x2048 .bf16) (x10 : Vec Ideal S1x2048 .f32) (x11 : Vec Ideal S2048x256 .bf16) (x12 : Vec Ideal S1x256 .f32) (x13 : Vec Ideal S256x3 .bf16) (x14 : Vec Ideal S1x3 .f32) (x15 : Vec Ideal S2048x32 .bf16) (x16 : Vec Ideal S32x2048 .bf16) (x17 : Vec Ideal S2048x1024 .bf16) (x18 : Vec Ideal S1x1024 .f32) (x19 : Vec Ideal S2048x256 .bf16) (x20 : Vec Ideal S1x256 .f32) (x21 : Vec Ideal S256x3 .bf16) (x22 : Vec Ideal S1x3 .f32) (x23 : Vec Ideal S2048x32 .bf16) (x24 : Vec Ideal S32x1024 .bf16) (x25 : Vec Ideal S1024x1 .bf16) (x26 : Vec Ideal S1x1 .f32) :
    out0_27 (F := Ideal) x0 x1 x2 x3 x4 x5 x6 x7 x8 x9 x10 x11 x12 x13 x14 x15 x16 x17 x18 x19 x20 x21 x22 x23 x24 x25 x26 = bodyVal (F := Ideal) x0 x1 x2 x3 x4 x5 x6 x7 x8 x9 x10 x11 x12 x13 x14 x15 x16 x17 x18 x19 x20 x21 x22 x23 x24 x25 x26 := by
  unfold out0_27
  rw [View.canon_unit_zero hz]
  simp only [View.ld_unit_zero (S := S512x256) hz, View.ld_unit_zero (S := S256x2048) hz, View.ld_unit_zero (S := S1x2048) hz, View.ld_unit_zero (S := S256x256) hz, View.ld_unit_zero (S := S1x256) hz, View.ld_unit_zero (S := S256x3) hz, View.ld_unit_zero (S := S1x3) hz, View.ld_unit_zero (S := S256x32) hz, View.ld_unit_zero (S := S32x2048) hz, View.ld_unit_zero (S := S2048x2048) hz, View.ld_unit_zero (S := S2048x256) hz, View.ld_unit_zero (S := S2048x32) hz, View.ld_unit_zero (S := S2048x1024) hz, View.ld_unit_zero (S := S1x1024) hz, View.ld_unit_zero (S := S32x1024) hz, View.ld_unit_zero (S := S1024x1) hz, View.ld_unit_zero (S := S1x1) hz]

/-- The same with the weight blocks named apart from their arrays (each block IS its array). -/
theorem point_eq' (hBV : BodyValIsNet) (A0 : S16384x256.Idx → EReal) (A1 : S256x2048.Idx → EReal) (A2 : S1x2048.Idx → EReal) (A3 : S256x256.Idx → EReal) (A4 : S1x256.Idx → EReal) (A5 : S256x3.Idx → EReal) (A6 : S1x3.Idx → EReal) (A7 : S256x32.Idx → EReal) (A8 : S32x2048.Idx → EReal) (A9 : S2048x2048.Idx → EReal) (A10 : S1x2048.Idx → EReal) (A11 : S2048x256.Idx → EReal) (A12 : S1x256.Idx → EReal) (A13 : S256x3.Idx → EReal) (A14 : S1x3.Idx → EReal) (A15 : S2048x32.Idx → EReal) (A16 : S32x2048.Idx → EReal) (A17 : S2048x1024.Idx → EReal) (A18 : S1x1024.Idx → EReal) (A19 : S2048x256.Idx → EReal) (A20 : S1x256.Idx → EReal) (A21 : S256x3.Idx → EReal) (A22 : S1x3.Idx → EReal) (A23 : S2048x32.Idx → EReal) (A24 : S32x1024.Idx → EReal) (A25 : S1024x1.Idx → EReal) (A26 : S1x1.Idx → EReal)
    (x0 : S512x256.Idx → EReal) (x1 : S256x2048.Idx → EReal) (x2 : S1x2048.Idx → EReal) (x3 : S256x256.Idx → EReal) (x4 : S1x256.Idx → EReal) (x5 : S256x3.Idx → EReal) (x6 : S1x3.Idx → EReal) (x7 : S256x32.Idx → EReal) (x8 : S32x2048.Idx → EReal) (x9 : S2048x2048.Idx → EReal) (x10 : S1x2048.Idx → EReal) (x11 : S2048x256.Idx → EReal) (x12 : S1x256.Idx → EReal) (x13 : S256x3.Idx → EReal) (x14 : S1x3.Idx → EReal) (x15 : S2048x32.Idx → EReal) (x16 : S32x2048.Idx → EReal) (x17 : S2048x1024.Idx → EReal) (x18 : S1x1024.Idx → EReal) (x19 : S2048x256.Idx → EReal) (x20 : S1x256.Idx → EReal) (x21 : S256x3.Idx → EReal) (x22 : S1x3.Idx → EReal) (x23 : S2048x32.Idx → EReal) (x24 : S32x1024.Idx → EReal) (x25 : S1024x1.Idx → EReal) (x26 : S1x1.Idx → EReal)
    (h1 : x1 = A1) (h2 : x2 = A2) (h3 : x3 = A3) (h4 : x4 = A4) (h5 : x5 = A5) (h6 : x6 = A6) (h7 : x7 = A7) (h8 : x8 = A8) (h9 : x9 = A9) (h10 : x10 = A10) (h11 : x11 = A11) (h12 : x12 = A12) (h13 : x13 = A13) (h14 : x14 = A14) (h15 : x15 = A15) (h16 : x16 = A16) (h17 : x17 = A17) (h18 : x18 = A18) (h19 : x19 = A19) (h20 : x20 = A20) (h21 : x21 = A21) (h22 : x22 = A22) (h23 : x23 = A23) (h24 : x24 = A24) (h25 : x25 = A25) (h26 : x26 = A26)
    (t : ℕ) (p : Fin 512) (i : S16384x1.Idx) (hi : (i 0).val = t * 512 + p.val)
    (hx0 : ∀ (q : Fin 256) (k : S16384x256.Idx), (k 0).val = t * 512 + p.val → (k 1).val = q.val → x0 (ix2 p q) = A0 k) :
    bodyVal (F := Ideal) x0 x1 x2 x3 x4 x5 x6 x7 x8 x9 x10 x11 x12 x13 x14 x15 x16 x17 x18 x19 x20 x21 x22 x23 x24 x25 x26 (ix2 p (0 : Fin 1)) = G A0 A1 A2 A3 A4 A5 A6 A7 A8 A9 A10 A11 A12 A13 A14 A15 A16 A17 A18 A19 A20 A21 A22 A23 A24 A25 A26 i := by
  subst h1 h2 h3 h4 h5 h6 h7 h8 h9 h10 h11 h12 h13 h14 h15 h16 h17 h18 h19 h20 h21 h22 h23 h24 h25 h26
  exact point_eq hBV A0 x1 x2 x3 x4 x5 x6 x7 x8 x9 x10 x11 x12 x13 x14 x15 x16 x17 x18 x19 x20 x21 x22 x23 x24 x25 x26 x0 t p i hi hx0

/-- The printed index maps, decided once over the 32 grid points: the input rows' window and the output window sit at
    block (t, 0); every other window stays at block (0, 0). -/
theorem idx_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0)
    ∧ (win0_17.index t (0 : Fin 2) = 0 ∧ win0_17.index t (1 : Fin 2) = 0)
    ∧ (win0_18.index t (0 : Fin 2) = 0 ∧ win0_18.index t (1 : Fin 2) = 0)
    ∧ (win0_19.index t (0 : Fin 2) = 0 ∧ win0_19.index t (1 : Fin 2) = 0)
    ∧ (win0_20.index t (0 : Fin 2) = 0 ∧ win0_20.index t (1 : Fin 2) = 0)
    ∧ (win0_21.index t (0 : Fin 2) = 0 ∧ win0_21.index t (1 : Fin 2) = 0)
    ∧ (win0_22.index t (0 : Fin 2) = 0 ∧ win0_22.index t (1 : Fin 2) = 0)
    ∧ (win0_23.index t (0 : Fin 2) = 0 ∧ win0_23.index t (1 : Fin 2) = 0)
    ∧ (win0_24.index t (0 : Fin 2) = 0 ∧ win0_24.index t (1 : Fin 2) = 0)
    ∧ (win0_25.index t (0 : Fin 2) = 0 ∧ win0_25.index t (1 : Fin 2) = 0)
    ∧ (win0_26.index t (0 : Fin 2) = 0 ∧ win0_26.index t (1 : Fin 2) = 0)
    ∧ (win0_27.index t (0 : Fin 2) = t.val ∧ win0_27.index t (1 : Fin 2) = 0) :=
  (by decide +kernel : ∀ t : Fin grid0.N, _)

/-- Row p of the input rows' block at point t is row 512·t + p of the array. -/
theorem blk0_apply (t : Fin cfg0.N) (A : S16384x256.Idx → EReal) (p : Fin 512) (q : Fin 256) (k : S16384x256.Idx)
    (hk0 : (k 0).val = t.val * 512 + p.val) (hk1 : (k 1).val = q.val) :
    (((cfg0.win 0).blk t).view.read (Elt Ideal) A : S512x256.Idx → EReal) (ix2 p q) = A k := by
  show A (((cfg0.win 0).blk t).view.emb (ix2 p q)) = A k
  congr 1
  funext a
  apply Fin.ext
  obtain ⟨⟨e0, e1⟩, -, -, -, -, -, -, -, -, -, -, -, -, -, -, -, -, -, -, -, -, -, -, -, -, -, -, -⟩ := idx_facts t
  match a with
  | ⟨0, _⟩ => show win0_0.index t (0 : Fin 2) * 512 + 1 * p.val = (k 0).val; rw [e0, hk0]; omega
  | ⟨1, _⟩ => show win0_0.index t (1 : Fin 2) * 256 + 1 * q.val = (k 1).val; rw [e1, hk1]; omega

/-- Window 1's block is its whole array. -/
theorem blk_whole_1 (t : Fin cfg0.N) (A : S256x2048.Idx → EReal) :
    (((cfg0.win 1).blk t).view.read (Elt Ideal) A : S256x2048.Idx → EReal) = A := by
  funext x
  show A (((cfg0.win 1).blk t).view.emb x) = A x
  congr 1
  funext a
  apply Fin.ext
  obtain ⟨-, ⟨e0, e1⟩, -, -, -, -, -, -, -, -, -, -, -, -, -, -, -, -, -, -, -, -, -, -, -, -, -, -⟩ := idx_facts t
  match a with
  | ⟨0, _⟩ => show win0_1.index t (0 : Fin 2) * 256 + 1 * (x 0).val = (x 0).val; rw [e0]; omega
  | ⟨1, _⟩ => show win0_1.index t (1 : Fin 2) * 2048 + 1 * (x 1).val = (x 1).val; rw [e1]; omega

theorem iblk1 (c : Dev nD) (t : Fin cfg0.N) : (iblk m c 1 t : S256x2048.Idx → EReal) = (V m c main_v42 : S256x2048.Idx → EReal) :=
  blk_whole_1 t _

/-- Window 2's block is its whole array. -/
theorem blk_whole_2 (t : Fin cfg0.N) (A : S1x2048.Idx → EReal) :
    (((cfg0.win 2).blk t).view.read (Elt Ideal) A : S1x2048.Idx → EReal) = A := by
  funext x
  show A (((cfg0.win 2).blk t).view.emb x) = A x
  congr 1
  funext a
  apply Fin.ext
  obtain ⟨-, -, ⟨e0, e1⟩, -, -, -, -, -, -, -, -, -, -, -, -, -, -, -, -, -, -, -, -, -, -, -, -, -⟩ := idx_facts t
  match a with
  | ⟨0, _⟩ => show win0_2.index t (0 : Fin 2) * 1 + 1 * (x 0).val = (x 0).val; rw [e0]; omega
  | ⟨1, _⟩ => show win0_2.index t (1 : Fin 2) * 2048 + 1 * (x 1).val = (x 1).val; rw [e1]; omega

theorem iblk2 (c : Dev nD) (t : Fin cfg0.N) : (iblk m c 2 t : S1x2048.Idx → EReal) = (V m c main_v43 : S1x2048.Idx → EReal) :=
  blk_whole_2 t _

/-- Window 3's block is its whole array. -/
theorem blk_whole_3 (t : Fin cfg0.N) (A : S256x256.Idx → EReal) :
    (((cfg0.win 3).blk t).view.read (Elt Ideal) A : S256x256.Idx → EReal) = A := by
  funext x
  show A (((cfg0.win 3).blk t).view.emb x) = A x
  congr 1
  funext a
  apply Fin.ext
  obtain ⟨-, -, -, ⟨e0, e1⟩, -, -, -, -, -, -, -, -, -, -, -, -, -, -, -, -, -, -, -, -, -, -, -, -⟩ := idx_facts t
  match a with
  | ⟨0, _⟩ => show win0_3.index t (0 : Fin 2) * 256 + 1 * (x 0).val = (x 0).val; rw [e0]; omega
  | ⟨1, _⟩ => show win0_3.index t (1 : Fin 2) * 256 + 1 * (x 1).val = (x 1).val; rw [e1]; omega

theorem iblk3 (c : Dev nD) (t : Fin cfg0.N) : (iblk m c 3 t : S256x256.Idx → EReal) = (V m c main_v44 : S256x256.Idx → EReal) :=
  blk_whole_3 t _

/-- Window 4's block is its whole array. -/
theorem blk_whole_4 (t : Fin cfg0.N) (A : S1x256.Idx → EReal) :
    (((cfg0.win 4).blk t).view.read (Elt Ideal) A : S1x256.Idx → EReal) = A := by
  funext x
  show A (((cfg0.win 4).blk t).view.emb x) = A x
  congr 1
  funext a
  apply Fin.ext
  obtain ⟨-, -, -, -, ⟨e0, e1⟩, -, -, -, -, -, -, -, -, -, -, -, -, -, -, -, -, -, -, -, -, -, -, -⟩ := idx_facts t
  match a with
  | ⟨0, _⟩ => show win0_4.index t (0 : Fin 2) * 1 + 1 * (x 0).val = (x 0).val; rw [e0]; omega
  | ⟨1, _⟩ => show win0_4.index t (1 : Fin 2) * 256 + 1 * (x 1).val = (x 1).val; rw [e1]; omega

theorem iblk4 (c : Dev nD) (t : Fin cfg0.N) : (iblk m c 4 t : S1x256.Idx → EReal) = (V m c main_v45 : S1x256.Idx → EReal) :=
  blk_whole_4 t _

/-- Window 5's block is its whole array. -/
theorem blk_whole_5 (t : Fin cfg0.N) (A : S256x3.Idx → EReal) :
    (((cfg0.win 5).blk t).view.read (Elt Ideal) A : S256x3.Idx → EReal) = A := by
  funext x
  show A (((cfg0.win 5).blk t).view.emb x) = A x
  congr 1
  funext a
  apply Fin.ext
  obtain ⟨-, -, -, -, -, ⟨e0, e1⟩, -, -, -, -, -, -, -, -, -, -, -, -, -, -, -, -, -, -, -, -, -, -⟩ := idx_facts t
  match a with
  | ⟨0, _⟩ => show win0_5.index t (0 : Fin 2) * 256 + 1 * (x 0).val = (x 0).val; rw [e0]; omega
  | ⟨1, _⟩ => show win0_5.index t (1 : Fin 2) * 3 + 1 * (x 1).val = (x 1).val; rw [e1]; omega

theorem iblk5 (c : Dev nD) (t : Fin cfg0.N) : (iblk m c 5 t : S256x3.Idx → EReal) = (V m c main_v46 : S256x3.Idx → EReal) :=
  blk_whole_5 t _

/-- Window 6's block is its whole array. -/
theorem blk_whole_6 (t : Fin cfg0.N) (A : S1x3.Idx → EReal) :
    (((cfg0.win 6).blk t).view.read (Elt Ideal) A : S1x3.Idx → EReal) = A := by
  funext x
  show A (((cfg0.win 6).blk t).view.emb x) = A x
  congr 1
  funext a
  apply Fin.ext
  obtain ⟨-, -, -, -, -, -, ⟨e0, e1⟩, -, -, -, -, -, -, -, -, -, -, -, -, -, -, -, -, -, -, -, -, -⟩ := idx_facts t
  match a with
  | ⟨0, _⟩ => show win0_6.index t (0 : Fin 2) * 1 + 1 * (x 0).val = (x 0).val; rw [e0]; omega
  | ⟨1, _⟩ => show win0_6.index t (1 : Fin 2) * 3 + 1 * (x 1).val = (x 1).val; rw [e1]; omega

theorem iblk6 (c : Dev nD) (t : Fin cfg0.N) : (iblk m c 6 t : S1x3.Idx → EReal) = (V m c main_v47 : S1x3.Idx → EReal) :=
  blk_whole_6 t _

/-- Window 7's block is its whole array. -/
theorem blk_whole_7 (t : Fin cfg0.N) (A : S256x32.Idx → EReal) :
    (((cfg0.win 7).blk t).view.read (Elt Ideal) A : S256x32.Idx → EReal) = A := by
  funext x
  show A (((cfg0.win 7).blk t).view.emb x) = A x
  congr 1
  funext a
  apply Fin.ext
  obtain ⟨-, -, -, -, -, -, -, ⟨e0, e1⟩, -, -, -, -, -, -, -, -, -, -, -, -, -, -, -, -, -, -, -, -⟩ := idx_facts t
  match a with
  | ⟨0, _⟩ => show win0_7.index t (0 : Fin 2) * 256 + 1 * (x 0).val = (x 0).val; rw [e0]; omega
  | ⟨1, _⟩ => show win0_7.index t (1 : Fin 2) * 32 + 1 * (x 1).val = (x 1).val; rw [e1]; omega

theorem iblk7 (c : Dev nD) (t : Fin cfg0.N) : (iblk m c 7 t : S256x32.Idx → EReal) = (V m c main_v32 : S256x32.Idx → EReal) :=
  blk_whole_7 t _

/-- Window 8's block is its whole array. -/
theorem blk_whole_8 (t : Fin cfg0.N) (A : S32x2048.Idx → EReal) :
    (((cfg0.win 8).blk t).view.read (Elt Ideal) A : S32x2048.Idx → EReal) = A := by
  funext x
  show A (((cfg0.win 8).blk t).view.emb x) = A x
  congr 1
  funext a
  apply Fin.ext
  obtain ⟨-, -, -, -, -, -, -, -, ⟨e0, e1⟩, -, -, -, -, -, -, -, -, -, -, -, -, -, -, -, -, -, -, -⟩ := idx_facts t
  match a with
  | ⟨0, _⟩ => show win0_8.index t (0 : Fin 2) * 32 + 1 * (x 0).val = (x 0).val; rw [e0]; omega
  | ⟨1, _⟩ => show win0_8.index t (1 : Fin 2) * 2048 + 1 * (x 1).val = (x 1).val; rw [e1]; omega

theorem iblk8 (c : Dev nD) (t : Fin cfg0.N) : (iblk m c 8 t : S32x2048.Idx → EReal) = (V m c main_v33 : S32x2048.Idx → EReal) :=
  blk_whole_8 t _

/-- Window 9's block is its whole array. -/
theorem blk_whole_9 (t : Fin cfg0.N) (A : S2048x2048.Idx → EReal) :
    (((cfg0.win 9).blk t).view.read (Elt Ideal) A : S2048x2048.Idx → EReal) = A := by
  funext x
  show A (((cfg0.win 9).blk t).view.emb x) = A x
  congr 1
  funext a
  apply Fin.ext
  obtain ⟨-, -, -, -, -, -, -, -, -, ⟨e0, e1⟩, -, -, -, -, -, -, -, -, -, -, -, -, -, -, -, -, -, -⟩ := idx_facts t
  match a with
  | ⟨0, _⟩ => show win0_9.index t (0 : Fin 2) * 2048 + 1 * (x 0).val = (x 0).val; rw [e0]; omega
  | ⟨1, _⟩ => show win0_9.index t (1 : Fin 2) * 2048 + 1 * (x 1).val = (x 1).val; rw [e1]; omega

theorem iblk9 (c : Dev nD) (t : Fin cfg0.N) : (iblk m c 9 t : S2048x2048.Idx → EReal) = (V m c main_v48 : S2048x2048.Idx → EReal) :=
  blk_whole_9 t _

/-- Window 10's block is its whole array. -/
theorem blk_whole_10 (t : Fin cfg0.N) (A : S1x2048.Idx → EReal) :
    (((cfg0.win 10).blk t).view.read (Elt Ideal) A : S1x2048.Idx → EReal) = A := by
  funext x
  show A (((cfg0.win 10).blk t).view.emb x) = A x
  congr 1
  funext a
  apply Fin.ext
  obtain ⟨-, -, -, -, -, -, -, -, -, -, ⟨e0, e1⟩, -, -, -, -, -, -, -, -, -, -, -, -, -, -, -, -, -⟩ := idx_facts t
  match a with
  | ⟨0, _⟩ => show win0_10.index t (0 : Fin 2) * 1 + 1 * (x 0).val = (x 0).val; rw [e0]; omega
  | ⟨1, _⟩ => show win0_10.index t (1 : Fin 2) * 2048 + 1 * (x 1).val = (x 1).val; rw [e1]; omega

theorem iblk10 (c : Dev nD) (t : Fin cfg0.N) : (iblk m c 10 t : S1x2048.Idx → EReal) = (V m c main_v49 : S1x2048.Idx → EReal) :=
  blk_whole_10 t _

/-- Window 11's block is its whole array. -/
theorem blk_whole_11 (t : Fin cfg0.N) (A : S2048x256.Idx → EReal) :
    (((cfg0.win 11).blk t).view.read (Elt Ideal) A : S2048x256.Idx → EReal) = A := by
  funext x
  show A (((cfg0.win 11).blk t).view.emb x) = A x
  congr 1
  funext a
  apply Fin.ext
  obtain ⟨-, -, -, -, -, -, -, -, -, -, -, ⟨e0, e1⟩, -, -, -, -, -, -, -, -, -, -, -, -, -, -, -, -⟩ := idx_facts t
  match a with
  | ⟨0, _⟩ => show win0_11.index t (0 : Fin 2) * 2048 + 1 * (x 0).val = (x 0).val; rw [e0]; omega
  | ⟨1, _⟩ => show win0_11.index t (1 : Fin 2) * 256 + 1 * (x 1).val = (x 1).val; rw [e1]; omega

theorem iblk11 (c : Dev nD) (t : Fin cfg0.N) : (iblk m c 11 t : S2048x256.Idx → EReal) = (V m c main_v50 : S2048x256.Idx → EReal) :=
  blk_whole_11 t _

/-- Window 12's block is its whole array. -/
theorem blk_whole_12 (t : Fin cfg0.N) (A : S1x256.Idx → EReal) :
    (((cfg0.win 12).blk t).view.read (Elt Ideal) A : S1x256.Idx → EReal) = A := by
  funext x
  show A (((cfg0.win 12).blk t).view.emb x) = A x
  congr 1
  funext a
  apply Fin.ext
  obtain ⟨-, -, -, -, -, -, -, -, -, -, -, -, ⟨e0, e1⟩, -, -, -, -, -, -, -, -, -, -, -, -, -, -, -⟩ := idx_facts t
  match a with
  | ⟨0, _⟩ => show win0_12.index t (0 : Fin 2) * 1 + 1 * (x 0).val = (x 0).val; rw [e0]; omega
  | ⟨1, _⟩ => show win0_12.index t (1 : Fin 2) * 256 + 1 * (x 1).val = (x 1).val; rw [e1]; omega

theorem iblk12 (c : Dev nD) (t : Fin cfg0.N) : (iblk m c 12 t : S1x256.Idx → EReal) = (V m c main_v51 : S1x256.Idx → EReal) :=
  blk_whole_12 t _

/-- Window 13's block is its whole array. -/
theorem blk_whole_13 (t : Fin cfg0.N) (A : S256x3.Idx → EReal) :
    (((cfg0.win 13).blk t).view.read (Elt Ideal) A : S256x3.Idx → EReal) = A := by
  funext x
  show A (((cfg0.win 13).blk t).view.emb x) = A x
  congr 1
  funext a
  apply Fin.ext
  obtain ⟨-, -, -, -, -, -, -, -, -, -, -, -, -, ⟨e0, e1⟩, -, -, -, -, -, -, -, -, -, -, -, -, -, -⟩ := idx_facts t
  match a with
  | ⟨0, _⟩ => show win0_13.index t (0 : Fin 2) * 256 + 1 * (x 0).val = (x 0).val; rw [e0]; omega
  | ⟨1, _⟩ => show win0_13.index t (1 : Fin 2) * 3 + 1 * (x 1).val = (x 1).val; rw [e1]; omega

theorem iblk13 (c : Dev nD) (t : Fin cfg0.N) : (iblk m c 13 t : S256x3.Idx → EReal) = (V m c main_v52 : S256x3.Idx → EReal) :=
  blk_whole_13 t _

/-- Window 14's block is its whole array. -/
theorem blk_whole_14 (t : Fin cfg0.N) (A : S1x3.Idx → EReal) :
    (((cfg0.win 14).blk t).view.read (Elt Ideal) A : S1x3.Idx → EReal) = A := by
  funext x
  show A (((cfg0.win 14).blk t).view.emb x) = A x
  congr 1
  funext a
  apply Fin.ext
  obtain ⟨-, -, -, -, -, -, -, -, -, -, -, -, -, -, ⟨e0, e1⟩, -, -, -, -, -, -, -, -, -, -, -, -, -⟩ := idx_facts t
  match a with
  | ⟨0, _⟩ => show win0_14.index t (0 : Fin 2) * 1 + 1 * (x 0).val = (x 0).val; rw [e0]; omega
  | ⟨1, _⟩ => show win0_14.index t (1 : Fin 2) * 3 + 1 * (x 1).val = (x 1).val; rw [e1]; omega

theorem iblk14 (c : Dev nD) (t : Fin cfg0.N) : (iblk m c 14 t : S1x3.Idx → EReal) = (V m c main_v53 : S1x3.Idx → EReal) :=
  blk_whole_14 t _

/-- Window 15's block is its whole array. -/
theorem blk_whole_15 (t : Fin cfg0.N) (A : S2048x32.Idx → EReal) :
    (((cfg0.win 15).blk t).view.read (Elt Ideal) A : S2048x32.Idx → EReal) = A := by
  funext x
  show A (((cfg0.win 15).blk t).view.emb x) = A x
  congr 1
  funext a
  apply Fin.ext
  obtain ⟨-, -, -, -, -, -, -, -, -, -, -, -, -, -, -, ⟨e0, e1⟩, -, -, -, -, -, -, -, -, -, -, -, -⟩ := idx_facts t
  match a with
  | ⟨0, _⟩ => show win0_15.index t (0 : Fin 2) * 2048 + 1 * (x 0).val = (x 0).val; rw [e0]; omega
  | ⟨1, _⟩ => show win0_15.index t (1 : Fin 2) * 32 + 1 * (x 1).val = (x 1).val; rw [e1]; omega

theorem iblk15 (c : Dev nD) (t : Fin cfg0.N) : (iblk m c 15 t : S2048x32.Idx → EReal) = (V m c main_v36 : S2048x32.Idx → EReal) :=
  blk_whole_15 t _

/-- Window 16's block is its whole array. -/
theorem blk_whole_16 (t : Fin cfg0.N) (A : S32x2048.Idx → EReal) :
    (((cfg0.win 16).blk t).view.read (Elt Ideal) A : S32x2048.Idx → EReal) = A := by
  funext x
  show A (((cfg0.win 16).blk t).view.emb x) = A x
  congr 1
  funext a
  apply Fin.ext
  obtain ⟨-, -, -, -, -, -, -, -, -, -, -, -, -, -, -, -, ⟨e0, e1⟩, -, -, -, -, -, -, -, -, -, -, -⟩ := idx_facts t
  match a with
  | ⟨0, _⟩ => show win0_16.index t (0 : Fin 2) * 32 + 1 * (x 0).val = (x 0).val; rw [e0]; omega
  | ⟨1, _⟩ => show win0_16.index t (1 : Fin 2) * 2048 + 1 * (x 1).val = (x 1).val; rw [e1]; omega

theorem iblk16 (c : Dev nD) (t : Fin cfg0.N) : (iblk m c 16 t : S32x2048.Idx → EReal) = (V m c main_v37 : S32x2048.Idx → EReal) :=
  blk_whole_16 t _

/-- Window 17's block is its whole array. -/
theorem blk_whole_17 (t : Fin cfg0.N) (A : S2048x1024.Idx → EReal) :
    (((cfg0.win 17).blk t).view.read (Elt Ideal) A : S2048x1024.Idx → EReal) = A := by
  funext x
  show A (((cfg0.win 17).blk t).view.emb x) = A x
  congr 1
  funext a
  apply Fin.ext
  obtain ⟨-, -, -, -, -, -, -, -, -, -, -, -, -, -, -, -, -, ⟨e0, e1⟩, -, -, -, -, -, -, -, -, -, -⟩ := idx_facts t
  match a with
  | ⟨0, _⟩ => show win0_17.index t (0 : Fin 2) * 2048 + 1 * (x 0).val = (x 0).val; rw [e0]; omega
  | ⟨1, _⟩ => show win0_17.index t (1 : Fin 2) * 1024 + 1 * (x 1).val = (x 1).val; rw [e1]; omega

theorem iblk17 (c : Dev nD) (t : Fin cfg0.N) : (iblk m c 17 t : S2048x1024.Idx → EReal) = (V m c main_v54 : S2048x1024.Idx → EReal) :=
  blk_whole_17 t _

/-- Window 18's block is its whole array. -/
theorem blk_whole_18 (t : Fin cfg0.N) (A : S1x1024.Idx → EReal) :
    (((cfg0.win 18).blk t).view.read (Elt Ideal) A : S1x1024.Idx → EReal) = A := by
  funext x
  show A (((cfg0.win 18).blk t).view.emb x) = A x
  congr 1
  funext a
  apply Fin.ext
  obtain ⟨-, -, -, -, -, -, -, -, -, -, -, -, -, -, -, -, -, -, ⟨e0, e1⟩, -, -, -, -, -, -, -, -, -⟩ := idx_facts t
  match a with
  | ⟨0, _⟩ => show win0_18.index t (0 : Fin 2) * 1 + 1 * (x 0).val = (x 0).val; rw [e0]; omega
  | ⟨1, _⟩ => show win0_18.index t (1 : Fin 2) * 1024 + 1 * (x 1).val = (x 1).val; rw [e1]; omega

theorem iblk18 (c : Dev nD) (t : Fin cfg0.N) : (iblk m c 18 t : S1x1024.Idx → EReal) = (V m c main_v55 : S1x1024.Idx → EReal) :=
  blk_whole_18 t _

/-- Window 19's block is its whole array. -/
theorem blk_whole_19 (t : Fin cfg0.N) (A : S2048x256.Idx → EReal) :
    (((cfg0.win 19).blk t).view.read (Elt Ideal) A : S2048x256.Idx → EReal) = A := by
  funext x
  show A (((cfg0.win 19).blk t).view.emb x) = A x
  congr 1
  funext a
  apply Fin.ext
  obtain ⟨-, -, -, -, -, -, -, -, -, -, -, -, -, -, -, -, -, -, -, ⟨e0, e1⟩, -, -, -, -, -, -, -, -⟩ := idx_facts t
  match a with
  | ⟨0, _⟩ => show win0_19.index t (0 : Fin 2) * 2048 + 1 * (x 0).val = (x 0).val; rw [e0]; omega
  | ⟨1, _⟩ => show win0_19.index t (1 : Fin 2) * 256 + 1 * (x 1).val = (x 1).val; rw [e1]; omega

theorem iblk19 (c : Dev nD) (t : Fin cfg0.N) : (iblk m c 19 t : S2048x256.Idx → EReal) = (V m c main_v56 : S2048x256.Idx → EReal) :=
  blk_whole_19 t _

/-- Window 20's block is its whole array. -/
theorem blk_whole_20 (t : Fin cfg0.N) (A : S1x256.Idx → EReal) :
    (((cfg0.win 20).blk t).view.read (Elt Ideal) A : S1x256.Idx → EReal) = A := by
  funext x
  show A (((cfg0.win 20).blk t).view.emb x) = A x
  congr 1
  funext a
  apply Fin.ext
  obtain ⟨-, -, -, -, -, -, -, -, -, -, -, -, -, -, -, -, -, -, -, -, ⟨e0, e1⟩, -, -, -, -, -, -, -⟩ := idx_facts t
  match a with
  | ⟨0, _⟩ => show win0_20.index t (0 : Fin 2) * 1 + 1 * (x 0).val = (x 0).val; rw [e0]; omega
  | ⟨1, _⟩ => show win0_20.index t (1 : Fin 2) * 256 + 1 * (x 1).val = (x 1).val; rw [e1]; omega

theorem iblk20 (c : Dev nD) (t : Fin cfg0.N) : (iblk m c 20 t : S1x256.Idx → EReal) = (V m c main_v57 : S1x256.Idx → EReal) :=
  blk_whole_20 t _

/-- Window 21's block is its whole array. -/
theorem blk_whole_21 (t : Fin cfg0.N) (A : S256x3.Idx → EReal) :
    (((cfg0.win 21).blk t).view.read (Elt Ideal) A : S256x3.Idx → EReal) = A := by
  funext x
  show A (((cfg0.win 21).blk t).view.emb x) = A x
  congr 1
  funext a
  apply Fin.ext
  obtain ⟨-, -, -, -, -, -, -, -, -, -, -, -, -, -, -, -, -, -, -, -, -, ⟨e0, e1⟩, -, -, -, -, -, -⟩ := idx_facts t
  match a with
  | ⟨0, _⟩ => show win0_21.index t (0 : Fin 2) * 256 + 1 * (x 0).val = (x 0).val; rw [e0]; omega
  | ⟨1, _⟩ => show win0_21.index t (1 : Fin 2) * 3 + 1 * (x 1).val = (x 1).val; rw [e1]; omega

theorem iblk21 (c : Dev nD) (t : Fin cfg0.N) : (iblk m c 21 t : S256x3.Idx → EReal) = (V m c main_v58 : S256x3.Idx → EReal) :=
  blk_whole_21 t _

/-- Window 22's block is its whole array. -/
theorem blk_whole_22 (t : Fin cfg0.N) (A : S1x3.Idx → EReal) :
    (((cfg0.win 22).blk t).view.read (Elt Ideal) A : S1x3.Idx → EReal) = A := by
  funext x
  show A (((cfg0.win 22).blk t).view.emb x) = A x
  congr 1
  funext a
  apply Fin.ext
  obtain ⟨-, -, -, -, -, -, -, -, -, -, -, -, -, -, -, -, -, -, -, -, -, -, ⟨e0, e1⟩, -, -, -, -, -⟩ := idx_facts t
  match a with
  | ⟨0, _⟩ => show win0_22.index t (0 : Fin 2) * 1 + 1 * (x 0).val = (x 0).val; rw [e0]; omega
  | ⟨1, _⟩ => show win0_22.index t (1 : Fin 2) * 3 + 1 * (x 1).val = (x 1).val; rw [e1]; omega

theorem iblk22 (c : Dev nD) (t : Fin cfg0.N) : (iblk m c 22 t : S1x3.Idx → EReal) = (V m c main_v59 : S1x3.Idx → EReal) :=
  blk_whole_22 t _

/-- Window 23's block is its whole array. -/
theorem blk_whole_23 (t : Fin cfg0.N) (A : S2048x32.Idx → EReal) :
    (((cfg0.win 23).blk t).view.read (Elt Ideal) A : S2048x32.Idx → EReal) = A := by
  funext x
  show A (((cfg0.win 23).blk t).view.emb x) = A x
  congr 1
  funext a
  apply Fin.ext
  obtain ⟨-, -, -, -, -, -, -, -, -, -, -, -, -, -, -, -, -, -, -, -, -, -, -, ⟨e0, e1⟩, -, -, -, -⟩ := idx_facts t
  match a with
  | ⟨0, _⟩ => show win0_23.index t (0 : Fin 2) * 2048 + 1 * (x 0).val = (x 0).val; rw [e0]; omega
  | ⟨1, _⟩ => show win0_23.index t (1 : Fin 2) * 32 + 1 * (x 1).val = (x 1).val; rw [e1]; omega

theorem iblk23 (c : Dev nD) (t : Fin cfg0.N) : (iblk m c 23 t : S2048x32.Idx → EReal) = (V m c main_v40 : S2048x32.Idx → EReal) :=
  blk_whole_23 t _

/-- Window 24's block is its whole array. -/
theorem blk_whole_24 (t : Fin cfg0.N) (A : S32x1024.Idx → EReal) :
    (((cfg0.win 24).blk t).view.read (Elt Ideal) A : S32x1024.Idx → EReal) = A := by
  funext x
  show A (((cfg0.win 24).blk t).view.emb x) = A x
  congr 1
  funext a
  apply Fin.ext
  obtain ⟨-, -, -, -, -, -, -, -, -, -, -, -, -, -, -, -, -, -, -, -, -, -, -, -, ⟨e0, e1⟩, -, -, -⟩ := idx_facts t
  match a with
  | ⟨0, _⟩ => show win0_24.index t (0 : Fin 2) * 32 + 1 * (x 0).val = (x 0).val; rw [e0]; omega
  | ⟨1, _⟩ => show win0_24.index t (1 : Fin 2) * 1024 + 1 * (x 1).val = (x 1).val; rw [e1]; omega

theorem iblk24 (c : Dev nD) (t : Fin cfg0.N) : (iblk m c 24 t : S32x1024.Idx → EReal) = (V m c main_v41 : S32x1024.Idx → EReal) :=
  blk_whole_24 t _

/-- Window 25's block is its whole array. -/
theorem blk_whole_25 (t : Fin cfg0.N) (A : S1024x1.Idx → EReal) :
    (((cfg0.win 25).blk t).view.read (Elt Ideal) A : S1024x1.Idx → EReal) = A := by
  funext x
  show A (((cfg0.win 25).blk t).view.emb x) = A x
  congr 1
  funext a
  apply Fin.ext
  obtain ⟨-, -, -, -, -, -, -, -, -, -, -, -, -, -, -, -, -, -, -, -, -, -, -, -, -, ⟨e0, e1⟩, -, -⟩ := idx_facts t
  match a with
  | ⟨0, _⟩ => show win0_25.index t (0 : Fin 2) * 1024 + 1 * (x 0).val = (x 0).val; rw [e0]; omega
  | ⟨1, _⟩ => show win0_25.index t (1 : Fin 2) * 1 + 1 * (x 1).val = (x 1).val; rw [e1]; omega

theorem iblk25 (c : Dev nD) (t : Fin cfg0.N) : (iblk m c 25 t : S1024x1.Idx → EReal) = (V m c main_v60 : S1024x1.Idx → EReal) :=
  blk_whole_25 t _

/-- Window 26's block is its whole array. -/
theorem blk_whole_26 (t : Fin cfg0.N) (A : S1x1.Idx → EReal) :
    (((cfg0.win 26).blk t).view.read (Elt Ideal) A : S1x1.Idx → EReal) = A := by
  funext x
  show A (((cfg0.win 26).blk t).view.emb x) = A x
  congr 1
  funext a
  apply Fin.ext
  obtain ⟨-, -, -, -, -, -, -, -, -, -, -, -, -, -, -, -, -, -, -, -, -, -, -, -, -, -, ⟨e0, e1⟩, -⟩ := idx_facts t
  match a with
  | ⟨0, _⟩ => show win0_26.index t (0 : Fin 2) * 1 + 1 * (x 0).val = (x 0).val; rw [e0]; omega
  | ⟨1, _⟩ => show win0_26.index t (1 : Fin 2) * 1 + 1 * (x 1).val = (x 1).val; rw [e1]; omega

theorem iblk26 (c : Dev nD) (t : Fin cfg0.N) : (iblk m c 26 t : S1x1.Idx → EReal) = (V m c main_v61 : S1x1.Idx → EReal) :=
  blk_whole_26 t _

/-- Row p of the output block at point t sits at row 512·t + p of the output array. -/
theorem blk27_emb (t : Fin cfg0.N) (p : Fin 512) :
    ((((cfg0.win 27).blk t).view.emb (ix2 p (0 : Fin 1)) : S16384x1.Idx) 0).val = t.val * 512 + p.val := by
  obtain ⟨-, -, -, -, -, -, -, -, -, -, -, -, -, -, -, -, -, -, -, -, -, -, -, -, -, -, -, ⟨e0, e1⟩⟩ := idx_facts t
  show win0_27.index t (0 : Fin 2) * 512 + 1 * p.val = t.val * 512 + p.val
  rw [e0]; omega

/-- Reading a written-back block at an index: the output window's cut keeps its whole block, and the block's read of
    an array is the array at the block's embedding of the index. Over a variable block and a variable array. -/
theorem flushed_apply (t : Fin cfg0.N) (X : S512x1.Idx → EReal) (A : S16384x1.Idx → EReal) (j : S512x1.Idx)
    (h : X j = A (((cfg0.win 27).blk t).view.emb j)) :
    ((cfg0.win 27).cut (grid0.coords t) X : S512x1.Idx → EReal) j
      = (((cfg0.win 27).blk t).view.read (Elt Ideal) A : S512x1.Idx → EReal) j := h

/-- WHAT POINT t WRITES BACK is block t of `G` of the staged arrays as the region finds them. -/
theorem flushed27_eq (hBV : BodyValIsNet) (c : Dev nD) (t : Fin cfg0.N) :
    (dats m 0 c).flushed 27 t = ((cfg0.win 27).blk t).view.read (Elt Ideal) (G (V m c main_v29) (V m c main_v42) (V m c main_v43) (V m c main_v44) (V m c main_v45) (V m c main_v46) (V m c main_v47) (V m c main_v32) (V m c main_v33) (V m c main_v48) (V m c main_v49) (V m c main_v50) (V m c main_v51) (V m c main_v52) (V m c main_v53) (V m c main_v36) (V m c main_v37) (V m c main_v54) (V m c main_v55) (V m c main_v56) (V m c main_v57) (V m c main_v58) (V m c main_v59) (V m c main_v40) (V m c main_v41) (V m c main_v60) (V m c main_v61)) := by
  show (cfg0.win 27).cut (grid0.coords t) ((dats m 0 c).after 27 t) = _
  rw [after0_27, out_eq]
  funext j
  obtain ⟨p, q, rfl⟩ : ∃ (p : Fin 512) (q : Fin 1), j = ix2 p q := ⟨j 0, j 1, eq_ix2 j⟩
  obtain rfl : q = 0 := Subsingleton.elim _ _
  refine flushed_apply t _ _ _ ?_
  exact point_eq' hBV (V m c main_v29) (V m c main_v42) (V m c main_v43) (V m c main_v44) (V m c main_v45) (V m c main_v46) (V m c main_v47) (V m c main_v32) (V m c main_v33) (V m c main_v48) (V m c main_v49) (V m c main_v50) (V m c main_v51) (V m c main_v52) (V m c main_v53) (V m c main_v36) (V m c main_v37) (V m c main_v54) (V m c main_v55) (V m c main_v56) (V m c main_v57) (V m c main_v58) (V m c main_v59) (V m c main_v40) (V m c main_v41) (V m c main_v60) (V m c main_v61)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    (iblk1 m c t) (iblk2 m c t) (iblk3 m c t) (iblk4 m c t) (iblk5 m c t) (iblk6 m c t) (iblk7 m c t) (iblk8 m c t) (iblk9 m c t) (iblk10 m c t) (iblk11 m c t) (iblk12 m c t) (iblk13 m c t) (iblk14 m c t) (iblk15 m c t) (iblk16 m c t) (iblk17 m c t) (iblk18 m c t) (iblk19 m c t) (iblk20 m c t) (iblk21 m c t) (iblk22 m c t) (iblk23 m c t) (iblk24 m c t) (iblk25 m c t) (iblk26 m c t)
    t.val p _ (blk27_emb t p)
    (fun q k hk0 hk1 => blk0_apply t (V m c main_v29) p q k hk0 hk1)

/-- An index of the output array is in point t's block iff each coordinate is in the block's range on its axis. -/
theorem mem_blk27 (t : Fin cfg0.N) (i : S16384x1.Idx) :
    i ∈ ((cfg0.win 27).blk t).view.set ↔ ∀ a : Fin 2, win0_27.index t a * S512x1.size a ≤ (i a).val ∧ (i a).val < win0_27.index t a * S512x1.size a + S512x1.size a := by
  show i ∈ ((View.whole main_v62).slice (win0_27.rect t)).set ↔ _
  rw [View.set_slice_whole, Rect.mem_set_unit]
  exact Iff.rfl

/-- Every row of the output array is in some point's block: row r in the block of point r / 512. -/
theorem cover27 (i : S16384x1.Idx) : ∃ t : Fin cfg0.N, (cfg0.win 27).flush t = true ∧ i ∈ ((cfg0.win 27).blk t).view.set := by
  have hi0 : (i 0).val < 16384 := (i 0).isLt
  have hi1 : (i 1).val < 1 := (i 1).isLt
  have hN : cfg0.N = 32 := N_0
  have ht : (i 0).val / 512 < cfg0.N := by omega
  obtain ⟨-, -, -, -, -, -, -, -, -, -, -, -, -, -, -, -, -, -, -, -, -, -, -, -, -, -, -, ⟨e0, e1⟩⟩ := idx_facts ⟨(i 0).val / 512, ht⟩
  refine ⟨⟨(i 0).val / 512, ht⟩, flush0_27 _, ?_⟩
  rw [mem_blk27]
  intro a
  match a with
  | ⟨0, _⟩ => show win0_27.index ⟨(i 0).val / 512, ht⟩ (0 : Fin 2) * 512 ≤ (i 0).val ∧ (i 0).val < win0_27.index ⟨(i 0).val / 512, ht⟩ (0 : Fin 2) * 512 + 512; rw [e0]; show (i 0).val / 512 * 512 ≤ (i 0).val ∧ (i 0).val < (i 0).val / 512 * 512 + 512; omega
  | ⟨1, _⟩ => show win0_27.index ⟨(i 0).val / 512, ht⟩ (1 : Fin 2) * 1 ≤ (i 1).val ∧ (i 1).val < win0_27.index ⟨(i 0).val / 512, ht⟩ (1 : Fin 2) * 1 + 1; rw [e1]; omega

/-- THE OUTPUT ARRAY after the run is `G` of the staged arrays as the region finds them. -/
theorem final27 (hBV : BodyValIsNet) (c : Dev nD) :
    (dats m 0 c).arrAt 27 cfg0.N = G (V m c main_v29) (V m c main_v42) (V m c main_v43) (V m c main_v44) (V m c main_v45) (V m c main_v46) (V m c main_v47) (V m c main_v32) (V m c main_v33) (V m c main_v48) (V m c main_v49) (V m c main_v50) (V m c main_v51) (V m c main_v52) (V m c main_v53) (V m c main_v36) (V m c main_v37) (V m c main_v54) (V m c main_v55) (V m c main_v56) (V m c main_v57) (V m c main_v58) (V m c main_v59) (V m c main_v40) (V m c main_v41) (V m c main_v60) (V m c main_v61) :=
  (dats m 0 c).arrAt_eq_of_cover 27 (G (V m c main_v29) (V m c main_v42) (V m c main_v43) (V m c main_v44) (V m c main_v45) (V m c main_v46) (V m c main_v47) (V m c main_v32) (V m c main_v33) (V m c main_v48) (V m c main_v49) (V m c main_v50) (V m c main_v51) (V m c main_v52) (V m c main_v53) (V m c main_v36) (V m c main_v37) (V m c main_v54) (V m c main_v55) (V m c main_v56) (V m c main_v57) (V m c main_v58) (V m c main_v59) (V m c main_v40) (V m c main_v41) (V m c main_v60) (V m c main_v61)) (fun t _ => flushed27_eq m hBV c t) cover27

/-- The run, read: the output array at `G` of the staged arrays, the 40 argument arrays unchanged. -/
theorem run27 (hBV : BodyValIsNet) : θ_run (defs (F := Ideal)) (onTc (τ := τ) (main (F := Ideal))) ⟨m, fun _ => 0, ρ⟩ (fun r => ∀ c : Dev nD,
      r.2.mem ((c.tc : Thread nD τ).loc main_v62) = G (V m c main_v29) (V m c main_v42) (V m c main_v43) (V m c main_v44) (V m c main_v45) (V m c main_v46) (V m c main_v47) (V m c main_v32) (V m c main_v33) (V m c main_v48) (V m c main_v49) (V m c main_v50) (V m c main_v51) (V m c main_v52) (V m c main_v53) (V m c main_v36) (V m c main_v37) (V m c main_v54) (V m c main_v55) (V m c main_v56) (V m c main_v57) (V m c main_v58) (V m c main_v59) (V m c main_v40) (V m c main_v41) (V m c main_v60) (V m c main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)) :=
  (θ_run defs _ _).mono (fun r h c => ⟨((h c).1 27).trans (final27 m hBV c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c),
      ((h c).2 main_arg28 (Pipeline.mem_restRefs_of main_arg28 (by decide) (by decide))).trans (V_main_arg28 m c),
      ((h c).2 main_arg29 (Pipeline.mem_restRefs_of main_arg29 (by decide) (by decide))).trans (V_main_arg29 m c),
      ((h c).2 main_arg30 (Pipeline.mem_restRefs_of main_arg30 (by decide) (by decide))).trans (V_main_arg30 m c),
      ((h c).2 main_arg31 (Pipeline.mem_restRefs_of main_arg31 (by decide) (by decide))).trans (V_main_arg31 m c),
      ((h c).2 main_arg32 (Pipeline.mem_restRefs_of main_arg32 (by decide) (by decide))).trans (V_main_arg32 m c),
      ((h c).2 main_arg33 (Pipeline.mem_restRefs_of main_arg33 (by decide) (by decide))).trans (V_main_arg33 m c),
      ((h c).2 main_arg34 (Pipeline.mem_restRefs_of main_arg34 (by decide) (by decide))).trans (V_main_arg34 m c),
      ((h c).2 main_arg35 (Pipeline.mem_restRefs_of main_arg35 (by decide) (by decide))).trans (V_main_arg35 m c),
      ((h c).2 main_arg36 (Pipeline.mem_restRefs_of main_arg36 (by decide) (by decide))).trans (V_main_arg36 m c),
      ((h c).2 main_arg37 (Pipeline.mem_restRefs_of main_arg37 (by decide) (by decide))).trans (V_main_arg37 m c),
      ((h c).2 main_arg38 (Pipeline.mem_restRefs_of main_arg38 (by decide) (by decide))).trans (V_main_arg38 m c),
      ((h c).2 main_arg39 (Pipeline.mem_restRefs_of main_arg39 (by decide) (by decide))).trans (V_main_arg39 m c)⟩)
    (run_main m ρ)

end Cert.KernelIdeal.KerFinal

end
-- ==== Proof.HostLayout.lean ====
/-
  The kernel's staged weights are re-laid copies of the argument arrays: a bias vector of length n laid as a
  one-row table, and the two rank-16 factor pairs laid side by side (columns 0–15 and 16–31) or one above
  the other (rows 0–15 and 16–31).  Read entry by entry, these are the specification's `vec`, `packCols`
  and `packRows`.
-/
import proofs.«153816_j32289564131760_2_alg».proof.Proof.NetArgs
import Idealize.ShloMosaic.Lib.Pipeline.Value
import Idealize.ShloMosaic.Lib.ValueLayout

noncomputable section

namespace Cert.Net

open Idealize.ShloMosaic Idealize.ShloMosaic.ValueIdx

/-- A vector laid as a one-row table, read as a row, is the vector. -/
theorem row1_shapeCast {n : ℕ} (b : FVec Ideal ⟨1, ![n]⟩ .f32) (h : (⟨1, ![n]⟩ : Shape).ShapeCasts ⟨2, ![1, n]⟩) :
    row1 (φ := .f32) (shapeCast (⟨2, ![1, n]⟩ : Shape) b h) = vec b := by
  funext k
  exact shapeCast_a_1a_apply b h 0 k

/-- Two `I × 16` matrices joined along the columns: entry (i, k) is the first's (i, k) for k < 16 and the
    second's (i, k − 16) otherwise. -/
theorem mat_concat_cols {I : ℕ} (a b : FVec Ideal ⟨2, ![I, 16]⟩ .f32)
    (h : Shape.Concatenates [(⟨2, ![I, 16]⟩ : Shape), ⟨2, ![I, 16]⟩] ⟨2, ![I, 32]⟩ 1) :
    mat (φ := .f32) (concatenate (⟨2, ![I, 32]⟩ : Shape) 1 [⟨⟨2, ![I, 16]⟩, a⟩, ⟨⟨2, ![I, 16]⟩, b⟩] h) = packCols (mat a) (mat b) := by
  funext i k
  unfold mat packCols
  by_cases hk : k.val < 16
  · rw [dif_pos hk]
    refine concatenate_pair_apply_left (1 : Fin 2) a b h (ix2 i k) rfl (ix2 i ⟨k.val, hk⟩) ?_
    intro d; match d with
    | ⟨0, _⟩ => rfl
    | ⟨1, _⟩ => rfl
  · rw [dif_neg hk]
    refine concatenate_pair_apply_right (1 : Fin 2) a b h (ix2 i k) rfl rfl (ix2 i ⟨k.val - 16, by omega⟩) ?_ ?_
    · intro d hd; match d, hd with
      | ⟨0, _⟩, _ => rfl
      | ⟨1, _⟩, hd => exact absurd rfl hd
    · show k.val - 16 + 16 = k.val
      omega

/-- Two `16 × O` matrices joined along the rows: entry (k, o) is the first's (k, o) for k < 16 and the
    second's (k − 16, o) otherwise. -/
theorem mat_concat_rows {O : ℕ} (a b : FVec Ideal ⟨2, ![16, O]⟩ .f32)
    (h : Shape.Concatenates [(⟨2, ![16, O]⟩ : Shape), ⟨2, ![16, O]⟩] ⟨2, ![32, O]⟩ 0) :
    mat (φ := .f32) (concatenate (⟨2, ![32, O]⟩ : Shape) 0 [⟨⟨2, ![16, O]⟩, a⟩, ⟨⟨2, ![16, O]⟩, b⟩] h) = packRows (mat a) (mat b) := by
  funext k o
  unfold mat packRows
  by_cases hk : k.val < 16
  · rw [dif_pos hk]
    refine concatenate_pair_apply_left (0 : Fin 2) a b h (ix2 k o) rfl (ix2 ⟨k.val, hk⟩ o) ?_
    intro d; match d with
    | ⟨0, _⟩ => rfl
    | ⟨1, _⟩ => rfl
  · rw [dif_neg hk]
    refine concatenate_pair_apply_right (0 : Fin 2) a b h (ix2 k o) rfl rfl (ix2 ⟨k.val - 16, by omega⟩ o) ?_ ?_
    · intro d hd; match d, hd with
      | ⟨0, _⟩, hd => exact absurd rfl hd
      | ⟨1, _⟩, _ => rfl
    · show k.val - 16 + 16 = k.val
      omega

end Cert.Net

end
-- ==== Proof.KerHost.lean ====
/-
  What the kernel's windows find in their arrays when the region is entered: the host operations before the
  region, folded over any starting contents `W`, leave in each staged array a re-laid copy of argument arrays —
  the input rows are the four embedding gathers joined along the feature axis, a matrix window holds its
  argument (rounding to bf16 is the identity on extended reals), a bias window its argument as a one-row table,
  and the packed rank-16 windows the two factors joined along the columns or the rows.
-/
import proofs.«153816_j32289564131760_2_alg».proof.Proof.Gen.KernelIdeal.Launch
import proofs.«153816_j32289564131760_2_alg».proof.Proof.HostLayout
import Idealize.ShloMosaic.Lib.StableHlo.Run
import Idealize.ShloMosaic.PureOps.Ideal

noncomputable section

namespace Cert.KernelIdeal.KerHost

open Idealize.ShloMosaic Idealize.ShloMosaic.TcCoe Cert.KernelIdeal Cert.KernelIdeal.Gen Cert.Net
open Idealize.ShloMosaic.StableHlo

/-- A row index made non-negative (`i < 0 ? i + n : i`) and laid as a column, as the gather takes it. -/
def wrapIdx (n : BitVec 32) (a : IVec S16384 32) : IVec S16384x1 32 :=
  broadcastInDim S16384x1 ![0] bcast_S16384_S16384x1_0
    (select (cmpi .slt a (broadcastInDim S16384 ![] bcast_S_S16384 (constantI S_ 32 0#32)))
      (addi a (broadcastInDim S16384 ![] bcast_S_S16384 (constantI S_ 32 n))) a)

/-- The input rows: the four embedding tables gathered at their indices, joined along the feature axis. -/
def embK (a0 a1 a2 a3 : IVec S16384 32) (a4 : S100000x64.Idx → EReal) (a5 : S100x64.Idx → EReal)
    (a6 : S500000x64.Idx → EReal) (a7 : S1000x64.Idx → EReal) : S16384x256.Idx → EReal :=
  concatenate S16384x256 1
    [⟨S16384x64, Host.gather gather_S100000x64_S16384x1_S16384x64_1_0_n_n_0_1_164 a4 (wrapIdx 100000#32 a0)⟩,
     ⟨S16384x64, Host.gather gather_S100x64_S16384x1_S16384x64_1_0_n_n_0_1_164 a5 (wrapIdx 100#32 a1)⟩,
     ⟨S16384x64, Host.gather gather_S500000x64_S16384x1_S16384x64_1_0_n_n_0_1_164 a6 (wrapIdx 500000#32 a2)⟩,
     ⟨S16384x64, Host.gather gather_S1000x64_S16384x1_S16384x64_1_0_n_n_0_1_164 a7 (wrapIdx 1000#32 a3)⟩]
    concatenates_S16384x64_S16384x64_S16384x64_S16384x64_S16384x256_d1

theorem win0 (W : Valuation τ sig (Elt Ideal)) :
    (StableHlo.after (hostOps0 (F := Ideal)) W (Proc.devRef .tc main_v29) : S16384x256.Idx → EReal)
      = embK (W (Proc.devRef .tc main_arg0)) (W (Proc.devRef .tc main_arg1)) (W (Proc.devRef .tc main_arg2)) (W (Proc.devRef .tc main_arg3))
          (W (Proc.devRef .tc main_arg4)) (W (Proc.devRef .tc main_arg5)) (W (Proc.devRef .tc main_arg6)) (W (Proc.devRef .tc main_arg7)) := by
  after_results_simp
  rfl

theorem win1 (W : Valuation τ sig (Elt Ideal)) :
    (StableHlo.after (hostOps0 (F := Ideal)) W (Proc.devRef .tc main_v42) : S256x2048.Idx → EReal) = (W (Proc.devRef .tc main_arg8) : S256x2048.Idx → EReal) := by
  after_results_simp
  rfl

theorem win2 (W : Valuation τ sig (Elt Ideal)) :
    (StableHlo.after (hostOps0 (F := Ideal)) W (Proc.devRef .tc main_v43) : S1x2048.Idx → EReal) = shapeCast S1x2048 (W (Proc.devRef .tc main_arg9) : S2048.Idx → EReal) shapeCasts_S2048_S1x2048 := by
  after_results_simp
  rfl

theorem win3 (W : Valuation τ sig (Elt Ideal)) :
    (StableHlo.after (hostOps0 (F := Ideal)) W (Proc.devRef .tc main_v44) : S256x256.Idx → EReal) = (W (Proc.devRef .tc main_arg10) : S256x256.Idx → EReal) := by
  after_results_simp
  rfl

theorem win4 (W : Valuation τ sig (Elt Ideal)) :
    (StableHlo.after (hostOps0 (F := Ideal)) W (Proc.devRef .tc main_v45) : S1x256.Idx → EReal) = shapeCast S1x256 (W (Proc.devRef .tc main_arg11) : S256.Idx → EReal) shapeCasts_S256_S1x256 := by
  after_results_simp
  rfl

theorem win5 (W : Valuation τ sig (Elt Ideal)) :
    (StableHlo.after (hostOps0 (F := Ideal)) W (Proc.devRef .tc main_v46) : S256x3.Idx → EReal) = (W (Proc.devRef .tc main_arg12) : S256x3.Idx → EReal) := by
  after_results_simp
  rfl

theorem win6 (W : Valuation τ sig (Elt Ideal)) :
    (StableHlo.after (hostOps0 (F := Ideal)) W (Proc.devRef .tc main_v47) : S1x3.Idx → EReal) = shapeCast S1x3 (W (Proc.devRef .tc main_arg13) : S3.Idx → EReal) shapeCasts_S3_S1x3 := by
  after_results_simp
  rfl

theorem win7 (W : Valuation τ sig (Elt Ideal)) :
    (StableHlo.after (hostOps0 (F := Ideal)) W (Proc.devRef .tc main_v32) : S256x32.Idx → EReal) = concatenate S256x32 1 [⟨S256x16, (W (Proc.devRef .tc main_arg14) : S256x16.Idx → EReal)⟩, ⟨S256x16, (W (Proc.devRef .tc main_arg16) : S256x16.Idx → EReal)⟩] concatenates_S256x16_S256x16_S256x32_d1 := by
  after_results_simp
  rfl

theorem win8 (W : Valuation τ sig (Elt Ideal)) :
    (StableHlo.after (hostOps0 (F := Ideal)) W (Proc.devRef .tc main_v33) : S32x2048.Idx → EReal) = concatenate S32x2048 0 [⟨S16x2048, (W (Proc.devRef .tc main_arg15) : S16x2048.Idx → EReal)⟩, ⟨S16x2048, (W (Proc.devRef .tc main_arg17) : S16x2048.Idx → EReal)⟩] concatenates_S16x2048_S16x2048_S32x2048_d0 := by
  after_results_simp
  rfl

theorem win9 (W : Valuation τ sig (Elt Ideal)) :
    (StableHlo.after (hostOps0 (F := Ideal)) W (Proc.devRef .tc main_v48) : S2048x2048.Idx → EReal) = (W (Proc.devRef .tc main_arg18) : S2048x2048.Idx → EReal) := by
  after_results_simp
  rfl

theorem win10 (W : Valuation τ sig (Elt Ideal)) :
    (StableHlo.after (hostOps0 (F := Ideal)) W (Proc.devRef .tc main_v49) : S1x2048.Idx → EReal) = shapeCast S1x2048 (W (Proc.devRef .tc main_arg19) : S2048.Idx → EReal) shapeCasts_S2048_S1x2048 := by
  after_results_simp
  rfl

theorem win11 (W : Valuation τ sig (Elt Ideal)) :
    (StableHlo.after (hostOps0 (F := Ideal)) W (Proc.devRef .tc main_v50) : S2048x256.Idx → EReal) = (W (Proc.devRef .tc main_arg20) : S2048x256.Idx → EReal) := by
  after_results_simp
  rfl

theorem win12 (W : Valuation τ sig (Elt Ideal)) :
    (StableHlo.after (hostOps0 (F := Ideal)) W (Proc.devRef .tc main_v51) : S1x256.Idx → EReal) = shapeCast S1x256 (W (Proc.devRef .tc main_arg21) : S256.Idx → EReal) shapeCasts_S256_S1x256 := by
  after_results_simp
  rfl

theorem win13 (W : Valuation τ sig (Elt Ideal)) :
    (StableHlo.after (hostOps0 (F := Ideal)) W (Proc.devRef .tc main_v52) : S256x3.Idx → EReal) = (W (Proc.devRef .tc main_arg22) : S256x3.Idx → EReal) := by
  after_results_simp
  rfl

theorem win14 (W : Valuation τ sig (Elt Ideal)) :
    (StableHlo.after (hostOps0 (F := Ideal)) W (Proc.devRef .tc main_v53) : S1x3.Idx → EReal) = shapeCast S1x3 (W (Proc.devRef .tc main_arg23) : S3.Idx → EReal) shapeCasts_S3_S1x3 := by
  after_results_simp
  rfl

theorem win15 (W : Valuation τ sig (Elt Ideal)) :
    (StableHlo.after (hostOps0 (F := Ideal)) W (Proc.devRef .tc main_v36) : S2048x32.Idx → EReal) = concatenate S2048x32 1 [⟨S2048x16, (W (Proc.devRef .tc main_arg24) : S2048x16.Idx → EReal)⟩, ⟨S2048x16, (W (Proc.devRef .tc main_arg26) : S2048x16.Idx → EReal)⟩] concatenates_S2048x16_S2048x16_S2048x32_d1 := by
  after_results_simp
  rfl

theorem win16 (W : Valuation τ sig (Elt Ideal)) :
    (StableHlo.after (hostOps0 (F := Ideal)) W (Proc.devRef .tc main_v37) : S32x2048.Idx → EReal) = concatenate S32x2048 0 [⟨S16x2048, (W (Proc.devRef .tc main_arg25) : S16x2048.Idx → EReal)⟩, ⟨S16x2048, (W (Proc.devRef .tc main_arg27) : S16x2048.Idx → EReal)⟩] concatenates_S16x2048_S16x2048_S32x2048_d0 := by
  after_results_simp
  rfl

theorem win17 (W : Valuation τ sig (Elt Ideal)) :
    (StableHlo.after (hostOps0 (F := Ideal)) W (Proc.devRef .tc main_v54) : S2048x1024.Idx → EReal) = (W (Proc.devRef .tc main_arg28) : S2048x1024.Idx → EReal) := by
  after_results_simp
  rfl

theorem win18 (W : Valuation τ sig (Elt Ideal)) :
    (StableHlo.after (hostOps0 (F := Ideal)) W (Proc.devRef .tc main_v55) : S1x1024.Idx → EReal) = shapeCast S1x1024 (W (Proc.devRef .tc main_arg29) : S1024.Idx → EReal) shapeCasts_S1024_S1x1024 := by
  after_results_simp
  rfl

theorem win19 (W : Valuation τ sig (Elt Ideal)) :
    (StableHlo.after (hostOps0 (F := Ideal)) W (Proc.devRef .tc main_v56) : S2048x256.Idx → EReal) = (W (Proc.devRef .tc main_arg30) : S2048x256.Idx → EReal) := by
  after_results_simp
  rfl

theorem win20 (W : Valuation τ sig (Elt Ideal)) :
    (StableHlo.after (hostOps0 (F := Ideal)) W (Proc.devRef .tc main_v57) : S1x256.Idx → EReal) = shapeCast S1x256 (W (Proc.devRef .tc main_arg31) : S256.Idx → EReal) shapeCasts_S256_S1x256 := by
  after_results_simp
  rfl

theorem win21 (W : Valuation τ sig (Elt Ideal)) :
    (StableHlo.after (hostOps0 (F := Ideal)) W (Proc.devRef .tc main_v58) : S256x3.Idx → EReal) = (W (Proc.devRef .tc main_arg32) : S256x3.Idx → EReal) := by
  after_results_simp
  rfl

theorem win22 (W : Valuation τ sig (Elt Ideal)) :
    (StableHlo.after (hostOps0 (F := Ideal)) W (Proc.devRef .tc main_v59) : S1x3.Idx → EReal) = shapeCast S1x3 (W (Proc.devRef .tc main_arg33) : S3.Idx → EReal) shapeCasts_S3_S1x3 := by
  after_results_simp
  rfl

theorem win23 (W : Valuation τ sig (Elt Ideal)) :
    (StableHlo.after (hostOps0 (F := Ideal)) W (Proc.devRef .tc main_v40) : S2048x32.Idx → EReal) = concatenate S2048x32 1 [⟨S2048x16, (W (Proc.devRef .tc main_arg34) : S2048x16.Idx → EReal)⟩, ⟨S2048x16, (W (Proc.devRef .tc main_arg36) : S2048x16.Idx → EReal)⟩] concatenates_S2048x16_S2048x16_S2048x32_d1 := by
  after_results_simp
  rfl

theorem win24 (W : Valuation τ sig (Elt Ideal)) :
    (StableHlo.after (hostOps0 (F := Ideal)) W (Proc.devRef .tc main_v41) : S32x1024.Idx → EReal) = concatenate S32x1024 0 [⟨S16x1024, (W (Proc.devRef .tc main_arg35) : S16x1024.Idx → EReal)⟩, ⟨S16x1024, (W (Proc.devRef .tc main_arg37) : S16x1024.Idx → EReal)⟩] concatenates_S16x1024_S16x1024_S32x1024_d0 := by
  after_results_simp
  rfl

theorem win25 (W : Valuation τ sig (Elt Ideal)) :
    (StableHlo.after (hostOps0 (F := Ideal)) W (Proc.devRef .tc main_v60) : S1024x1.Idx → EReal) = (W (Proc.devRef .tc main_arg38) : S1024x1.Idx → EReal) := by
  after_results_simp
  rfl

theorem win26 (W : Valuation τ sig (Elt Ideal)) :
    (StableHlo.after (hostOps0 (F := Ideal)) W (Proc.devRef .tc main_v61) : S1x1.Idx → EReal) = shapeCast S1x1 (W (Proc.devRef .tc main_arg39) : S1.Idx → EReal) shapeCasts_S1_S1x1 := by
  after_results_simp
  rfl

end Cert.KernelIdeal.KerHost

end
-- ==== Proof.HostLayer.lean ====
/-
  A layer's eight staged arrays — the four matrices as they are, the three biases as one-row tables, the two
  rank-16 pairs joined — are, read as weights, the packed form of the layer built from the ten argument arrays.
-/
import proofs.«153816_j32289564131760_2_alg».proof.Proof.HostLayout

noncomputable section

namespace Cert.Net

open Idealize.ShloMosaic Idealize.ShloMosaic.ValueIdx

theorem mkLayerK_eq_pack {I O : ℕ} (fcw : FVec Ideal ⟨2, ![I, O]⟩ .f32) (fcb : FVec Ideal ⟨1, ![O]⟩ .f32)
    (g1w : FVec Ideal ⟨2, ![I, 256]⟩ .f32) (g1b : FVec Ideal ⟨1, ![256]⟩ .f32)
    (g2w : FVec Ideal ⟨2, ![256, 3]⟩ .f32) (g2b : FVec Ideal ⟨1, ![3]⟩ .f32)
    (lau : FVec Ideal ⟨2, ![I, 16]⟩ .f32) (lbu : FVec Ideal ⟨2, ![16, O]⟩ .f32)
    (laf : FVec Ideal ⟨2, ![I, 16]⟩ .f32) (lbf : FVec Ideal ⟨2, ![16, O]⟩ .f32)
    (h1 : (⟨1, ![O]⟩ : Shape).ShapeCasts ⟨2, ![1, O]⟩) (h2 : (⟨1, ![256]⟩ : Shape).ShapeCasts ⟨2, ![1, 256]⟩)
    (h3 : (⟨1, ![3]⟩ : Shape).ShapeCasts ⟨2, ![1, 3]⟩)
    (hc : Shape.Concatenates [(⟨2, ![I, 16]⟩ : Shape), ⟨2, ![I, 16]⟩] ⟨2, ![I, 32]⟩ 1)
    (hr : Shape.Concatenates [(⟨2, ![16, O]⟩ : Shape), ⟨2, ![16, O]⟩] ⟨2, ![32, O]⟩ 0) :
    mkLayerK (I := I) (O := O) fcw (shapeCast (⟨2, ![1, O]⟩ : Shape) fcb h1) g1w (shapeCast (⟨2, ![1, 256]⟩ : Shape) g1b h2)
        g2w (shapeCast (⟨2, ![1, 3]⟩ : Shape) g2b h3)
        (concatenate (⟨2, ![I, 32]⟩ : Shape) 1 [⟨⟨2, ![I, 16]⟩, lau⟩, ⟨⟨2, ![I, 16]⟩, laf⟩] hc)
        (concatenate (⟨2, ![32, O]⟩ : Shape) 0 [⟨⟨2, ![16, O]⟩, lbu⟩, ⟨⟨2, ![16, O]⟩, lbf⟩] hr)
      = (mkLayer fcw fcb g1w g1b g2w g2b lau lbu laf lbf).pack := by
  have e1 := row1_shapeCast fcb h1
  have e2 := row1_shapeCast g1b h2
  have e3 := row1_shapeCast g2b h3
  have e4 := mat_concat_cols lau laf hc
  have e5 := mat_concat_rows lbu lbf hr
  unfold mkLayerK mkLayer Layer.pack
  dsimp only
  congr 1

end Cert.Net

end
-- ==== Proof.KerWindows.lean ====
/-
  The three layers' staged weight arrays at region entry, read as weights, are the packed forms of the layers
  built from the argument arrays; the final map's weight window is its argument and its bias window holds the
  argument's one entry.
-/
import proofs.«153816_j32289564131760_2_alg».proof.Proof.KerHost
import proofs.«153816_j32289564131760_2_alg».proof.Proof.HostLayer

noncomputable section

namespace Cert.KernelIdeal.KerHost

open Idealize.ShloMosaic Idealize.ShloMosaic.TcCoe Cert.KernelIdeal Cert.KernelIdeal.Gen Cert.Net
open Idealize.ShloMosaic.StableHlo Idealize.ShloMosaic.ValueIdx

theorem layer0_windows (W : Valuation τ sig (Elt Ideal)) :
    mkLayerK (I := 256) (O := 2048)
      (StableHlo.after (hostOps0 (F := Ideal)) W (Proc.devRef .tc main_v42) : S256x2048.Idx → EReal)
      (StableHlo.after (hostOps0 (F := Ideal)) W (Proc.devRef .tc main_v43) : S1x2048.Idx → EReal)
      (StableHlo.after (hostOps0 (F := Ideal)) W (Proc.devRef .tc main_v44) : S256x256.Idx → EReal)
      (StableHlo.after (hostOps0 (F := Ideal)) W (Proc.devRef .tc main_v45) : S1x256.Idx → EReal)
      (StableHlo.after (hostOps0 (F := Ideal)) W (Proc.devRef .tc main_v46) : S256x3.Idx → EReal)
      (StableHlo.after (hostOps0 (F := Ideal)) W (Proc.devRef .tc main_v47) : S1x3.Idx → EReal)
      (StableHlo.after (hostOps0 (F := Ideal)) W (Proc.devRef .tc main_v32) : S256x32.Idx → EReal)
      (StableHlo.after (hostOps0 (F := Ideal)) W (Proc.devRef .tc main_v33) : S32x2048.Idx → EReal)
    = (mkLayer (I := 256) (O := 2048)
      (W (Proc.devRef .tc main_arg8) : S256x2048.Idx → EReal)
      (W (Proc.devRef .tc main_arg9) : S2048.Idx → EReal)
      (W (Proc.devRef .tc main_arg10) : S256x256.Idx → EReal)
      (W (Proc.devRef .tc main_arg11) : S256.Idx → EReal)
      (W (Proc.devRef .tc main_arg12) : S256x3.Idx → EReal)
      (W (Proc.devRef .tc main_arg13) : S3.Idx → EReal)
      (W (Proc.devRef .tc main_arg14) : S256x16.Idx → EReal)
      (W (Proc.devRef .tc main_arg15) : S16x2048.Idx → EReal)
      (W (Proc.devRef .tc main_arg16) : S256x16.Idx → EReal)
      (W (Proc.devRef .tc main_arg17) : S16x2048.Idx → EReal)).pack := by
  rw [win1 W, win2 W, win3 W, win4 W, win5 W, win6 W, win7 W, win8 W]
  exact mkLayerK_eq_pack _ _ _ _ _ _ _ _ _ _ _ _ _ _ _

theorem layer1_windows (W : Valuation τ sig (Elt Ideal)) :
    mkLayerK (I := 2048) (O := 2048)
      (StableHlo.after (hostOps0 (F := Ideal)) W (Proc.devRef .tc main_v48) : S2048x2048.Idx → EReal)
      (StableHlo.after (hostOps0 (F := Ideal)) W (Proc.devRef .tc main_v49) : S1x2048.Idx → EReal)
      (StableHlo.after (hostOps0 (F := Ideal)) W (Proc.devRef .tc main_v50) : S2048x256.Idx → EReal)
      (StableHlo.after (hostOps0 (F := Ideal)) W (Proc.devRef .tc main_v51) : S1x256.Idx → EReal)
      (StableHlo.after (hostOps0 (F := Ideal)) W (Proc.devRef .tc main_v52) : S256x3.Idx → EReal)
      (StableHlo.after (hostOps0 (F := Ideal)) W (Proc.devRef .tc main_v53) : S1x3.Idx → EReal)
      (StableHlo.after (hostOps0 (F := Ideal)) W (Proc.devRef .tc main_v36) : S2048x32.Idx → EReal)
      (StableHlo.after (hostOps0 (F := Ideal)) W (Proc.devRef .tc main_v37) : S32x2048.Idx → EReal)
    = (mkLayer (I := 2048) (O := 2048)
      (W (Proc.devRef .tc main_arg18) : S2048x2048.Idx → EReal)
      (W (Proc.devRef .tc main_arg19) : S2048.Idx → EReal)
      (W (Proc.devRef .tc main_arg20) : S2048x256.Idx → EReal)
      (W (Proc.devRef .tc main_arg21) : S256.Idx → EReal)
      (W (Proc.devRef .tc main_arg22) : S256x3.Idx → EReal)
      (W (Proc.devRef .tc main_arg23) : S3.Idx → EReal)
      (W (Proc.devRef .tc main_arg24) : S2048x16.Idx → EReal)
      (W (Proc.devRef .tc main_arg25) : S16x2048.Idx → EReal)
      (W (Proc.devRef .tc main_arg26) : S2048x16.Idx → EReal)
      (W (Proc.devRef .tc main_arg27) : S16x2048.Idx → EReal)).pack := by
  rw [win9 W, win10 W, win11 W, win12 W, win13 W, win14 W, win15 W, win16 W]
  exact mkLayerK_eq_pack _ _ _ _ _ _ _ _ _ _ _ _ _ _ _

theorem layer2_windows (W : Valuation τ sig (Elt Ideal)) :
    mkLayerK (I := 2048) (O := 1024)
      (StableHlo.after (hostOps0 (F := Ideal)) W (Proc.devRef .tc main_v54) : S2048x1024.Idx → EReal)
      (StableHlo.after (hostOps0 (F := Ideal)) W (Proc.devRef .tc main_v55) : S1x1024.Idx → EReal)
      (StableHlo.after (hostOps0 (F := Ideal)) W (Proc.devRef .tc main_v56) : S2048x256.Idx → EReal)
      (StableHlo.after (hostOps0 (F := Ideal)) W (Proc.devRef .tc main_v57) : S1x256.Idx → EReal)
      (StableHlo.after (hostOps0 (F := Ideal)) W (Proc.devRef .tc main_v58) : S256x3.Idx → EReal)
      (StableHlo.after (hostOps0 (F := Ideal)) W (Proc.devRef .tc main_v59) : S1x3.Idx → EReal)
      (StableHlo.after (hostOps0 (F := Ideal)) W (Proc.devRef .tc main_v40) : S2048x32.Idx → EReal)
      (StableHlo.after (hostOps0 (F := Ideal)) W (Proc.devRef .tc main_v41) : S32x1024.Idx → EReal)
    = (mkLayer (I := 2048) (O := 1024)
      (W (Proc.devRef .tc main_arg28) : S2048x1024.Idx → EReal)
      (W (Proc.devRef .tc main_arg29) : S1024.Idx → EReal)
      (W (Proc.devRef .tc main_arg30) : S2048x256.Idx → EReal)
      (W (Proc.devRef .tc main_arg31) : S256.Idx → EReal)
      (W (Proc.devRef .tc main_arg32) : S256x3.Idx → EReal)
      (W (Proc.devRef .tc main_arg33) : S3.Idx → EReal)
      (W (Proc.devRef .tc main_arg34) : S2048x16.Idx → EReal)
      (W (Proc.devRef .tc main_arg35) : S16x1024.Idx → EReal)
      (W (Proc.devRef .tc main_arg36) : S2048x16.Idx → EReal)
      (W (Proc.devRef .tc main_arg37) : S16x1024.Idx → EReal)).pack := by
  rw [win17 W, win18 W, win19 W, win20 W, win21 W, win22 W, win23 W, win24 W]
  exact mkLayerK_eq_pack _ _ _ _ _ _ _ _ _ _ _ _ _ _ _

theorem tail_weight (W : Valuation τ sig (Elt Ideal)) :
    mat (φ := .bf16) (a := 1024) (b := 1) (StableHlo.after (hostOps0 (F := Ideal)) W (Proc.devRef .tc main_v60) : S1024x1.Idx → EReal) = mat (φ := .f32) (a := 1024) (b := 1) (W (Proc.devRef .tc main_arg38) : S1024x1.Idx → EReal) := by
  rw [win25 W]
  rfl

theorem tail_bias (W : Valuation τ sig (Elt Ideal)) :
    (StableHlo.after (hostOps0 (F := Ideal)) W (Proc.devRef .tc main_v61) : S1x1.Idx → EReal) (ix2 (0 : Fin 1) (0 : Fin 1)) = vec (φ := .f32) (a := 1) (W (Proc.devRef .tc main_arg39) : S1.Idx → EReal) 0 := by
  rw [win26 W]
  exact congrFun (row1_shapeCast (n := 1) (W (Proc.devRef .tc main_arg39) : S1.Idx → EReal) shapeCasts_S1_S1x1) 0

end Cert.KernelIdeal.KerHost

end
-- ==== Proof.LibGatherFormat.lean ====
/-
  A host gather does not look at the values of the table it reads.

  `stablehlo.gather` picks, for each result index, ONE index of its operand (computed from the start indices and the
  dimension numbers alone) and returns the operand's element there. So two tables that agree element by element
  gather to results that agree element by element, whatever the tables' element types are called. At the ideal
  instance a bf16 table and an f32 table are both families of extended reals: a gather from one equals the gather
  from the other as soon as the tables are equal as extended reals.
-/
import Idealize.ShloMosaic.PureOps.Ideal

noncomputable section

namespace Cert.GatherFormat

open Idealize.ShloMosaic

/-- A gather read at a result index: the operand at the operand index the dimension numbers name. -/
theorem gather_apply {s si t : Shape} {α : Type} {w : Nat} (d : GatherDims s si t) (x : s.Idx → α) (i : IVec si w)
    (k : t.Idx) : Host.gather d x i k = x (d.operandIdx k i) := rfl

/-- Tables equal element by element gather to results equal element by element. -/
theorem gather_congr {s si t : Shape} {α : Type} {w : Nat} (d : GatherDims s si t) (x x' : s.Idx → α) (i : IVec si w)
    (h : ∀ j, x j = x' j) (k : t.Idx) : Host.gather d x i k = Host.gather d x' i k :=
  h (d.operandIdx k i)

/-- Two records of dimension numbers with the same lists are the same record (the well-formedness field is a proof). -/
theorem gatherDims_ext {s si t : Shape} (d d' : GatherDims s si t)
    (h1 : d.offsetDims = d'.offsetDims) (h2 : d.collapsedSliceDims = d'.collapsedSliceDims)
    (h3 : d.operandBatchingDims = d'.operandBatchingDims) (h4 : d.startIndicesBatchingDims = d'.startIndicesBatchingDims)
    (h5 : d.startIndexMap = d'.startIndexMap) (h6 : d.indexVectorDim = d'.indexVectorDim)
    (h7 : d.sliceSizes = d'.sliceSizes) : d = d' := by
  cases d
  cases d'
  cases h1
  cases h2
  cases h3
  cases h4
  cases h5
  cases h6
  cases h7
  rfl

/-- At the ideal instance a gather from a bf16 table equals the gather from an f32 table holding the same extended
    reals. -/
theorem gather_format {s si t : Shape} (d : GatherDims s si t)
    (x : (⟨s, .bf16⟩ : BufTy).Contents (Elt Ideal)) (x' : (⟨s, .f32⟩ : BufTy).Contents (Elt Ideal))
    (i : (⟨si, .i32⟩ : BufTy).Contents (Elt Ideal)) (h : ∀ j, (x j : EReal) = x' j) (k : t.Idx) :
    (Host.gather d x i k : EReal) = Host.gather d x' i k :=
  h (d.operandIdx k i)

/-- The same for two records of dimension numbers that are equal. -/
theorem gather_format' {s si t : Shape} (d d' : GatherDims s si t) (hd : d = d')
    (x : (⟨s, .bf16⟩ : BufTy).Contents (Elt Ideal)) (x' : (⟨s, .f32⟩ : BufTy).Contents (Elt Ideal))
    (i : (⟨si, .i32⟩ : BufTy).Contents (Elt Ideal)) (h : ∀ j, (x j : EReal) = x' j) (k : t.Idx) :
    (Host.gather d x i k : EReal) = Host.gather d' x' i k := by
  subst hd
  exact h (d.operandIdx k i)

end Cert.GatherFormat
-- ==== Proof.EmbFinite.lean ====
/-
  The kernel's input rows have only real entries when the four embedding tables do: every entry of a gather's
  result is an entry of its table, and every entry of a concatenation is an entry of one of its pieces.
-/
import proofs.«153816_j32289564131760_2_alg».proof.Proof.KerHost
import proofs.«153816_j32289564131760_2_alg».proof.Proof.LibGatherFormat

noncomputable section

namespace Cert.KernelIdeal.KerHost

open Idealize.ShloMosaic Cert.KernelIdeal Cert.KernelIdeal.Gen

/-- What holds of every entry of every piece holds of every entry of their concatenation: the entry of the
    concatenation at an index is, by definition, the entry of the piece the index falls in, at the index's
    coordinates with the offset of that piece taken off the joining axis. -/
theorem concatenate_forall {α : Type} {t : Shape} {a : Fin t.rank} (xs : List ((s : Shape) × (s.Idx → α)))
    (h : Shape.Concatenates (xs.map (·.1)) t a) (P : α → Prop) (hP : ∀ p ∈ xs, ∀ i, P (p.2 i)) (j : t.Idx) :
    P (concatenate t a xs h j) := by
  unfold concatenate
  exact hP _ (List.getElem_mem _) _

/-- Every entry of the input rows is a real number when every entry of the four tables is. -/
theorem embK_finite (a0 a1 a2 a3 : IVec S16384 32) (a4 : S100000x64.Idx → EReal) (a5 : S100x64.Idx → EReal)
    (a6 : S500000x64.Idx → EReal) (a7 : S1000x64.Idx → EReal)
    (h4 : ∀ j, a4 j ≠ ⊤ ∧ a4 j ≠ ⊥) (h5 : ∀ j, a5 j ≠ ⊤ ∧ a5 j ≠ ⊥)
    (h6 : ∀ j, a6 j ≠ ⊤ ∧ a6 j ≠ ⊥) (h7 : ∀ j, a7 j ≠ ⊤ ∧ a7 j ≠ ⊥) :
    ∀ j, embK a0 a1 a2 a3 a4 a5 a6 a7 j ≠ ⊤ ∧ embK a0 a1 a2 a3 a4 a5 a6 a7 j ≠ ⊥ := by
  intro j
  unfold embK
  refine concatenate_forall _ _ (fun x : EReal => x ≠ ⊤ ∧ x ≠ ⊥) ?_ j
  intro p hp i
  rcases List.mem_cons.1 hp with rfl | hp
  · exact h4 _
  rcases List.mem_cons.1 hp with rfl | hp
  · exact h5 _
  rcases List.mem_cons.1 hp with rfl | hp
  · exact h6 _
  rcases List.mem_cons.1 hp with rfl | hp
  · exact h7 _
  · exact absurd hp (List.not_mem_nil)

end Cert.KernelIdeal.KerHost

end
-- ==== Proof.PreFinite.lean ====
import proofs.«153816_j32289564131760_2_alg».proof.Pre_finite_inputs
import proofs.«153816_j32289564131760_2_alg».proof.Proof.Gen.Pre_finite_inputs
import Idealize.ShloMosaic.Lib.ReduceAll
import Idealize.ShloMosaic.Lib.ValueIdx
import Idealize.ShloMosaic.PureOps.Ideal

/-!
  The precondition read back: the printed predicate is the conjunction, over the 36 float arrays, of
  "every entry x satisfies |x| < +∞", each conjunct an and-reduction over all axes of the entrywise comparison.
  On the extended reals |x| = max x (-x), and max x (-x) < ⊤ says x is neither ⊤ nor ⊥: every entry is a real number.
-/

noncomputable section

namespace Cert.PreFinite

open Idealize.ShloMosaic Cert.Pre_finite_inputs

/-- every entry is a real number -/
def AllReal {s : Shape} (x : FVec Ideal s .f32) : Prop := ∀ j, x j ≠ ⊤ ∧ x j ≠ ⊥

/-- The rank-0 shape has one index. -/
instance : Subsingleton S_.Idx := ⟨fun a b => funext fun d => d.elim0⟩

/-- An extended real whose absolute value max x (-x) is below ⊤ is neither infinity. -/
theorem real_of_abs_lt_top (x : EReal) (h : max x (-x) < ⊤) : x ≠ ⊤ ∧ x ≠ ⊥ := by
  constructor
  · rintro rfl; simp at h
  · rintro rfl; simp at h

theorem ofBool_one (b : Bool) : BitVec.ofBool b = 1#1 ↔ b = true := by cases b <;> decide

/-- The word 0x7F800000 denotes +∞. -/
theorem inf_word : Ideal.ofBits .f32 0x7F800000#32 = ⊤ := by simp [Ideal.ofBits, Ideal.ieee]

/-- One array's test, as printed: the and-reduction over all axes of |x| < +∞ came out 1, so every entry is real. -/
theorem allReal_of_test {s : Shape} {axes : List (Fin s.rank)}
    (hb : S_.BroadcastsInDim s (![] : Fin 0 → Fin s.rank)) (hr : s.ReducesTo axes S_) (h0 : 0 < S_.numel)
    (x : FVec Ideal s .f32) (j : S_.Idx)
    (h : Host.reduce IntOp.andi
          (cmpf .olt (Host.absf x) (broadcastInDim s ![] hb (constant S_ .f32 0x7F800000#32)))
          (constantI S_ 1 1#1) hr h0 j = 1#1) : AllReal x := by
  intro i
  have e := Host.reduce_andi_all _ _ hr h0 j h i
  have e' : Ideal.cmp .olt (max (x i) (-(x i))) (Ideal.ofBits .f32 0x7F800000#32) = 1#1 := e
  rw [inf_word] at e'
  unfold Ideal.cmp at e'
  rw [ofBool_one] at e'
  exact real_of_abs_lt_top _ (of_decide_eq_true e')

/-- A conjunction of two rank-0 flags that is 1 has both flags 1. -/
theorem andi_split {p q : IVec S_ 1} {j : S_.Idx} (h : andi p q j = 1#1) : p j = 1#1 ∧ q j = 1#1 :=
  IntOp.andi_eq_one.1 h

/-- The precondition decoded: if the printed predicate of the 40 argument arrays is all ones, every entry of every
    float array is a real number. The predicate is a left-nested conjunction of the 36 arrays' tests, in argument order;
    it is peeled from the last test to the first. -/
theorem allReal_of_fn [Cert.Pre_finite_inputs.Facts] (a0 : IVec S16384 32) (a1 : IVec S16384 32) (a2 : IVec S16384 32) (a3 : IVec S16384 32) (a4 : FVec Ideal S100000x64 .f32) (a5 : FVec Ideal S100x64 .f32) (a6 : FVec Ideal S500000x64 .f32) (a7 : FVec Ideal S1000x64 .f32) (a8 : FVec Ideal S256x2048 .f32) (a9 : FVec Ideal S2048 .f32) (a10 : FVec Ideal S256x256 .f32) (a11 : FVec Ideal S256 .f32) (a12 : FVec Ideal S256x3 .f32) (a13 : FVec Ideal S3 .f32) (a14 : FVec Ideal S256x16 .f32) (a15 : FVec Ideal S16x2048 .f32) (a16 : FVec Ideal S256x16 .f32) (a17 : FVec Ideal S16x2048 .f32) (a18 : FVec Ideal S2048x2048 .f32) (a19 : FVec Ideal S2048 .f32) (a20 : FVec Ideal S2048x256 .f32) (a21 : FVec Ideal S256 .f32) (a22 : FVec Ideal S256x3 .f32) (a23 : FVec Ideal S3 .f32) (a24 : FVec Ideal S2048x16 .f32) (a25 : FVec Ideal S16x2048 .f32) (a26 : FVec Ideal S2048x16 .f32) (a27 : FVec Ideal S16x2048 .f32) (a28 : FVec Ideal S2048x1024 .f32) (a29 : FVec Ideal S1024 .f32) (a30 : FVec Ideal S2048x256 .f32) (a31 : FVec Ideal S256 .f32) (a32 : FVec Ideal S256x3 .f32) (a33 : FVec Ideal S3 .f32) (a34 : FVec Ideal S2048x16 .f32) (a35 : FVec Ideal S16x1024 .f32) (a36 : FVec Ideal S2048x16 .f32) (a37 : FVec Ideal S16x1024 .f32) (a38 : FVec Ideal S1024x1 .f32) (a39 : FVec Ideal S1 .f32)
    (h : Cert.Pre_finite_inputs.fn (F := Ideal) a0 a1 a2 a3 a4 a5 a6 a7 a8 a9 a10 a11 a12 a13 a14 a15 a16 a17 a18 a19 a20 a21 a22 a23 a24 a25 a26 a27 a28 a29 a30 a31 a32 a33 a34 a35 a36 a37 a38 a39 = (fun _ => 1#1)) :
    AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 ∧ AllReal a23 ∧ AllReal a24 ∧ AllReal a25 ∧ AllReal a26 ∧ AllReal a27 ∧ AllReal a28 ∧ AllReal a29 ∧ AllReal a30 ∧ AllReal a31 ∧ AllReal a32 ∧ AllReal a33 ∧ AllReal a34 ∧ AllReal a35 ∧ AllReal a36 ∧ AllReal a37 ∧ AllReal a38 ∧ AllReal a39 := by
  have h39 : Cert.Pre_finite_inputs.fn (F := Ideal) a0 a1 a2 a3 a4 a5 a6 a7 a8 a9 a10 a11 a12 a13 a14 a15 a16 a17 a18 a19 a20 a21 a22 a23 a24 a25 a26 a27 a28 a29 a30 a31 a32 a33 a34 a35 a36 a37 a38 a39 ValueIdx.ix0 = 1#1 := congrFun h ValueIdx.ix0
  obtain ⟨h38, t39⟩ := andi_split h39
  obtain ⟨h37, t38⟩ := andi_split h38
  obtain ⟨h36, t37⟩ := andi_split h37
  obtain ⟨h35, t36⟩ := andi_split h36
  obtain ⟨h34, t35⟩ := andi_split h35
  obtain ⟨h33, t34⟩ := andi_split h34
  obtain ⟨h32, t33⟩ := andi_split h33
  obtain ⟨h31, t32⟩ := andi_split h32
  obtain ⟨h30, t31⟩ := andi_split h31
  obtain ⟨h29, t30⟩ := andi_split h30
  obtain ⟨h28, t29⟩ := andi_split h29
  obtain ⟨h27, t28⟩ := andi_split h28
  obtain ⟨h26, t27⟩ := andi_split h27
  obtain ⟨h25, t26⟩ := andi_split h26
  obtain ⟨h24, t25⟩ := andi_split h25
  obtain ⟨h23, t24⟩ := andi_split h24
  obtain ⟨h22, t23⟩ := andi_split h23
  obtain ⟨h21, t22⟩ := andi_split h22
  obtain ⟨h20, t21⟩ := andi_split h21
  obtain ⟨h19, t20⟩ := andi_split h20
  obtain ⟨h18, t19⟩ := andi_split h19
  obtain ⟨h17, t18⟩ := andi_split h18
  obtain ⟨h16, t17⟩ := andi_split h17
  obtain ⟨h15, t16⟩ := andi_split h16
  obtain ⟨h14, t15⟩ := andi_split h15
  obtain ⟨h13, t14⟩ := andi_split h14
  obtain ⟨h12, t13⟩ := andi_split h13
  obtain ⟨h11, t12⟩ := andi_split h12
  obtain ⟨h10, t11⟩ := andi_split h11
  obtain ⟨h9, t10⟩ := andi_split h10
  obtain ⟨h8, t9⟩ := andi_split h9
  obtain ⟨h7, t8⟩ := andi_split h8
  obtain ⟨h6, t7⟩ := andi_split h7
  obtain ⟨h5, t6⟩ := andi_split h6
  obtain ⟨t4, t5⟩ := andi_split h5
  exact ⟨allReal_of_test _ _ _ _ _ t4,
    allReal_of_test _ _ _ _ _ t5,
    allReal_of_test _ _ _ _ _ t6,
    allReal_of_test _ _ _ _ _ t7,
    allReal_of_test _ _ _ _ _ t8,
    allReal_of_test _ _ _ _ _ t9,
    allReal_of_test _ _ _ _ _ t10,
    allReal_of_test _ _ _ _ _ t11,
    allReal_of_test _ _ _ _ _ t12,
    allReal_of_test _ _ _ _ _ t13,
    allReal_of_test _ _ _ _ _ t14,
    allReal_of_test _ _ _ _ _ t15,
    allReal_of_test _ _ _ _ _ t16,
    allReal_of_test _ _ _ _ _ t17,
    allReal_of_test _ _ _ _ _ t18,
    allReal_of_test _ _ _ _ _ t19,
    allReal_of_test _ _ _ _ _ t20,
    allReal_of_test _ _ _ _ _ t21,
    allReal_of_test _ _ _ _ _ t22,
    allReal_of_test _ _ _ _ _ t23,
    allReal_of_test _ _ _ _ _ t24,
    allReal_of_test _ _ _ _ _ t25,
    allReal_of_test _ _ _ _ _ t26,
    allReal_of_test _ _ _ _ _ t27,
    allReal_of_test _ _ _ _ _ t28,
    allReal_of_test _ _ _ _ _ t29,
    allReal_of_test _ _ _ _ _ t30,
    allReal_of_test _ _ _ _ _ t31,
    allReal_of_test _ _ _ _ _ t32,
    allReal_of_test _ _ _ _ _ t33,
    allReal_of_test _ _ _ _ _ t34,
    allReal_of_test _ _ _ _ _ t35,
    allReal_of_test _ _ _ _ _ t36,
    allReal_of_test _ _ _ _ _ t37,
    allReal_of_test _ _ _ _ _ t38,
    allReal_of_test _ _ _ _ _ t39⟩

end Cert.PreFinite
-- ==== Proof.NetFinite.lean ====
/-
  The arrays' finiteness carried to the specification: an array all of whose entries are real numbers gives a
  matrix (or a row) all of whose entries are real numbers, since a matrix entry (or a row entry) IS an entry of the
  array; so a layer built from ten such arrays has only real weights, and each row of such an array is a real row.
-/
import proofs.«153816_j32289564131760_2_alg».proof.Proof.NetArgs
import proofs.«153816_j32289564131760_2_alg».proof.Proof.PreFinite

noncomputable section

namespace Cert.Net

open Idealize.ShloMosaic Idealize.ShloMosaic.ValueIdx

/-- The matrix of a rank-2 array with real entries has real entries. -/
theorem mat_finite {a b : ℕ} (x : FVec Ideal ⟨2, ![a, b]⟩ .f32) (h : Cert.PreFinite.AllReal x) : MatFinite (mat x) :=
  fun i j => h (ix2 i j)

/-- The row of a rank-1 array with real entries has real entries. -/
theorem vec_finite {a : ℕ} (x : FVec Ideal ⟨1, ![a]⟩ .f32) (h : Cert.PreFinite.AllReal x) : RowFinite (vec x) :=
  fun i => h (ix1 i)

/-- Each row of a rank-2 array with real entries has real entries. -/
theorem rowOf_finite {a b : ℕ} (X : FVec Ideal ⟨2, ![a, b]⟩ .f32) (hX : ∀ j, X j ≠ ⊤ ∧ X j ≠ ⊥) (r : Fin a) :
    RowFinite (rowOf X r) :=
  fun k => hX (ix2 r k)

/-- A layer built from ten arrays with real entries has only real weights. -/
theorem mkLayer_finite {I O : ℕ} (fcw : FVec Ideal ⟨2, ![I, O]⟩ .f32) (fcb : FVec Ideal ⟨1, ![O]⟩ .f32)
    (g1w : FVec Ideal ⟨2, ![I, 256]⟩ .f32) (g1b : FVec Ideal ⟨1, ![256]⟩ .f32)
    (g2w : FVec Ideal ⟨2, ![256, 3]⟩ .f32) (g2b : FVec Ideal ⟨1, ![3]⟩ .f32)
    (lau : FVec Ideal ⟨2, ![I, 16]⟩ .f32) (lbu : FVec Ideal ⟨2, ![16, O]⟩ .f32)
    (laf : FVec Ideal ⟨2, ![I, 16]⟩ .f32) (lbf : FVec Ideal ⟨2, ![16, O]⟩ .f32)
    (h1 : Cert.PreFinite.AllReal fcw) (h2 : Cert.PreFinite.AllReal fcb)
    (h3 : Cert.PreFinite.AllReal g1w) (h4 : Cert.PreFinite.AllReal g1b)
    (h5 : Cert.PreFinite.AllReal g2w) (h6 : Cert.PreFinite.AllReal g2b)
    (h7 : Cert.PreFinite.AllReal lau) (h8 : Cert.PreFinite.AllReal lbu)
    (h9 : Cert.PreFinite.AllReal laf) (h10 : Cert.PreFinite.AllReal lbf) :
    (mkLayer fcw fcb g1w g1b g2w g2b lau lbu laf lbf).Finite where
  fcw := mat_finite fcw h1
  fcb := vec_finite fcb h2
  g1w := mat_finite g1w h3
  g1b := vec_finite g1b h4
  g2w := mat_finite g2w h5
  g2b := vec_finite g2b h6
  lau := mat_finite lau h7
  lbu := mat_finite lbu h8
  laf := mat_finite laf h9
  lbf := mat_finite lbf h10

end Cert.Net

end
-- ==== Proof.NetLaws.lean ====
/-
  The kernel's arrangement of a layer equals the reference's when every entry is a real number.

  Multiplication of extended reals does not distribute over addition in general (⊤ + ⊥), so the
  comparison is made in ℝ: every weight and every entry of the row is the coercion of a real, every
  intermediate value of a layer is then the coercion of a real given by the same formula over ℝ, and
  the two real formulas agree by distributivity, after the sum over the 32 packed columns is split
  into the first 16 and the last 16.
-/
import proofs.«153816_j32289564131760_2_alg».proof.Proof.Net

noncomputable section

namespace Cert.Net

open Idealize.ShloMosaic

/-! ### Coercion ℝ → EReal and the elementary operations -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion preserves binary maxima. -/
theorem coe_max (a b : ℝ) : ((max a b : ℝ) : EReal) = max (a : EReal) (b : EReal) :=
  EReal.coe_strictMono.monotone.map_max

theorem coe_two : ((2 : ℝ) : EReal) = 2 := by norm_cast

/-- The supremum of three extended reals is the iterated binary maximum. -/
theorem iSup_fin3 (f : Fin 3 → EReal) : (⨆ k : Fin 3, f k) = max (max (f 0) (f 1)) (f 2) := by
  apply le_antisymm
  · apply iSup_le
    intro k
    match k with
    | 0 => exact le_max_of_le_left (le_max_left _ _)
    | 1 => exact le_max_of_le_left (le_max_right _ _)
    | 2 => exact le_max_right _ _
  · exact max_le (max_le (le_iSup f 0) (le_iSup f 1)) (le_iSup f 2)

/-! ### The real-valued mirror of the specification -/

/-- An affine map applied to a real row. -/
def rlin {I O : ℕ} (v : Fin I → ℝ) (w : Fin I → Fin O → ℝ) (b : Fin O → ℝ) (o : Fin O) : ℝ :=
  (∑ k : Fin I, v k * w k o) + b o

/-- A product of a real row with a real matrix. -/
def rdot {I O : ℕ} (v : Fin I → ℝ) (w : Fin I → Fin O → ℝ) (o : Fin O) : ℝ :=
  ∑ k : Fin I, v k * w k o

/-- The largest of three real logits. -/
def rgmax (z : Fin 3 → ℝ) : ℝ := max (max (z 0) (z 1)) (z 2)

/-- The stabilised softmax of three real logits. -/
def rgates (z : Fin 3 → ℝ) (j : Fin 3) : ℝ :=
  Real.exp (z j - rgmax z) * (1 / ∑ k : Fin 3, Real.exp (z k - rgmax z))

theorem lin_coe {I O : ℕ} (v : Fin I → ℝ) (w : Fin I → Fin O → ℝ) (b : Fin O → ℝ) (o : Fin O) :
    lin (fun k => (v k : EReal)) (fun k o => (w k o : EReal)) (fun o => (b o : EReal)) o
      = ((rlin v w b o : ℝ) : EReal) := by
  simp only [lin, rlin, EReal.coe_add, coe_sum, EReal.coe_mul]

theorem dotRow_coe {I O : ℕ} (v : Fin I → ℝ) (w : Fin I → Fin O → ℝ) (o : Fin O) :
    dotRow (fun k => (v k : EReal)) (fun k o => (w k o : EReal)) o = ((rdot v w o : ℝ) : EReal) := by
  simp only [dotRow, rdot, coe_sum, EReal.coe_mul]

theorem reluE_coe (x : ℝ) : reluE (x : EReal) = ((max x 0 : ℝ) : EReal) := by
  rw [reluE, coe_max, EReal.coe_zero]

theorem gmax_coe (z : Fin 3 → ℝ) : gmax (fun k => (z k : EReal)) = ((rgmax z : ℝ) : EReal) := by
  rw [gmax, iSup_fin3, rgmax, coe_max, coe_max]

theorem rgates_den_pos (z : Fin 3 → ℝ) : 0 < ∑ k : Fin 3, Real.exp (z k - rgmax z) :=
  Finset.sum_pos (fun _ _ => Real.exp_pos _) Finset.univ_nonempty

theorem gates_coe (z : Fin 3 → ℝ) (j : Fin 3) :
    gates (fun k => (z k : EReal)) j = ((rgates z j : ℝ) : EReal) := by
  have hden : (∑ k : Fin 3, Ideal.exp ((z k : EReal) - ((rgmax z : ℝ) : EReal)))
      = ((∑ k : Fin 3, Real.exp (z k - rgmax z) : ℝ) : EReal) := by
    rw [coe_sum]
    refine Finset.sum_congr rfl (fun k _ => ?_)
    rw [← EReal.coe_sub, Ideal.exp_coe]
  rw [gates, gmax_coe, hden, Ideal.div_coe (rgates_den_pos z).ne', ← EReal.coe_sub, Ideal.exp_coe,
    ← EReal.coe_mul, rgates]

/-! ### Real layers -/

/-- One layer's weights, all real. -/
structure RLayer (I O : ℕ) where
  fcw : Fin I → Fin O → ℝ
  fcb : Fin O → ℝ
  g1w : Fin I → Fin 256 → ℝ
  g1b : Fin 256 → ℝ
  g2w : Fin 256 → Fin 3 → ℝ
  g2b : Fin 3 → ℝ
  lau : Fin I → Fin 16 → ℝ
  lbu : Fin 16 → Fin O → ℝ
  laf : Fin I → Fin 16 → ℝ
  lbf : Fin 16 → Fin O → ℝ

/-- A real layer seen as a layer over the extended reals. -/
def RLayer.toE {I O : ℕ} (L : RLayer I O) : Layer I O where
  fcw := fun i j => (L.fcw i j : EReal)
  fcb := fun j => (L.fcb j : EReal)
  g1w := fun i j => (L.g1w i j : EReal)
  g1b := fun j => (L.g1b j : EReal)
  g2w := fun i j => (L.g2w i j : EReal)
  g2b := fun j => (L.g2b j : EReal)
  lau := fun i j => (L.lau i j : EReal)
  lbu := fun i j => (L.lbu i j : EReal)
  laf := fun i j => (L.laf i j : EReal)
  lbf := fun i j => (L.lbf i j : EReal)

/-- The real parts of a layer's weights. -/
def Layer.toR {I O : ℕ} (L : Layer I O) : RLayer I O where
  fcw := fun i j => (L.fcw i j).toReal
  fcb := fun j => (L.fcb j).toReal
  g1w := fun i j => (L.g1w i j).toReal
  g1b := fun j => (L.g1b j).toReal
  g2w := fun i j => (L.g2w i j).toReal
  g2b := fun j => (L.g2b j).toReal
  lau := fun i j => (L.lau i j).toReal
  lbu := fun i j => (L.lbu i j).toReal
  laf := fun i j => (L.laf i j).toReal
  lbf := fun i j => (L.lbf i j).toReal

theorem RowFinite.eq_coe {n : ℕ} {v : Fin n → EReal} (h : RowFinite v) :
    v = fun i => ((v i).toReal : EReal) :=
  funext fun i => (EReal.coe_toReal (h i).1 (h i).2).symm

theorem MatFinite.eq_coe {a b : ℕ} {w : Fin a → Fin b → EReal} (h : MatFinite w) :
    w = fun i j => ((w i j).toReal : EReal) :=
  funext fun i => funext fun j => (EReal.coe_toReal (h i j).1 (h i j).2).symm

/-- A layer all of whose weights are real is the image of a real layer. -/
theorem Layer.Finite.eq_toE {I O : ℕ} {L : Layer I O} (hL : L.Finite) : L = L.toR.toE := by
  cases L
  simp only [Layer.toR, RLayer.toE, Layer.mk.injEq]
  exact ⟨hL.fcw.eq_coe, hL.fcb.eq_coe, hL.g1w.eq_coe, hL.g1b.eq_coe, hL.g2w.eq_coe, hL.g2b.eq_coe,
    hL.lau.eq_coe, hL.lbu.eq_coe, hL.laf.eq_coe, hL.lbf.eq_coe⟩

/-- The gate of a real row. -/
def rgateOf {I : ℕ} (g1w : Fin I → Fin 256 → ℝ) (g1b : Fin 256 → ℝ) (g2w : Fin 256 → Fin 3 → ℝ)
    (g2b : Fin 3 → ℝ) (v : Fin I → ℝ) : Fin 3 → ℝ :=
  rgates (rlin (fun j => max (rlin v g1w g1b j) 0) g2w g2b)

theorem gateOf_coe {I : ℕ} (g1w : Fin I → Fin 256 → ℝ) (g1b : Fin 256 → ℝ) (g2w : Fin 256 → Fin 3 → ℝ)
    (g2b : Fin 3 → ℝ) (v : Fin I → ℝ) (j : Fin 3) :
    gateOf (fun i k => (g1w i k : EReal)) (fun k => (g1b k : EReal)) (fun i k => (g2w i k : EReal))
        (fun k => (g2b k : EReal)) (fun i => (v i : EReal)) j
      = ((rgateOf g1w g1b g2w g2b v j : ℝ) : EReal) := by
  have h1 : (fun j => reluE (lin (fun i => (v i : EReal)) (fun i k => (g1w i k : EReal))
      (fun k => (g1b k : EReal)) j)) = fun j => ((max (rlin v g1w g1b j) 0 : ℝ) : EReal) := by
    funext j; rw [lin_coe, reluE_coe]
  have h2 : lin (fun j => ((max (rlin v g1w g1b j) 0 : ℝ) : EReal)) (fun i k => (g2w i k : EReal))
      (fun k => (g2b k : EReal)) = fun k => ((rlin (fun j => max (rlin v g1w g1b j) 0) g2w g2b k : ℝ) : EReal) := by
    funext k; rw [lin_coe]
  rw [gateOf, h1, h2, gates_coe, rgateOf]

/-- A real layer as the reference spells it. -/
def rlayerR {I O : ℕ} (L : RLayer I O) (v : Fin I → ℝ) (o : Fin O) : ℝ :=
  (max (rlin v L.fcw L.fcb o) 0 * rgateOf L.g1w L.g1b L.g2w L.g2b v 0
      + (rdot (rdot v L.lau) L.lbu o * 2) * rgateOf L.g1w L.g1b L.g2w L.g2b v 1)
    + (rdot (rdot v L.laf) L.lbf o * 2) * rgateOf L.g1w L.g1b L.g2w L.g2b v 2

theorem dotRow_coe_fun {I O : ℕ} (v : Fin I → ℝ) (w : Fin I → Fin O → ℝ) :
    dotRow (fun k => (v k : EReal)) (fun k o => (w k o : EReal)) = fun o => ((rdot v w o : ℝ) : EReal) :=
  funext fun o => dotRow_coe v w o

theorem layerR_coe {I O : ℕ} (L : RLayer I O) (v : Fin I → ℝ) (o : Fin O) :
    layerR L.toE (fun i => (v i : EReal)) o = ((rlayerR L v o : ℝ) : EReal) := by
  simp only [layerR, RLayer.toE, gateOf_coe, lin_coe, reluE_coe, dotRow_coe_fun, dotRow_coe, rlayerR,
    EReal.coe_add, EReal.coe_mul, coe_two]

/-! ### The kernel's arrangement over ℝ -/

/-- Two real `I × 16` matrices side by side. -/
def rpackCols {I : ℕ} (a b : Fin I → Fin 16 → ℝ) (i : Fin I) (k : Fin 32) : ℝ :=
  if h : k.val < 16 then a i ⟨k.val, h⟩ else b i ⟨k.val - 16, by omega⟩

/-- Two real `16 × O` matrices one above the other. -/
def rpackRows {O : ℕ} (a b : Fin 16 → Fin O → ℝ) (k : Fin 32) (o : Fin O) : ℝ :=
  if h : k.val < 16 then a ⟨k.val, h⟩ o else b ⟨k.val - 16, by omega⟩ o

theorem packCols_coe {I : ℕ} (a b : Fin I → Fin 16 → ℝ) :
    packCols (fun i k => (a i k : EReal)) (fun i k => (b i k : EReal))
      = fun i k => ((rpackCols a b i k : ℝ) : EReal) := by
  funext i k
  unfold packCols rpackCols
  split_ifs <;> rfl

theorem packRows_coe {O : ℕ} (a b : Fin 16 → Fin O → ℝ) :
    packRows (fun k o => (a k o : EReal)) (fun k o => (b k o : EReal))
      = fun k o => ((rpackRows a b k o : ℝ) : EReal) := by
  funext k o
  unfold packRows rpackRows
  split_ifs <;> rfl

/-- A real layer as the kernel arranges it. -/
def rlayerK {I O : ℕ} (L : RLayer I O) (v : Fin I → ℝ) (o : Fin O) : ℝ :=
  max (rlin v L.fcw L.fcb o) 0 * rgateOf L.g1w L.g1b L.g2w L.g2b v 0
    + rdot (fun k : Fin 32 => rdot v (rpackCols L.lau L.laf) k *
        (if k.val < 16 then rgateOf L.g1w L.g1b L.g2w L.g2b v 1 * 2
          else rgateOf L.g1w L.g1b L.g2w L.g2b v 2 * 2)) (rpackRows L.lbu L.lbf) o

theorem layerK_coe {I O : ℕ} (L : RLayer I O) (v : Fin I → ℝ) (o : Fin O) :
    layerK L.toE.pack (fun i => (v i : EReal)) o = ((rlayerK L v o : ℝ) : EReal) := by
  have hmid : (fun k : Fin 32 =>
      dotRow (fun i => (v i : EReal))
          (packCols (fun i j => (L.lau i j : EReal)) (fun i j => (L.laf i j : EReal))) k *
        (if k.val < 16 then
          gateOf (fun i j => (L.g1w i j : EReal)) (fun j => (L.g1b j : EReal))
            (fun i j => (L.g2w i j : EReal)) (fun j => (L.g2b j : EReal)) (fun i => (v i : EReal)) 1 * 2
        else
          gateOf (fun i j => (L.g1w i j : EReal)) (fun j => (L.g1b j : EReal))
            (fun i j => (L.g2w i j : EReal)) (fun j => (L.g2b j : EReal)) (fun i => (v i : EReal)) 2 * 2))
      = fun k => ((rdot v (rpackCols L.lau L.laf) k *
          (if k.val < 16 then rgateOf L.g1w L.g1b L.g2w L.g2b v 1 * 2
            else rgateOf L.g1w L.g1b L.g2w L.g2b v 2 * 2) : ℝ) : EReal) := by
    funext k
    rw [packCols_coe, dotRow_coe, gateOf_coe, gateOf_coe, EReal.coe_mul]
    split_ifs <;> rw [EReal.coe_mul, coe_two]
  unfold layerK
  simp only [Layer.pack, RLayer.toE]
  rw [hmid, packRows_coe, dotRow_coe, lin_coe, reluE_coe, gateOf_coe, ← EReal.coe_mul, ← EReal.coe_add]
  rfl

/-! ### The two arrangements agree over ℝ -/

/-- A sum over 32 indices splits into the first 16 and the last 16. -/
theorem sum_fin32 (f : Fin 32 → ℝ) :
    ∑ k : Fin 32, f k
      = ∑ k : Fin 16, f ⟨k.val, by omega⟩ + ∑ k : Fin 16, f ⟨16 + k.val, by omega⟩ :=
  Fin.sum_univ_add (a := 16) (b := 16) f

theorem rpackCols_lo {I : ℕ} (a b : Fin I → Fin 16 → ℝ) (i : Fin I) (k : Fin 16) (h : k.val < 32) :
    rpackCols a b i ⟨k.val, h⟩ = a i k := by
  simp [rpackCols]

theorem rpackCols_hi {I : ℕ} (a b : Fin I → Fin 16 → ℝ) (i : Fin I) (k : Fin 16) (h : 16 + k.val < 32) :
    rpackCols a b i ⟨16 + k.val, h⟩ = b i k := by
  simp [rpackCols]

theorem rpackRows_lo {O : ℕ} (a b : Fin 16 → Fin O → ℝ) (o : Fin O) (k : Fin 16) (h : k.val < 32) :
    rpackRows a b ⟨k.val, h⟩ o = a k o := by
  simp [rpackRows]

theorem rpackRows_hi {O : ℕ} (a b : Fin 16 → Fin O → ℝ) (o : Fin O) (k : Fin 16) (h : 16 + k.val < 32) :
    rpackRows a b ⟨16 + k.val, h⟩ o = b k o := by
  simp [rpackRows]

/-- Scaling the 32 packed intermediate columns by the gates before the second product gives the
    two gated rank-16 corrections. -/
theorem packed_sum {I O : ℕ} (v : Fin I → ℝ) (au af : Fin I → Fin 16 → ℝ) (bu bf : Fin 16 → Fin O → ℝ)
    (g1 g2 : ℝ) (o : Fin O) :
    rdot (fun k : Fin 32 => rdot v (rpackCols au af) k * (if k.val < 16 then g1 * 2 else g2 * 2))
        (rpackRows bu bf) o
      = (rdot (rdot v au) bu o * 2) * g1 + (rdot (rdot v af) bf o * 2) * g2 := by
  simp only [rdot]
  rw [sum_fin32]
  congr 1
  · rw [Finset.sum_mul, Finset.sum_mul]
    refine Finset.sum_congr rfl (fun k _ => ?_)
    have hk : k.val < 16 := k.isLt
    simp only [rpackCols_lo, rpackRows_lo, hk, if_true]
    ring
  · rw [Finset.sum_mul, Finset.sum_mul]
    refine Finset.sum_congr rfl (fun k _ => ?_)
    have hk : ¬ (16 + k.val < 16) := by omega
    simp only [rpackCols_hi, rpackRows_hi, hk, if_false]
    ring

theorem rlayerK_eq {I O : ℕ} (L : RLayer I O) (v : Fin I → ℝ) (o : Fin O) :
    rlayerK L v o = rlayerR L v o := by
  rw [rlayerK, rlayerR, packed_sum, add_assoc]

/-! ### The statements over the extended reals -/

theorem layerR_finite {I O : ℕ} (L : Layer I O) (hL : L.Finite) (v : Fin I → EReal) (hv : RowFinite v) :
    RowFinite (layerR L v) := by
  intro o
  rw [hL.eq_toE, hv.eq_coe, layerR_coe]
  exact ⟨EReal.coe_ne_top _, EReal.coe_ne_bot _⟩

theorem layerK_pack_eq_layerR {I O : ℕ} (L : Layer I O) (hL : L.Finite) (v : Fin I → EReal)
    (hv : RowFinite v) : layerK L.pack v = layerR L v := by
  funext o
  rw [hL.eq_toE, hv.eq_coe, layerK_coe, layerR_coe, rlayerK_eq]

theorem netK_pack_eq_netR (L0 : Layer 256 2048) (L1 : Layer 2048 2048) (L2 : Layer 2048 1024)
    (h0 : L0.Finite) (h1 : L1.Finite) (h2 : L2.Finite) (aw : Fin 1024 → Fin 1 → EReal) (ab : EReal)
    (v : Fin 256 → EReal) (hv : RowFinite v) :
    netK L0.pack L1.pack L2.pack aw ab v = netR L0 L1 L2 aw ab v := by
  have f0 := layerR_finite L0 h0 v hv
  have f1 := layerR_finite L1 h1 _ f0
  rw [netK, netR, layerK_pack_eq_layerR L0 h0 v hv, layerK_pack_eq_layerR L1 h1 _ f0,
    layerK_pack_eq_layerR L2 h2 _ f1]

end Cert.Net

end
-- ==== Proof.KerOut.lean ====
/-
  The kernel's output row by row, in terms of the ARGUMENT arrays: the staged arrays at region entry are
  re-laid copies of the arguments, so the kernel's arrangement of the network over the staged arrays is its
  arrangement over the packed argument layers; and when every float argument is real, that equals the
  reference's arrangement (distributivity over real numbers).
-/
import proofs.«153816_j32289564131760_2_alg».proof.Proof.KerWindows
import proofs.«153816_j32289564131760_2_alg».proof.Proof.EmbFinite
import proofs.«153816_j32289564131760_2_alg».proof.Proof.NetFinite
import proofs.«153816_j32289564131760_2_alg».proof.Proof.NetLaws

noncomputable section

namespace Cert.KernelIdeal.KerOut

open Idealize.ShloMosaic Idealize.ShloMosaic.TcCoe Cert.KernelIdeal Cert.KernelIdeal.Gen
open Cert.KernelIdeal.KerHost Cert.Net Idealize.ShloMosaic.ValueIdx Idealize.ShloMosaic.StableHlo

/-- Row `r` of the result as the reference's arrangement of the network over the argument arrays. -/
def rowNet (a0 a1 a2 a3 : IVec S16384 32) (a4 : FVec Ideal S100000x64 .f32) (a5 : FVec Ideal S100x64 .f32) (a6 : FVec Ideal S500000x64 .f32) (a7 : FVec Ideal S1000x64 .f32) (a8 : FVec Ideal S256x2048 .f32) (a9 : FVec Ideal S2048 .f32) (a10 : FVec Ideal S256x256 .f32) (a11 : FVec Ideal S256 .f32) (a12 : FVec Ideal S256x3 .f32) (a13 : FVec Ideal S3 .f32) (a14 : FVec Ideal S256x16 .f32) (a15 : FVec Ideal S16x2048 .f32) (a16 : FVec Ideal S256x16 .f32) (a17 : FVec Ideal S16x2048 .f32) (a18 : FVec Ideal S2048x2048 .f32) (a19 : FVec Ideal S2048 .f32) (a20 : FVec Ideal S2048x256 .f32) (a21 : FVec Ideal S256 .f32) (a22 : FVec Ideal S256x3 .f32) (a23 : FVec Ideal S3 .f32) (a24 : FVec Ideal S2048x16 .f32) (a25 : FVec Ideal S16x2048 .f32) (a26 : FVec Ideal S2048x16 .f32) (a27 : FVec Ideal S16x2048 .f32) (a28 : FVec Ideal S2048x1024 .f32) (a29 : FVec Ideal S1024 .f32) (a30 : FVec Ideal S2048x256 .f32) (a31 : FVec Ideal S256 .f32) (a32 : FVec Ideal S256x3 .f32) (a33 : FVec Ideal S3 .f32) (a34 : FVec Ideal S2048x16 .f32) (a35 : FVec Ideal S16x1024 .f32) (a36 : FVec Ideal S2048x16 .f32) (a37 : FVec Ideal S16x1024 .f32) (a38 : FVec Ideal S1024x1 .f32) (a39 : FVec Ideal S1 .f32) (r : Fin 16384) : EReal :=
  netR (mkLayer (I := 256) (O := 2048) a8 a9 a10 a11 a12 a13 a14 a15 a16 a17)
    (mkLayer (I := 2048) (O := 2048) a18 a19 a20 a21 a22 a23 a24 a25 a26 a27)
    (mkLayer (I := 2048) (O := 1024) a28 a29 a30 a31 a32 a33 a34 a35 a36 a37)
    (mat (a := 1024) (b := 1) a38) (vec (a := 1) a39 0)
    (rowOf (φ := .f32) (a := 16384) (b := 256) (embK a0 a1 a2 a3 a4 a5 a6 a7) r)

/-- The kernel's arrangement over the staged arrays is `rowNet` of the arguments when every float argument is real. -/
theorem netK_staged (W : Valuation τ sig (Elt Ideal))
    (h4 : Cert.PreFinite.AllReal (s := S100000x64) (W (Proc.devRef .tc main_arg4) : S100000x64.Idx → EReal))
    (h5 : Cert.PreFinite.AllReal (s := S100x64) (W (Proc.devRef .tc main_arg5) : S100x64.Idx → EReal))
    (h6 : Cert.PreFinite.AllReal (s := S500000x64) (W (Proc.devRef .tc main_arg6) : S500000x64.Idx → EReal))
    (h7 : Cert.PreFinite.AllReal (s := S1000x64) (W (Proc.devRef .tc main_arg7) : S1000x64.Idx → EReal))
    (h8 : Cert.PreFinite.AllReal (s := S256x2048) (W (Proc.devRef .tc main_arg8) : S256x2048.Idx → EReal))
    (h9 : Cert.PreFinite.AllReal (s := S2048) (W (Proc.devRef .tc main_arg9) : S2048.Idx → EReal))
    (h10 : Cert.PreFinite.AllReal (s := S256x256) (W (Proc.devRef .tc main_arg10) : S256x256.Idx → EReal))
    (h11 : Cert.PreFinite.AllReal (s := S256) (W (Proc.devRef .tc main_arg11) : S256.Idx → EReal))
    (h12 : Cert.PreFinite.AllReal (s := S256x3) (W (Proc.devRef .tc main_arg12) : S256x3.Idx → EReal))
    (h13 : Cert.PreFinite.AllReal (s := S3) (W (Proc.devRef .tc main_arg13) : S3.Idx → EReal))
    (h14 : Cert.PreFinite.AllReal (s := S256x16) (W (Proc.devRef .tc main_arg14) : S256x16.Idx → EReal))
    (h15 : Cert.PreFinite.AllReal (s := S16x2048) (W (Proc.devRef .tc main_arg15) : S16x2048.Idx → EReal))
    (h16 : Cert.PreFinite.AllReal (s := S256x16) (W (Proc.devRef .tc main_arg16) : S256x16.Idx → EReal))
    (h17 : Cert.PreFinite.AllReal (s := S16x2048) (W (Proc.devRef .tc main_arg17) : S16x2048.Idx → EReal))
    (h18 : Cert.PreFinite.AllReal (s := S2048x2048) (W (Proc.devRef .tc main_arg18) : S2048x2048.Idx → EReal))
    (h19 : Cert.PreFinite.AllReal (s := S2048) (W (Proc.devRef .tc main_arg19) : S2048.Idx → EReal))
    (h20 : Cert.PreFinite.AllReal (s := S2048x256) (W (Proc.devRef .tc main_arg20) : S2048x256.Idx → EReal))
    (h21 : Cert.PreFinite.AllReal (s := S256) (W (Proc.devRef .tc main_arg21) : S256.Idx → EReal))
    (h22 : Cert.PreFinite.AllReal (s := S256x3) (W (Proc.devRef .tc main_arg22) : S256x3.Idx → EReal))
    (h23 : Cert.PreFinite.AllReal (s := S3) (W (Proc.devRef .tc main_arg23) : S3.Idx → EReal))
    (h24 : Cert.PreFinite.AllReal (s := S2048x16) (W (Proc.devRef .tc main_arg24) : S2048x16.Idx → EReal))
    (h25 : Cert.PreFinite.AllReal (s := S16x2048) (W (Proc.devRef .tc main_arg25) : S16x2048.Idx → EReal))
    (h26 : Cert.PreFinite.AllReal (s := S2048x16) (W (Proc.devRef .tc main_arg26) : S2048x16.Idx → EReal))
    (h27 : Cert.PreFinite.AllReal (s := S16x2048) (W (Proc.devRef .tc main_arg27) : S16x2048.Idx → EReal))
    (h28 : Cert.PreFinite.AllReal (s := S2048x1024) (W (Proc.devRef .tc main_arg28) : S2048x1024.Idx → EReal))
    (h29 : Cert.PreFinite.AllReal (s := S1024) (W (Proc.devRef .tc main_arg29) : S1024.Idx → EReal))
    (h30 : Cert.PreFinite.AllReal (s := S2048x256) (W (Proc.devRef .tc main_arg30) : S2048x256.Idx → EReal))
    (h31 : Cert.PreFinite.AllReal (s := S256) (W (Proc.devRef .tc main_arg31) : S256.Idx → EReal))
    (h32 : Cert.PreFinite.AllReal (s := S256x3) (W (Proc.devRef .tc main_arg32) : S256x3.Idx → EReal))
    (h33 : Cert.PreFinite.AllReal (s := S3) (W (Proc.devRef .tc main_arg33) : S3.Idx → EReal))
    (h34 : Cert.PreFinite.AllReal (s := S2048x16) (W (Proc.devRef .tc main_arg34) : S2048x16.Idx → EReal))
    (h35 : Cert.PreFinite.AllReal (s := S16x1024) (W (Proc.devRef .tc main_arg35) : S16x1024.Idx → EReal))
    (h36 : Cert.PreFinite.AllReal (s := S2048x16) (W (Proc.devRef .tc main_arg36) : S2048x16.Idx → EReal))
    (h37 : Cert.PreFinite.AllReal (s := S16x1024) (W (Proc.devRef .tc main_arg37) : S16x1024.Idx → EReal))
    (h38 : Cert.PreFinite.AllReal (s := S1024x1) (W (Proc.devRef .tc main_arg38) : S1024x1.Idx → EReal))
    (h39 : Cert.PreFinite.AllReal (s := S1) (W (Proc.devRef .tc main_arg39) : S1.Idx → EReal))
    (r : Fin 16384) :
    netK (mkLayerK (I := 256) (O := 2048) (StableHlo.after (hostOps0 (F := Ideal)) W (Proc.devRef .tc main_v42) : S256x2048.Idx → EReal) (StableHlo.after (hostOps0 (F := Ideal)) W (Proc.devRef .tc main_v43) : S1x2048.Idx → EReal) (StableHlo.after (hostOps0 (F := Ideal)) W (Proc.devRef .tc main_v44) : S256x256.Idx → EReal) (StableHlo.after (hostOps0 (F := Ideal)) W (Proc.devRef .tc main_v45) : S1x256.Idx → EReal) (StableHlo.after (hostOps0 (F := Ideal)) W (Proc.devRef .tc main_v46) : S256x3.Idx → EReal) (StableHlo.after (hostOps0 (F := Ideal)) W (Proc.devRef .tc main_v47) : S1x3.Idx → EReal) (StableHlo.after (hostOps0 (F := Ideal)) W (Proc.devRef .tc main_v32) : S256x32.Idx → EReal) (StableHlo.after (hostOps0 (F := Ideal)) W (Proc.devRef .tc main_v33) : S32x2048.Idx → EReal))
      (mkLayerK (I := 2048) (O := 2048) (StableHlo.after (hostOps0 (F := Ideal)) W (Proc.devRef .tc main_v48) : S2048x2048.Idx → EReal) (StableHlo.after (hostOps0 (F := Ideal)) W (Proc.devRef .tc main_v49) : S1x2048.Idx → EReal) (StableHlo.after (hostOps0 (F := Ideal)) W (Proc.devRef .tc main_v50) : S2048x256.Idx → EReal) (StableHlo.after (hostOps0 (F := Ideal)) W (Proc.devRef .tc main_v51) : S1x256.Idx → EReal) (StableHlo.after (hostOps0 (F := Ideal)) W (Proc.devRef .tc main_v52) : S256x3.Idx → EReal) (StableHlo.after (hostOps0 (F := Ideal)) W (Proc.devRef .tc main_v53) : S1x3.Idx → EReal) (StableHlo.after (hostOps0 (F := Ideal)) W (Proc.devRef .tc main_v36) : S2048x32.Idx → EReal) (StableHlo.after (hostOps0 (F := Ideal)) W (Proc.devRef .tc main_v37) : S32x2048.Idx → EReal))
      (mkLayerK (I := 2048) (O := 1024) (StableHlo.after (hostOps0 (F := Ideal)) W (Proc.devRef .tc main_v54) : S2048x1024.Idx → EReal) (StableHlo.after (hostOps0 (F := Ideal)) W (Proc.devRef .tc main_v55) : S1x1024.Idx → EReal) (StableHlo.after (hostOps0 (F := Ideal)) W (Proc.devRef .tc main_v56) : S2048x256.Idx → EReal) (StableHlo.after (hostOps0 (F := Ideal)) W (Proc.devRef .tc main_v57) : S1x256.Idx → EReal) (StableHlo.after (hostOps0 (F := Ideal)) W (Proc.devRef .tc main_v58) : S256x3.Idx → EReal) (StableHlo.after (hostOps0 (F := Ideal)) W (Proc.devRef .tc main_v59) : S1x3.Idx → EReal) (StableHlo.after (hostOps0 (F := Ideal)) W (Proc.devRef .tc main_v40) : S2048x32.Idx → EReal) (StableHlo.after (hostOps0 (F := Ideal)) W (Proc.devRef .tc main_v41) : S32x1024.Idx → EReal))
      (mat (φ := .bf16) (a := 1024) (b := 1) (StableHlo.after (hostOps0 (F := Ideal)) W (Proc.devRef .tc main_v60) : S1024x1.Idx → EReal)) ((StableHlo.after (hostOps0 (F := Ideal)) W (Proc.devRef .tc main_v61) : S1x1.Idx → EReal) (ix2 (0 : Fin 1) (0 : Fin 1)))
      (rowOf (φ := .bf16) (a := 16384) (b := 256) (StableHlo.after (hostOps0 (F := Ideal)) W (Proc.devRef .tc main_v29) : S16384x256.Idx → EReal) r)
    = rowNet (W (Proc.devRef .tc main_arg0) : S16384.Idx → BitVec 32) (W (Proc.devRef .tc main_arg1) : S16384.Idx → BitVec 32) (W (Proc.devRef .tc main_arg2) : S16384.Idx → BitVec 32) (W (Proc.devRef .tc main_arg3) : S16384.Idx → BitVec 32) (W (Proc.devRef .tc main_arg4) : S100000x64.Idx → EReal) (W (Proc.devRef .tc main_arg5) : S100x64.Idx → EReal) (W (Proc.devRef .tc main_arg6) : S500000x64.Idx → EReal) (W (Proc.devRef .tc main_arg7) : S1000x64.Idx → EReal) (W (Proc.devRef .tc main_arg8) : S256x2048.Idx → EReal) (W (Proc.devRef .tc main_arg9) : S2048.Idx → EReal) (W (Proc.devRef .tc main_arg10) : S256x256.Idx → EReal) (W (Proc.devRef .tc main_arg11) : S256.Idx → EReal) (W (Proc.devRef .tc main_arg12) : S256x3.Idx → EReal) (W (Proc.devRef .tc main_arg13) : S3.Idx → EReal) (W (Proc.devRef .tc main_arg14) : S256x16.Idx → EReal) (W (Proc.devRef .tc main_arg15) : S16x2048.Idx → EReal) (W (Proc.devRef .tc main_arg16) : S256x16.Idx → EReal) (W (Proc.devRef .tc main_arg17) : S16x2048.Idx → EReal) (W (Proc.devRef .tc main_arg18) : S2048x2048.Idx → EReal) (W (Proc.devRef .tc main_arg19) : S2048.Idx → EReal) (W (Proc.devRef .tc main_arg20) : S2048x256.Idx → EReal) (W (Proc.devRef .tc main_arg21) : S256.Idx → EReal) (W (Proc.devRef .tc main_arg22) : S256x3.Idx → EReal) (W (Proc.devRef .tc main_arg23) : S3.Idx → EReal) (W (Proc.devRef .tc main_arg24) : S2048x16.Idx → EReal) (W (Proc.devRef .tc main_arg25) : S16x2048.Idx → EReal) (W (Proc.devRef .tc main_arg26) : S2048x16.Idx → EReal) (W (Proc.devRef .tc main_arg27) : S16x2048.Idx → EReal) (W (Proc.devRef .tc main_arg28) : S2048x1024.Idx → EReal) (W (Proc.devRef .tc main_arg29) : S1024.Idx → EReal) (W (Proc.devRef .tc main_arg30) : S2048x256.Idx → EReal) (W (Proc.devRef .tc main_arg31) : S256.Idx → EReal) (W (Proc.devRef .tc main_arg32) : S256x3.Idx → EReal) (W (Proc.devRef .tc main_arg33) : S3.Idx → EReal) (W (Proc.devRef .tc main_arg34) : S2048x16.Idx → EReal) (W (Proc.devRef .tc main_arg35) : S16x1024.Idx → EReal) (W (Proc.devRef .tc main_arg36) : S2048x16.Idx → EReal) (W (Proc.devRef .tc main_arg37) : S16x1024.Idx → EReal) (W (Proc.devRef .tc main_arg38) : S1024x1.Idx → EReal) (W (Proc.devRef .tc main_arg39) : S1.Idx → EReal) r := by
  unfold rowNet
  rw [← netK_pack_eq_netR _ _ _ (mkLayer_finite _ _ _ _ _ _ _ _ _ _ h8 h9 h10 h11 h12 h13 h14 h15 h16 h17)
    (mkLayer_finite _ _ _ _ _ _ _ _ _ _ h18 h19 h20 h21 h22 h23 h24 h25 h26 h27)
    (mkLayer_finite _ _ _ _ _ _ _ _ _ _ h28 h29 h30 h31 h32 h33 h34 h35 h36 h37) _ _ _
    (rowOf_finite _ (embK_finite _ _ _ _ _ _ _ _ h4 h5 h6 h7) r)]
  rw [layer0_windows W, layer1_windows W, layer2_windows W, tail_weight W, tail_bias W, KerHost.win0 W]
  rfl

end Cert.KernelIdeal.KerOut

end
-- ==== Proof.RefDefs.lean ====
/-
  The reference program's operations composed into named stages, each a plain composition of the
  operations as the program spells them.

  `emb` is the input row block: four embedding tables gathered at the row indices and joined side by side.
  A layer is `mix (gate (glog X …)) (fc X …) (cor X …) (cor X …)`: the softmax gate of the two-layer gate
  network, the dense branch max(X·w + b, 0), and two rank-16 corrections ((X·la)·lb)·2, summed with the
  three gate columns as weights.  `tail` is the final affine map into one column followed by the logistic
  function spelt 1 / (1 + exp(−·)).  `refOut` is the three layers and the tail, as a function of the
  joined embedding and the thirty-two weight arrays.
-/
import proofs.«153816_j32289564131760_2_alg».proof.Proof.Gen.ReferenceIdeal
import proofs.«153816_j32289564131760_2_alg».proof.Proof.NetArgs

noncomputable section

namespace Cert.ReferenceIdeal.RefValue

open Cert.ReferenceIdeal Cert.ReferenceIdeal.Gen Cert.Net Idealize.ShloMosaic Idealize.ShloMosaic.ValueIdx

/-- The four embedding tables gathered at the row indices (a negative index wrapped by the table's height) and joined along the columns: operations %0 … %28. -/
def emb (a0 : IVec S16384 32) (a1 : IVec S16384 32) (a2 : IVec S16384 32) (a3 : IVec S16384 32) (a4 : FVec Ideal S100000x64 .f32) (a5 : FVec Ideal S100x64 .f32) (a6 : FVec Ideal S500000x64 .f32) (a7 : FVec Ideal S1000x64 .f32) :
    FVec Ideal S16384x256 .f32 :=
  concatenate S16384x256 1 [⟨S16384x64, (Host.gather gather_S100000x64_S16384x1_S16384x64_1_0_n_n_0_1_164 a4 (broadcastInDim S16384x1 ![0] bcast_S16384_S16384x1_0 (select (cmpi .slt a0 (broadcastInDim S16384 ![] bcast_S_S16384 (constantI S_ 32 0#32))) (addi a0 (broadcastInDim S16384 ![] bcast_S_S16384 (constantI S_ 32 100000#32))) a0)))⟩, ⟨S16384x64, (Host.gather gather_S100x64_S16384x1_S16384x64_1_0_n_n_0_1_164 a5 (broadcastInDim S16384x1 ![0] bcast_S16384_S16384x1_0 (select (cmpi .slt a1 (broadcastInDim S16384 ![] bcast_S_S16384 (constantI S_ 32 0#32))) (addi a1 (broadcastInDim S16384 ![] bcast_S_S16384 (constantI S_ 32 100#32))) a1)))⟩, ⟨S16384x64, (Host.gather gather_S500000x64_S16384x1_S16384x64_1_0_n_n_0_1_164 a6 (broadcastInDim S16384x1 ![0] bcast_S16384_S16384x1_0 (select (cmpi .slt a2 (broadcastInDim S16384 ![] bcast_S_S16384 (constantI S_ 32 0#32))) (addi a2 (broadcastInDim S16384 ![] bcast_S_S16384 (constantI S_ 32 500000#32))) a2)))⟩, ⟨S16384x64, (Host.gather gather_S1000x64_S16384x1_S16384x64_1_0_n_n_0_1_164 a7 (broadcastInDim S16384x1 ![0] bcast_S16384_S16384x1_0 (select (cmpi .slt a3 (broadcastInDim S16384 ![] bcast_S_S16384 (constantI S_ 32 0#32))) (addi a3 (broadcastInDim S16384 ![] bcast_S_S16384 (constantI S_ 32 1000#32))) a3)))⟩] concatenates_S16384x64_S16384x64_S16384x64_S16384x64_S16384x256_d1
/-- The largest logit of each row (the fold starts from −∞ and its result is once more compared with −∞). -/
def rmax (z : FVec Ideal S16384x3 .f32) :
    FVec Ideal S16384 .f32 :=
  maximumf (broadcastInDim S16384 ![] bcast_S_S16384 (constant (F := Ideal) S_ .f32 0xFF800000#32)) (Host.reduce (FloatOps.maximumf (F := Ideal)) z (constant (F := Ideal) S_ .f32 0xFF800000#32) reducesTo_S16384x3_S16384_d1 h_S_)
/-- exp(z − max z), the row's maximum broadcast along the row. -/
def gexp (z : FVec Ideal S16384x3 .f32) :
    FVec Ideal S16384x3 .f32 :=
  Host.exp (F := Ideal) (subf z (broadcastInDim S16384x3 ![0, 1] bcast_S16384x1_S16384x3_0_1 (broadcastInDim S16384x1 ![0] bcast_S16384_S16384x1_0 (rmax z))))
/-- The softmax of the three logits of each row, stabilised by the row's maximum: exp(z − max z) / Σ exp(z − max z). -/
def gate (z : FVec Ideal S16384x3 .f32) :
    FVec Ideal S16384x3 .f32 :=
  Host.divf (F := Ideal) (gexp z) (broadcastInDim S16384x3 ![0, 1] bcast_S16384x1_S16384x3_0_1 (broadcastInDim S16384x1 ![0] bcast_S16384_S16384x1_0 (Host.reduceAdd (F := Ideal) (gexp z) (constant (F := Ideal) S_ .f32 0x00000000#32) reducesTo_S16384x3_S16384_d1 h_S_)))
/-- Layer 0, the gate network's three logits: max(X·g1w + g1b, 0)·g2w + g2b. -/
def glog0 (X : FVec Ideal S16384x256 .f32) (g1w : FVec Ideal S256x256 .f32) (g1b : FVec Ideal S256 .f32) (g2w : FVec Ideal S256x3 .f32) (g2b : FVec Ideal S3 .f32) :
    FVec Ideal S16384x3 .f32 :=
  addf (Host.dotGeneral (F := Ideal) dot_S16384x256_S256x3_S16384x3_1_0_0_1_n_n none (maximumf (addf (Host.dotGeneral (F := Ideal) dot_S16384x256_S256x256_S16384x256_1_0_0_1_n_n none X g1w) (broadcastInDim S16384x256 ![0, 1] bcast_S1x256_S16384x256_0_1 (broadcastInDim S1x256 ![1] bcast_S256_S1x256_1 g1b))) (broadcastInDim S16384x256 ![] bcast_S_S16384x256 (constant (F := Ideal) S_ .f32 0x00000000#32))) g2w) (broadcastInDim S16384x3 ![0, 1] bcast_S1x3_S16384x3_0_1 (broadcastInDim S1x3 ![1] bcast_S3_S1x3_1 g2b))
/-- Layer 0, a rank-16 correction: ((X·la)·lb)·2. -/
def cor0 (X : FVec Ideal S16384x256 .f32) (la : FVec Ideal S256x16 .f32) (lb : FVec Ideal S16x2048 .f32) :
    FVec Ideal S16384x2048 .f32 :=
  mulf (Host.dotGeneral (F := Ideal) dot_S16384x16_S16x2048_S16384x2048_1_0_0_1_n_n none (Host.dotGeneral (F := Ideal) dot_S16384x256_S256x16_S16384x16_1_0_0_1_n_n none X la) lb) (broadcastInDim S16384x2048 ![] bcast_S_S16384x2048 (constant (F := Ideal) S_ .f32 0x40000000#32))
/-- Layer 0, the dense branch: max(X·w + b, 0). -/
def fc0 (X : FVec Ideal S16384x256 .f32) (w : FVec Ideal S256x2048 .f32) (b : FVec Ideal S2048 .f32) :
    FVec Ideal S16384x2048 .f32 :=
  maximumf (addf (Host.dotGeneral (F := Ideal) dot_S16384x256_S256x2048_S16384x2048_1_0_0_1_n_n none X w) (broadcastInDim S16384x2048 ![0, 1] bcast_S1x2048_S16384x2048_0_1 (broadcastInDim S1x2048 ![1] bcast_S2048_S1x2048_1 b))) (broadcastInDim S16384x2048 ![] bcast_S_S16384x2048 (constant (F := Ideal) S_ .f32 0x00000000#32))
/-- Layer 0, the gated sum h·g₀ + cu·g₁ + cf·g₂, column j of the gates broadcast along the row. -/
def mix0 (g : FVec Ideal S16384x3 .f32) (h : FVec Ideal S16384x2048 .f32) (cu : FVec Ideal S16384x2048 .f32) (cf : FVec Ideal S16384x2048 .f32) :
    FVec Ideal S16384x2048 .f32 :=
  addf (addf (mulf h (broadcastInDim S16384x2048 ![0, 1] bcast_S16384x1_S16384x2048_0_1 (extractStridedSlice S16384x1 ![0, 0] g slices_S16384x3_S16384x1_0_0))) (mulf cu (broadcastInDim S16384x2048 ![0, 1] bcast_S16384x1_S16384x2048_0_1 (extractStridedSlice S16384x1 ![0, 1] g slices_S16384x3_S16384x1_0_1)))) (mulf cf (broadcastInDim S16384x2048 ![0, 1] bcast_S16384x1_S16384x2048_0_1 (extractStridedSlice S16384x1 ![0, 2] g slices_S16384x3_S16384x1_0_2)))
/-- Layer 0 of the reference: operations %29 … %72. -/
def layer0 (X : FVec Ideal S16384x256 .f32) (a8 : FVec Ideal S256x2048 .f32) (a9 : FVec Ideal S2048 .f32) (a10 : FVec Ideal S256x256 .f32) (a11 : FVec Ideal S256 .f32) (a12 : FVec Ideal S256x3 .f32) (a13 : FVec Ideal S3 .f32) (a14 : FVec Ideal S256x16 .f32) (a15 : FVec Ideal S16x2048 .f32) (a16 : FVec Ideal S256x16 .f32) (a17 : FVec Ideal S16x2048 .f32) :
    FVec Ideal S16384x2048 .f32 :=
  mix0 (gate (glog0 X a10 a11 a12 a13)) (fc0 X a8 a9) (cor0 X a14 a15) (cor0 X a16 a17)
/-- Layer 1, the gate network's three logits: max(X·g1w + g1b, 0)·g2w + g2b. -/
def glog1 (X : FVec Ideal S16384x2048 .f32) (g1w : FVec Ideal S2048x256 .f32) (g1b : FVec Ideal S256 .f32) (g2w : FVec Ideal S256x3 .f32) (g2b : FVec Ideal S3 .f32) :
    FVec Ideal S16384x3 .f32 :=
  addf (Host.dotGeneral (F := Ideal) dot_S16384x256_S256x3_S16384x3_1_0_0_1_n_n none (maximumf (addf (Host.dotGeneral (F := Ideal) dot_S16384x2048_S2048x256_S16384x256_1_0_0_1_n_n none X g1w) (broadcastInDim S16384x256 ![0, 1] bcast_S1x256_S16384x256_0_1 (broadcastInDim S1x256 ![1] bcast_S256_S1x256_1 g1b))) (broadcastInDim S16384x256 ![] bcast_S_S16384x256 (constant (F := Ideal) S_ .f32 0x00000000#32))) g2w) (broadcastInDim S16384x3 ![0, 1] bcast_S1x3_S16384x3_0_1 (broadcastInDim S1x3 ![1] bcast_S3_S1x3_1 g2b))
/-- Layer 1, a rank-16 correction: ((X·la)·lb)·2. -/
def cor1 (X : FVec Ideal S16384x2048 .f32) (la : FVec Ideal S2048x16 .f32) (lb : FVec Ideal S16x2048 .f32) :
    FVec Ideal S16384x2048 .f32 :=
  mulf (Host.dotGeneral (F := Ideal) dot_S16384x16_S16x2048_S16384x2048_1_0_0_1_n_n none (Host.dotGeneral (F := Ideal) dot_S16384x2048_S2048x16_S16384x16_1_0_0_1_n_n none X la) lb) (broadcastInDim S16384x2048 ![] bcast_S_S16384x2048 (constant (F := Ideal) S_ .f32 0x40000000#32))
/-- Layer 1, the dense branch: max(X·w + b, 0). -/
def fc1 (X : FVec Ideal S16384x2048 .f32) (w : FVec Ideal S2048x2048 .f32) (b : FVec Ideal S2048 .f32) :
    FVec Ideal S16384x2048 .f32 :=
  maximumf (addf (Host.dotGeneral (F := Ideal) dot_S16384x2048_S2048x2048_S16384x2048_1_0_0_1_n_n none X w) (broadcastInDim S16384x2048 ![0, 1] bcast_S1x2048_S16384x2048_0_1 (broadcastInDim S1x2048 ![1] bcast_S2048_S1x2048_1 b))) (broadcastInDim S16384x2048 ![] bcast_S_S16384x2048 (constant (F := Ideal) S_ .f32 0x00000000#32))
/-- Layer 1, the gated sum h·g₀ + cu·g₁ + cf·g₂, column j of the gates broadcast along the row. -/
def mix1 (g : FVec Ideal S16384x3 .f32) (h : FVec Ideal S16384x2048 .f32) (cu : FVec Ideal S16384x2048 .f32) (cf : FVec Ideal S16384x2048 .f32) :
    FVec Ideal S16384x2048 .f32 :=
  addf (addf (mulf h (broadcastInDim S16384x2048 ![0, 1] bcast_S16384x1_S16384x2048_0_1 (extractStridedSlice S16384x1 ![0, 0] g slices_S16384x3_S16384x1_0_0))) (mulf cu (broadcastInDim S16384x2048 ![0, 1] bcast_S16384x1_S16384x2048_0_1 (extractStridedSlice S16384x1 ![0, 1] g slices_S16384x3_S16384x1_0_1)))) (mulf cf (broadcastInDim S16384x2048 ![0, 1] bcast_S16384x1_S16384x2048_0_1 (extractStridedSlice S16384x1 ![0, 2] g slices_S16384x3_S16384x1_0_2)))
/-- Layer 1 of the reference: operations %73 … %116. -/
def layer1 (X : FVec Ideal S16384x2048 .f32) (a18 : FVec Ideal S2048x2048 .f32) (a19 : FVec Ideal S2048 .f32) (a20 : FVec Ideal S2048x256 .f32) (a21 : FVec Ideal S256 .f32) (a22 : FVec Ideal S256x3 .f32) (a23 : FVec Ideal S3 .f32) (a24 : FVec Ideal S2048x16 .f32) (a25 : FVec Ideal S16x2048 .f32) (a26 : FVec Ideal S2048x16 .f32) (a27 : FVec Ideal S16x2048 .f32) :
    FVec Ideal S16384x2048 .f32 :=
  mix1 (gate (glog1 X a20 a21 a22 a23)) (fc1 X a18 a19) (cor1 X a24 a25) (cor1 X a26 a27)
/-- Layer 2, the gate network's three logits: max(X·g1w + g1b, 0)·g2w + g2b. -/
def glog2 (X : FVec Ideal S16384x2048 .f32) (g1w : FVec Ideal S2048x256 .f32) (g1b : FVec Ideal S256 .f32) (g2w : FVec Ideal S256x3 .f32) (g2b : FVec Ideal S3 .f32) :
    FVec Ideal S16384x3 .f32 :=
  addf (Host.dotGeneral (F := Ideal) dot_S16384x256_S256x3_S16384x3_1_0_0_1_n_n none (maximumf (addf (Host.dotGeneral (F := Ideal) dot_S16384x2048_S2048x256_S16384x256_1_0_0_1_n_n none X g1w) (broadcastInDim S16384x256 ![0, 1] bcast_S1x256_S16384x256_0_1 (broadcastInDim S1x256 ![1] bcast_S256_S1x256_1 g1b))) (broadcastInDim S16384x256 ![] bcast_S_S16384x256 (constant (F := Ideal) S_ .f32 0x00000000#32))) g2w) (broadcastInDim S16384x3 ![0, 1] bcast_S1x3_S16384x3_0_1 (broadcastInDim S1x3 ![1] bcast_S3_S1x3_1 g2b))
/-- Layer 2, a rank-16 correction: ((X·la)·lb)·2. -/
def cor2 (X : FVec Ideal S16384x2048 .f32) (la : FVec Ideal S2048x16 .f32) (lb : FVec Ideal S16x1024 .f32) :
    FVec Ideal S16384x1024 .f32 :=
  mulf (Host.dotGeneral (F := Ideal) dot_S16384x16_S16x1024_S16384x1024_1_0_0_1_n_n none (Host.dotGeneral (F := Ideal) dot_S16384x2048_S2048x16_S16384x16_1_0_0_1_n_n none X la) lb) (broadcastInDim S16384x1024 ![] bcast_S_S16384x1024 (constant (F := Ideal) S_ .f32 0x40000000#32))
/-- Layer 2, the dense branch: max(X·w + b, 0). -/
def fc2 (X : FVec Ideal S16384x2048 .f32) (w : FVec Ideal S2048x1024 .f32) (b : FVec Ideal S1024 .f32) :
    FVec Ideal S16384x1024 .f32 :=
  maximumf (addf (Host.dotGeneral (F := Ideal) dot_S16384x2048_S2048x1024_S16384x1024_1_0_0_1_n_n none X w) (broadcastInDim S16384x1024 ![0, 1] bcast_S1x1024_S16384x1024_0_1 (broadcastInDim S1x1024 ![1] bcast_S1024_S1x1024_1 b))) (broadcastInDim S16384x1024 ![] bcast_S_S16384x1024 (constant (F := Ideal) S_ .f32 0x00000000#32))
/-- Layer 2, the gated sum h·g₀ + cu·g₁ + cf·g₂, column j of the gates broadcast along the row. -/
def mix2 (g : FVec Ideal S16384x3 .f32) (h : FVec Ideal S16384x1024 .f32) (cu : FVec Ideal S16384x1024 .f32) (cf : FVec Ideal S16384x1024 .f32) :
    FVec Ideal S16384x1024 .f32 :=
  addf (addf (mulf h (broadcastInDim S16384x1024 ![0, 1] bcast_S16384x1_S16384x1024_0_1 (extractStridedSlice S16384x1 ![0, 0] g slices_S16384x3_S16384x1_0_0))) (mulf cu (broadcastInDim S16384x1024 ![0, 1] bcast_S16384x1_S16384x1024_0_1 (extractStridedSlice S16384x1 ![0, 1] g slices_S16384x3_S16384x1_0_1)))) (mulf cf (broadcastInDim S16384x1024 ![0, 1] bcast_S16384x1_S16384x1024_0_1 (extractStridedSlice S16384x1 ![0, 2] g slices_S16384x3_S16384x1_0_2)))
/-- Layer 2 of the reference: operations %117 … %160. -/
def layer2 (X : FVec Ideal S16384x2048 .f32) (a28 : FVec Ideal S2048x1024 .f32) (a29 : FVec Ideal S1024 .f32) (a30 : FVec Ideal S2048x256 .f32) (a31 : FVec Ideal S256 .f32) (a32 : FVec Ideal S256x3 .f32) (a33 : FVec Ideal S3 .f32) (a34 : FVec Ideal S2048x16 .f32) (a35 : FVec Ideal S16x1024 .f32) (a36 : FVec Ideal S2048x16 .f32) (a37 : FVec Ideal S16x1024 .f32) :
    FVec Ideal S16384x1024 .f32 :=
  mix2 (gate (glog2 X a30 a31 a32 a33)) (fc2 X a28 a29) (cor2 X a34 a35) (cor2 X a36 a37)
/-- The final score: 1 / (1 + exp(−(W·aw + ab))). -/
def tail (W : FVec Ideal S16384x1024 .f32) (aw : FVec Ideal S1024x1 .f32) (ab : FVec Ideal S1 .f32) :
    FVec Ideal S16384x1 .f32 :=
  Host.divf (F := Ideal) (broadcastInDim S16384x1 ![] bcast_S_S16384x1 (constant (F := Ideal) S_ .f32 0x3F800000#32)) (addf (broadcastInDim S16384x1 ![] bcast_S_S16384x1 (constant (F := Ideal) S_ .f32 0x3F800000#32)) (Host.exp (F := Ideal) (Host.negf (F := Ideal) (addf (Host.dotGeneral (F := Ideal) dot_S16384x1024_S1024x1_S16384x1_1_0_0_1_n_n none W aw) (broadcastInDim S16384x1 ![0, 1] bcast_S1x1_S16384x1_0_1 (broadcastInDim S1x1 ![1] bcast_S1_S1x1_1 ab))))))
/-- The reference after the embedding: operations %29 … %170, of the joined embedding X and the weights. -/
def refOut (X : FVec Ideal S16384x256 .f32) (a8 : FVec Ideal S256x2048 .f32) (a9 : FVec Ideal S2048 .f32) (a10 : FVec Ideal S256x256 .f32) (a11 : FVec Ideal S256 .f32) (a12 : FVec Ideal S256x3 .f32) (a13 : FVec Ideal S3 .f32) (a14 : FVec Ideal S256x16 .f32) (a15 : FVec Ideal S16x2048 .f32) (a16 : FVec Ideal S256x16 .f32) (a17 : FVec Ideal S16x2048 .f32) (a18 : FVec Ideal S2048x2048 .f32) (a19 : FVec Ideal S2048 .f32) (a20 : FVec Ideal S2048x256 .f32) (a21 : FVec Ideal S256 .f32) (a22 : FVec Ideal S256x3 .f32) (a23 : FVec Ideal S3 .f32) (a24 : FVec Ideal S2048x16 .f32) (a25 : FVec Ideal S16x2048 .f32) (a26 : FVec Ideal S2048x16 .f32) (a27 : FVec Ideal S16x2048 .f32) (a28 : FVec Ideal S2048x1024 .f32) (a29 : FVec Ideal S1024 .f32) (a30 : FVec Ideal S2048x256 .f32) (a31 : FVec Ideal S256 .f32) (a32 : FVec Ideal S256x3 .f32) (a33 : FVec Ideal S3 .f32) (a34 : FVec Ideal S2048x16 .f32) (a35 : FVec Ideal S16x1024 .f32) (a36 : FVec Ideal S2048x16 .f32) (a37 : FVec Ideal S16x1024 .f32) (a38 : FVec Ideal S1024x1 .f32) (a39 : FVec Ideal S1 .f32) :
    FVec Ideal S16384x1 .f32 :=
  tail (layer2 (layer1 (layer0 X a8 a9 a10 a11 a12 a13 a14 a15 a16 a17) a18 a19 a20 a21 a22 a23 a24 a25 a26 a27) a28 a29 a30 a31 a32 a33 a34 a35 a36 a37) a38 a39

end Cert.ReferenceIdeal.RefValue

end
-- ==== Proof.RefRun.lean ====
/-
  The reference program's run, read back in stretches.

  The program is a straight line of host operations; what a buffer holds after the line is the fold of the
  operations' results over the launch contents.  The line is cut into consecutive stretches.  For each stretch and
  ANY contents `V` before it, the buffer the stretch is there to compute holds the stage's function of `V` at the
  stretch's inputs (`val…`), and a buffer the stretch does not write holds what it held (`frame…`).  Joining the
  stretches gives each layer as a function of the layer's input and weights, and the whole line as
  `refOut (emb …) …`; the arguments are written by no operation and keep their launch contents.
-/
import proofs.«153816_j32289564131760_2_alg».proof.Proof.RefOps
import proofs.«153816_j32289564131760_2_alg».proof.Proof.RefDefs
import Idealize.ShloMosaic.Lib.Pipeline.Frame

noncomputable section

namespace Cert.ReferenceIdeal.RefValue

open Cert.ReferenceIdeal Cert.ReferenceIdeal.Gen Cert.ReferenceIdeal.RunP Cert.Net Idealize.ShloMosaic Idealize.ShloMosaic.TcCoe Idealize.SL.Sem Idealize.ShloMosaic.StableHlo

/-- The contents of a device's buffers, at the ideal values. -/
abbrev Vl := Valuation τ sig (Elt Ideal)

/-- A buffer among a list's is among the list's as device buffers. -/
theorem wsub {W : List (Ref sig .tc)} {y : Ref sig .tc} (hy : y ∈ W) :
    ({Proc.devRef .tc y} : Finset (DevRef τ sig)) ⊆ (W.map (Proc.devRef (τ := τ) .tc)).toFinset := by
  rw [Finset.singleton_subset_iff, List.mem_toFinset]
  exact List.mem_map_of_mem hy

/-! ## Each stretch, from any contents -/

theorem hWG0 : (segG0 (F := Ideal)).Forall fun op => op.writes ⊆ (WG0.map (Proc.devRef (τ := τ) .tc)).toFinset := by
  unfold segG0
  exact ⟨wsub (by decide), wsub (by decide), wsub (by decide), wsub (by decide), wsub (by decide), wsub (by decide), wsub (by decide), wsub (by decide), wsub (by decide)⟩
theorem frameG0 (V : Vl) {r : Ref sig .tc} (hr : r ∉ WG0) :
    after (segG0 (F := Ideal)) V (no_index (Proc.devRef .tc r)) = V (Proc.devRef .tc r) :=
  after_of_writes_sub (segG0 (F := Ideal)) V hWG0 hr
theorem valG0 (V : Vl) :
    after (segG0 (F := Ideal)) V (no_index (Proc.devRef .tc main_v6)) = Host.gather gather_S100000x64_S16384x1_S16384x64_1_0_n_n_0_1_164 (V (Proc.devRef .tc main_arg4)) (broadcastInDim S16384x1 ![0] bcast_S16384_S16384x1_0 (select (cmpi .slt (V (Proc.devRef .tc main_arg0)) (broadcastInDim S16384 ![] bcast_S_S16384 (constantI S_ 32 0#32))) (addi (V (Proc.devRef .tc main_arg0)) (broadcastInDim S16384 ![] bcast_S_S16384 (constantI S_ 32 100000#32))) (V (Proc.devRef .tc main_arg0)))) := by
  unfold segG0
  after_results_simp
  all_goals rfl

theorem hWG1 : (segG1 (F := Ideal)).Forall fun op => op.writes ⊆ (WG1.map (Proc.devRef (τ := τ) .tc)).toFinset := by
  unfold segG1
  exact ⟨wsub (by decide), wsub (by decide), wsub (by decide), wsub (by decide), wsub (by decide), wsub (by decide), wsub (by decide), wsub (by decide), wsub (by decide)⟩
theorem frameG1 (V : Vl) {r : Ref sig .tc} (hr : r ∉ WG1) :
    after (segG1 (F := Ideal)) V (no_index (Proc.devRef .tc r)) = V (Proc.devRef .tc r) :=
  after_of_writes_sub (segG1 (F := Ideal)) V hWG1 hr
theorem valG1 (V : Vl) :
    after (segG1 (F := Ideal)) V (no_index (Proc.devRef .tc main_v13)) = Host.gather gather_S100x64_S16384x1_S16384x64_1_0_n_n_0_1_164 (V (Proc.devRef .tc main_arg5)) (broadcastInDim S16384x1 ![0] bcast_S16384_S16384x1_0 (select (cmpi .slt (V (Proc.devRef .tc main_arg1)) (broadcastInDim S16384 ![] bcast_S_S16384 (constantI S_ 32 0#32))) (addi (V (Proc.devRef .tc main_arg1)) (broadcastInDim S16384 ![] bcast_S_S16384 (constantI S_ 32 100#32))) (V (Proc.devRef .tc main_arg1)))) := by
  unfold segG1
  after_results_simp
  all_goals rfl

theorem hWG2 : (segG2 (F := Ideal)).Forall fun op => op.writes ⊆ (WG2.map (Proc.devRef (τ := τ) .tc)).toFinset := by
  unfold segG2
  exact ⟨wsub (by decide), wsub (by decide), wsub (by decide), wsub (by decide), wsub (by decide), wsub (by decide), wsub (by decide), wsub (by decide), wsub (by decide)⟩
theorem frameG2 (V : Vl) {r : Ref sig .tc} (hr : r ∉ WG2) :
    after (segG2 (F := Ideal)) V (no_index (Proc.devRef .tc r)) = V (Proc.devRef .tc r) :=
  after_of_writes_sub (segG2 (F := Ideal)) V hWG2 hr
theorem valG2 (V : Vl) :
    after (segG2 (F := Ideal)) V (no_index (Proc.devRef .tc main_v20)) = Host.gather gather_S500000x64_S16384x1_S16384x64_1_0_n_n_0_1_164 (V (Proc.devRef .tc main_arg6)) (broadcastInDim S16384x1 ![0] bcast_S16384_S16384x1_0 (select (cmpi .slt (V (Proc.devRef .tc main_arg2)) (broadcastInDim S16384 ![] bcast_S_S16384 (constantI S_ 32 0#32))) (addi (V (Proc.devRef .tc main_arg2)) (broadcastInDim S16384 ![] bcast_S_S16384 (constantI S_ 32 500000#32))) (V (Proc.devRef .tc main_arg2)))) := by
  unfold segG2
  after_results_simp
  all_goals rfl

theorem hWG3 : (segG3 (F := Ideal)).Forall fun op => op.writes ⊆ (WG3.map (Proc.devRef (τ := τ) .tc)).toFinset := by
  unfold segG3
  exact ⟨wsub (by decide), wsub (by decide), wsub (by decide), wsub (by decide), wsub (by decide), wsub (by decide), wsub (by decide), wsub (by decide), wsub (by decide)⟩
theorem frameG3 (V : Vl) {r : Ref sig .tc} (hr : r ∉ WG3) :
    after (segG3 (F := Ideal)) V (no_index (Proc.devRef .tc r)) = V (Proc.devRef .tc r) :=
  after_of_writes_sub (segG3 (F := Ideal)) V hWG3 hr
theorem valG3 (V : Vl) :
    after (segG3 (F := Ideal)) V (no_index (Proc.devRef .tc main_v27)) = Host.gather gather_S1000x64_S16384x1_S16384x64_1_0_n_n_0_1_164 (V (Proc.devRef .tc main_arg7)) (broadcastInDim S16384x1 ![0] bcast_S16384_S16384x1_0 (select (cmpi .slt (V (Proc.devRef .tc main_arg3)) (broadcastInDim S16384 ![] bcast_S_S16384 (constantI S_ 32 0#32))) (addi (V (Proc.devRef .tc main_arg3)) (broadcastInDim S16384 ![] bcast_S_S16384 (constantI S_ 32 1000#32))) (V (Proc.devRef .tc main_arg3)))) := by
  unfold segG3
  after_results_simp
  all_goals rfl

theorem hWEC : (segEC (F := Ideal)).Forall fun op => op.writes ⊆ (WEC.map (Proc.devRef (τ := τ) .tc)).toFinset := by
  unfold segEC
  exact wsub (by decide)
theorem frameEC (V : Vl) {r : Ref sig .tc} (hr : r ∉ WEC) :
    after (segEC (F := Ideal)) V (no_index (Proc.devRef .tc r)) = V (Proc.devRef .tc r) :=
  after_of_writes_sub (segEC (F := Ideal)) V hWEC hr
theorem valEC (V : Vl) :
    after (segEC (F := Ideal)) V (no_index (Proc.devRef .tc main_v28)) = concatenate S16384x256 1 [⟨S16384x64, (V (Proc.devRef .tc main_v6))⟩, ⟨S16384x64, (V (Proc.devRef .tc main_v13))⟩, ⟨S16384x64, (V (Proc.devRef .tc main_v20))⟩, ⟨S16384x64, (V (Proc.devRef .tc main_v27))⟩] concatenates_S16384x64_S16384x64_S16384x64_S16384x64_S16384x256_d1 := by
  unfold segEC
  after_results_simp
  all_goals rfl

theorem hWL0A : (segL0A (F := Ideal)).Forall fun op => op.writes ⊆ (WL0A.map (Proc.devRef (τ := τ) .tc)).toFinset := by
  unfold segL0A
  exact ⟨wsub (by decide), wsub (by decide), wsub (by decide), wsub (by decide), wsub (by decide), wsub (by decide), wsub (by decide), wsub (by decide), wsub (by decide), wsub (by decide), wsub (by decide)⟩
theorem frameL0A (V : Vl) {r : Ref sig .tc} (hr : r ∉ WL0A) :
    after (segL0A (F := Ideal)) V (no_index (Proc.devRef .tc r)) = V (Proc.devRef .tc r) :=
  after_of_writes_sub (segL0A (F := Ideal)) V hWL0A hr
theorem valL0A (V : Vl) :
    after (segL0A (F := Ideal)) V (no_index (Proc.devRef .tc main_v37)) = glog0 (V (Proc.devRef .tc main_v28)) (V (Proc.devRef .tc main_arg10)) (V (Proc.devRef .tc main_arg11)) (V (Proc.devRef .tc main_arg12)) (V (Proc.devRef .tc main_arg13)) := by
  unfold segL0A
  after_results_simp
  simp only [TRef.toBuf, TRef.ofBuf, cast_eq, id]
  all_goals rfl

theorem hWL0B : (segL0B (F := Ideal)).Forall fun op => op.writes ⊆ (WL0B.map (Proc.devRef (τ := τ) .tc)).toFinset := by
  unfold segL0B
  exact ⟨wsub (by decide), wsub (by decide), wsub (by decide), wsub (by decide), wsub (by decide), wsub (by decide), wsub (by decide), wsub (by decide), wsub (by decide), wsub (by decide), wsub (by decide), wsub (by decide), wsub (by decide), wsub (by decide)⟩
theorem frameL0B (V : Vl) {r : Ref sig .tc} (hr : r ∉ WL0B) :
    after (segL0B (F := Ideal)) V (no_index (Proc.devRef .tc r)) = V (Proc.devRef .tc r) :=
  after_of_writes_sub (segL0B (F := Ideal)) V hWL0B hr
theorem valL0B (V : Vl) :
    after (segL0B (F := Ideal)) V (no_index (Proc.devRef .tc main_v48)) = gate (V (Proc.devRef .tc main_v37)) := by
  unfold segL0B
  after_results_simp
  all_goals rfl

theorem hWL0C : (segL0C (F := Ideal)).Forall fun op => op.writes ⊆ (WL0C.map (Proc.devRef (τ := τ) .tc)).toFinset := by
  unfold segL0C
  exact ⟨wsub (by decide), wsub (by decide), wsub (by decide), wsub (by decide), wsub (by decide)⟩
theorem frameL0C (V : Vl) {r : Ref sig .tc} (hr : r ∉ WL0C) :
    after (segL0C (F := Ideal)) V (no_index (Proc.devRef .tc r)) = V (Proc.devRef .tc r) :=
  after_of_writes_sub (segL0C (F := Ideal)) V hWL0C hr
theorem valL0C (V : Vl) :
    after (segL0C (F := Ideal)) V (no_index (Proc.devRef .tc main_v52)) = cor0 (V (Proc.devRef .tc main_v28)) (V (Proc.devRef .tc main_arg14)) (V (Proc.devRef .tc main_arg15)) := by
  unfold segL0C
  after_results_simp
  all_goals rfl

theorem hWL0F : (segL0F (F := Ideal)).Forall fun op => op.writes ⊆ (WL0F.map (Proc.devRef (τ := τ) .tc)).toFinset := by
  unfold segL0F
  exact ⟨wsub (by decide), wsub (by decide), wsub (by decide), wsub (by decide), wsub (by decide)⟩
theorem frameL0F (V : Vl) {r : Ref sig .tc} (hr : r ∉ WL0F) :
    after (segL0F (F := Ideal)) V (no_index (Proc.devRef .tc r)) = V (Proc.devRef .tc r) :=
  after_of_writes_sub (segL0F (F := Ideal)) V hWL0F hr
theorem valL0F (V : Vl) :
    after (segL0F (F := Ideal)) V (no_index (Proc.devRef .tc main_v56)) = cor0 (V (Proc.devRef .tc main_v28)) (V (Proc.devRef .tc main_arg16)) (V (Proc.devRef .tc main_arg17)) := by
  unfold segL0F
  after_results_simp
  all_goals rfl

theorem hWL0D : (segL0D (F := Ideal)).Forall fun op => op.writes ⊆ (WL0D.map (Proc.devRef (τ := τ) .tc)).toFinset := by
  unfold segL0D
  exact ⟨wsub (by decide), wsub (by decide), wsub (by decide), wsub (by decide), wsub (by decide), wsub (by decide), wsub (by decide)⟩
theorem frameL0D (V : Vl) {r : Ref sig .tc} (hr : r ∉ WL0D) :
    after (segL0D (F := Ideal)) V (no_index (Proc.devRef .tc r)) = V (Proc.devRef .tc r) :=
  after_of_writes_sub (segL0D (F := Ideal)) V hWL0D hr
theorem valL0D (V : Vl) :
    after (segL0D (F := Ideal)) V (no_index (Proc.devRef .tc main_v61)) = fc0 (V (Proc.devRef .tc main_v28)) (V (Proc.devRef .tc main_arg8)) (V (Proc.devRef .tc main_arg9)) := by
  unfold segL0D
  after_results_simp
  simp only [TRef.toBuf, TRef.ofBuf, cast_eq, id]
  all_goals rfl

theorem hWL0M : (segL0M (F := Ideal)).Forall fun op => op.writes ⊆ (WL0M.map (Proc.devRef (τ := τ) .tc)).toFinset := by
  unfold segL0M
  exact ⟨wsub (by decide), wsub (by decide), wsub (by decide), wsub (by decide), wsub (by decide), wsub (by decide), wsub (by decide), wsub (by decide), wsub (by decide), wsub (by decide), wsub (by decide)⟩
theorem frameL0M (V : Vl) {r : Ref sig .tc} (hr : r ∉ WL0M) :
    after (segL0M (F := Ideal)) V (no_index (Proc.devRef .tc r)) = V (Proc.devRef .tc r) :=
  after_of_writes_sub (segL0M (F := Ideal)) V hWL0M hr
theorem valL0M (V : Vl) :
    after (segL0M (F := Ideal)) V (no_index (Proc.devRef .tc main_v72)) = mix0 (V (Proc.devRef .tc main_v48)) (V (Proc.devRef .tc main_v61)) (V (Proc.devRef .tc main_v52)) (V (Proc.devRef .tc main_v56)) := by
  unfold segL0M
  after_results_simp
  all_goals rfl

theorem hWL1A : (segL1A (F := Ideal)).Forall fun op => op.writes ⊆ (WL1A.map (Proc.devRef (τ := τ) .tc)).toFinset := by
  unfold segL1A
  exact ⟨wsub (by decide), wsub (by decide), wsub (by decide), wsub (by decide), wsub (by decide), wsub (by decide), wsub (by decide), wsub (by decide), wsub (by decide), wsub (by decide), wsub (by decide)⟩
theorem frameL1A (V : Vl) {r : Ref sig .tc} (hr : r ∉ WL1A) :
    after (segL1A (F := Ideal)) V (no_index (Proc.devRef .tc r)) = V (Proc.devRef .tc r) :=
  after_of_writes_sub (segL1A (F := Ideal)) V hWL1A hr
theorem valL1A (V : Vl) :
    after (segL1A (F := Ideal)) V (no_index (Proc.devRef .tc main_v81)) = glog1 (V (Proc.devRef .tc main_v72)) (V (Proc.devRef .tc main_arg20)) (V (Proc.devRef .tc main_arg21)) (V (Proc.devRef .tc main_arg22)) (V (Proc.devRef .tc main_arg23)) := by
  unfold segL1A
  after_results_simp
  simp only [TRef.toBuf, TRef.ofBuf, cast_eq, id]
  all_goals rfl

theorem hWL1B : (segL1B (F := Ideal)).Forall fun op => op.writes ⊆ (WL1B.map (Proc.devRef (τ := τ) .tc)).toFinset := by
  unfold segL1B
  exact ⟨wsub (by decide), wsub (by decide), wsub (by decide), wsub (by decide), wsub (by decide), wsub (by decide), wsub (by decide), wsub (by decide), wsub (by decide), wsub (by decide), wsub (by decide), wsub (by decide), wsub (by decide), wsub (by decide)⟩
theorem frameL1B (V : Vl) {r : Ref sig .tc} (hr : r ∉ WL1B) :
    after (segL1B (F := Ideal)) V (no_index (Proc.devRef .tc r)) = V (Proc.devRef .tc r) :=
  after_of_writes_sub (segL1B (F := Ideal)) V hWL1B hr
theorem valL1B (V : Vl) :
    after (segL1B (F := Ideal)) V (no_index (Proc.devRef .tc main_v92)) = gate (V (Proc.devRef .tc main_v81)) := by
  unfold segL1B
  after_results_simp
  all_goals rfl

theorem hWL1C : (segL1C (F := Ideal)).Forall fun op => op.writes ⊆ (WL1C.map (Proc.devRef (τ := τ) .tc)).toFinset := by
  unfold segL1C
  exact ⟨wsub (by decide), wsub (by decide), wsub (by decide), wsub (by decide), wsub (by decide)⟩
theorem frameL1C (V : Vl) {r : Ref sig .tc} (hr : r ∉ WL1C) :
    after (segL1C (F := Ideal)) V (no_index (Proc.devRef .tc r)) = V (Proc.devRef .tc r) :=
  after_of_writes_sub (segL1C (F := Ideal)) V hWL1C hr
theorem valL1C (V : Vl) :
    after (segL1C (F := Ideal)) V (no_index (Proc.devRef .tc main_v96)) = cor1 (V (Proc.devRef .tc main_v72)) (V (Proc.devRef .tc main_arg24)) (V (Proc.devRef .tc main_arg25)) := by
  unfold segL1C
  after_results_simp
  all_goals rfl

theorem hWL1F : (segL1F (F := Ideal)).Forall fun op => op.writes ⊆ (WL1F.map (Proc.devRef (τ := τ) .tc)).toFinset := by
  unfold segL1F
  exact ⟨wsub (by decide), wsub (by decide), wsub (by decide), wsub (by decide), wsub (by decide)⟩
theorem frameL1F (V : Vl) {r : Ref sig .tc} (hr : r ∉ WL1F) :
    after (segL1F (F := Ideal)) V (no_index (Proc.devRef .tc r)) = V (Proc.devRef .tc r) :=
  after_of_writes_sub (segL1F (F := Ideal)) V hWL1F hr
theorem valL1F (V : Vl) :
    after (segL1F (F := Ideal)) V (no_index (Proc.devRef .tc main_v100)) = cor1 (V (Proc.devRef .tc main_v72)) (V (Proc.devRef .tc main_arg26)) (V (Proc.devRef .tc main_arg27)) := by
  unfold segL1F
  after_results_simp
  all_goals rfl

theorem hWL1D : (segL1D (F := Ideal)).Forall fun op => op.writes ⊆ (WL1D.map (Proc.devRef (τ := τ) .tc)).toFinset := by
  unfold segL1D
  exact ⟨wsub (by decide), wsub (by decide), wsub (by decide), wsub (by decide), wsub (by decide), wsub (by decide), wsub (by decide)⟩
theorem frameL1D (V : Vl) {r : Ref sig .tc} (hr : r ∉ WL1D) :
    after (segL1D (F := Ideal)) V (no_index (Proc.devRef .tc r)) = V (Proc.devRef .tc r) :=
  after_of_writes_sub (segL1D (F := Ideal)) V hWL1D hr
theorem valL1D (V : Vl) :
    after (segL1D (F := Ideal)) V (no_index (Proc.devRef .tc main_v105)) = fc1 (V (Proc.devRef .tc main_v72)) (V (Proc.devRef .tc main_arg18)) (V (Proc.devRef .tc main_arg19)) := by
  unfold segL1D
  after_results_simp
  simp only [TRef.toBuf, TRef.ofBuf, cast_eq, id]
  all_goals rfl

theorem hWL1M : (segL1M (F := Ideal)).Forall fun op => op.writes ⊆ (WL1M.map (Proc.devRef (τ := τ) .tc)).toFinset := by
  unfold segL1M
  exact ⟨wsub (by decide), wsub (by decide), wsub (by decide), wsub (by decide), wsub (by decide), wsub (by decide), wsub (by decide), wsub (by decide), wsub (by decide), wsub (by decide), wsub (by decide)⟩
theorem frameL1M (V : Vl) {r : Ref sig .tc} (hr : r ∉ WL1M) :
    after (segL1M (F := Ideal)) V (no_index (Proc.devRef .tc r)) = V (Proc.devRef .tc r) :=
  after_of_writes_sub (segL1M (F := Ideal)) V hWL1M hr
theorem valL1M (V : Vl) :
    after (segL1M (F := Ideal)) V (no_index (Proc.devRef .tc main_v116)) = mix1 (V (Proc.devRef .tc main_v92)) (V (Proc.devRef .tc main_v105)) (V (Proc.devRef .tc main_v96)) (V (Proc.devRef .tc main_v100)) := by
  unfold segL1M
  after_results_simp
  all_goals rfl

theorem hWL2A : (segL2A (F := Ideal)).Forall fun op => op.writes ⊆ (WL2A.map (Proc.devRef (τ := τ) .tc)).toFinset := by
  unfold segL2A
  exact ⟨wsub (by decide), wsub (by decide), wsub (by decide), wsub (by decide), wsub (by decide), wsub (by decide), wsub (by decide), wsub (by decide), wsub (by decide), wsub (by decide), wsub (by decide)⟩
theorem frameL2A (V : Vl) {r : Ref sig .tc} (hr : r ∉ WL2A) :
    after (segL2A (F := Ideal)) V (no_index (Proc.devRef .tc r)) = V (Proc.devRef .tc r) :=
  after_of_writes_sub (segL2A (F := Ideal)) V hWL2A hr
theorem valL2A (V : Vl) :
    after (segL2A (F := Ideal)) V (no_index (Proc.devRef .tc main_v125)) = glog2 (V (Proc.devRef .tc main_v116)) (V (Proc.devRef .tc main_arg30)) (V (Proc.devRef .tc main_arg31)) (V (Proc.devRef .tc main_arg32)) (V (Proc.devRef .tc main_arg33)) := by
  unfold segL2A
  after_results_simp
  simp only [TRef.toBuf, TRef.ofBuf, cast_eq, id]
  all_goals rfl

theorem hWL2B : (segL2B (F := Ideal)).Forall fun op => op.writes ⊆ (WL2B.map (Proc.devRef (τ := τ) .tc)).toFinset := by
  unfold segL2B
  exact ⟨wsub (by decide), wsub (by decide), wsub (by decide), wsub (by decide), wsub (by decide), wsub (by decide), wsub (by decide), wsub (by decide), wsub (by decide), wsub (by decide), wsub (by decide), wsub (by decide), wsub (by decide), wsub (by decide)⟩
theorem frameL2B (V : Vl) {r : Ref sig .tc} (hr : r ∉ WL2B) :
    after (segL2B (F := Ideal)) V (no_index (Proc.devRef .tc r)) = V (Proc.devRef .tc r) :=
  after_of_writes_sub (segL2B (F := Ideal)) V hWL2B hr
theorem valL2B (V : Vl) :
    after (segL2B (F := Ideal)) V (no_index (Proc.devRef .tc main_v136)) = gate (V (Proc.devRef .tc main_v125)) := by
  unfold segL2B
  after_results_simp
  all_goals rfl

theorem hWL2C : (segL2C (F := Ideal)).Forall fun op => op.writes ⊆ (WL2C.map (Proc.devRef (τ := τ) .tc)).toFinset := by
  unfold segL2C
  exact ⟨wsub (by decide), wsub (by decide), wsub (by decide), wsub (by decide), wsub (by decide)⟩
theorem frameL2C (V : Vl) {r : Ref sig .tc} (hr : r ∉ WL2C) :
    after (segL2C (F := Ideal)) V (no_index (Proc.devRef .tc r)) = V (Proc.devRef .tc r) :=
  after_of_writes_sub (segL2C (F := Ideal)) V hWL2C hr
theorem valL2C (V : Vl) :
    after (segL2C (F := Ideal)) V (no_index (Proc.devRef .tc main_v140)) = cor2 (V (Proc.devRef .tc main_v116)) (V (Proc.devRef .tc main_arg34)) (V (Proc.devRef .tc main_arg35)) := by
  unfold segL2C
  after_results_simp
  all_goals rfl

theorem hWL2F : (segL2F (F := Ideal)).Forall fun op => op.writes ⊆ (WL2F.map (Proc.devRef (τ := τ) .tc)).toFinset := by
  unfold segL2F
  exact ⟨wsub (by decide), wsub (by decide), wsub (by decide), wsub (by decide), wsub (by decide)⟩
theorem frameL2F (V : Vl) {r : Ref sig .tc} (hr : r ∉ WL2F) :
    after (segL2F (F := Ideal)) V (no_index (Proc.devRef .tc r)) = V (Proc.devRef .tc r) :=
  after_of_writes_sub (segL2F (F := Ideal)) V hWL2F hr
theorem valL2F (V : Vl) :
    after (segL2F (F := Ideal)) V (no_index (Proc.devRef .tc main_v144)) = cor2 (V (Proc.devRef .tc main_v116)) (V (Proc.devRef .tc main_arg36)) (V (Proc.devRef .tc main_arg37)) := by
  unfold segL2F
  after_results_simp
  all_goals rfl

theorem hWL2D : (segL2D (F := Ideal)).Forall fun op => op.writes ⊆ (WL2D.map (Proc.devRef (τ := τ) .tc)).toFinset := by
  unfold segL2D
  exact ⟨wsub (by decide), wsub (by decide), wsub (by decide), wsub (by decide), wsub (by decide), wsub (by decide), wsub (by decide)⟩
theorem frameL2D (V : Vl) {r : Ref sig .tc} (hr : r ∉ WL2D) :
    after (segL2D (F := Ideal)) V (no_index (Proc.devRef .tc r)) = V (Proc.devRef .tc r) :=
  after_of_writes_sub (segL2D (F := Ideal)) V hWL2D hr
theorem valL2D (V : Vl) :
    after (segL2D (F := Ideal)) V (no_index (Proc.devRef .tc main_v149)) = fc2 (V (Proc.devRef .tc main_v116)) (V (Proc.devRef .tc main_arg28)) (V (Proc.devRef .tc main_arg29)) := by
  unfold segL2D
  after_results_simp
  simp only [TRef.toBuf, TRef.ofBuf, cast_eq, id]
  all_goals rfl

theorem hWL2M : (segL2M (F := Ideal)).Forall fun op => op.writes ⊆ (WL2M.map (Proc.devRef (τ := τ) .tc)).toFinset := by
  unfold segL2M
  exact ⟨wsub (by decide), wsub (by decide), wsub (by decide), wsub (by decide), wsub (by decide), wsub (by decide), wsub (by decide), wsub (by decide), wsub (by decide), wsub (by decide), wsub (by decide)⟩
theorem frameL2M (V : Vl) {r : Ref sig .tc} (hr : r ∉ WL2M) :
    after (segL2M (F := Ideal)) V (no_index (Proc.devRef .tc r)) = V (Proc.devRef .tc r) :=
  after_of_writes_sub (segL2M (F := Ideal)) V hWL2M hr
theorem valL2M (V : Vl) :
    after (segL2M (F := Ideal)) V (no_index (Proc.devRef .tc main_v160)) = mix2 (V (Proc.devRef .tc main_v136)) (V (Proc.devRef .tc main_v149)) (V (Proc.devRef .tc main_v140)) (V (Proc.devRef .tc main_v144)) := by
  unfold segL2M
  after_results_simp
  all_goals rfl

theorem hWT : (segT (F := Ideal)).Forall fun op => op.writes ⊆ (WT.map (Proc.devRef (τ := τ) .tc)).toFinset := by
  unfold segT
  exact ⟨wsub (by decide), wsub (by decide), wsub (by decide), wsub (by decide), wsub (by decide), wsub (by decide), wsub (by decide), wsub (by decide), wsub (by decide), wsub (by decide), wsub (by decide), wsub (by decide)⟩
theorem frameT (V : Vl) {r : Ref sig .tc} (hr : r ∉ WT) :
    after (segT (F := Ideal)) V (no_index (Proc.devRef .tc r)) = V (Proc.devRef .tc r) :=
  after_of_writes_sub (segT (F := Ideal)) V hWT hr
theorem valT (V : Vl) :
    after (segT (F := Ideal)) V (no_index (Proc.devRef .tc main_v170)) = tail (V (Proc.devRef .tc main_v160)) (V (Proc.devRef .tc main_arg38)) (V (Proc.devRef .tc main_arg39)) := by
  unfold segT
  after_results_simp
  all_goals rfl

/-! ## The stretches joined -/

/-- The buffers the stretches of E write. -/
def WE : List (Ref sig .tc) := WG0 ++ WG1 ++ WG2 ++ WG3 ++ WEC

/-- The four gathers and the join: the joined embedding of the arguments. -/
theorem valE (V : Vl) :
    after (segEC (F := Ideal)) (after (segG3 (F := Ideal)) (after (segG2 (F := Ideal)) (after (segG1 (F := Ideal)) (after (segG0 (F := Ideal)) V)))) (no_index (Proc.devRef .tc main_v28))
      = emb (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  simp (disch := decide) only [valG0, valG1, valG2, valG3, valEC, frameG0, frameG1, frameG2, frameG3, frameEC]
  rfl

/-- A buffer none of them writes keeps its contents. -/
theorem frameE (V : Vl) {r : Ref sig .tc} (hr : r ∉ WE) :
    after (segEC (F := Ideal)) (after (segG3 (F := Ideal)) (after (segG2 (F := Ideal)) (after (segG1 (F := Ideal)) (after (segG0 (F := Ideal)) V)))) (no_index (Proc.devRef .tc r)) = V (Proc.devRef .tc r) := by
  simp only [WE, List.mem_append, not_or] at hr
  exact (frameEC _ hr.2).trans ((frameG3 _ hr.1.2).trans ((frameG2 _ hr.1.1.2).trans ((frameG1 _ hr.1.1.1.2).trans (frameG0 _ hr.1.1.1.1))))

/-- The buffers the stretches of L0 write. -/
def WL0 : List (Ref sig .tc) := WL0A ++ WL0B ++ WL0C ++ WL0F ++ WL0D ++ WL0M

/-- Layer 0's six stretches: the layer of its input buffer and its ten weight arrays. -/
theorem valL0 (V : Vl) :
    after (segL0M (F := Ideal)) (after (segL0D (F := Ideal)) (after (segL0F (F := Ideal)) (after (segL0C (F := Ideal)) (after (segL0B (F := Ideal)) (after (segL0A (F := Ideal)) V))))) (no_index (Proc.devRef .tc main_v72))
      = layer0 (V (Proc.devRef .tc main_v28)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  simp (disch := decide) only [valL0A, valL0B, valL0C, valL0F, valL0D, valL0M, frameL0A, frameL0B, frameL0C, frameL0F, frameL0D, frameL0M]
  rfl

/-- A buffer none of them writes keeps its contents. -/
theorem frameL0 (V : Vl) {r : Ref sig .tc} (hr : r ∉ WL0) :
    after (segL0M (F := Ideal)) (after (segL0D (F := Ideal)) (after (segL0F (F := Ideal)) (after (segL0C (F := Ideal)) (after (segL0B (F := Ideal)) (after (segL0A (F := Ideal)) V))))) (no_index (Proc.devRef .tc r)) = V (Proc.devRef .tc r) := by
  simp only [WL0, List.mem_append, not_or] at hr
  exact (frameL0M _ hr.2).trans ((frameL0D _ hr.1.2).trans ((frameL0F _ hr.1.1.2).trans ((frameL0C _ hr.1.1.1.2).trans ((frameL0B _ hr.1.1.1.1.2).trans (frameL0A _ hr.1.1.1.1.1)))))

/-- The buffers the stretches of L1 write. -/
def WL1 : List (Ref sig .tc) := WL1A ++ WL1B ++ WL1C ++ WL1F ++ WL1D ++ WL1M

/-- Layer 1's six stretches: the layer of its input buffer and its ten weight arrays. -/
theorem valL1 (V : Vl) :
    after (segL1M (F := Ideal)) (after (segL1D (F := Ideal)) (after (segL1F (F := Ideal)) (after (segL1C (F := Ideal)) (after (segL1B (F := Ideal)) (after (segL1A (F := Ideal)) V))))) (no_index (Proc.devRef .tc main_v116))
      = layer1 (V (Proc.devRef .tc main_v72)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) := by
  simp (disch := decide) only [valL1A, valL1B, valL1C, valL1F, valL1D, valL1M, frameL1A, frameL1B, frameL1C, frameL1F, frameL1D, frameL1M]
  rfl

/-- A buffer none of them writes keeps its contents. -/
theorem frameL1 (V : Vl) {r : Ref sig .tc} (hr : r ∉ WL1) :
    after (segL1M (F := Ideal)) (after (segL1D (F := Ideal)) (after (segL1F (F := Ideal)) (after (segL1C (F := Ideal)) (after (segL1B (F := Ideal)) (after (segL1A (F := Ideal)) V))))) (no_index (Proc.devRef .tc r)) = V (Proc.devRef .tc r) := by
  simp only [WL1, List.mem_append, not_or] at hr
  exact (frameL1M _ hr.2).trans ((frameL1D _ hr.1.2).trans ((frameL1F _ hr.1.1.2).trans ((frameL1C _ hr.1.1.1.2).trans ((frameL1B _ hr.1.1.1.1.2).trans (frameL1A _ hr.1.1.1.1.1)))))

/-- The buffers the stretches of L2 write. -/
def WL2 : List (Ref sig .tc) := WL2A ++ WL2B ++ WL2C ++ WL2F ++ WL2D ++ WL2M

/-- Layer 2's six stretches: the layer of its input buffer and its ten weight arrays. -/
theorem valL2 (V : Vl) :
    after (segL2M (F := Ideal)) (after (segL2D (F := Ideal)) (after (segL2F (F := Ideal)) (after (segL2C (F := Ideal)) (after (segL2B (F := Ideal)) (after (segL2A (F := Ideal)) V))))) (no_index (Proc.devRef .tc main_v160))
      = layer2 (V (Proc.devRef .tc main_v116)) (V (Proc.devRef .tc main_arg28)) (V (Proc.devRef .tc main_arg29)) (V (Proc.devRef .tc main_arg30)) (V (Proc.devRef .tc main_arg31)) (V (Proc.devRef .tc main_arg32)) (V (Proc.devRef .tc main_arg33)) (V (Proc.devRef .tc main_arg34)) (V (Proc.devRef .tc main_arg35)) (V (Proc.devRef .tc main_arg36)) (V (Proc.devRef .tc main_arg37)) := by
  simp (disch := decide) only [valL2A, valL2B, valL2C, valL2F, valL2D, valL2M, frameL2A, frameL2B, frameL2C, frameL2F, frameL2D, frameL2M]
  rfl

/-- A buffer none of them writes keeps its contents. -/
theorem frameL2 (V : Vl) {r : Ref sig .tc} (hr : r ∉ WL2) :
    after (segL2M (F := Ideal)) (after (segL2D (F := Ideal)) (after (segL2F (F := Ideal)) (after (segL2C (F := Ideal)) (after (segL2B (F := Ideal)) (after (segL2A (F := Ideal)) V))))) (no_index (Proc.devRef .tc r)) = V (Proc.devRef .tc r) := by
  simp only [WL2, List.mem_append, not_or] at hr
  exact (frameL2M _ hr.2).trans ((frameL2D _ hr.1.2).trans ((frameL2F _ hr.1.1.2).trans ((frameL2C _ hr.1.1.1.2).trans ((frameL2B _ hr.1.1.1.1.2).trans (frameL2A _ hr.1.1.1.1.1)))))

/-! ## The whole line -/

/-- Every buffer an operation writes. -/
def Wall : List (Ref sig .tc) := WE ++ WL0 ++ WL1 ++ WL2 ++ WT

/-- After the whole line the result buffer holds `refOut (emb …) …` of the contents of the arguments before it. -/
theorem val_out (V : Vl) :
    after (ops (F := Ideal)) V (Proc.devRef .tc main_v170)
      = refOut (emb (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (V (Proc.devRef .tc main_arg28)) (V (Proc.devRef .tc main_arg29)) (V (Proc.devRef .tc main_arg30)) (V (Proc.devRef .tc main_arg31)) (V (Proc.devRef .tc main_arg32)) (V (Proc.devRef .tc main_arg33)) (V (Proc.devRef .tc main_arg34)) (V (Proc.devRef .tc main_arg35)) (V (Proc.devRef .tc main_arg36)) (V (Proc.devRef .tc main_arg37)) (V (Proc.devRef .tc main_arg38)) (V (Proc.devRef .tc main_arg39)) := by
  rw [ops_eq]
  simp only [after_append]
  simp (disch := decide) only [valT, valL2, valL1, valL0, valE, frameL2, frameL1, frameL0, frameE]
  rfl

/-- A buffer no operation writes — every argument — keeps its contents. -/
theorem unchanged (V : Vl) {r : Ref sig .tc} (hr : r ∉ Wall) :
    after (ops (F := Ideal)) V (Proc.devRef .tc r) = V (Proc.devRef .tc r) := by
  rw [ops_eq]
  simp only [after_append]
  simp only [Wall, List.mem_append, not_or] at hr
  exact (frameT _ hr.2).trans ((frameL2 _ hr.1.2).trans ((frameL1 _ hr.1.1.2).trans ((frameL0 _ hr.1.1.1.2).trans (frameE _ hr.1.1.1.1))))

/-- On every device, from any memory with zero counters: every weakly fair execution of the reference terminates
    with the result buffer at `refOut (emb …) …` of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v170)
          = refOut (emb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
              (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) (m ((c.tc : Thread nD τ).loc main_arg36)) (m ((c.tc : Thread nD τ).loc main_arg37)) (m ((c.tc : Thread nD τ).loc main_arg38)) (m ((c.tc : Thread nD τ).loc main_arg39))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39) :=
  (θ_run defs _ _).mono (fun _ h c => ⟨(h c main_v170).trans (val_out _),
      (h c main_arg0).trans (unchanged _ (by decide)),
      (h c main_arg1).trans (unchanged _ (by decide)),
      (h c main_arg2).trans (unchanged _ (by decide)),
      (h c main_arg3).trans (unchanged _ (by decide)),
      (h c main_arg4).trans (unchanged _ (by decide)),
      (h c main_arg5).trans (unchanged _ (by decide)),
      (h c main_arg6).trans (unchanged _ (by decide)),
      (h c main_arg7).trans (unchanged _ (by decide)),
      (h c main_arg8).trans (unchanged _ (by decide)),
      (h c main_arg9).trans (unchanged _ (by decide)),
      (h c main_arg10).trans (unchanged _ (by decide)),
      (h c main_arg11).trans (unchanged _ (by decide)),
      (h c main_arg12).trans (unchanged _ (by decide)),
      (h c main_arg13).trans (unchanged _ (by decide)),
      (h c main_arg14).trans (unchanged _ (by decide)),
      (h c main_arg15).trans (unchanged _ (by decide)),
      (h c main_arg16).trans (unchanged _ (by decide)),
      (h c main_arg17).trans (unchanged _ (by decide)),
      (h c main_arg18).trans (unchanged _ (by decide)),
      (h c main_arg19).trans (unchanged _ (by decide)),
      (h c main_arg20).trans (unchanged _ (by decide)),
      (h c main_arg21).trans (unchanged _ (by decide)),
      (h c main_arg22).trans (unchanged _ (by decide)),
      (h c main_arg23).trans (unchanged _ (by decide)),
      (h c main_arg24).trans (unchanged _ (by decide)),
      (h c main_arg25).trans (unchanged _ (by decide)),
      (h c main_arg26).trans (unchanged _ (by decide)),
      (h c main_arg27).trans (unchanged _ (by decide)),
      (h c main_arg28).trans (unchanged _ (by decide)),
      (h c main_arg29).trans (unchanged _ (by decide)),
      (h c main_arg30).trans (unchanged _ (by decide)),
      (h c main_arg31).trans (unchanged _ (by decide)),
      (h c main_arg32).trans (unchanged _ (by decide)),
      (h c main_arg33).trans (unchanged _ (by decide)),
      (h c main_arg34).trans (unchanged _ (by decide)),
      (h c main_arg35).trans (unchanged _ (by decide)),
      (h c main_arg36).trans (unchanged _ (by decide)),
      (h c main_arg37).trans (unchanged _ (by decide)),
      (h c main_arg38).trans (unchanged _ (by decide)),
      (h c main_arg39).trans (unchanged _ (by decide))⟩)
    (run_seq scopedRefs_eq scopedSems_eq defs main (fun _ => ops) main_eq (fun _ => ops_sub) m ρ)

end Cert.ReferenceIdeal.RefValue

end
-- ==== Proof.RefRead.lean ====
/-
  The reference's stages read at an index: each stage of `RefDefs`, at row `r` and a column, is the network
  `Cert.Net` spells, of row `r` of the stage's input.

  A `dot_general` that contracts the last axis of its left operand with the first of its right one is, entry by entry,
  the row-by-matrix product; a bias reaches every row through two broadcasts that move no entry; a scalar constant
  broadcast to a table reads the constant everywhere; a column slice of the gates broadcast along a row reads that gate
  column at the row.  A maximum taken along the three logits from −∞ is their supremum, and the sum along them from 0
  is their sum: the stabilised softmax.  The bit patterns 0x00000000, 0x3F800000, 0x40000000 and 0xFF800000 denote
  0, 1, 2 and −∞.
-/
import proofs.«153816_j32289564131760_2_alg».proof.Proof.RefDefs
import proofs.«153816_j32289564131760_2_alg».proof.Proof.LibMaxReduce
import Idealize.ShloMosaic.Lib.StackMember
import Idealize.ShloMosaic.Lib.Pipeline.Value
import Idealize.ShloMosaic.Lib.IdealHost

noncomputable section

namespace Cert.ReferenceIdeal.RefValue

open Cert.ReferenceIdeal Cert.ReferenceIdeal.Gen Cert.Net Idealize.ShloMosaic Idealize.ShloMosaic.ValueIdx

/-! ## Constants -/

/-- The f32 pattern `0x40000000` is the extended real two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-! ## The operations at an index, at any extents -/

section Generic

variable {B k n : ℕ}

/-- A product contracting the left operand's columns with the right operand's rows, at (r, j): row r times column j. -/
theorem dot_apply (D : DotDims ⟨2, ![B, k]⟩ ⟨2, ![k, n]⟩ ⟨2, ![B, n]⟩) (hD : D = DotDims.plain B k n)
    (X : FVec Ideal ⟨2, ![B, k]⟩ .f32) (W : FVec Ideal ⟨2, ![k, n]⟩ .f32) (r : Fin B) (j : Fin n) :
    Host.dotGeneral (F := Ideal) D none X W (ix2 r j) = dotRow (rowOf X r) (mat W) j := by
  subst hD
  exact StackMember.dotGeneral_plain_apply none X W r j

/-- Row r of such a product is row r of the left operand times the matrix. -/
theorem rowOf_dot (D : DotDims ⟨2, ![B, k]⟩ ⟨2, ![k, n]⟩ ⟨2, ![B, n]⟩) (hD : D = DotDims.plain B k n)
    (X : FVec Ideal ⟨2, ![B, k]⟩ .f32) (W : FVec Ideal ⟨2, ![k, n]⟩ .f32) (r : Fin B) :
    rowOf (Host.dotGeneral (F := Ideal) D none X W) r = dotRow (rowOf X r) (mat W) :=
  funext fun j => dot_apply D hD X W r j

/-- A vector broadcast to a one-row table and then down the rows reads, at (r, j), the vector's entry j. -/
theorem bias_apply (h1 : (⟨1, ![n]⟩ : Shape).BroadcastsInDim ⟨2, ![1, n]⟩ ![1])
    (h2 : (⟨2, ![1, n]⟩ : Shape).BroadcastsInDim ⟨2, ![B, n]⟩ ![0, 1])
    (b : FVec Ideal ⟨1, ![n]⟩ .f32) (r : Fin B) (j : Fin n) :
    broadcastInDim ⟨2, ![B, n]⟩ ![0, 1] h2 (broadcastInDim ⟨2, ![1, n]⟩ ![1] h1 b) (ix2 r j) = vec b j := by
  refine (broadcastInDim_apply _ h2 _ (ix2 r j) (ix2 (0 : Fin 1) j) ?_).trans ?_
  · intro a
    match a with
    | ⟨0, _⟩ => rfl
    | ⟨1, _⟩ =>
      show j.val = if n = 1 then 0 else j.val
      split_ifs with hn
      · have := j.isLt; omega
      · rfl
  refine (broadcastInDim_apply _ h1 b (ix2 (0 : Fin 1) j) (ix1 j) ?_).trans rfl
  intro a
  match a with
  | ⟨0, _⟩ =>
    show j.val = if n = 1 then 0 else j.val
    split_ifs with hn
    · have := j.isLt; omega
    · rfl

/-- A scalar constant broadcast to any shape reads the constant everywhere. -/
theorem splat_apply {t : Shape} (h : (⟨0, ![]⟩ : Shape).BroadcastsInDim t ![]) (w : BitVec 32) (i : t.Idx) :
    broadcastInDim t ![] h (constant (F := Ideal) ⟨0, ![]⟩ .f32 w) i = Ideal.ofBits .f32 w :=
  (broadcastInDim_apply _ h _ i ix0 (fun a => a.elim0)).trans rfl

/-- A per-row value broadcast to a one-column table and then along the rows reads, at (r, j), the value of row r. -/
theorem rowbc_apply (h1 : (⟨1, ![B]⟩ : Shape).BroadcastsInDim ⟨2, ![B, 1]⟩ ![0])
    (h2 : (⟨2, ![B, 1]⟩ : Shape).BroadcastsInDim ⟨2, ![B, n]⟩ ![0, 1])
    (y : FVec Ideal ⟨1, ![B]⟩ .f32) (r : Fin B) (j : Fin n) :
    broadcastInDim ⟨2, ![B, n]⟩ ![0, 1] h2 (broadcastInDim ⟨2, ![B, 1]⟩ ![0] h1 y) (ix2 r j) = y (ix1 r) := by
  refine (broadcastInDim_apply _ h2 _ (ix2 r j) (ix2 r (0 : Fin 1)) ?_).trans ?_
  · intro a
    match a with
    | ⟨0, _⟩ =>
      show r.val = if B = 1 then 0 else r.val
      split_ifs with hn
      · have := r.isLt; omega
      · rfl
    | ⟨1, _⟩ => rfl
  refine (broadcastInDim_apply _ h1 y (ix2 r (0 : Fin 1)) (ix1 r) ?_).trans rfl
  intro a
  match a with
  | ⟨0, _⟩ =>
    show r.val = if B = 1 then 0 else r.val
    split_ifs with hn
    · have := r.isLt; omega
    · rfl

/-- Column c of a table, sliced out and broadcast along the rows, reads at (r, o) the table's entry (r, c). -/
theorem gcol_apply {m : ℕ} (c : ℕ) (hc : c < m) (hs : (⟨2, ![B, m]⟩ : Shape).Slices ![0, c] ⟨2, ![B, 1]⟩)
    (hb : (⟨2, ![B, 1]⟩ : Shape).BroadcastsInDim ⟨2, ![B, n]⟩ ![0, 1])
    (g : FVec Ideal ⟨2, ![B, m]⟩ .f32) (r : Fin B) (o : Fin n) :
    broadcastInDim ⟨2, ![B, n]⟩ ![0, 1] hb (extractStridedSlice ⟨2, ![B, 1]⟩ ![0, c] g hs) (ix2 r o)
      = g (ix2 r ⟨c, hc⟩) := by
  refine (broadcastInDim_apply _ hb _ (ix2 r o) (ix2 r (0 : Fin 1)) ?_).trans ?_
  · intro a
    match a with
    | ⟨0, _⟩ =>
      show r.val = if B = 1 then 0 else r.val
      split_ifs with hn
      · have := r.isLt; omega
      · rfl
    | ⟨1, _⟩ => rfl
  refine extractStridedSlice_apply _ g hs (ix2 r (0 : Fin 1)) (ix2 r ⟨c, hc⟩) ?_
  intro a
  match a with
  | ⟨0, _⟩ => exact (Nat.zero_add _).symm
  | ⟨1, _⟩ => rfl

/-- An affine map of the rows: X·W + b at (r, j). -/
theorem lin_apply (D : DotDims ⟨2, ![B, k]⟩ ⟨2, ![k, n]⟩ ⟨2, ![B, n]⟩) (hD : D = DotDims.plain B k n)
    (h1 : (⟨1, ![n]⟩ : Shape).BroadcastsInDim ⟨2, ![1, n]⟩ ![1])
    (h2 : (⟨2, ![1, n]⟩ : Shape).BroadcastsInDim ⟨2, ![B, n]⟩ ![0, 1])
    (X : FVec Ideal ⟨2, ![B, k]⟩ .f32) (W : FVec Ideal ⟨2, ![k, n]⟩ .f32) (b : FVec Ideal ⟨1, ![n]⟩ .f32)
    (r : Fin B) (j : Fin n) :
    addf (Host.dotGeneral (F := Ideal) D none X W)
        (broadcastInDim ⟨2, ![B, n]⟩ ![0, 1] h2 (broadcastInDim ⟨2, ![1, n]⟩ ![1] h1 b)) (ix2 r j)
      = lin (rowOf X r) (mat W) (vec b) j := by
  rw [addf_apply, dot_apply D hD, bias_apply]
  rfl

/-- The same followed by max(·, 0). -/
theorem relu_lin_apply (D : DotDims ⟨2, ![B, k]⟩ ⟨2, ![k, n]⟩ ⟨2, ![B, n]⟩) (hD : D = DotDims.plain B k n)
    (h1 : (⟨1, ![n]⟩ : Shape).BroadcastsInDim ⟨2, ![1, n]⟩ ![1])
    (h2 : (⟨2, ![1, n]⟩ : Shape).BroadcastsInDim ⟨2, ![B, n]⟩ ![0, 1])
    (h0 : (⟨0, ![]⟩ : Shape).BroadcastsInDim ⟨2, ![B, n]⟩ ![])
    (X : FVec Ideal ⟨2, ![B, k]⟩ .f32) (W : FVec Ideal ⟨2, ![k, n]⟩ .f32) (b : FVec Ideal ⟨1, ![n]⟩ .f32)
    (r : Fin B) (j : Fin n) :
    maximumf (addf (Host.dotGeneral (F := Ideal) D none X W)
          (broadcastInDim ⟨2, ![B, n]⟩ ![0, 1] h2 (broadcastInDim ⟨2, ![1, n]⟩ ![1] h1 b)))
        (broadcastInDim ⟨2, ![B, n]⟩ ![] h0 (constant (F := Ideal) ⟨0, ![]⟩ .f32 0x00000000#32)) (ix2 r j)
      = reluE (lin (rowOf X r) (mat W) (vec b) j) := by
  rw [maximumf_apply, lin_apply D hD, splat_apply, Ideal.ofBits_zero_f32]
  rfl

/-- A rank-16 correction ((X·la)·lb)·2 at (r, o). -/
theorem cor_apply {I O : ℕ} (D1 : DotDims ⟨2, ![B, I]⟩ ⟨2, ![I, 16]⟩ ⟨2, ![B, 16]⟩) (hD1 : D1 = DotDims.plain B I 16)
    (D2 : DotDims ⟨2, ![B, 16]⟩ ⟨2, ![16, O]⟩ ⟨2, ![B, O]⟩) (hD2 : D2 = DotDims.plain B 16 O)
    (h0 : (⟨0, ![]⟩ : Shape).BroadcastsInDim ⟨2, ![B, O]⟩ ![])
    (X : FVec Ideal ⟨2, ![B, I]⟩ .f32) (la : FVec Ideal ⟨2, ![I, 16]⟩ .f32) (lb : FVec Ideal ⟨2, ![16, O]⟩ .f32)
    (r : Fin B) (o : Fin O) :
    mulf (Host.dotGeneral (F := Ideal) D2 none (Host.dotGeneral (F := Ideal) D1 none X la) lb)
        (broadcastInDim ⟨2, ![B, O]⟩ ![] h0 (constant (F := Ideal) ⟨0, ![]⟩ .f32 0x40000000#32)) (ix2 r o)
      = dotRow (dotRow (rowOf X r) (mat la)) (mat lb) o * 2 := by
  rw [mulf_apply, dot_apply D2 hD2, rowOf_dot D1 hD1, splat_apply, ofBits_two_f32]

/-- The gated sum at (r, o): each branch times its gate column at row r. -/
theorem mix_apply {O : ℕ} (hs0 : (⟨2, ![B, 3]⟩ : Shape).Slices ![0, 0] ⟨2, ![B, 1]⟩)
    (hs1 : (⟨2, ![B, 3]⟩ : Shape).Slices ![0, 1] ⟨2, ![B, 1]⟩) (hs2 : (⟨2, ![B, 3]⟩ : Shape).Slices ![0, 2] ⟨2, ![B, 1]⟩)
    (hb : (⟨2, ![B, 1]⟩ : Shape).BroadcastsInDim ⟨2, ![B, O]⟩ ![0, 1])
    (g : FVec Ideal ⟨2, ![B, 3]⟩ .f32) (h cu cf : FVec Ideal ⟨2, ![B, O]⟩ .f32) (r : Fin B) (o : Fin O) :
    addf (addf (mulf h (broadcastInDim ⟨2, ![B, O]⟩ ![0, 1] hb (extractStridedSlice ⟨2, ![B, 1]⟩ ![0, 0] g hs0)))
          (mulf cu (broadcastInDim ⟨2, ![B, O]⟩ ![0, 1] hb (extractStridedSlice ⟨2, ![B, 1]⟩ ![0, 1] g hs1))))
        (mulf cf (broadcastInDim ⟨2, ![B, O]⟩ ![0, 1] hb (extractStridedSlice ⟨2, ![B, 1]⟩ ![0, 2] g hs2))) (ix2 r o)
      = (h (ix2 r o) * g (ix2 r 0) + cu (ix2 r o) * g (ix2 r 1)) + cf (ix2 r o) * g (ix2 r 2) := by
  rw [addf_apply, addf_apply, mulf_apply, mulf_apply, mulf_apply,
    gcol_apply 0 (by decide) hs0, gcol_apply 1 (by decide) hs1, gcol_apply 2 (by decide) hs2]
  rfl

end Generic

/-! ## The host's elementwise operations at an index -/

theorem hexp_apply {s : Shape} {φ : FTy} (x : FVec Ideal s φ) (i : s.Idx) : Host.exp x i = Ideal.exp (x i) := rfl
theorem hneg_apply {s : Shape} {φ : FTy} (x : FVec Ideal s φ) (i : s.Idx) : Host.negf x i = -(x i) := rfl

/-! ## The softmax gate -/

/-- Over row r of a table of three columns, the index of the row with column k put back is (r, k). -/
theorem lift_row (h : S16384x3.Reduces [1] S16384) (r : Fin 16384) (k : Fin (S16384x3.size 1)) :
    h.lift (ix1 r) k = ix2 r (⟨k.val, k.isLt⟩ : Fin 3) := by
  funext c; apply Fin.ext
  fin_cases c <;> rfl

/-- The row maximum is the largest of the row's three logits. -/
theorem rmax_apply (z : FVec Ideal S16384x3 .f32) (r : Fin 16384) : rmax z (ix1 r) = gmax (rowOf z r) := by
  have h : S16384x3.Reduces [1] S16384 := by decide
  unfold rmax
  rw [maximumf_apply, splat_apply, Ideal.ofBits_negInf_f32,
    Ideal.hostReduce_maximumf_single_iSup z reducesTo_S16384x3_S16384_d1 h h_S_ (ix1 r), max_eq_right bot_le]
  unfold gmax
  exact iSup_congr fun k => by rw [lift_row]; rfl

/-- exp(z − max z) at (r, j). -/
theorem gexp_apply (z : FVec Ideal S16384x3 .f32) (r : Fin 16384) (j : Fin 3) :
    gexp z (ix2 r j) = Ideal.exp (rowOf z r j - gmax (rowOf z r)) := by
  unfold gexp
  rw [hexp_apply, subf_apply, rowbc_apply, rmax_apply]
  rfl

/-- The gate at (r, j) is the softmax of row r's logits. -/
theorem gate_apply (z : FVec Ideal S16384x3 .f32) (r : Fin 16384) (j : Fin 3) :
    gate z (ix2 r j) = gates (rowOf z r) j := by
  have h : S16384x3.Reduces [1] S16384 := by decide
  unfold gate
  rw [hostDivf_apply, rowbc_apply, hostReduceAdd_apply, Ideal.hostReduceAdd_single reducesTo_S16384x3_S16384_d1 h, gexp_apply]
  unfold gates
  congr 1
  refine (congrArg (· + _) (show constant (F := Ideal) S_ .f32 0x00000000#32 (Shape.Idx.first h_S_) = 0 from Ideal.ofBits_zero_f32)).trans ?_
  rw [zero_add]
  exact Finset.sum_congr rfl fun k _ => by rw [lift_row, gexp_apply]; rfl

/-! ## Layer 0 -/

theorem glog0_apply (X : FVec Ideal S16384x256 .f32) (g1w : FVec Ideal S256x256 .f32) (g1b : FVec Ideal S256 .f32) (g2w : FVec Ideal S256x3 .f32) (g2b : FVec Ideal S3 .f32) (r : Fin 16384) (j : Fin 3) :
    glog0 X g1w g1b g2w g2b (ix2 r j)
      = lin (fun q => reluE (lin (rowOf X r) (mat g1w) (vec g1b) q)) (mat g2w) (vec g2b) j := by
  unfold glog0
  refine (lin_apply _ rfl _ _ _ g2w g2b r j).trans ?_
  congr 1
  funext q
  exact relu_lin_apply _ rfl _ _ _ X g1w g1b r q

theorem cor0_apply (X : FVec Ideal S16384x256 .f32) (la : FVec Ideal S256x16 .f32) (lb : FVec Ideal S16x2048 .f32) (r : Fin 16384) (o : Fin 2048) :
    cor0 X la lb (ix2 r o) = dotRow (dotRow (rowOf X r) (mat la)) (mat lb) o * 2 := by
  unfold cor0
  exact cor_apply _ rfl _ rfl _ X la lb r o

theorem fc0_apply (X : FVec Ideal S16384x256 .f32) (w : FVec Ideal S256x2048 .f32) (b : FVec Ideal S2048 .f32) (r : Fin 16384) (o : Fin 2048) :
    fc0 X w b (ix2 r o) = reluE (lin (rowOf X r) (mat w) (vec b) o) := by
  unfold fc0
  exact relu_lin_apply _ rfl _ _ _ X w b r o

theorem mix0_apply (g : FVec Ideal S16384x3 .f32) (h : FVec Ideal S16384x2048 .f32) (cu : FVec Ideal S16384x2048 .f32) (cf : FVec Ideal S16384x2048 .f32) (r : Fin 16384) (o : Fin 2048) :
    mix0 g h cu cf (ix2 r o)
      = (h (ix2 r o) * g (ix2 r 0) + cu (ix2 r o) * g (ix2 r 1)) + cf (ix2 r o) * g (ix2 r 2) := by
  unfold mix0
  exact mix_apply _ _ _ _ g h cu cf r o

/-- Row r of layer 0's result is the layer of `Cert.Net` applied to row r of its input. -/
theorem layer0_apply (X : FVec Ideal S16384x256 .f32) (a8 : FVec Ideal S256x2048 .f32) (a9 : FVec Ideal S2048 .f32) (a10 : FVec Ideal S256x256 .f32) (a11 : FVec Ideal S256 .f32) (a12 : FVec Ideal S256x3 .f32) (a13 : FVec Ideal S3 .f32) (a14 : FVec Ideal S256x16 .f32) (a15 : FVec Ideal S16x2048 .f32) (a16 : FVec Ideal S256x16 .f32) (a17 : FVec Ideal S16x2048 .f32) (r : Fin 16384) (o : Fin 2048) :
    layer0 X a8 a9 a10 a11 a12 a13 a14 a15 a16 a17 (ix2 r o) = layerR (mkLayer a8 a9 a10 a11 a12 a13 a14 a15 a16 a17) (rowOf X r) o := by
  unfold layer0
  rw [mix0_apply, fc0_apply, cor0_apply, cor0_apply, gate_apply, gate_apply, gate_apply]
  have hz : rowOf (glog0 X a10 a11 a12 a13) r
      = lin (fun q => reluE (lin (rowOf X r) (mat a10) (vec a11) q)) (mat a12) (vec a13) :=
    funext fun j => glog0_apply X a10 a11 a12 a13 r j
  rw [hz]
  rfl

theorem rowOf_layer0 (X : FVec Ideal S16384x256 .f32) (a8 : FVec Ideal S256x2048 .f32) (a9 : FVec Ideal S2048 .f32) (a10 : FVec Ideal S256x256 .f32) (a11 : FVec Ideal S256 .f32) (a12 : FVec Ideal S256x3 .f32) (a13 : FVec Ideal S3 .f32) (a14 : FVec Ideal S256x16 .f32) (a15 : FVec Ideal S16x2048 .f32) (a16 : FVec Ideal S256x16 .f32) (a17 : FVec Ideal S16x2048 .f32) (r : Fin 16384) :
    rowOf (layer0 X a8 a9 a10 a11 a12 a13 a14 a15 a16 a17) r = layerR (mkLayer a8 a9 a10 a11 a12 a13 a14 a15 a16 a17) (rowOf X r) :=
  funext fun o => layer0_apply X a8 a9 a10 a11 a12 a13 a14 a15 a16 a17 r o

/-! ## Layer 1 -/

theorem glog1_apply (X : FVec Ideal S16384x2048 .f32) (g1w : FVec Ideal S2048x256 .f32) (g1b : FVec Ideal S256 .f32) (g2w : FVec Ideal S256x3 .f32) (g2b : FVec Ideal S3 .f32) (r : Fin 16384) (j : Fin 3) :
    glog1 X g1w g1b g2w g2b (ix2 r j)
      = lin (fun q => reluE (lin (rowOf X r) (mat g1w) (vec g1b) q)) (mat g2w) (vec g2b) j := by
  unfold glog1
  refine (lin_apply _ rfl _ _ _ g2w g2b r j).trans ?_
  congr 1
  funext q
  exact relu_lin_apply _ rfl _ _ _ X g1w g1b r q

theorem cor1_apply (X : FVec Ideal S16384x2048 .f32) (la : FVec Ideal S2048x16 .f32) (lb : FVec Ideal S16x2048 .f32) (r : Fin 16384) (o : Fin 2048) :
    cor1 X la lb (ix2 r o) = dotRow (dotRow (rowOf X r) (mat la)) (mat lb) o * 2 := by
  unfold cor1
  exact cor_apply _ rfl _ rfl _ X la lb r o

theorem fc1_apply (X : FVec Ideal S16384x2048 .f32) (w : FVec Ideal S2048x2048 .f32) (b : FVec Ideal S2048 .f32) (r : Fin 16384) (o : Fin 2048) :
    fc1 X w b (ix2 r o) = reluE (lin (rowOf X r) (mat w) (vec b) o) := by
  unfold fc1
  exact relu_lin_apply _ rfl _ _ _ X w b r o

theorem mix1_apply (g : FVec Ideal S16384x3 .f32) (h : FVec Ideal S16384x2048 .f32) (cu : FVec Ideal S16384x2048 .f32) (cf : FVec Ideal S16384x2048 .f32) (r : Fin 16384) (o : Fin 2048) :
    mix1 g h cu cf (ix2 r o)
      = (h (ix2 r o) * g (ix2 r 0) + cu (ix2 r o) * g (ix2 r 1)) + cf (ix2 r o) * g (ix2 r 2) := by
  unfold mix1
  exact mix_apply _ _ _ _ g h cu cf r o

/-- Row r of layer 1's result is the layer of `Cert.Net` applied to row r of its input. -/
theorem layer1_apply (X : FVec Ideal S16384x2048 .f32) (a18 : FVec Ideal S2048x2048 .f32) (a19 : FVec Ideal S2048 .f32) (a20 : FVec Ideal S2048x256 .f32) (a21 : FVec Ideal S256 .f32) (a22 : FVec Ideal S256x3 .f32) (a23 : FVec Ideal S3 .f32) (a24 : FVec Ideal S2048x16 .f32) (a25 : FVec Ideal S16x2048 .f32) (a26 : FVec Ideal S2048x16 .f32) (a27 : FVec Ideal S16x2048 .f32) (r : Fin 16384) (o : Fin 2048) :
    layer1 X a18 a19 a20 a21 a22 a23 a24 a25 a26 a27 (ix2 r o) = layerR (mkLayer a18 a19 a20 a21 a22 a23 a24 a25 a26 a27) (rowOf X r) o := by
  unfold layer1
  rw [mix1_apply, fc1_apply, cor1_apply, cor1_apply, gate_apply, gate_apply, gate_apply]
  have hz : rowOf (glog1 X a20 a21 a22 a23) r
      = lin (fun q => reluE (lin (rowOf X r) (mat a20) (vec a21) q)) (mat a22) (vec a23) :=
    funext fun j => glog1_apply X a20 a21 a22 a23 r j
  rw [hz]
  rfl

theorem rowOf_layer1 (X : FVec Ideal S16384x2048 .f32) (a18 : FVec Ideal S2048x2048 .f32) (a19 : FVec Ideal S2048 .f32) (a20 : FVec Ideal S2048x256 .f32) (a21 : FVec Ideal S256 .f32) (a22 : FVec Ideal S256x3 .f32) (a23 : FVec Ideal S3 .f32) (a24 : FVec Ideal S2048x16 .f32) (a25 : FVec Ideal S16x2048 .f32) (a26 : FVec Ideal S2048x16 .f32) (a27 : FVec Ideal S16x2048 .f32) (r : Fin 16384) :
    rowOf (layer1 X a18 a19 a20 a21 a22 a23 a24 a25 a26 a27) r = layerR (mkLayer a18 a19 a20 a21 a22 a23 a24 a25 a26 a27) (rowOf X r) :=
  funext fun o => layer1_apply X a18 a19 a20 a21 a22 a23 a24 a25 a26 a27 r o

/-! ## Layer 2 -/

theorem glog2_apply (X : FVec Ideal S16384x2048 .f32) (g1w : FVec Ideal S2048x256 .f32) (g1b : FVec Ideal S256 .f32) (g2w : FVec Ideal S256x3 .f32) (g2b : FVec Ideal S3 .f32) (r : Fin 16384) (j : Fin 3) :
    glog2 X g1w g1b g2w g2b (ix2 r j)
      = lin (fun q => reluE (lin (rowOf X r) (mat g1w) (vec g1b) q)) (mat g2w) (vec g2b) j := by
  unfold glog2
  refine (lin_apply _ rfl _ _ _ g2w g2b r j).trans ?_
  congr 1
  funext q
  exact relu_lin_apply _ rfl _ _ _ X g1w g1b r q

theorem cor2_apply (X : FVec Ideal S16384x2048 .f32) (la : FVec Ideal S2048x16 .f32) (lb : FVec Ideal S16x1024 .f32) (r : Fin 16384) (o : Fin 1024) :
    cor2 X la lb (ix2 r o) = dotRow (dotRow (rowOf X r) (mat la)) (mat lb) o * 2 := by
  unfold cor2
  exact cor_apply _ rfl _ rfl _ X la lb r o

theorem fc2_apply (X : FVec Ideal S16384x2048 .f32) (w : FVec Ideal S2048x1024 .f32) (b : FVec Ideal S1024 .f32) (r : Fin 16384) (o : Fin 1024) :
    fc2 X w b (ix2 r o) = reluE (lin (rowOf X r) (mat w) (vec b) o) := by
  unfold fc2
  exact relu_lin_apply _ rfl _ _ _ X w b r o

theorem mix2_apply (g : FVec Ideal S16384x3 .f32) (h : FVec Ideal S16384x1024 .f32) (cu : FVec Ideal S16384x1024 .f32) (cf : FVec Ideal S16384x1024 .f32) (r : Fin 16384) (o : Fin 1024) :
    mix2 g h cu cf (ix2 r o)
      = (h (ix2 r o) * g (ix2 r 0) + cu (ix2 r o) * g (ix2 r 1)) + cf (ix2 r o) * g (ix2 r 2) := by
  unfold mix2
  exact mix_apply _ _ _ _ g h cu cf r o

/-- Row r of layer 2's result is the layer of `Cert.Net` applied to row r of its input. -/
theorem layer2_apply (X : FVec Ideal S16384x2048 .f32) (a28 : FVec Ideal S2048x1024 .f32) (a29 : FVec Ideal S1024 .f32) (a30 : FVec Ideal S2048x256 .f32) (a31 : FVec Ideal S256 .f32) (a32 : FVec Ideal S256x3 .f32) (a33 : FVec Ideal S3 .f32) (a34 : FVec Ideal S2048x16 .f32) (a35 : FVec Ideal S16x1024 .f32) (a36 : FVec Ideal S2048x16 .f32) (a37 : FVec Ideal S16x1024 .f32) (r : Fin 16384) (o : Fin 1024) :
    layer2 X a28 a29 a30 a31 a32 a33 a34 a35 a36 a37 (ix2 r o) = layerR (mkLayer a28 a29 a30 a31 a32 a33 a34 a35 a36 a37) (rowOf X r) o := by
  unfold layer2
  rw [mix2_apply, fc2_apply, cor2_apply, cor2_apply, gate_apply, gate_apply, gate_apply]
  have hz : rowOf (glog2 X a30 a31 a32 a33) r
      = lin (fun q => reluE (lin (rowOf X r) (mat a30) (vec a31) q)) (mat a32) (vec a33) :=
    funext fun j => glog2_apply X a30 a31 a32 a33 r j
  rw [hz]
  rfl

theorem rowOf_layer2 (X : FVec Ideal S16384x2048 .f32) (a28 : FVec Ideal S2048x1024 .f32) (a29 : FVec Ideal S1024 .f32) (a30 : FVec Ideal S2048x256 .f32) (a31 : FVec Ideal S256 .f32) (a32 : FVec Ideal S256x3 .f32) (a33 : FVec Ideal S3 .f32) (a34 : FVec Ideal S2048x16 .f32) (a35 : FVec Ideal S16x1024 .f32) (a36 : FVec Ideal S2048x16 .f32) (a37 : FVec Ideal S16x1024 .f32) (r : Fin 16384) :
    rowOf (layer2 X a28 a29 a30 a31 a32 a33 a34 a35 a36 a37) r = layerR (mkLayer a28 a29 a30 a31 a32 a33 a34 a35 a36 a37) (rowOf X r) :=
  funext fun o => layer2_apply X a28 a29 a30 a31 a32 a33 a34 a35 a36 a37 r o

/-! ## The score and the whole reference -/

theorem tail_apply (W : FVec Ideal S16384x1024 .f32) (aw : FVec Ideal S1024x1 .f32) (ab : FVec Ideal S1 .f32) (r : Fin 16384) :
    tail W aw ab (ix2 r (0 : Fin 1)) = score (rowOf W r) (mat aw) (vec ab 0) := by
  unfold tail
  rw [hostDivf_apply, splat_apply, addf_apply, splat_apply, hexp_apply, hneg_apply,
    lin_apply dot_S16384x1024_S1024x1_S16384x1_1_0_0_1_n_n rfl, Ideal.ofBits_one_f32]
  rfl

/-- The reference's result at row r is the network of `Cert.Net` at row r of the joined embedding. -/
theorem refOut_apply (X : FVec Ideal S16384x256 .f32) (a8 : FVec Ideal S256x2048 .f32) (a9 : FVec Ideal S2048 .f32) (a10 : FVec Ideal S256x256 .f32) (a11 : FVec Ideal S256 .f32) (a12 : FVec Ideal S256x3 .f32) (a13 : FVec Ideal S3 .f32) (a14 : FVec Ideal S256x16 .f32) (a15 : FVec Ideal S16x2048 .f32) (a16 : FVec Ideal S256x16 .f32) (a17 : FVec Ideal S16x2048 .f32) (a18 : FVec Ideal S2048x2048 .f32) (a19 : FVec Ideal S2048 .f32) (a20 : FVec Ideal S2048x256 .f32) (a21 : FVec Ideal S256 .f32) (a22 : FVec Ideal S256x3 .f32) (a23 : FVec Ideal S3 .f32) (a24 : FVec Ideal S2048x16 .f32) (a25 : FVec Ideal S16x2048 .f32) (a26 : FVec Ideal S2048x16 .f32) (a27 : FVec Ideal S16x2048 .f32) (a28 : FVec Ideal S2048x1024 .f32) (a29 : FVec Ideal S1024 .f32) (a30 : FVec Ideal S2048x256 .f32) (a31 : FVec Ideal S256 .f32) (a32 : FVec Ideal S256x3 .f32) (a33 : FVec Ideal S3 .f32) (a34 : FVec Ideal S2048x16 .f32) (a35 : FVec Ideal S16x1024 .f32) (a36 : FVec Ideal S2048x16 .f32) (a37 : FVec Ideal S16x1024 .f32) (a38 : FVec Ideal S1024x1 .f32) (a39 : FVec Ideal S1 .f32) (r : Fin 16384) :
    refOut X a8 a9 a10 a11 a12 a13 a14 a15 a16 a17 a18 a19 a20 a21 a22 a23 a24 a25 a26 a27 a28 a29 a30 a31 a32 a33 a34 a35 a36 a37 a38 a39 (ix2 r (0 : Fin 1))
      = netR (mkLayer a8 a9 a10 a11 a12 a13 a14 a15 a16 a17) (mkLayer a18 a19 a20 a21 a22 a23 a24 a25 a26 a27) (mkLayer a28 a29 a30 a31 a32 a33 a34 a35 a36 a37) (mat a38) (vec a39 0) (rowOf X r) := by
  unfold refOut netR
  rw [tail_apply, rowOf_layer2, rowOf_layer1, rowOf_layer0]

end Cert.ReferenceIdeal.RefValue

end
-- ==== Proof.lean ====
/-
  A three-layer gated network with rank-16 corrections, scored by a logistic unit, computed two ways.

  The kernel stages the gathered embedding rows (512 rows per grid point) and every weight array, and computes
  per row: for each layer relu(v·W + b)·g₀ + ((v·[A_u | A_f]) ⊙ s)·[B_u ; B_f], where g = softmax of a two-layer
  gate network and the 32 intermediate columns are scaled by s = 2·g₁ (columns below 16) or 2·g₂ (the others);
  then the logistic function of a final affine map.  The reference computes relu(v·W + b)·g₀ + ((v·A_u)·B_u·2)·g₁
  + ((v·A_f)·B_f·2)·g₂ on whole arrays.  Over the extended reals the two arrangements are one function as soon
  as every entry is a real number (then distributivity holds), which the precondition gives for the arguments and
  which each layer preserves.  Formats are the identity at the ideal values, a matrix product into a zero
  accumulator is the plain sum, and both programs compute the embedding rows by the same gathers.

  Parts: Net (the network, both arrangements), NetLaws (their equality on real entries), KerLayer0 / KerLayer12 /
  KerLayer2 / KerValue (the kernel body's stored block, row by row, is the kernel arrangement), FrameIdeal /
  FrameBits (the frames), KerFinal (the 32 blocks make the array), KerHost / KerWindows / KerOut (the staged
  arrays are re-laid arguments), RefDefs / RefRun / RefRead (the reference's run and its result row by row),
  PreFinite (the precondition says every float argument is real).
-/
import proofs.«153816_j32289564131760_2_alg».proof.Defs
import proofs.«153816_j32289564131760_2_alg».proof.Proof.Gen.Kernel
import proofs.«153816_j32289564131760_2_alg».proof.Proof.Gen.KernelIdeal
import proofs.«153816_j32289564131760_2_alg».proof.Proof.Gen.ReferenceIdeal
import proofs.«153816_j32289564131760_2_alg».proof.Proof.Gen.Pre_finite_inputs
import proofs.«153816_j32289564131760_2_alg».proof.Proof.FrameBits
import proofs.«153816_j32289564131760_2_alg».proof.Proof.FrameIdeal
import proofs.«153816_j32289564131760_2_alg».proof.Proof.KerValue
import proofs.«153816_j32289564131760_2_alg».proof.Proof.KerFinal
import proofs.«153816_j32289564131760_2_alg».proof.Proof.KerOut
import proofs.«153816_j32289564131760_2_alg».proof.Proof.RefRun
import proofs.«153816_j32289564131760_2_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx Cert.Net

/-- Both programs gather the embedding rows by the same operations. -/
theorem emb_eq (a0 a1 a2 a3 : IVec Cert.KernelIdeal.S16384 32) (a4 : Cert.KernelIdeal.S100000x64.Idx → EReal)
    (a5 : Cert.KernelIdeal.S100x64.Idx → EReal) (a6 : Cert.KernelIdeal.S500000x64.Idx → EReal)
    (a7 : Cert.KernelIdeal.S1000x64.Idx → EReal) :
    Cert.ReferenceIdeal.RefValue.emb a0 a1 a2 a3 a4 a5 a6 a7 = Cert.KernelIdeal.KerHost.embK a0 a1 a2 a3 a4 a5 a6 a7 := by
  unfold Cert.KernelIdeal.KerHost.embK Cert.KernelIdeal.KerHost.wrapIdx Cert.ReferenceIdeal.RefValue.emb
  rfl

/-- The common result: row `i` of the output is the network of row `i` of the gathered embeddings. -/
def result (m : (ℓ : Loc Cert.KernelIdeal.nD Cert.KernelIdeal.τ Cert.KernelIdeal.sig) → Buf (Elt Ideal) ℓ)
    (c : Dev Cert.KernelIdeal.nD) : Cert.KernelIdeal.S16384x1.Idx → EReal := fun i =>
  Cert.KernelIdeal.KerOut.rowNet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) ⟨(i 0).val, idx2_lt0 i⟩

theorem frame_p : Cert.frame_Kernel (hKernel := Cert.Kernel.Gen.facts) (hPre_finite_inputs := Cert.Pre_finite_inputs.Gen.facts) :=
  fun m ρ _ => Cert.Kernel.HFrame.frame m ρ

theorem frame_pi : Cert.frame_KernelIdeal (hKernelIdeal := Cert.KernelIdeal.Gen.facts) (hPre_finite_inputs := Cert.Pre_finite_inputs.Gen.facts) :=
  fun m ρ _ => Cert.KernelIdeal.HFrame.frame m ρ

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.RefValue.run m ρ)

/-- The kernel's result array is `result`: the staged arrays are re-laid arguments, and on real entries the
    kernel's arrangement of the network is the reference's. -/
theorem kernel_result (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Cert.KernelIdeal.KerFinal.G (Cert.KernelIdeal.HFrame.V m c Cert.KernelIdeal.main_v29) (Cert.KernelIdeal.HFrame.V m c Cert.KernelIdeal.main_v42) (Cert.KernelIdeal.HFrame.V m c Cert.KernelIdeal.main_v43) (Cert.KernelIdeal.HFrame.V m c Cert.KernelIdeal.main_v44) (Cert.KernelIdeal.HFrame.V m c Cert.KernelIdeal.main_v45) (Cert.KernelIdeal.HFrame.V m c Cert.KernelIdeal.main_v46) (Cert.KernelIdeal.HFrame.V m c Cert.KernelIdeal.main_v47) (Cert.KernelIdeal.HFrame.V m c Cert.KernelIdeal.main_v32) (Cert.KernelIdeal.HFrame.V m c Cert.KernelIdeal.main_v33) (Cert.KernelIdeal.HFrame.V m c Cert.KernelIdeal.main_v48) (Cert.KernelIdeal.HFrame.V m c Cert.KernelIdeal.main_v49) (Cert.KernelIdeal.HFrame.V m c Cert.KernelIdeal.main_v50) (Cert.KernelIdeal.HFrame.V m c Cert.KernelIdeal.main_v51) (Cert.KernelIdeal.HFrame.V m c Cert.KernelIdeal.main_v52) (Cert.KernelIdeal.HFrame.V m c Cert.KernelIdeal.main_v53) (Cert.KernelIdeal.HFrame.V m c Cert.KernelIdeal.main_v36) (Cert.KernelIdeal.HFrame.V m c Cert.KernelIdeal.main_v37) (Cert.KernelIdeal.HFrame.V m c Cert.KernelIdeal.main_v54) (Cert.KernelIdeal.HFrame.V m c Cert.KernelIdeal.main_v55) (Cert.KernelIdeal.HFrame.V m c Cert.KernelIdeal.main_v56) (Cert.KernelIdeal.HFrame.V m c Cert.KernelIdeal.main_v57) (Cert.KernelIdeal.HFrame.V m c Cert.KernelIdeal.main_v58) (Cert.KernelIdeal.HFrame.V m c Cert.KernelIdeal.main_v59) (Cert.KernelIdeal.HFrame.V m c Cert.KernelIdeal.main_v40) (Cert.KernelIdeal.HFrame.V m c Cert.KernelIdeal.main_v41) (Cert.KernelIdeal.HFrame.V m c Cert.KernelIdeal.main_v60) (Cert.KernelIdeal.HFrame.V m c Cert.KernelIdeal.main_v61) = result m c := by
  have H := Cert.PreFinite.allReal_of_fn _ _ _ _ _ _ _ _ _ _ _ _ _ _ _ _ _ _ _ _ _ _ _ _ _ _ _ _ _ _ _ _ _ _ _ _ _ _ _ _ (hpre c)
  obtain ⟨h4, h5, h6, h7, h8, h9, h10, h11, h12, h13, h14, h15, h16, h17, h18, h19, h20, h21, h22, h23, h24, h25, h26, h27, h28, h29, h30, h31, h32, h33, h34, h35, h36, h37, h38, h39⟩ := H
  funext i
  exact Cert.KernelIdeal.KerOut.netK_staged (fun b => m (c, b)) h4 h5 h6 h7 h8 h9 h10 h11 h12 h13 h14 h15 h16 h17 h18 h19 h20 h21 h22 h23 h24 h25 h26 h27 h28 h29 h30 h31 h32 h33 h34 h35 h36 h37 h38 h39 ⟨(i 0).val, idx2_lt0 i⟩

set_option maxHeartbeats 4000000 in
/-- From memories agreeing on the arguments both programs end with `result` in their result arrays: the kernel by
    its blocks, the reference by its run read row by row; the gathered rows are the same on both sides. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => result m c, ?_, ?_⟩
  · exact (θ_run (Cert.KernelIdeal.defs (F := Ideal)) _ _).mono
      (fun r h c => ⟨(h c).1.trans (kernel_result m hpre c), (h c).2⟩)
      (Cert.KernelIdeal.KerFinal.run27 m ρ Cert.KernelIdeal.KerValue.bodyVal_apply)
  · refine (θ_run (Cert.ReferenceIdeal.defs (F := Ideal)) _ _).mono (fun r h c => ⟨(h c).1.trans ?_, (h c).2⟩)
      (Cert.ReferenceIdeal.RefValue.run m' ρ')
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39⟩ := hagree c
    rw [e0, e1, e2, e3, e4, e5, e6, e7, e8, e9, e10, e11, e12, e13, e14, e15, e16, e17, e18, e19, e20, e21, e22, e23, e24, e25, e26, e27, e28, e29, e30, e31, e32, e33, e34, e35, e36, e37, e38, e39]
    funext i
    obtain ⟨r, q, rfl⟩ : ∃ (r : Fin 16384) (q : Fin 1), i = ix2 r q := ⟨i 0, i 1, eq_ix2 i⟩
    obtain rfl : q = 0 := Subsingleton.elim _ _
    rw [Cert.ReferenceIdeal.RefValue.refOut_apply, emb_eq]
    rfl

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
